-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S1024x256 : Shape := ⟨2, ![1024, 256]⟩
abbrev S100000x64 : Shape := ⟨2, ![100000, 64]⟩
abbrev S64x256 : Shape := ⟨2, ![64, 256]⟩
abbrev S256 : Shape := ⟨1, ![256]⟩
abbrev S256x256 : Shape := ⟨2, ![256, 256]⟩
abbrev S256x100000 : Shape := ⟨2, ![256, 100000]⟩
abbrev S100000 : Shape := ⟨1, ![100000]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x100000 : S_.BroadcastsInDim S256x100000 (![] : Fin 0 → Fin S256x100000.rank)
  reducesTo_S256x100000_S_d0_1 : S256x100000.ReducesTo [0, 1] S_
  bcast_S_S100000 : S_.BroadcastsInDim S100000 (![] : Fin 0 → Fin S100000.rank)
  reducesTo_S100000_S_d0 : S100000.ReducesTo [0] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg0 : IVec S1024 32) (main_v63 : IVec S_ 1) (main_v67 : IVec S_ 1) : IVec S_ 1 :=
  let main_v68 : IVec S_ 1 := andi main_v63 main_v67
  let main_c_26 : IVec S_ 32 := constantI S_ 32 0#32
  let main_v69 : IVec S1024 32 := broadcastInDim S1024 ![] bcast_S_S1024 main_c_26
  let main_v70 : IVec S1024 1 := cmpi .sge main_arg0 main_v69
  let main_c_27 : IVec S_ 32 := constantI S_ 32 99999#32
  let main_v71 : IVec S1024 32 := broadcastInDim S1024 ![] bcast_S_S1024 main_c_27
  let main_v72 : IVec S1024 1 := cmpi .sle main_arg0 main_v71
  let main_v73 : IVec S1024 1 := andi main_v70 main_v72
  let main_c_28 : IVec S_ 1 := constantI S_ 1 1#1
  let main_v74 : IVec S_ 1 := (fun x v => Host.reduce IntOp.andi x v reducesTo_S1024_S_d0 h_S_) main_v73 main_c_28
  let main_v75 : IVec S_ 1 := andi main_v68 main_v74
  main_v75

def fn_part3 {F : FTy → Type} [FloatOps F] (main_arg0 : IVec S1024 32) (main_arg12 : FVec F S256 .f32) (main_arg13 : FVec F S256x100000 .f32) (main_arg14 : FVec F S100000 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x100000 .f32 := Host.absf main_arg13
  let main_cst_22 : FVec F S_ .f32 := constant S_ .f32 0x7F800000#32
  let main_v60 : FVec F S256x100000 .f32 := broadcastInDim S256x100000 ![] bcast_S_S256x100000 main_cst_22
  let main_v61 : IVec S256x100000 1 := cmpf .olt main_v59 main_v60
  let main_c_23 : IVec S_ 1 := constantI S_ 1 1#1
  let main_v62 : IVec S_ 1 := (fun x v => Host.reduce IntOp.andi x v reducesTo_S256x100000_S_d0_1 h_S_) main_v61 main_c_23
  let main_v63 : IVec S_ 1 := andi main_v58 main_v62
  let main_v64 : FVec F S100000 .f32 := Host.absf main_arg14
  let main_cst_24 : FVec F S_ .f32 := constant S_ .f32 0x7F800000#32
  let main_v65 : FVec F S100000 .f32 := broadcastInDim S100000 ![] bcast_S_S100000 main_cst_24
  let main_v66 : IVec S100000 1 := cmpf .olt main_v64 main_v65
  let main_c_25 : IVec S_ 1 := constantI S_ 1 1#1
  let main_v67 : IVec S_ 1 := (fun x v => Host.reduce IntOp.andi x v reducesTo_S100000_S_d0 h_S_) main_v66 main_c_25
  fn_part4 (F := F) main_arg0 main_v63 main_v67

def fn_part2 {F : FTy → Type} [FloatOps F] (main_arg0 : IVec S1024 32) (main_arg8 : FVec F S256 .f32) (main_arg9 : FVec F S256x256 .f32) (main_arg10 : FVec F S256x256 .f32) (main_arg11 : FVec F S256x256 .f32) (main_arg12 : FVec F S256 .f32) (main_arg13 : FVec F S256x100000 .f32) (main_arg14 : FVec F S100000 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg0 main_arg12 main_arg13 main_arg14 main_v48 main_v49 main_v50

def fn_part1 {F : FTy → Type} [FloatOps F] (main_arg0 : IVec S1024 32) (main_arg5 : FVec F S64x256 .f32) (main_arg6 : FVec F S256 .f32) (main_arg7 : FVec F S64x256 .f32) (main_arg8 : FVec F S256 .f32) (main_arg9 : FVec F S256x256 .f32) (main_arg10 : FVec F S256x256 .f32) (main_arg11 : FVec F S256x256 .f32) (main_arg12 : FVec F S256 .f32) (main_arg13 : FVec F S256x100000 .f32) (main_arg14 : FVec F S100000 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S1024 32) (main_arg1 : FVec F S1024x256 .f32) (main_arg2 : FVec F S100000x64 .f32) (main_arg3 : FVec F S64x256 .f32) (main_arg4 : FVec F S256 .f32) (main_arg5 : FVec F S64x256 .f32) (main_arg6 : FVec F S256 .f32) (main_arg7 : FVec F S64x256 .f32) (main_arg8 : FVec F S256 .f32) (main_arg9 : FVec F S256x256 .f32) (main_arg10 : FVec F S256x256 .f32) (main_arg11 : FVec F S256x256 .f32) (main_arg12 : FVec F S256 .f32) (main_arg13 : FVec F S256x100000 .f32) (main_arg14 : FVec F S100000 .f32) : IVec S_ 1 :=
  let main_v0 : FVec F S1024x256 .f32 := Host.absf main_arg1
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S1024 : Shape := ⟨1, ![1024]⟩
abbrev S1024x256 : Shape := ⟨2, ![1024, 256]⟩
abbrev S100000x64 : Shape := ⟨2, ![100000, 64]⟩
abbrev S64x256 : Shape := ⟨2, ![64, 256]⟩
abbrev S256 : Shape := ⟨1, ![256]⟩
abbrev S256x256 : Shape := ⟨2, ![256, 256]⟩
abbrev S256x100000 : Shape := ⟨2, ![256, 100000]⟩
abbrev S100000 : Shape := ⟨1, ![100000]⟩
abbrev S64x100000 : Shape := ⟨2, ![64, 100000]⟩
abbrev S50176x128 : Shape := ⟨2, ![50176, 128]⟩
abbrev S64x12544 : Shape := ⟨2, ![64, 12544]⟩
abbrev S12544x128 : Shape := ⟨2, ![12544, 128]⟩
abbrev S128x12544 : Shape := ⟨2, ![128, 12544]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S16 : Shape := ⟨1, ![16]⟩
abbrev S1024x1 : Shape := ⟨2, ![1024, 1]⟩
abbrev S100000x256 : Shape := ⟨2, ![100000, 256]⟩
abbrev S1x256 : Shape := ⟨2, ![1, 256]⟩
abbrev S1x100000 : Shape := ⟨2, ![1, 100000]⟩
abbrev S100000x1024 : Shape := ⟨2, ![100000, 1024]⟩
abbrev S4096x256 : Shape := ⟨2, ![4096, 256]⟩
abbrev S1x4096 : Shape := ⟨2, ![1, 4096]⟩
abbrev S4096x1024 : Shape := ⟨2, ![4096, 1024]⟩
abbrev S256x1024 : Shape := ⟨2, ![256, 1024]⟩
abbrev S1024x64 : Shape := ⟨2, ![1024, 64]⟩
abbrev S4096x1 : Shape := ⟨2, ![4096, 1]⟩
abbrev S1024x100000 : Shape := ⟨2, ![1024, 100000]⟩

abbrev nBuf : Table → Nat
  | .hbm => 32
  | .local .tc .vmem => 27
  | .local .scVector .vmem => 2
  | _ => 0

abbrev bufTy : (tb : Table) → Fin (nBuf tb) → BufTy
  | .hbm, ⟨0, _⟩ => ⟨S1024, .i32⟩
  | .hbm, ⟨1, _⟩ => ⟨S1024x256, .f32⟩
  | .hbm, ⟨2, _⟩ => ⟨S100000x64, .f32⟩
  | .hbm, ⟨3, _⟩ => ⟨S64x256, .f32⟩
  | .hbm, ⟨4, _⟩ => ⟨S256, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x100000, .f32⟩
  | .hbm, ⟨14, _⟩ => ⟨S100000, .f32⟩
  | .hbm, ⟨15, _⟩ => ⟨S64x100000, .f32⟩
  | .hbm, ⟨16, _⟩ => ⟨S50176x128, .f32⟩
  | .hbm, ⟨17, _⟩ => ⟨S1024x128, .f32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .f32⟩
  | .hbm, ⟨22, _⟩ => ⟨S1024x1, .f32⟩
  | .hbm, ⟨23, _⟩ => ⟨S100000x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x100000, .f32⟩
  | .hbm, ⟨29, _⟩ => ⟨S100000x1024, .f32⟩
  | .hbm, ⟨30, _⟩ => ⟨S1024x256, .f32⟩
  | .hbm, ⟨31, _⟩ => ⟨S1024x100000, .f32⟩
  | .local .tc .vmem, ⟨0, _⟩ => ⟨S64x12544, .f32⟩
  | .local .tc .vmem, ⟨1, _⟩ => ⟨S64x12544, .f32⟩
  | .local .tc .vmem, ⟨2, _⟩ => ⟨S64x12544, .f32⟩
  | .local .tc .vmem, ⟨3, _⟩ => ⟨S64x12544, .f32⟩
  | .local .tc .vmem, ⟨4, _⟩ => ⟨S12544x128, .f32⟩
  | .local .tc .vmem, ⟨5, _⟩ => ⟨S12544x128, .f32⟩
  | .local .tc .vmem, ⟨6, _⟩ => ⟨S1024x128, .f32⟩
  | .local .tc .vmem, ⟨7, _⟩ => ⟨S1024x1, .f32⟩
  | .local .tc .vmem, ⟨8, _⟩ => ⟨S1024x256, .f32⟩
  | .local .tc .vmem, ⟨9, _⟩ => ⟨S64x256, .f32⟩
  | .local .tc .vmem, ⟨10, _⟩ => ⟨S1x256, .f32⟩
  | .local .tc .vmem, ⟨11, _⟩ => ⟨S64x256, .f32⟩
  | .local .tc .vmem, ⟨12, _⟩ => ⟨S1x256, .f32⟩
  | .local .tc .vmem, ⟨13, _⟩ => ⟨S64x256, .f32⟩
  | .local .tc .vmem, ⟨14, _⟩ => ⟨S1x256, .f32⟩
  | .local .tc .vmem, ⟨15, _⟩ => ⟨S256x256, .f32⟩
  | .local .tc .vmem, ⟨16, _⟩ => ⟨S256x256, .f32⟩
  | .local .tc .vmem, ⟨17, _⟩ => ⟨S256x256, .f32⟩
  | .local .tc .vmem, ⟨18, _⟩ => ⟨S1x256, .f32⟩
  | .local .tc .vmem, ⟨19, _⟩ => ⟨S4096x256, .f32⟩
  | .local .tc .vmem, ⟨20, _⟩ => ⟨S4096x256, .f32⟩
  | .local .tc .vmem, ⟨21, _⟩ => ⟨S1x4096, .f32⟩
  | .local .tc .vmem, ⟨22, _⟩ => ⟨S1x4096, .f32⟩
  | .local .tc .vmem, ⟨23, _⟩ => ⟨S4096x1024, .f32⟩
  | .local .tc .vmem, ⟨24, _⟩ => ⟨S4096x1024, .f32⟩
  | .local .tc .vmem, ⟨25, _⟩ => ⟨S1024x256, .f32⟩
  | .local .tc .vmem, ⟨26, _⟩ => ⟨S256x1024, .f32⟩
  | .local .scVector .vmem, ⟨0, _⟩ => ⟨S32, .i32⟩
  | .local .scVector .vmem, ⟨1, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev main_v1_scv : Ref sig .scVector := ⟨.hbm, 16, rfl⟩
abbrev main_arg0_scv : Ref sig .scVector := ⟨.hbm, 0, rfl⟩
abbrev main_v2_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg7_0 : Ref sig .tc := ⟨.vmem, 13, rfl⟩
abbrev cc2_stg8_0 : Ref sig .tc := ⟨.vmem, 14, rfl⟩
abbrev cc2_stg9_0 : Ref sig .tc := ⟨.vmem, 15, rfl⟩
abbrev cc2_stg10_0 : Ref sig .tc := ⟨.vmem, 16, rfl⟩
abbrev cc2_stg11_0 : Ref sig .tc := ⟨.vmem, 17, rfl⟩
abbrev cc2_stg12_0 : Ref sig .tc := ⟨.vmem, 18, rfl⟩
abbrev cc2_stg13_0 : Ref sig .tc := ⟨.vmem, 19, rfl⟩
abbrev cc2_stg13_1 : Ref sig .tc := ⟨.vmem, 20, rfl⟩
abbrev cc2_stg14_0 : Ref sig .tc := ⟨.vmem, 21, rfl⟩
abbrev cc2_stg14_1 : Ref sig .tc := ⟨.vmem, 22, rfl⟩
abbrev cc2_stg15_0 : Ref sig .tc := ⟨.vmem, 23, rfl⟩
abbrev cc2_stg15_1 : Ref sig .tc := ⟨.vmem, 24, rfl⟩
abbrev cc2_stg16_0 : Ref sig .tc := ⟨.vmem, 25, rfl⟩
abbrev cc2_scratch0 : Ref sig .tc := ⟨.vmem, 26, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem8_0 : DmaSem sig := 17
abbrev cc2_sem9_0 : DmaSem sig := 18
abbrev cc2_sem10_0 : DmaSem sig := 19
abbrev cc2_sem11_0 : DmaSem sig := 20
abbrev cc2_sem12_0 : DmaSem sig := 21
abbrev cc2_sem13_0 : DmaSem sig := 22
abbrev cc2_sem13_1 : DmaSem sig := 23
abbrev cc2_sem14_0 : DmaSem sig := 24
abbrev cc2_sem14_1 : DmaSem sig := 25
abbrev cc2_sem15_0 : DmaSem sig := 26
abbrev cc2_sem15_1 : DmaSem sig := 27
abbrev cc2_sem16_0 : DmaSem sig := 28
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8_r1 : BitVec 32 := 0#32
  ![v2.toNat, 0]
abbrev grid2 : Pipeline.Grid := ⟨1, ![25], ![false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S4096x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x4096 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S4096x1024 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 1 → Memref sig .tc .vmem S1024x256 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S100000x64_S64x100000_1_0 : S100000x64.Transposes [1, 0] S64x100000
  inb_S64x12544_S64x12544_0_0 : ∀ a, (![0, 0] : Fin 2 → Nat) a + S64x12544.size a ≤ S64x12544.size a
  h_S64x12544 : 0 < S64x12544.numel
  shapeCasts_S64x12544_S64x12544 : S64x12544.ShapeCasts S64x12544
  concatenates_S64x12544_S64x12544_S128x12544_d0 : Shape.Concatenates [S64x12544, S64x12544] S128x12544 0
  transposes_S128x12544_p1_0_S12544x128 : S128x12544.Transposes [1, 0] S12544x128
  inb_S12544x128_S12544x128_0_0 : ∀ a, (![0, 0] : Fin 2 → Nat) a + S12544x128.size a ≤ S12544x128.size a
  h_S12544x128 : 0 < S12544x128.numel
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  inb_S50176x128_S50176x128_0_0 : ∀ a, (![0, 0] : Fin 2 → Nat) a + S50176x128.size a ≤ S50176x128.size a
  gathers_S50176x128_S32x128 : S50176x128.Gathers 0 S32x128
  bcast_S_S1024 : S_.BroadcastsInDim S1024 (![] : Fin 0 → Fin S1024.rank)
  shapeCasts_S1024_S1024x1 : S1024.ShapeCasts S1024x1
  transposes_S256x100000_S100000x256_1_0 : S256x100000.Transposes [1, 0] S100000x256
  shapeCasts_S256_S1x256 : S256.ShapeCasts S1x256
  shapeCasts_S100000_S1x100000 : S100000.ShapeCasts S1x100000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x64_0_0 : ∀ a, (![0, 0] : Fin 2 → Nat) a + S1024x64.size a ≤ S1024x128.size a
  h_S1024x64 : 0 < S1024x64.numel
  shapeCasts_S1024x64_S1024x64 : S1024x64.ShapeCasts S1024x64
  inb_S1024x128_S1024x64_0_64 : ∀ a, (![0, 64] : Fin 2 → Nat) a + S1024x64.size a ≤ S1024x128.size a
  broadcasts_S1024x1_S1024x64 : S1024x1.Broadcasts S1024x64
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  transposes_S1024x256_p1_0_S256x1024 : S1024x256.Transposes [1, 0] S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  transposes_S1x4096_p1_0_S4096x1 : S1x4096.Transposes [1, 0] S4096x1
  broadcasts_S4096x1_S4096x1024 : S4096x1.Broadcasts S4096x1024
  inb_S4096x1024_S4096x1024_0_0 : ∀ a, (![0, 0] : Fin 2 → Nat) a + S4096x1024.size a ≤ S4096x1024.size a
  h_S4096x1024 : 0 < S4096x1024.numel
  transposes_S100000x1024_S1024x100000_1_0 : S100000x1024.Transposes [1, 0] S1024x100000
  dot_S1024x256_S256x256_S1024x256_1_0_0_1_n_n_wf : DotDims.WF S1024x256 S256x256 S1024x256 [1] [0] [0] [1] [] []
  dot_S1024x64_S64x256_S1024x256_1_0_0_1_n_n_wf : DotDims.WF S1024x64 S64x256 S1024x256 [1] [0] [0] [1] [] []
  dot_S4096x256_S256x1024_S4096x1024_1_0_0_1_n_n_wf : DotDims.WF S4096x256 S256x1024 S4096x1024 [1] [0] [0] [1] [] []
  hcc1_scratch2 : 6 + S_.numel ≤ 29
  hcc1_scoped0 : 7 + S_.numel ≤ 29
  hcc1_scoped1 : 8 + S_.numel ≤ 29
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x12544.size a < S64x100000.size a
  hwx0_0 : ∀ i : grid0.Coords, EltTy.bits .f32 = 32 ∨ (Rect.unit (s := S64x100000) (fun a => cc0_transform_0 i a * S64x12544.size a) (fun a => (Pipeline.Clip.of (cc0_transform_0 i a) (S64x12544.size a) (S64x100000.size a)).extent (S64x12544.size a)) fun a => Pipeline.Clip.inb (Pipeline.Clip.ok_of (hstart0_0 i a))).WholeWords (EltTy.packing .f32)
  hwxs0_0 : ∀ i : grid0.Coords, EltTy.bits .f32 = 32 ∨ (Rect.unit (s := S64x12544) (fun _ => 0) (fun a => (Pipeline.Clip.of (cc0_transform_0 i a) (S64x12544.size a) (S64x100000.size a)).extent (S64x12544.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x12544.size a < S64x100000.size a
  hwx0_1 : ∀ i : grid0.Coords, EltTy.bits .f32 = 32 ∨ (Rect.unit (s := S64x100000) (fun a => cc0_transform_1 i a * S64x12544.size a) (fun a => (Pipeline.Clip.of (cc0_transform_1 i a) (S64x12544.size a) (S64x100000.size a)).extent (S64x12544.size a)) fun a => Pipeline.Clip.inb (Pipeline.Clip.ok_of (hstart0_1 i a))).WholeWords (EltTy.packing .f32)
  hwxs0_1 : ∀ i : grid0.Coords, EltTy.bits .f32 = 32 ∨ (Rect.unit (s := S64x12544) (fun _ => 0) (fun a => (Pipeline.Clip.of (cc0_transform_1 i a) (S64x12544.size a) (S64x100000.size a)).extent (S64x12544.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12544x128.size a ≤ S50176x128.size a
  hwx0_2 : ∀ i : grid0.Coords, EltTy.bits .f32 = 32 ∨ (Rect.block (s := S50176x128) S12544x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S32.size a ≤ S1024.size a
  k1_off2_inb : ∀ i : grid1.Coords, ∀ a, (k1_off2 i) a + S32x128.size a ≤ S1024x128.size a
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S1024x1.size a
  hwx2_1 : ∀ i : grid2.Coords, EltTy.bits .f32 = 32 ∨ (Rect.block (s := S1024x1) S1024x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S1024x256.size a
  hwx2_2 : ∀ i : grid2.Coords, EltTy.bits .f32 = 32 ∨ (Rect.block (s := S1024x256) S1024x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x256.size a ≤ S64x256.size a
  hwx2_5 : ∀ i : grid2.Coords, EltTy.bits .f32 = 32 ∨ (Rect.block (s := S64x256) S64x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x256.size a ≤ S64x256.size a
  hwx2_7 : ∀ i : grid2.Coords, EltTy.bits .f32 = 32 ∨ (Rect.block (s := S64x256) S64x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x256.size a ≤ S256x256.size a
  hwx2_9 : ∀ i : grid2.Coords, EltTy.bits .f32 = 32 ∨ (Rect.block (s := S256x256) S256x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x256.size a ≤ S256x256.size a
  hwx2_10 : ∀ i : grid2.Coords, EltTy.bits .f32 = 32 ∨ (Rect.block (s := S256x256) S256x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256x256.size a ≤ S256x256.size a
  hwx2_11 : ∀ i : grid2.Coords, EltTy.bits .f32 = 32 ∨ (Rect.block (s := S256x256) S256x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x256.size a ≤ S1x256.size a
  hwx2_12 : ∀ i : grid2.Coords, EltTy.bits .f32 = 32 ∨ (Rect.block (s := S1x256) S1x256.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hstart2_13 : ∀ (i : grid2.Coords) a, cc2_transform_13 i a * S4096x256.size a < S100000x256.size a
  hwx2_13 : ∀ i : grid2.Coords, EltTy.bits .f32 = 32 ∨ (Rect.unit (s := S100000x256) (fun a => cc2_transform_13 i a * S4096x256.size a) (fun a => (Pipeline.Clip.of (cc2_transform_13 i a) (S4096x256.size a) (S100000x256.size a)).extent (S4096x256.size a)) fun a => Pipeline.Clip.inb (Pipeline.Clip.ok_of (hstart2_13 i a))).WholeWords (EltTy.packing .f32)
  hwxs2_13 : ∀ i : grid2.Coords, EltTy.bits .f32 = 32 ∨ (Rect.unit (s := S4096x256) (fun _ => 0) (fun a => (Pipeline.Clip.of (cc2_transform_13 i a) (S4096x256.size a) (S100000x256.size a)).extent (S4096x256.size a)) fun a => (Nat.zero_add _).trans_le (Pipeline.Clip.extent_le (Pipeline.Clip.ok_of (hstart2_13 i a)))).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hstart2_14 : ∀ (i : grid2.Coords) a, cc2_transform_14 i a * S1x4096.size a < S1x100000.size a
  hwx2_14 : ∀ i : grid2.Coords, EltTy.bits .f32 = 32 ∨ (Rect.unit (s := S1x100000) (fun a => cc2_transform_14 i a * S1x4096.size a) (fun a => (Pipeline.Clip.of (cc2_transform_14 i a) (S1x4096.size a) (S1x100000.size a)).extent (S1x4096.size a)) fun a => Pipeline.Clip.inb (Pipeline.Clip.ok_of (hstart2_14 i a))).WholeWords (EltTy.packing .f32)
  hwxs2_14 : ∀ i : grid2.Coords, EltTy.bits .f32 = 32 ∨ (Rect.unit (s := S1x4096) (fun _ => 0) (fun a => (Pipeline.Clip.of (cc2_transform_14 i a) (S1x4096.size a) (S1x100000.size a)).extent (S1x4096.size a)) fun a => (Nat.zero_add _).trans_le (Pipeline.Clip.extent_le (Pipeline.Clip.ok_of (hstart2_14 i a)))).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hstart2_15 : ∀ (i : grid2.Coords) a, cc2_transform_15 i a * S4096x1024.size a < S100000x1024.size a
  hwx2_15 : ∀ i : grid2.Coords, EltTy.bits .f32 = 32 ∨ (Rect.unit (s := S100000x1024) (fun a => cc2_transform_15 i a * S4096x1024.size a) (fun a => (Pipeline.Clip.of (cc2_transform_15 i a) (S4096x1024.size a) (S100000x1024.size a)).extent (S4096x1024.size a)) fun a => Pipeline.Clip.inb (Pipeline.Clip.ok_of (hstart2_15 i a))).WholeWords (EltTy.packing .f32)
  hwxs2_15 : ∀ i : grid2.Coords, EltTy.bits .f32 = 32 ∨ (Rect.unit (s := S4096x1024) (fun _ => 0) (fun a => (Pipeline.Clip.of (cc2_transform_15 i a) (S4096x1024.size a) (S100000x1024.size a)).extent (S4096x1024.size a)) fun a => (Nat.zero_add _).trans_le (Pipeline.Clip.extent_le (Pipeline.Clip.ok_of (hstart2_15 i a)))).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1024x256.size a ≤ S1024x256.size a
  hwx2_16 : ∀ i : grid2.Coords, EltTy.bits .f32 = 32 ∨ (Rect.block (s := S1024x256) S1024x256.size (cc2_transform_16 i) (hinb2_16 i)).WholeWords (EltTy.packing .f32)

variable [Facts₀]

abbrev cc1_scratch2 : DmaSems sig S_ := SemArray.consecutive 6 S_ hcc1_scratch2
abbrev cc1_scoped0 : DmaSems sig S_ := SemArray.consecutive 7 S_ hcc1_scoped0
abbrev cc1_scoped1 : DmaSems sig S_ := SemArray.consecutive 8 S_ hcc1_scoped1
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf

abbrev win0_0 : Pipeline.Window sig grid0 :=
  Pipeline.Window.ofSpecClip (Memref.whole main_v0) S64x12544.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S64x12544.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S12544x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v2) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1024x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S64x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S64x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v10) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg9) S256x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg10) S256x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg11) S256x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v11) S1x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpecClip (Memref.whole main_v7) S4096x256.size cc2_transform_13 reads2_13 false false 2 stage2_13 sem2_13
    hrank2 hreads2_13 hstart2_13 nbuf2_13 (Memref.isWhole_whole _) hwx2_13 hwxs2_13 hstage2_13

abbrev win2_14 : Pipeline.Window sig grid2 :=
  Pipeline.Window.ofSpecClip (Memref.whole main_v12) S1x4096.size cc2_transform_14 reads2_14 false false 2 stage2_14 sem2_14
    hrank2 hreads2_14 hstart2_14 nbuf2_14 (Memref.isWhole_whole _) hwx2_14 hwxs2_14 hstage2_14

abbrev win2_15 : Pipeline.Window sig grid2 :=
  Pipeline.Window.ofSpecClip (Memref.whole main_v13_0) S4096x1024.size cc2_transform_15 reads2_15 true false 2 stage2_15 sem2_15
    hrank2 hreads2_15 hstart2_15 nbuf2_15 (Memref.isWhole_whole _) hwx2_15 hwxs2_15 hstage2_15

abbrev win2_16 : Pipeline.Window sig grid2 :=
  Pipeline.Window.ofSpec (Memref.whole main_v13_1) S1024x256.size cc2_transform_16 reads2_16 true true 1 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev idle2 : Fin 17 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k2_cond1 i == 1#1) | ⟨_ + 17, h⟩ => absurd h (Nat.not_lt.2 (Nat.le_add_left _ _))

class Facts : Prop extends Facts₀ where

variable [Facts]
-- ==== ReferenceIdeal.lean ====
abbrev S1024 : Shape := ⟨1, ![1024]⟩
abbrev S1024x256 : Shape := ⟨2, ![1024, 256]⟩
abbrev S100000x64 : Shape := ⟨2, ![100000, 64]⟩
abbrev S64x256 : Shape := ⟨2, ![64, 256]⟩
abbrev S256 : Shape := ⟨1, ![256]⟩
abbrev S256x256 : Shape := ⟨2, ![256, 256]⟩
abbrev S256x100000 : Shape := ⟨2, ![256, 100000]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S1x256 : Shape := ⟨2, ![1, 256]⟩
abbrev S1024x100000 : Shape := ⟨2, ![1024, 100000]⟩
abbrev S1x100000 : Shape := ⟨2, ![1, 100000]⟩

abbrev nBuf : Space → Nat
  | .hbm => 87
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024x256, .f32⟩
  | .hbm, ⟨2, _⟩ => ⟨S100000x64, .f32⟩
  | .hbm, ⟨3, _⟩ => ⟨S64x256, .f32⟩
  | .hbm, ⟨4, _⟩ => ⟨S256, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x100000, .f32⟩
  | .hbm, ⟨14, _⟩ => ⟨S100000, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1, .i32⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1x1, .i32⟩
  | .hbm, ⟨28, _⟩ => ⟨S1024x1, .i32⟩
  | .hbm, ⟨29, _⟩ => ⟨S1024x1, .i1⟩
  | .hbm, ⟨30, _⟩ => ⟨S1024x1, .i1⟩
  | .hbm, ⟨31, _⟩ => ⟨S_, .i1⟩
  | .hbm, ⟨32, _⟩ => ⟨S1024, .i1⟩
  | .hbm, ⟨33, _⟩ => ⟨S1024x64, .f32⟩
  | .hbm, ⟨34, _⟩ => ⟨S1024x64, .i1⟩
  | .hbm, ⟨35, _⟩ => ⟨S_, .f32⟩
  | .hbm, ⟨36, _⟩ => ⟨S1024x64, .f32⟩
  | .hbm, ⟨37, _⟩ => ⟨S1024x64, .f32⟩
  | .hbm, ⟨38, _⟩ => ⟨S1024x256, .f32⟩
  | .hbm, ⟨39, _⟩ => ⟨S1x256, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S_, .f32⟩
  | .hbm, ⟨50, _⟩ => ⟨S1024x256, .f32⟩
  | .hbm, ⟨51, _⟩ => ⟨S1024x256, .f32⟩
  | .hbm, ⟨52, _⟩ => ⟨S1024x256, .f32⟩
  | .hbm, ⟨53, _⟩ => ⟨S1x256, .f32⟩
  | .hbm, ⟨54, _⟩ => ⟨S1024x256, .f32⟩
  | .hbm, ⟨55, _⟩ => ⟨S1024x256, .f32⟩
  | .hbm, ⟨56, _⟩ => ⟨S1024x256, .f32⟩
  | .hbm, ⟨57, _⟩ => ⟨S1024x256, .f32⟩
  | .hbm, ⟨58, _⟩ => ⟨S1024x256, .f32⟩
  | .hbm, ⟨59, _⟩ => ⟨S1024x256, .f32⟩
  | .hbm, ⟨60, _⟩ => ⟨S_, .f32⟩
  | .hbm, ⟨61, _⟩ => ⟨S1024x256, .f32⟩
  | .hbm, ⟨62, _⟩ => ⟨S1024x256, .f32⟩
  | .hbm, ⟨63, _⟩ => ⟨S_, .f32⟩
  | .hbm, ⟨64, _⟩ => ⟨S1024x256, .f32⟩
  | .hbm, ⟨65, _⟩ => ⟨S1024x256, .f32⟩
  | .hbm, ⟨66, _⟩ => ⟨S1024x256, .f32⟩
  | .hbm, ⟨67, _⟩ => ⟨S1x256, .f32⟩
  | .hbm, ⟨68, _⟩ => ⟨S1024x256, .f32⟩
  | .hbm, ⟨69, _⟩ => ⟨S1024x256, .f32⟩
  | .hbm, ⟨70, _⟩ => ⟨S1024x256, .f32⟩
  | .hbm, ⟨71, _⟩ => ⟨S1x256, .f32⟩
  | .hbm, ⟨72, _⟩ => ⟨S1024x256, .f32⟩
  | .hbm, ⟨73, _⟩ => ⟨S1024x256, .f32⟩
  | .hbm, ⟨74, _⟩ => ⟨S1024x256, .f32⟩
  | .hbm, ⟨75, _⟩ => ⟨S1024x256, .f32⟩
  | .hbm, ⟨76, _⟩ => ⟨S1024x256, .f32⟩
  | .hbm, ⟨77, _⟩ => ⟨S_, .f32⟩
  | .hbm, ⟨78, _⟩ => ⟨S1024x256, .f32⟩
  | .hbm, ⟨79, _⟩ => ⟨S1024x256, .f32⟩
  | .hbm, ⟨80, _⟩ => ⟨S1024x256, .f32⟩
  | .hbm, ⟨81, _⟩ => ⟨S1024x256, .f32⟩
  | .hbm, ⟨82, _⟩ => ⟨S1024x256, .f32⟩
  | .hbm, ⟨83, _⟩ => ⟨S1024x100000, .f32⟩
  | .hbm, ⟨84, _⟩ => ⟨S1x100000, .f32⟩
  | .hbm, ⟨85, _⟩ => ⟨S1024x100000, .f32⟩
  | .hbm, ⟨86, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst : Ref sig .tc := ⟨.hbm, 46, rfl⟩
abbrev main_v9 : Ref sig .tc := ⟨.hbm, 47, rfl⟩
abbrev main_v10 : Ref sig .tc := ⟨.hbm, 48, rfl⟩
abbrev main_cst_0 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_1 : Ref sig .tc := ⟨.hbm, 60, rfl⟩
abbrev main_v21 : Ref sig .tc := ⟨.hbm, 61, rfl⟩
abbrev main_v22 : Ref sig .tc := ⟨.hbm, 62, rfl⟩
abbrev main_cst_2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_3 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x64_0 : S1024.BroadcastsInDim S1024x64 (![0] : Fin 1 → Fin S1024x64.rank)
  bcast_S_S1024x64 : S_.BroadcastsInDim S1024x64 (![] : Fin 0 → Fin S1024x64.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x64_S1024x1_S1024x64_1_0_n_n_0_1_164_wf : GatherDims.WF S100000x64 S1024x1 S1024x64 [1] [0] [] [0] [] 1 ![1, 64]
  dot_S1024x64_S64x256_S1024x256_1_0_0_1_n_n_wf : DotDims.WF S1024x64 S64x256 S1024x256 [1] [0] [0] [1] [] []
  dot_S1024x256_S256x256_S1024x256_1_0_0_1_n_n_wf : DotDims.WF S1024x256 S256x256 S1024x256 [1] [0] [0] [1] [] []
  dot_S1024x256_S256x100000_S1024x100000_1_0_0_1_n_n_wf : DotDims.WF S1024x256 S256x100000 S1024x100000 [1] [0] [0] [1] [] []

variable [Facts₀]

def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x100000_S1024x100000_1_0_0_1_n_n : DotDims S1024x256 S256x100000 S1024x100000 where
  lhsContracting := [1]
  rhsContracting := [0]
  lhsNonContracting := [0]
  rhsNonContracting := [1]
  lhsBatch := []
  rhsBatch := []
  wf := dot_S1024x256_S256x100000_S1024x100000_1_0_0_1_n_n_wf

class Facts : Prop extends Facts₀ where

variable [Facts]
-- ==== Proof.IdxRange.lean ====
/-
  The precondition's last conjunct read back: every token id lies in [0, 100000).

  The precondition is a chain of `and`s, one operand per argument array; its last operand is
  all((x ≥ 0) ∧ (x ≤ 99999)) over the 1024 ids, both comparisons signed, reduced by `and` from
  `true` over the one axis. When the whole predicate is 1 so is this last operand; a reduction
  by `and` that came out 1 met a 1 at every index; and a 32-bit word v with 0 ≤ v ≤ 99999 read
  signed has top bit clear, so it reads the same unsigned: v.toNat < 100000. Nothing about the
  float arrays is used, so the statement holds at every float instance.
-/
import proofs.«217423_g17910013624755_cont_8to1_1683_16_alg».proof.Pre_input_domain
import Idealize.ShloMosaic.Lib.ReduceAll
import Idealize.ShloMosaic.Lib.ValueIdx

noncomputable section

namespace Cert.IdxRange

open Idealize.ShloMosaic Idealize.ShloMosaic.ValueIdx Cert.Pre_input_domain

/-- The scalar shape has one index. -/
instance : Subsingleton S_.Idx := ⟨fun _ _ => funext fun d => d.elim0⟩

/-- A 32-bit word between 0 and 99999 as a signed integer is below 100000 as a natural number. -/
theorem toNat_lt_of_signed (v : BitVec 32) (h0 : (0#32 : BitVec 32).toInt ≤ v.toInt)
    (h1 : v.toInt ≤ (99999#32 : BitVec 32).toInt) : v.toNat < 100000 := by
  have e0 : (0#32 : BitVec 32).toInt = 0 := by decide
  have e1 : (99999#32 : BitVec 32).toInt = 99999 := by decide
  rw [e0] at h0; rw [e1] at h1
  have hlt : 2 * v.toNat < 2 ^ 32 := BitVec.toInt_pos_iff.mp h0
  rw [BitVec.toInt_eq_toNat_of_lt hlt] at h1
  omega

/-- The tail of the predicate: when it is 1 at the one index, every id is in range. -/
theorem of_part4 {F : FTy → Type} [FloatOps F] [Facts] (a0 : IVec S1024 32) (v63 v67 : IVec S_ 1)
    (h : fn_part4 (F := F) a0 v63 v67 ix0 = 1#1) (b : Fin 1024) : (a0 (ix1 b)).toNat < 100000 := by
  unfold fn_part4 at h
  dsimp only at h
  have hall := (IntOp.andi_eq_one.mp h).2
  have hb := Host.reduce_andi_all _ _ _ _ ix0 hall (ix1 b)
  obtain ⟨hge, hle⟩ := IntOp.andi_eq_one.mp hb
  exact toNat_lt_of_signed _ (IntOp.cmpi_sge.mp hge) (IntOp.cmpi_sle.mp hle)

/-- The precondition holding of the fifteen argument arrays puts every token id in [0, 100000). -/
theorem of_pre {F : FTy → Type} [FloatOps F] [Facts] (a0 : IVec S1024 32) (a1 : FVec F S1024x256 .f32)
    (a2 : FVec F S100000x64 .f32) (a3 : FVec F S64x256 .f32) (a4 : FVec F S256 .f32) (a5 : FVec F S64x256 .f32)
    (a6 : FVec F S256 .f32) (a7 : FVec F S64x256 .f32) (a8 : FVec F S256 .f32) (a9 : FVec F S256x256 .f32)
    (a10 : FVec F S256x256 .f32) (a11 : FVec F S256x256 .f32) (a12 : FVec F S256 .f32)
    (a13 : FVec F S256x100000 .f32) (a14 : FVec F S100000 .f32)
    (h : fn (F := F) a0 a1 a2 a3 a4 a5 a6 a7 a8 a9 a10 a11 a12 a13 a14 = fun _ => 1#1) :
    ∀ b : Fin 1024, (a0 (ix1 b)).toNat < 100000 := by
  intro b
  have e := congrFun h ix0
  exact of_part4 (F := F) a0 _ _ e b

end Cert.IdxRange

end
-- ==== Proof.RefRun.lean ====
/-
  The reference's run.

  The reference is a straight line of tensor operations: first the row lookup table[x, :] (the
  23 operations of the two functions it calls, written out at the call site), then the
  49 operations of one GRU step and the output projection. Run from any memory, every weakly
  fair execution terminates and leaves each buffer at the operations' composed value of the
  fifteen argument arrays; no operation writes an argument, so the arguments are unchanged.

  The composed values are named here as functions of the argument arrays:
    wrapIdx x      the ids with 100000 added where negative, as a 1024 × 1 column;
    inBounds x     the mask "0 ≤ wrapped id ≤ 99999", per row;
    takeTerm T x   the rows gathered at the (clamped) wrapped ids where in bounds, a fill value elsewhere;
    gateTerm       1 / (1 + exp (−(e·Wi + bi + h·Wh)))  — the reset and update gates;
    candTerm       tanh (e·W_in + b_in + r ⊙ (h·W_hn + b_hn));
    newHTerm       (1 − z) ⊙ n + z ⊙ h;
    logitsTerm     h'·W_out + b_out.
  They are stated for every float instance; what they are as extended reals is another module's matter.
-/
import proofs.«217423_g17910013624755_cont_8to1_1683_16_alg».proof.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-! ## The composed values -/

/-- The ids with the wrap-around of negative ids applied (x + 100000 where x < 0, else x), as a column. -/
def wrapIdx (x : IVec S1024 32) : IVec S1024x1 32 :=
  broadcastInDim S1024x1 ![0] bcast_S1024_S1024x1_0
    (select (cmpi .slt x (broadcastInDim S1024 ![] bcast_S_S1024 (constantI S_ 32 0#32)))
      (addi x (broadcastInDim S1024 ![] bcast_S_S1024 (constantI S_ 32 100000#32))) x)

/-- Per row: is the wrapped id between 0 and 99999 (signed)? -/
def inBounds (x : IVec S1024 32) : IVec S1024 1 :=
  Host.reduce IntOp.andi
    (andi (cmpi .sge (wrapIdx x) (broadcastInDim S1024x1 ![] bcast_S_S1024x1 (constantI S_ 32 0#32)))
      (cmpi .sle (wrapIdx x) (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The row lookup: the table's rows gathered at the wrapped ids where in bounds, the fill value elsewhere. -/
def takeTerm (table : FVec F S100000x64 .f32) (x : IVec S1024 32) : FVec F S1024x64 .f32 :=
  select (broadcastInDim S1024x64 ![0] bcast_S1024_S1024x64_0 (inBounds x))
    (Host.gather gather_S100000x64_S1024x1_S1024x64_1_0_n_n_0_1_164 table (wrapIdx x))
    (broadcastInDim S1024x64 ![] bcast_S_S1024x64 (constant S_ .f32 0x7FC00000#32))

/-- A bias row repeated down the 1024 rows. -/
def rowBias (b : FVec F S256 .f32) : FVec F S1024x256 .f32 :=
  broadcastInDim S1024x256 ![0, 1] bcast_S1x256_S1024x256_0_1 (broadcastInDim S1x256 ![1] bcast_S256_S1x256_1 b)

/-- The constant 1 everywhere. -/
def ones : FVec F S1024x256 .f32 :=
  broadcastInDim S1024x256 ![] bcast_S_S1024x256 (constant S_ .f32 0x3F800000#32)

/-- e·W for a 64 × 256 input weight. -/
def inDot (e : FVec F S1024x64 .f32) (W : FVec F S64x256 .f32) : FVec F S1024x256 .f32 :=
  Host.dotGeneral dot_S1024x64_S64x256_S1024x256_1_0_0_1_n_n none e W

/-- h·W for a 256 × 256 state weight. -/
def stDot (h : FVec F S1024x256 .f32) (W : FVec F S256x256 .f32) : FVec F S1024x256 .f32 :=
  Host.dotGeneral dot_S1024x256_S256x256_S1024x256_1_0_0_1_n_n none h W

/-- A gate: 1 / (1 + exp (−(e·Wi + bi + h·Wh))). -/
def gateTerm (e : FVec F S1024x64 .f32) (h : FVec F S1024x256 .f32) (Wi : FVec F S64x256 .f32) (bi : FVec F S256 .f32)
    (Wh : FVec F S256x256 .f32) : FVec F S1024x256 .f32 :=
  Host.divf ones (addf ones (Host.exp (Host.negf (addf (addf (inDot e Wi) (rowBias bi)) (stDot h Wh)))))

/-- The candidate state: tanh (e·W_in + b_in + r ⊙ (h·W_hn + b_hn)). -/
def candTerm (e : FVec F S1024x64 .f32) (h r : FVec F S1024x256 .f32) (W_in : FVec F S64x256 .f32) (b_in : FVec F S256 .f32)
    (W_hn : FVec F S256x256 .f32) (b_hn : FVec F S256 .f32) : FVec F S1024x256 .f32 :=
  Host.tanh (addf (addf (inDot e W_in) (rowBias b_in)) (mulf r (addf (stDot h W_hn) (rowBias b_hn))))

/-- The new state from the looked-up rows e: (1 − z) ⊙ n + z ⊙ h. -/
def newHOf (e : FVec F S1024x64 .f32) (h : FVec F S1024x256 .f32) (W_ir : FVec F S64x256 .f32) (b_ir : FVec F S256 .f32)
    (W_iz : FVec F S64x256 .f32) (b_iz : FVec F S256 .f32) (W_in : FVec F S64x256 .f32) (b_in : FVec F S256 .f32)
    (W_hr W_hz W_hn : FVec F S256x256 .f32) (b_hn : FVec F S256 .f32) : FVec F S1024x256 .f32 :=
  addf (mulf (subf ones (gateTerm e h W_iz b_iz W_hz)) (candTerm e h (gateTerm e h W_ir b_ir W_hr) W_in b_in W_hn b_hn))
    (mulf (gateTerm e h W_iz b_iz W_hz) h)

/-- The new state, of the fifteen argument arrays (the last two are not read). -/
def newHTerm (a0 : IVec S1024 32) (a1 : FVec F S1024x256 .f32) (a2 : FVec F S100000x64 .f32) (a3 : FVec F S64x256 .f32) (a4 : FVec F S256 .f32) (a5 : FVec F S64x256 .f32) (a6 : FVec F S256 .f32) (a7 : FVec F S64x256 .f32) (a8 : FVec F S256 .f32) (a9 : FVec F S256x256 .f32) (a10 : FVec F S256x256 .f32) (a11 : FVec F S256x256 .f32) (a12 : FVec F S256 .f32) (a13 : FVec F S256x100000 .f32) (a14 : FVec F S100000 .f32) : FVec F S1024x256 .f32 :=
  newHOf (takeTerm a2 a0) a1 a3 a4 a5 a6 a7 a8 a9 a10 a11 a12

/-- The logits, of the fifteen argument arrays: h'·W_out + b_out. -/
def logitsTerm (a0 : IVec S1024 32) (a1 : FVec F S1024x256 .f32) (a2 : FVec F S100000x64 .f32) (a3 : FVec F S64x256 .f32) (a4 : FVec F S256 .f32) (a5 : FVec F S64x256 .f32) (a6 : FVec F S256 .f32) (a7 : FVec F S64x256 .f32) (a8 : FVec F S256 .f32) (a9 : FVec F S256x256 .f32) (a10 : FVec F S256x256 .f32) (a11 : FVec F S256x256 .f32) (a12 : FVec F S256 .f32) (a13 : FVec F S256x100000 .f32) (a14 : FVec F S100000 .f32) : FVec F S1024x100000 .f32 :=
  addf (Host.dotGeneral dot_S1024x256_S256x100000_S1024x100000_1_0_0_1_n_n none (newHTerm a0 a1 a2 a3 a4 a5 a6 a7 a8 a9 a10 a11 a12 a13 a14) a13)
    (broadcastInDim S1024x100000 ![0, 1] bcast_S1x100000_S1024x100000_0_1
      (broadcastInDim S1x100000 ![1] bcast_S100000_S1x100000_1 a14))

/-! ## The straight line -/

/-- The reference's 72 operations in order: the row lookup's 23 (the wrap-around select is the inner function's one
    operation), then the 49 of the GRU step and the projection. -/
abbrev ops : List (HloOp τ sig (Elt F)) :=
  [ StableHlo.TRef.nullary main_call0.c (constantI S_ 32 0#32),
    StableHlo.TRef.unary main_call0.c main_call0.v0 (broadcastInDim S1024 ![] bcast_S_S1024),
    StableHlo.TRef.binary (.of main_arg0) main_call0.v0 main_call0.v1 (cmpi .slt),
    StableHlo.TRef.nullary main_call0.c_0 (constantI S_ 32 100000#32),
    StableHlo.TRef.unary main_call0.c_0 main_call0.v2 (broadcastInDim S1024 ![] bcast_S_S1024),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S1024x1 ![0] bcast_S1024_S1024x1_0),
    StableHlo.TRef.nullary main_call0.c_1 (constantI S1 32 99999#32),
    StableHlo.TRef.nullary main_call0.c_2 (constantI S_ 32 0#32),
    StableHlo.TRef.unary main_call0.c_2 main_call0.v6 (broadcastInDim S1024x1 ![] bcast_S_S1024x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1024x1 ![0, 1] bcast_S1x1_S1024x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x1_S1024_d1 h_S_),
    StableHlo.TRef.binary (.of main_arg2) main_call0.v5 main_call0.v13 (fun x i => Host.gather gather_S100000x64_S1024x1_S1024x64_1_0_n_n_0_1_164 x i),
    StableHlo.TRef.unary main_call0.v12 main_call0.v14 (broadcastInDim S1024x64 ![0] bcast_S1024_S1024x64_0),
    StableHlo.TRef.nullary main_call0.cst (constant S_ .f32 0x7FC00000#32),
    StableHlo.TRef.unary main_call0.cst main_call0.v15 (broadcastInDim S1024x64 ![] bcast_S_S1024x64),
    StableHlo.TRef.ternary main_call0.v14 main_call0.v13 main_call0.v15 main_call0.v16 select,
    StableHlo.binary main_v0 main_arg3 main_v1 ((fun l r => Host.dotGeneral dot_S1024x64_S64x256_S1024x256_1_0_0_1_n_n none l r) : (⟨S1024x64, .f32⟩ : BufTy).Contents (Elt F) → (⟨S64x256, .f32⟩ : BufTy).Contents (Elt F) → (⟨S1024x256, .f32⟩ : BufTy).Contents (Elt F)),
    StableHlo.unary main_arg4 main_v2 (broadcastInDim S1x256 ![1] bcast_S256_S1x256_1 : (⟨S256, .f32⟩ : BufTy).Contents (Elt F) → (⟨S1x256, .f32⟩ : BufTy).Contents (Elt F)),
    StableHlo.unary main_v2 main_v3 (broadcastInDim S1024x256 ![0, 1] bcast_S1x256_S1024x256_0_1 : (⟨S1x256, .f32⟩ : BufTy).Contents (Elt F) → (⟨S1024x256, .f32⟩ : BufTy).Contents (Elt F)),
    StableHlo.binary main_v1 main_v3 main_v4 (addf : (⟨S1024x256, .f32⟩ : BufTy).Contents (Elt F) → (⟨S1024x256, .f32⟩ : BufTy).Contents (Elt F) → (⟨S1024x256, .f32⟩ : BufTy).Contents (Elt F)),
    StableHlo.binary main_arg1 main_arg9 main_v5 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.binary main_v4 main_v5 main_v6 (addf : (⟨S1024x256, .f32⟩ : BufTy).Contents (Elt F) → (⟨S1024x256, .f32⟩ : BufTy).Contents (Elt F) → (⟨S1024x256, .f32⟩ : BufTy).Contents (Elt F)),
    StableHlo.unary main_v6 main_v7 (Host.negf : (⟨S1024x256, .f32⟩ : BufTy).Contents (Elt F) → (⟨S1024x256, .f32⟩ : BufTy).Contents (Elt F)),
    StableHlo.unary main_v7 main_v8 (Host.exp : (⟨S1024x256, .f32⟩ : BufTy).Contents (Elt F) → (⟨S1024x256, .f32⟩ : BufTy).Contents (Elt F)),
    StableHlo.nullary main_cst (constant S_ .f32 0x3F800000#32),
    StableHlo.unary main_cst main_v9 (broadcastInDim S1024x256 ![] bcast_S_S1024x256 : (⟨S_, .f32⟩ : BufTy).Contents (Elt F) → (⟨S1024x256, .f32⟩ : BufTy).Contents (Elt F)),
    StableHlo.binary main_v9 main_v8 main_v10 (addf : (⟨S1024x256, .f32⟩ : BufTy).Contents (Elt F) → (⟨S1024x256, .f32⟩ : BufTy).Contents (Elt F) → (⟨S1024x256, .f32⟩ : BufTy).Contents (Elt F)),
    StableHlo.nullary main_cst_0 (constant S_ .f32 0x3F800000#32),
    StableHlo.unary main_cst_0 main_v11 (broadcastInDim S1024x256 ![] bcast_S_S1024x256 : (⟨S_, .f32⟩ : BufTy).Contents (Elt F) → (⟨S1024x256, .f32⟩ : BufTy).Contents (Elt F)),
    StableHlo.binary main_v11 main_v10 main_v12 (Host.divf : (⟨S1024x256, .f32⟩ : BufTy).Contents (Elt F) → (⟨S1024x256, .f32⟩ : BufTy).Contents (Elt F) → (⟨S1024x256, .f32⟩ : BufTy).Contents (Elt F)),
    StableHlo.binary main_v0 main_arg5 main_v13 ((fun l r => Host.dotGeneral dot_S1024x64_S64x256_S1024x256_1_0_0_1_n_n none l r) : (⟨S1024x64, .f32⟩ : BufTy).Contents (Elt F) → (⟨S64x256, .f32⟩ : BufTy).Contents (Elt F) → (⟨S1024x256, .f32⟩ : BufTy).Contents (Elt F)),
    StableHlo.unary main_arg6 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S1024x256 ![0, 1] bcast_S1x256_S1024x256_0_1 : (⟨S1x256, .f32⟩ : BufTy).Contents (Elt F) → (⟨S1024x256, .f32⟩ : BufTy).Contents (Elt F)),
    StableHlo.binary main_v13 main_v15 main_v16 (addf : (⟨S1024x256, .f32⟩ : BufTy).Contents (Elt F) → (⟨S1024x256, .f32⟩ : BufTy).Contents (Elt F) → (⟨S1024x256, .f32⟩ : BufTy).Contents (Elt F)),
    StableHlo.binary main_arg1 main_arg10 main_v17 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.binary main_v16 main_v17 main_v18 (addf : (⟨S1024x256, .f32⟩ : BufTy).Contents (Elt F) → (⟨S1024x256, .f32⟩ : BufTy).Contents (Elt F) → (⟨S1024x256, .f32⟩ : BufTy).Contents (Elt F)),
    StableHlo.unary main_v18 main_v19 (Host.negf : (⟨S1024x256, .f32⟩ : BufTy).Contents (Elt F) → (⟨S1024x256, .f32⟩ : BufTy).Contents (Elt F)),
    StableHlo.unary main_v19 main_v20 (Host.exp : (⟨S1024x256, .f32⟩ : BufTy).Contents (Elt F) → (⟨S1024x256, .f32⟩ : BufTy).Contents (Elt F)),
    StableHlo.nullary main_cst_1 (constant S_ .f32 0x3F800000#32),
    StableHlo.unary main_cst_1 main_v21 (broadcastInDim S1024x256 ![] bcast_S_S1024x256 : (⟨S_, .f32⟩ : BufTy).Contents (Elt F) → (⟨S1024x256, .f32⟩ : BufTy).Contents (Elt F)),
    StableHlo.binary main_v21 main_v20 main_v22 (addf : (⟨S1024x256, .f32⟩ : BufTy).Contents (Elt F) → (⟨S1024x256, .f32⟩ : BufTy).Contents (Elt F) → (⟨S1024x256, .f32⟩ : BufTy).Contents (Elt F)),
    StableHlo.nullary main_cst_2 (constant S_ .f32 0x3F800000#32),
    StableHlo.unary main_cst_2 main_v23 (broadcastInDim S1024x256 ![] bcast_S_S1024x256 : (⟨S_, .f32⟩ : BufTy).Contents (Elt F) → (⟨S1024x256, .f32⟩ : BufTy).Contents (Elt F)),
    StableHlo.binary main_v23 main_v22 main_v24 (Host.divf : (⟨S1024x256, .f32⟩ : BufTy).Contents (Elt F) → (⟨S1024x256, .f32⟩ : BufTy).Contents (Elt F) → (⟨S1024x256, .f32⟩ : BufTy).Contents (Elt F)),
    StableHlo.binary main_v0 main_arg7 main_v25 ((fun l r => Host.dotGeneral dot_S1024x64_S64x256_S1024x256_1_0_0_1_n_n none l r) : (⟨S1024x64, .f32⟩ : BufTy).Contents (Elt F) → (⟨S64x256, .f32⟩ : BufTy).Contents (Elt F) → (⟨S1024x256, .f32⟩ : BufTy).Contents (Elt F)),
    StableHlo.unary main_arg8 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S1024x256 ![0, 1] bcast_S1x256_S1024x256_0_1 : (⟨S1x256, .f32⟩ : BufTy).Contents (Elt F) → (⟨S1024x256, .f32⟩ : BufTy).Contents (Elt F)),
    StableHlo.binary main_v25 main_v27 main_v28 (addf : (⟨S1024x256, .f32⟩ : BufTy).Contents (Elt F) → (⟨S1024x256, .f32⟩ : BufTy).Contents (Elt F) → (⟨S1024x256, .f32⟩ : BufTy).Contents (Elt F)),
    StableHlo.binary main_arg1 main_arg11 main_v29 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg12 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S1024x256 ![0, 1] bcast_S1x256_S1024x256_0_1 : (⟨S1x256, .f32⟩ : BufTy).Contents (Elt F) → (⟨S1024x256, .f32⟩ : BufTy).Contents (Elt F)),
    StableHlo.binary main_v29 main_v31 main_v32 (addf : (⟨S1024x256, .f32⟩ : BufTy).Contents (Elt F) → (⟨S1024x256, .f32⟩ : BufTy).Contents (Elt F) → (⟨S1024x256, .f32⟩ : BufTy).Contents (Elt F)),
    StableHlo.binary main_v12 main_v32 main_v33 (mulf : (⟨S1024x256, .f32⟩ : BufTy).Contents (Elt F) → (⟨S1024x256, .f32⟩ : BufTy).Contents (Elt F) → (⟨S1024x256, .f32⟩ : BufTy).Contents (Elt F)),
    StableHlo.binary main_v28 main_v33 main_v34 (addf : (⟨S1024x256, .f32⟩ : BufTy).Contents (Elt F) → (⟨S1024x256, .f32⟩ : BufTy).Contents (Elt F) → (⟨S1024x256, .f32⟩ : BufTy).Contents (Elt F)),
    StableHlo.unary main_v34 main_v35 (Host.tanh : (⟨S1024x256, .f32⟩ : BufTy).Contents (Elt F) → (⟨S1024x256, .f32⟩ : BufTy).Contents (Elt F)),
    StableHlo.nullary main_cst_3 (constant S_ .f32 0x3F800000#32),
    StableHlo.unary main_cst_3 main_v36 (broadcastInDim S1024x256 ![] bcast_S_S1024x256 : (⟨S_, .f32⟩ : BufTy).Contents (Elt F) → (⟨S1024x256, .f32⟩ : BufTy).Contents (Elt F)),
    StableHlo.binary main_v36 main_v24 main_v37 (subf : (⟨S1024x256, .f32⟩ : BufTy).Contents (Elt F) → (⟨S1024x256, .f32⟩ : BufTy).Contents (Elt F) → (⟨S1024x256, .f32⟩ : BufTy).Contents (Elt F)),
    StableHlo.binary main_v37 main_v35 main_v38 (mulf : (⟨S1024x256, .f32⟩ : BufTy).Contents (Elt F) → (⟨S1024x256, .f32⟩ : BufTy).Contents (Elt F) → (⟨S1024x256, .f32⟩ : BufTy).Contents (Elt F)),
    StableHlo.binary main_v24 main_arg1 main_v39 (mulf : (⟨S1024x256, .f32⟩ : BufTy).Contents (Elt F) → (⟨S1024x256, .f32⟩ : BufTy).Contents (Elt F) → (⟨S1024x256, .f32⟩ : BufTy).Contents (Elt F)),
    StableHlo.binary main_v38 main_v39 main_v40 (addf : (⟨S1024x256, .f32⟩ : BufTy).Contents (Elt F) → (⟨S1024x256, .f32⟩ : BufTy).Contents (Elt F) → (⟨S1024x256, .f32⟩ : BufTy).Contents (Elt F)),
    StableHlo.binary main_v40 main_arg13 main_v41 ((fun l r => Host.dotGeneral dot_S1024x256_S256x100000_S1024x100000_1_0_0_1_n_n none l r) : (⟨S1024x256, .f32⟩ : BufTy).Contents (Elt F) → (⟨S256x100000, .f32⟩ : BufTy).Contents (Elt F) → (⟨S1024x100000, .f32⟩ : BufTy).Contents (Elt F)),
    StableHlo.unary main_arg14 main_v42 (broadcastInDim S1x100000 ![1] bcast_S100000_S1x100000_1 : (⟨S100000, .f32⟩ : BufTy).Contents (Elt F) → (⟨S1x100000, .f32⟩ : BufTy).Contents (Elt F)),
    StableHlo.unary main_v42 main_v43 (broadcastInDim S1024x100000 ![0, 1] bcast_S1x100000_S1024x100000_0_1 : (⟨S1x100000, .f32⟩ : BufTy).Contents (Elt F) → (⟨S1024x100000, .f32⟩ : BufTy).Contents (Elt F)),
    StableHlo.binary main_v41 main_v43 main_v44 (addf : (⟨S1024x100000, .f32⟩ : BufTy).Contents (Elt F) → (⟨S1024x100000, .f32⟩ : BufTy).Contents (Elt F) → (⟨S1024x100000, .f32⟩ : BufTy).Contents (Elt F)) ]

set_option maxRecDepth 8192 in
set_option maxHeartbeats 2000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., binary_bufs_sub .., unary_bufs_sub .., unary_bufs_sub .., binary_bufs_sub ..⟩

/-- Every buffer after the run is the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves at the two results and at the arguments -/

set_option maxHeartbeats 4000000 in
/-- The logits' buffer after the line is `logitsTerm` of the arguments' contents. -/
theorem logits_eq (V : Valuation τ sig (Elt F)) :
    after ops V (main_v44 : DevRef τ sig) = logitsTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  after_results_simp <;> rfl

set_option maxHeartbeats 4000000 in
/-- The new state's buffer after the line is `newHTerm` of the arguments' contents. -/
theorem newH_eq (V : Valuation τ sig (Elt F)) :
    after ops V (main_v40 : DevRef τ sig) = newHTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  after_results_simp <;> rfl

/-! ## The arguments: no operation writes one -/

set_option maxHeartbeats 2000000 in
theorem arg0_eq (V : Valuation τ sig (Elt F)) : after ops V (main_arg0 : DevRef τ sig) = V (main_arg0 : DevRef τ sig) := by
  after_results_simp <;> rfl
set_option maxHeartbeats 2000000 in
theorem arg1_eq (V : Valuation τ sig (Elt F)) : after ops V (main_arg1 : DevRef τ sig) = V (main_arg1 : DevRef τ sig) := by
  after_results_simp <;> rfl
set_option maxHeartbeats 2000000 in
theorem arg2_eq (V : Valuation τ sig (Elt F)) : after ops V (main_arg2 : DevRef τ sig) = V (main_arg2 : DevRef τ sig) := by
  after_results_simp <;> rfl
set_option maxHeartbeats 2000000 in
theorem arg3_eq (V : Valuation τ sig (Elt F)) : after ops V (main_arg3 : DevRef τ sig) = V (main_arg3 : DevRef τ sig) := by
  after_results_simp <;> rfl
set_option maxHeartbeats 2000000 in
theorem arg4_eq (V : Valuation τ sig (Elt F)) : after ops V (main_arg4 : DevRef τ sig) = V (main_arg4 : DevRef τ sig) := by
  after_results_simp <;> rfl
set_option maxHeartbeats 2000000 in
theorem arg5_eq (V : Valuation τ sig (Elt F)) : after ops V (main_arg5 : DevRef τ sig) = V (main_arg5 : DevRef τ sig) := by
  after_results_simp <;> rfl
set_option maxHeartbeats 2000000 in
theorem arg6_eq (V : Valuation τ sig (Elt F)) : after ops V (main_arg6 : DevRef τ sig) = V (main_arg6 : DevRef τ sig) := by
  after_results_simp <;> rfl
set_option maxHeartbeats 2000000 in
theorem arg7_eq (V : Valuation τ sig (Elt F)) : after ops V (main_arg7 : DevRef τ sig) = V (main_arg7 : DevRef τ sig) := by
  after_results_simp <;> rfl
set_option maxHeartbeats 2000000 in
theorem arg8_eq (V : Valuation τ sig (Elt F)) : after ops V (main_arg8 : DevRef τ sig) = V (main_arg8 : DevRef τ sig) := by
  after_results_simp <;> rfl
set_option maxHeartbeats 2000000 in
theorem arg9_eq (V : Valuation τ sig (Elt F)) : after ops V (main_arg9 : DevRef τ sig) = V (main_arg9 : DevRef τ sig) := by
  after_results_simp <;> rfl
set_option maxHeartbeats 2000000 in
theorem arg10_eq (V : Valuation τ sig (Elt F)) : after ops V (main_arg10 : DevRef τ sig) = V (main_arg10 : DevRef τ sig) := by
  after_results_simp <;> rfl
set_option maxHeartbeats 2000000 in
theorem arg11_eq (V : Valuation τ sig (Elt F)) : after ops V (main_arg11 : DevRef τ sig) = V (main_arg11 : DevRef τ sig) := by
  after_results_simp <;> rfl
set_option maxHeartbeats 2000000 in
theorem arg12_eq (V : Valuation τ sig (Elt F)) : after ops V (main_arg12 : DevRef τ sig) = V (main_arg12 : DevRef τ sig) := by
  after_results_simp <;> rfl
set_option maxHeartbeats 2000000 in
theorem arg13_eq (V : Valuation τ sig (Elt F)) : after ops V (main_arg13 : DevRef τ sig) = V (main_arg13 : DevRef τ sig) := by
  after_results_simp <;> rfl
set_option maxHeartbeats 2000000 in
theorem arg14_eq (V : Valuation τ sig (Elt F)) : after ops V (main_arg14 : DevRef τ sig) = V (main_arg14 : DevRef τ sig) := by
  after_results_simp <;> rfl

/-! ## The run -/

/-- On every device, for any float values, from any memory with zero counters: every weakly fair execution of the
    reference terminates with the logits at `logitsTerm` and the new state at `newHTerm` of the argument arrays,
    and the fifteen argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = logitsTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v40) = newHTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v44).trans (logits_eq _), (h c main_v40).trans (newH_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_all m ρ)

end Cert.ReferenceIdeal.RefRun

end
-- ==== Proof.RefRead.lean ====
/-
  The reference's operations that move data, read at one index, at the extended reals.

  · A reduction by `and` of a mask that is 1 everywhere, from the initial value 1, is 1.
  · The gather of whole rows: entry (b, j) of the result is the table at row
    min (max (idx[b, 0], 0), 99999) — the start index read signed and clamped into the table — and column j.
  · A 32-bit id v with v.toNat < 100000 is not negative read signed, passes the test 0 ≤ v ≤ 99999, and is its own clamp.
  · A vector broadcast to a column, a row mask broadcast along the columns, a bias row broadcast down the rows.
  · Each matrix product as the plain finite sum over its contracted coordinate.
-/
import proofs.«217423_g17910013624755_cont_8to1_1683_16_alg».proof.ReferenceIdeal
import Idealize.ShloMosaic.Lib.ValueIdx
import Idealize.ShloMosaic.Lib.IdealHost
import Idealize.ShloMosaic.Lib.KernelVsHost
import Idealize.ShloMosaic.Lib.StackMember
import Idealize.ShloMosaic.Lib.ReduceAll

noncomputable section

open scoped BigOperators

namespace Cert.ReferenceIdeal.RefRead

open Cert.ReferenceIdeal Cert.ReferenceIdeal.Facts₀ Idealize.ShloMosaic Idealize.ShloMosaic.ValueIdx

variable [Facts]

/-! ## A reduction by `and` of an all-ones mask -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and`, from an initial value 1, of a mask that is 1 at every index is 1 at every result index. -/
theorem reduce_andi_one {s t u : Shape} {axes : List (Fin s.rank)} (p : s.Idx → BitVec 1) (init : u.Idx → BitVec 1)
    (h : s.ReducesTo axes t) (hu : 0 < u.numel) (hinit : init (Shape.Idx.first hu) = 1#1) (hp : ∀ i, p i = 1#1)
    (j : t.Idx) : Host.reduce IntOp.andi p init h hu j = 1#1 := by
  rw [Host.reduce_eq_foldl, hinit]
  exact foldl_andi_one p _ fun i _ => hp i

/-! ## An id in range, as a signed word -/

/-- A word below 100000 reads the same signed and unsigned. -/
theorem toInt_of_lt (v : BitVec 32) (h : v.toNat < 100000) : v.toInt = (v.toNat : Int) :=
  BitVec.toInt_eq_toNat_of_lt (by omega)

/-- It is not negative, so the wrap-around (add 100000 where negative) leaves it alone. -/
theorem wrap_eq (v : BitVec 32) (h : v.toNat < 100000) :
    Scalar.select (IntOp.cmpi .slt v 0#32) (IntOp.addi v 100000#32) v = v := by
  have hz : IntOp.cmpi .slt v 0#32 = 0#1 := eq_zero_of_ne_one fun h1 => by
    have h2 := IntOp.cmpi_slt.mp h1
    rw [toInt_of_lt v h, show (0#32 : BitVec 32).toInt = 0 from by decide] at h2
    omega
  rw [hz, select_zero]

/-- It passes the in-bounds test 0 ≤ v ≤ 99999 (signed). -/
theorem inb_eq (v : BitVec 32) (h : v.toNat < 100000) :
    IntOp.andi (IntOp.cmpi .sge v 0#32) (IntOp.cmpi .sle v 99999#32) = 1#1 :=
  IntOp.andi_eq_one.mpr
    ⟨IntOp.cmpi_sge.mpr (by rw [toInt_of_lt v h, show (0#32 : BitVec 32).toInt = 0 from by decide]; omega),
     IntOp.cmpi_sle.mpr (by rw [toInt_of_lt v h, show (99999#32 : BitVec 32).toInt = 99999 from by decide]; omega)⟩

/-- It is its own clamp into [0, 99999]. -/
theorem clamp_eq (v : BitVec 32) (h : v.toNat < 100000) : min v.toInt.toNat 99999 = v.toNat := by
  rw [toInt_of_lt v h, Int.toNat_natCast]; omega

/-! ## Broadcasts read at an index -/

/-- A vector of 1024 entries as a 1024 × 1 column. -/
theorem col_apply {α : Type} (v : S1024.Idx → α) (b : Fin 1024) (z : Fin 1) :
    broadcastInDim S1024x1 ![0] bcast_S1024_S1024x1_0 v (ix2 b z) = v (ix1 b) := by
  refine broadcastInDim_apply ![0] bcast_S1024_S1024x1_0 v (ix2 b z) (ix1 b) ?_
  intro a; fin_cases a; rfl

/-- A per-row value repeated along the 64 columns. -/
theorem rowMask_apply {α : Type} (v : S1024.Idx → α) (b : Fin 1024) (j : Fin 64) :
    broadcastInDim S1024x64 ![0] bcast_S1024_S1024x64_0 v (ix2 b j) = v (ix1 b) := by
  refine broadcastInDim_apply ![0] bcast_S1024_S1024x64_0 v (ix2 b j) (ix1 b) ?_
  intro a; fin_cases a; rfl

/-- A bias row of 256 entries repeated down the 1024 rows. -/
theorem bias256_apply {α : Type} (v : S256.Idx → α) (b : Fin 1024) (k : Fin 256) :
    broadcastInDim S1024x256 ![0, 1] bcast_S1x256_S1024x256_0_1 (broadcastInDim S1x256 ![1] bcast_S256_S1x256_1 v) (ix2 b k)
      = v (ix1 k) := by
  rw [broadcastInDim_oneRow_apply]
  refine broadcastInDim_apply ![1] bcast_S256_S1x256_1 v (ix2 (0 : Fin 1) k) (ix1 k) ?_
  intro a; fin_cases a; rfl

/-- A bias row of 100000 entries repeated down the 1024 rows. -/
theorem bias100000_apply {α : Type} (v : S100000.Idx → α) (b : Fin 1024) (k : Fin 100000) :
    broadcastInDim S1024x100000 ![0, 1] bcast_S1x100000_S1024x100000_0_1
        (broadcastInDim S1x100000 ![1] bcast_S100000_S1x100000_1 v) (ix2 b k)
      = v (ix1 k) := by
  rw [broadcastInDim_oneRow_apply]
  refine broadcastInDim_apply ![1] bcast_S100000_S1x100000_1 v (ix2 (0 : Fin 1) k) (ix1 k) ?_
  intro a; fin_cases a; rfl

/-! ## The gather of whole rows -/

/-- Entry (b, j) of the gather is the table at the start index idx[b, 0], read signed and clamped into [0, 99999],
    and column j. -/
theorem gather_rows_apply {α : Type} (table : S100000x64.Idx → α) (idx : IVec S1024x1 32) (b : Fin 1024) (j : Fin 64) :
    Host.gather gather_S100000x64_S1024x1_S1024x64_1_0_n_n_0_1_164 table idx (ix2 b j)
      = table (ix2 (⟨min (idx (ix2 b (0 : Fin 1))).toInt.toNat 99999, by omega⟩ : Fin 100000) j) := by
  unfold Host.gather
  congr 1
  funext a
  refine Fin.ext ?_
  match a with
  | ⟨0, _⟩ =>
    show gather_S100000x64_S1024x1_S1024x64_1_0_n_n_0_1_164.start (ix2 b j) idx 0 + gather_S100000x64_S1024x1_S1024x64_1_0_n_n_0_1_164.batchCoord (ix2 b j) 0 + gather_S100000x64_S1024x1_S1024x64_1_0_n_n_0_1_164.offCoord (ix2 b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1024x1_S1024x64_1_0_n_n_0_1_164.startIndexMap from List.mem_singleton.mpr rfl)]
    have hsi : gather_S100000x64_S1024x1_S1024x64_1_0_n_n_0_1_164.siIdx (ix2 b j) ⟨List.idxOf (0 : Fin 2) gather_S100000x64_S1024x1_S1024x64_1_0_n_n_0_1_164.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S100000x64_S1024x1_S1024x64_1_0_n_n_0_1_164.start (ix2 b j) idx 1 + gather_S100000x64_S1024x1_S1024x64_1_0_n_n_0_1_164.batchCoord (ix2 b j) 1 + gather_S100000x64_S1024x1_S1024x64_1_0_n_n_0_1_164.offCoord (ix2 b j) 1 = _
    rw [GatherDims.batchCoord_eq_zero _ _ _ List.not_mem_nil]
    unfold GatherDims.start
    have hns : (1 : Fin 2) ∉ gather_S100000x64_S1024x1_S1024x64_1_0_n_n_0_1_164.startIndexMap :=
      fun h => absurd (List.mem_singleton.mp (show (1 : Fin 2) ∈ [(0 : Fin 2)] from h)) (by decide)
    rw [dif_neg hns]
    have hk : (1 : Fin 2) ∈ gather_S100000x64_S1024x1_S1024x64_1_0_n_n_0_1_164.sKept :=
      (GatherDims.mem_sKept _ _).mpr
        ⟨fun h => absurd (List.mem_singleton.mp (show (1 : Fin 2) ∈ [(0 : Fin 2)] from h)) (by decide), List.not_mem_nil⟩
    unfold GatherDims.offCoord
    rw [dif_pos hk]
    simp only [Nat.zero_add]
    rfl

/-! ## The matrix products as plain sums -/

open Idealize.ShloMosaic.StackMember in
/-- (e·W)[b, k] for a 1024 × 64 left operand and a 64 × 256 weight. -/
theorem inDot_apply (e : FVec Ideal S1024x64 .f32) (W : FVec Ideal S64x256 .f32) (b : Fin 1024) (k : Fin 256) :
    Host.dotGeneral dot_S1024x64_S64x256_S1024x256_1_0_0_1_n_n none e W (ix2 b k) = ∑ j : Fin 64, e (ix2 b j) * W (ix2 j k) :=
  dotGeneral_plain_apply none e W b k

open Idealize.ShloMosaic.StackMember in
/-- (h·W)[b, k] for a 1024 × 256 left operand and a 256 × 256 weight. -/
theorem stDot_apply (h : FVec Ideal S1024x256 .f32) (W : FVec Ideal S256x256 .f32) (b : Fin 1024) (k : Fin 256) :
    Host.dotGeneral dot_S1024x256_S256x256_S1024x256_1_0_0_1_n_n none h W (ix2 b k) = ∑ j : Fin 256, h (ix2 b j) * W (ix2 j k) :=
  dotGeneral_plain_apply none h W b k

open Idealize.ShloMosaic.StackMember in
/-- (h'·W_out)[b, v] for a 1024 × 256 left operand and the 256 × 100000 output weight. -/
theorem outDot_apply (h : FVec Ideal S1024x256 .f32) (W : FVec Ideal S256x100000 .f32) (b : Fin 1024) (v : Fin 100000) :
    Host.dotGeneral dot_S1024x256_S256x100000_S1024x100000_1_0_0_1_n_n none h W (ix2 b v)
      = ∑ k : Fin 256, h (ix2 b k) * W (ix2 k v) :=
  dotGeneral_plain_apply none h W b v

end Cert.ReferenceIdeal.RefRead

end
-- ==== Proof.Spec.lean ====
/-
  The function both programs compute, stated once over the extended reals, index by index.

  One GRU step on a batch of 1024 token ids followed by the output projection:
    e[b, :]      = embed[x[b], :]                                  (row lookup, 64 columns)
    r            = logistic (e·W_ir + b_ir + h·W_hr)
    z            = logistic (e·W_iz + b_iz + h·W_hz)
    n            = tanh     (e·W_in + b_in + r ⊙ (h·W_hn + b_hn))
    h'           = (1 − z) ⊙ n + z ⊙ h
    logits[b, v] = (Σ_k h'[b, k] · W_out[k, v]) + b_out[v]
  with h the incoming state (1024 × 256). Sums are finite sums in the commutative monoid of the
  extended reals, so their order and grouping are immaterial; nothing here needs finiteness.
  A token id is read as a natural number reduced modulo the table's 100000 rows: on ids in
  [0, 100000) this is the id itself, and it makes the row a total function of the id.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Mat (a b : Nat) : Type := (⟨2, ![a, b]⟩ : Shape).Idx → EReal
/-- A rank-1 array of extended reals. -/
abbrev Row (a : Nat) : Type := (⟨1, ![a]⟩ : Shape).Idx → EReal
/-- The token ids. -/
abbrev Ids : Type := (⟨1, ![1024]⟩ : Shape).Idx → BitVec 32

/-- The table row a token id names. -/
def rowOf (x : Ids) (b : Fin 1024) : Fin 100000 := ⟨(x (ix1 b)).toNat % 100000, Nat.mod_lt _ (by decide)⟩

/-- The looked-up embedding, entry (b, j). -/
def emb (table : Mat 100000 64) (x : Ids) (b : Fin 1024) (j : Fin 64) : EReal := table (ix2 (rowOf x b) j)

/-- (e·W)[b, k] for a 64 × 256 input weight. -/
def inProj (table : Mat 100000 64) (x : Ids) (W : Mat 64 256) (b : Fin 1024) (k : Fin 256) : EReal :=
  ∑ j : Fin 64, emb table x b j * W (ix2 j k)

/-- (h·W)[b, k] for a 256 × 256 state weight. -/
def stProj (h : Mat 1024 256) (W : Mat 256 256) (b : Fin 1024) (k : Fin 256) : EReal :=
  ∑ j : Fin 256, h (ix2 b j) * W (ix2 j k)

/-- The reset and update gates share one form. -/
def gate (table : Mat 100000 64) (x : Ids) (h : Mat 1024 256) (Wi : Mat 64 256) (bi : Row 256) (Wh : Mat 256 256)
    (b : Fin 1024) (k : Fin 256) : EReal :=
  Ideal.logistic (inProj table x Wi b k + bi (ix1 k) + stProj h Wh b k)

/-- The candidate state. -/
def cand (table : Mat 100000 64) (x : Ids) (h : Mat 1024 256) (W_ir : Mat 64 256) (b_ir : Row 256) (W_hr : Mat 256 256)
    (W_in : Mat 64 256) (b_in : Row 256) (W_hn : Mat 256 256) (b_hn : Row 256) (b : Fin 1024) (k : Fin 256) : EReal :=
  Ideal.tanh (inProj table x W_in b k + b_in (ix1 k)
    + gate table x h W_ir b_ir W_hr b k * (stProj h W_hn b k + b_hn (ix1 k)))

/-- The new state h'[b, k]. -/
def newH (table : Mat 100000 64) (x : Ids) (h : Mat 1024 256) (W_ir : Mat 64 256) (b_ir : Row 256) (W_iz : Mat 64 256) (b_iz : Row 256)
    (W_in : Mat 64 256) (b_in : Row 256) (W_hr W_hz W_hn : Mat 256 256) (b_hn : Row 256) (b : Fin 1024) (k : Fin 256) : EReal :=
  (1 - gate table x h W_iz b_iz W_hz b k) * cand table x h W_ir b_ir W_hr W_in b_in W_hn b_hn b k
    + gate table x h W_iz b_iz W_hz b k * h (ix2 b k)

/-- The new state as an array. -/
def newHArr (table : Mat 100000 64) (x : Ids) (h : Mat 1024 256) (W_ir : Mat 64 256) (b_ir : Row 256) (W_iz : Mat 64 256) (b_iz : Row 256)
    (W_in : Mat 64 256) (b_in : Row 256) (W_hr W_hz W_hn : Mat 256 256) (b_hn : Row 256) : Mat 1024 256 :=
  fun i => newH table x h W_ir b_ir W_iz b_iz W_in b_in W_hr W_hz W_hn b_hn (i 0) (i 1)

/-- The logits as an array: logits[b, v] = (Σ_k h'[b, k] · W_out[k, v]) + b_out[v]. -/
def logitsArr (table : Mat 100000 64) (x : Ids) (h : Mat 1024 256) (W_ir : Mat 64 256) (b_ir : Row 256) (W_iz : Mat 64 256) (b_iz : Row 256)
    (W_in : Mat 64 256) (b_in : Row 256) (W_hr W_hz W_hn : Mat 256 256) (b_hn : Row 256) (W_out : Mat 256 100000) (b_out : Row 100000) :
    Mat 1024 100000 :=
  fun i => (∑ k : Fin 256, newH table x h W_ir b_ir W_iz b_iz W_in b_in W_hr W_hz W_hn b_hn (i 0) k * W_out (ix2 k (i 1))) + b_out (ix1 (i 1))

end Cert.Spec

end
-- ==== Proof.RefValue.lean ====
/-
  Under the index range, the reference's two results are the specification.

  The ids: a word v with v.toNat < 100000 is not negative read signed, so the wrap-around branch
  (add 100000 where negative) is not taken; it passes 0 ≤ v ≤ 99999, so the in-bounds mask is 1 on
  every row and the fill value is never selected; and its clamp into [0, 99999] is v itself, so the
  gather reads table row v — which is the specification's row, v.toNat mod 100000 being v.toNat.
  The gates: 1 / (1 + exp (−t)) with the literal 1 is the logistic function of t by definition.
  Each matrix product is the finite sum over its contracted coordinate, each bias a row repeated
  down the rows. Entry by entry the composed values are then the specification's formulas as written.
-/
import proofs.«217423_g17910013624755_cont_8to1_1683_16_alg».proof.Proof.RefRun
import proofs.«217423_g17910013624755_cont_8to1_1683_16_alg».proof.Proof.RefRead
import proofs.«217423_g17910013624755_cont_8to1_1683_16_alg».proof.Proof.Spec

noncomputable section

open scoped BigOperators

namespace Cert.ReferenceIdeal.RefValue

open Cert.ReferenceIdeal Cert.ReferenceIdeal.Facts₀ Cert.ReferenceIdeal.RefRun Cert.ReferenceIdeal.RefRead
open Idealize.ShloMosaic Idealize.ShloMosaic.ValueIdx Idealize.ShloMosaic.TcCoe Idealize.SL.Sem

variable [Facts]

/-! ## The row lookup -/

section Lookup
variable (x : IVec S1024 32) (hx : ∀ b : Fin 1024, (x (ix1 b)).toNat < 100000)
include hx

/-- The wrapped id of row b is the id itself. -/
theorem wrapIdx_apply (b : Fin 1024) (z : Fin 1) : wrapIdx x (ix2 b z) = x (ix1 b) := by
  unfold wrapIdx
  rw [col_apply]
  exact wrap_eq _ (hx b)

/-- Every row is in bounds. -/
theorem inBounds_apply (b : Fin 1024) : inBounds x (ix1 b) = 1#1 := by
  unfold inBounds
  refine reduce_andi_one _ _ _ _ rfl (fun i => ?_) _
  obtain ⟨b', z, rfl⟩ : ∃ (b' : Fin 1024) (z : Fin 1), i = ix2 b' z := ⟨i 0, i 1, eq_ix2 i⟩
  show IntOp.andi (IntOp.cmpi .sge (wrapIdx x (ix2 b' z)) _) (IntOp.cmpi .sle (wrapIdx x (ix2 b' z)) _) = 1#1
  rw [wrapIdx_apply x hx]
  exact inb_eq _ (hx b')

/-- The looked-up row is the specification's: table[x[b], j]. -/
theorem takeTerm_apply (table : FVec Ideal S100000x64 .f32) (b : Fin 1024) (j : Fin 64) :
    takeTerm table x (ix2 b j) = Cert.Spec.emb table x b j := by
  unfold takeTerm
  rw [select_apply, rowMask_apply, inBounds_apply x hx, select_one, gather_rows_apply]
  unfold Cert.Spec.emb Cert.Spec.rowOf
  refine congrArg (fun r : Fin 100000 => table (ix2 r j)) (Fin.ext ?_)
  show min (wrapIdx x (ix2 b (0 : Fin 1))).toInt.toNat 99999 = (x (ix1 b)).toNat % 100000
  rw [wrapIdx_apply x hx, clamp_eq _ (hx b), Nat.mod_eq_of_lt (hx b)]

end Lookup

/-! ## The stages at an index -/

/-- The constant 1. -/
theorem ones_apply (i : S1024x256.Idx) : ones (F := Ideal) i = 1 := by
  show Ideal.ofBits .f32 0x3F800000#32 = 1
  exact Ideal.ofBits_one_f32

theorem rowBias_apply (v : FVec Ideal S256 .f32) (b : Fin 1024) (k : Fin 256) : rowBias v (ix2 b k) = v (ix1 k) :=
  bias256_apply v b k

theorem inDot_eq (e : FVec Ideal S1024x64 .f32) (W : FVec Ideal S64x256 .f32) (b : Fin 1024) (k : Fin 256) :
    inDot e W (ix2 b k) = ∑ j : Fin 64, e (ix2 b j) * W (ix2 j k) := inDot_apply e W b k

theorem stDot_eq (h : FVec Ideal S1024x256 .f32) (W : FVec Ideal S256x256 .f32) (b : Fin 1024) (k : Fin 256) :
    stDot h W (ix2 b k) = ∑ j : Fin 256, h (ix2 b j) * W (ix2 j k) := stDot_apply h W b k

/-- A gate at (b, k): the logistic function of e·Wi + bi + h·Wh there. -/
theorem gateTerm_apply (e : FVec Ideal S1024x64 .f32) (h : FVec Ideal S1024x256 .f32) (Wi : FVec Ideal S64x256 .f32)
    (bi : FVec Ideal S256 .f32) (Wh : FVec Ideal S256x256 .f32) (b : Fin 1024) (k : Fin 256) :
    gateTerm e h Wi bi Wh (ix2 b k)
      = Ideal.logistic ((∑ j : Fin 64, e (ix2 b j) * Wi (ix2 j k)) + bi (ix1 k) + ∑ j : Fin 256, h (ix2 b j) * Wh (ix2 j k)) := by
  unfold gateTerm
  show Ideal.div (ones (F := Ideal) (ix2 b k)) (ones (F := Ideal) (ix2 b k)
      + Ideal.exp (-((inDot e Wi (ix2 b k) + rowBias bi (ix2 b k)) + stDot h Wh (ix2 b k)))) = _
  rw [ones_apply, inDot_eq, rowBias_apply, stDot_eq]
  rfl

/-- The candidate at (b, k). -/
theorem candTerm_apply (e : FVec Ideal S1024x64 .f32) (h r : FVec Ideal S1024x256 .f32) (W_in : FVec Ideal S64x256 .f32)
    (b_in : FVec Ideal S256 .f32) (W_hn : FVec Ideal S256x256 .f32) (b_hn : FVec Ideal S256 .f32) (b : Fin 1024) (k : Fin 256) :
    candTerm e h r W_in b_in W_hn b_hn (ix2 b k)
      = Ideal.tanh ((∑ j : Fin 64, e (ix2 b j) * W_in (ix2 j k)) + b_in (ix1 k)
          + r (ix2 b k) * ((∑ j : Fin 256, h (ix2 b j) * W_hn (ix2 j k)) + b_hn (ix1 k))) := by
  unfold candTerm
  show Ideal.tanh ((inDot e W_in (ix2 b k) + rowBias b_in (ix2 b k))
      + r (ix2 b k) * (stDot h W_hn (ix2 b k) + rowBias b_hn (ix2 b k))) = _
  rw [inDot_eq, rowBias_apply, stDot_eq, rowBias_apply]

/-! ## The two results -/

section Results
variable (a0 : IVec S1024 32) (a1 : FVec Ideal S1024x256 .f32) (a2 : FVec Ideal S100000x64 .f32) (a3 : FVec Ideal S64x256 .f32) (a4 : FVec Ideal S256 .f32) (a5 : FVec Ideal S64x256 .f32) (a6 : FVec Ideal S256 .f32) (a7 : FVec Ideal S64x256 .f32) (a8 : FVec Ideal S256 .f32) (a9 : FVec Ideal S256x256 .f32) (a10 : FVec Ideal S256x256 .f32) (a11 : FVec Ideal S256x256 .f32) (a12 : FVec Ideal S256 .f32) (a13 : FVec Ideal S256x100000 .f32) (a14 : FVec Ideal S100000 .f32)
variable (hx : ∀ b : Fin 1024, (a0 (ix1 b)).toNat < 100000)
include hx

/-- The new state, entry by entry. -/
theorem newHTerm_apply (b : Fin 1024) (k : Fin 256) :
    newHTerm a0 a1 a2 a3 a4 a5 a6 a7 a8 a9 a10 a11 a12 a13 a14 (ix2 b k) = Cert.Spec.newH a2 a0 a1 a3 a4 a5 a6 a7 a8 a9 a10 a11 a12 b k := by
  unfold newHTerm newHOf
  show (ones (F := Ideal) (ix2 b k) - gateTerm (takeTerm a2 a0) a1 a5 a6 a10 (ix2 b k))
        * candTerm (takeTerm a2 a0) a1 (gateTerm (takeTerm a2 a0) a1 a3 a4 a9) a7 a8 a11 a12 (ix2 b k)
      + gateTerm (takeTerm a2 a0) a1 a5 a6 a10 (ix2 b k) * a1 (ix2 b k) = _
  rw [candTerm_apply, gateTerm_apply, gateTerm_apply, ones_apply]
  simp only [takeTerm_apply a0 hx]
  rfl

/-- The new state is the specification's, as a whole array. -/
theorem newH_eq : newHTerm a0 a1 a2 a3 a4 a5 a6 a7 a8 a9 a10 a11 a12 a13 a14 = Cert.Spec.newHArr a2 a0 a1 a3 a4 a5 a6 a7 a8 a9 a10 a11 a12 := by
  funext i
  obtain ⟨b, k, rfl⟩ : ∃ (b : Fin 1024) (k : Fin 256), i = ix2 b k := ⟨i 0, i 1, eq_ix2 i⟩
  exact newHTerm_apply a0 a1 a2 a3 a4 a5 a6 a7 a8 a9 a10 a11 a12 a13 a14 hx b k

/-- The logits are the specification's, as a whole array. -/
theorem logits_eq : logitsTerm a0 a1 a2 a3 a4 a5 a6 a7 a8 a9 a10 a11 a12 a13 a14 = Cert.Spec.logitsArr a2 a0 a1 a3 a4 a5 a6 a7 a8 a9 a10 a11 a12 a13 a14 := by
  funext i
  obtain ⟨b, v, rfl⟩ : ∃ (b : Fin 1024) (v : Fin 100000), i = ix2 b v := ⟨i 0, i 1, eq_ix2 i⟩
  unfold logitsTerm
  show Host.dotGeneral dot_S1024x256_S256x100000_S1024x100000_1_0_0_1_n_n none (newHTerm a0 a1 a2 a3 a4 a5 a6 a7 a8 a9 a10 a11 a12 a13 a14) a13 (ix2 b v)
      + broadcastInDim S1024x100000 ![0, 1] bcast_S1x100000_S1024x100000_0_1
          (broadcastInDim S1x100000 ![1] bcast_S100000_S1x100000_1 a14) (ix2 b v) = _
  rw [outDot_apply, bias100000_apply]
  simp only [newHTerm_apply a0 a1 a2 a3 a4 a5 a6 a7 a8 a9 a10 a11 a12 a13 a14 hx]
  rfl

end Results

/-! ## The run, against the specification -/

/-- With every id in range, the reference ends with the logits and the new state at the specification's arrays of its
    argument arrays, and the arguments unchanged. -/
theorem run_spec (m : (ℓ : Loc nD τ sig) → Buf (Elt Ideal) ℓ) (g : Dev nD → PrngReg)
    (hx : ∀ (c : Dev nD) (b : Fin 1024), ((m ((c.tc : Thread nD τ).loc main_arg0) : IVec S1024 32) (ix1 b)).toNat < 100000) :
    θ_run (defs (F := Ideal)) (onTc (τ := τ) (main (F := Ideal))) ⟨m, fun _ => 0, g⟩ fun r => ∀ c : Dev nD,
      r.2.mem ((c.tc : Thread nD τ).loc main_v44)
          = Cert.Spec.logitsArr (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v40)
          = Cert.Spec.newHArr (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run (defs (F := Ideal)) _ _).mono
    (fun _ h c => ⟨(h c).1.trans (logits_eq _ _ _ _ _ _ _ _ _ _ _ _ _ _ _ (hx c)),
      (h c).2.1.trans (newH_eq _ _ _ _ _ _ _ _ _ _ _ _ _ _ _ (hx c)), (h c).2.2⟩)
    (RefRun.run (F := Ideal) m g)

end Cert.ReferenceIdeal.RefValue

end
-- ==== Proof.Common.lean ====
/-
  The program as the SparseCore launch theorem sees it, and the ghost state its proof runs over:
  the launch handshakes' rounds, the two TensorCore pipelines' staging-cell rounds, and the
  counters of the tiles' own local copies, side by side in one product.
-/
import proofs.«217423_g17910013624755_cont_8to1_1683_16_alg».proof.Proof.Gen.KernelIdeal
import proofs.«217423_g17910013624755_cont_8to1_1683_16_alg».proof.Proof.Gen.KernelIdeal.Skeleton
import proofs.«217423_g17910013624755_cont_8to1_1683_16_alg».proof.Proof.Gen.KernelIdeal.Launch
import proofs.«217423_g17910013624755_cont_8to1_1683_16_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KernelIdeal.Hand

end
-- ==== Proof.Good.lean ====
/-
  What the intermediate arrays hold, as predicates on their contents (any element type).

  The halves table has 50176 rows of 128 columns: row r holds embedding row r in columns 0‥63
  and embedding row r + 50176 in columns 64‥127 — the latter only while r + 50176 < 100000;
  the remaining 352 half-rows are never named. The gathered array has one row of 128 columns per
  token id v: the table's row v if v < 50176, else its row v − 50176; so the embedding row of v
  sits in columns 0‥63 in the first case and in columns 64‥127 in the second.
-/
import proofs.«217423_g17910013624755_cont_8to1_1683_16_alg».proof.Proof.Spec

namespace Cert.Good

open Idealize.ShloMosaic Idealize.ShloMosaic.ValueIdx

variable {α : Type}

/-- Column j of the left half, column 64 + j of the right half. -/
abbrev colL (j : Fin 64) : Fin 128 := ⟨j.val, by omega⟩
abbrev colR (j : Fin 64) : Fin 128 := ⟨64 + j.val, by omega⟩

/-- The halves table holds the embedding rows where it names them. -/
def TabGood (emb : (⟨2, ![100000, 64]⟩ : Shape).Idx → α) (tab : (⟨2, ![50176, 128]⟩ : Shape).Idx → α) : Prop :=
  ∀ (r : Fin 50176) (j : Fin 64),
    tab (ix2 r (colL j)) = emb (ix2 (⟨r.val, by omega⟩ : Fin 100000) j)
    ∧ ∀ h : r.val + 50176 < 100000, tab (ix2 r (colR j)) = emb (ix2 (⟨r.val + 50176, h⟩ : Fin 100000) j)

/-- Row b of the gathered array holds the embedding row of token b in the half its id selects. -/
def RowGood (emb : (⟨2, ![100000, 64]⟩ : Shape).Idx → α) (x : Cert.Spec.Ids) (g : (⟨2, ![1024, 128]⟩ : Shape).Idx → α) (b : Fin 1024) : Prop :=
  ∀ j : Fin 64,
    ((x (ix1 b)).toNat < 50176 → g (ix2 b (colL j)) = emb (ix2 (Cert.Spec.rowOf x b) j))
    ∧ (50176 ≤ (x (ix1 b)).toNat → g (ix2 b (colR j)) = emb (ix2 (Cert.Spec.rowOf x b) j))

/-- Every row of the gathered array is good. -/
def GatherGood (emb : (⟨2, ![100000, 64]⟩ : Shape).Idx → α) (x : Cert.Spec.Ids) (g : (⟨2, ![1024, 128]⟩ : Shape).Idx → α) : Prop :=
  ∀ b : Fin 1024, RowGood emb x g b

/-- The table row a token id is remapped to: the id itself below 50176, the id less 50176 from there on. -/
def remap (v : Nat) : Nat := if v < 50176 then v else v - 50176

theorem remap_lt {v : Nat} (h : v < 100000) : remap v < 50176 := by
  unfold remap; split <;> omega

/-- A row copied from a good table at the remapped id is a good row. -/
theorem rowGood_of_tab {emb : (⟨2, ![100000, 64]⟩ : Shape).Idx → α} {tab : (⟨2, ![50176, 128]⟩ : Shape).Idx → α}
    (ht : TabGood emb tab) (x : Cert.Spec.Ids) (g : (⟨2, ![1024, 128]⟩ : Shape).Idx → α) (b : Fin 1024)
    (hx : (x (ix1 b)).toNat < 100000)
    (hg : ∀ k : Fin 128, g (ix2 b k) = tab (ix2 (⟨remap (x (ix1 b)).toNat, remap_lt hx⟩ : Fin 50176) k)) :
    RowGood emb x g b := by
  intro j
  have hrow : (Cert.Spec.rowOf x b).val = (x (ix1 b)).toNat := by
    show (x (ix1 b)).toNat % 100000 = _; exact Nat.mod_eq_of_lt hx
  constructor
  · intro hlt
    rw [hg, (ht _ j).1]
    congr 2; apply Fin.ext; rw [hrow]; show remap _ = _; unfold remap; rw [if_pos hlt]
  · intro hge
    have hr : remap (x (ix1 b)).toNat = (x (ix1 b)).toNat - 50176 := by unfold remap; rw [if_neg (by omega)]
    rw [hg, (ht _ j).2 (by show remap _ + 50176 < 100000; rw [hr]; omega)]
    congr 2; apply Fin.ext; rw [hrow]; show remap _ + 50176 = _; rw [hr]; omega

end Cert.Good
-- ==== Proof.ScPay.lean ====
/-
  What the gather's launch hands each tile and takes back, as assertions over the launch memory.

  The 1024 token ids and the 1024 gathered rows are cut along their first axis into 32 consecutive
  runs of 32; run w belongs to the tile on SparseCore c, subcore i with w = 2·i + c. A tile is
  handed its run of the ids at the launch contents, a read share of the whole halves table — the
  w-th of 32 shares split off the full one — at some contents that are a good halves table of the
  embedding, and its run of the gathered array at whatever it holds. It hands back the same, the
  gathered run now holding, in each of its 32 rows, the embedding row of that row's token in the half
  the id selects. A SparseCore is handed, and hands back, its sixteen tiles' parts side by side; SparseCore 0
  also carries, untouched, what is left of the table's full share once the 32 read shares are split
  off, so that the 32 shares and this rest together are the whole table again.
  Nothing is set aside for the tiles' own copies: those run under the counters.
-/
import proofs.«217423_g17910013624755_cont_8to1_1683_16_alg».proof.Proof.Common
import proofs.«217423_g17910013624755_cont_8to1_1683_16_alg».proof.Proof.Good
import Idealize.ShloMosaic.Lib.Transfers

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

/-! ## The arrays and their cut into 32 runs -/

/-- The token ids, the embedding table, the halves table and the gathered array, on device `d`. -/
abbrev xLoc (d : Dev nD) : Loc nD τ sig := (SparseCore.T d).loc main_arg0
abbrev embLoc (d : Dev nD) : Loc nD τ sig := (SparseCore.T d).loc main_arg2
abbrev tabLoc (d : Dev nD) : Loc nD τ sig := (SparseCore.T d).loc main_v1
abbrev outLoc (d : Dev nD) : Loc nD τ sig := (SparseCore.T d).loc main_v2

theorem nCore_zero : (K (F := F)).nCore 0 = 2 := rfl
theorem nSub_zero : (K (F := F)).nSub 0 = 16 := rfl

/-- The tile on SparseCore `c`, subcore `i` has number `2·i + c`. -/
def wid (c : Fin 2) (i : Fin 16) : Fin 32 := ⟨2 * i.val + c.val, by omega⟩
/-- The same, at the launch's own index types. -/
abbrev widK (c : Fin ((K (F := F)).nCore 0)) (i : Fin ((K (F := F)).nSub 0)) : Fin 32 :=
  wid (Fin.cast nCore_zero c) (Fin.cast nSub_zero i)

theorem hdiv1 : 32 ∣ S1024.size 0 := ⟨32, rfl⟩
theorem hdiv2 : 32 ∣ S1024x128.size 0 := ⟨32, rfl⟩
/-- Run `w` of the ids: entries 32·w ‥ 32·w + 31. -/
abbrev idsRow (w : Fin 32) : Rect S1024 := Rect.part (s := S1024) (a₀ := 0) hdiv1 w
/-- Run `w` of the gathered array: rows 32·w ‥ 32·w + 31, every column. -/
abbrev outRow (w : Fin 32) : Rect S1024x128 := Rect.part (s := S1024x128) (a₀ := 0) hdiv2 w
abbrev idsSet (w : Fin 32) : Finset S1024.Idx :=
  ((Memref.whole main_arg0_scv : Memref sig .scVector .hbm S1024 .i32).view.slice (idsRow w)).set
abbrev outSet (w : Fin 32) : Finset S1024x128.Idx :=
  ((Memref.whole main_v2_scv : Memref sig .scVector .hbm S1024x128 .f32).view.slice (outRow w)).set
/-- Row `k` of run `w`, as a row of the whole. -/
def rowIx (w k : Fin 32) : Fin 1024 := ⟨32 * w.val + k.val, by omega⟩

/-! ## What the handshakes carry -/

variable (m : (ℓ : Loc nD τ sig) → Buf (Elt F) ℓ)

/-- Run `w` of the ids at the launch contents; the `w`-th read share of the halves table; run `w` of the gathered array. -/
abbrev idsPts (d : Dev nD) (w : Fin 32) : sProp 𝕄 := xLoc d ↦[idsSet w]{fullShare} m (xLoc d)
abbrev tabTok (d : Dev nD) (w : Fin 32) (tab : Buf (Elt F) (tabLoc d)) : sProp 𝕄 := tabLoc d ↦{shareTok fullShare 32 w} tab
abbrev outPts (d : Dev nD) (w : Fin 32) (f : Buf (Elt F) (outLoc d)) : sProp 𝕄 := outLoc d ↦[outSet w]{fullShare} f

/-- Every row of run `w` of `f` holds its token's embedding row in the half the id selects. -/
def RunGood (d : Dev nD) (w : Fin 32) (f : Buf (Elt F) (outLoc d)) : Prop :=
  ∀ k : Fin 32, Cert.Good.RowGood (m (embLoc d)) (m (xLoc d)) f (rowIx w k)

/-- What tile `w` is handed. -/
def goW (d : Dev nD) (w : Fin 32) : sProp 𝕄 :=
  iprop(idsPts m d w ∗ (∃ tab, ⌜Cert.Good.TabGood (m (embLoc d)) tab⌝ ∗ tabTok d w tab) ∗ (∃ f, outPts d w f))
/-- What tile `w` hands back. -/
def tdW (d : Dev nD) (w : Fin 32) : sProp 𝕄 :=
  iprop(idsPts m d w ∗ (∃ tab, tabTok d w tab) ∗ (∃ f, ⌜RunGood m d w f⌝ ∗ outPts d w f))

instance goW_storable (d : Dev nD) (w : Fin 32) : BI.Storable (upEmb : UEmb _ 𝕄) (goW m d w) := by
  unfold goW; infer_instance
instance tdW_storable (d : Dev nD) (w : Fin 32) : BI.Storable (upEmb : UEmb _ 𝕄) (tdW m d w) := by
  unfold tdW; infer_instance

/-- What is left of the halves table's full share beside the 32 read shares, at some contents: carried by SparseCore 0. -/
def remW (d : Dev nD) (c : ℕ) : sProp 𝕄 :=
  if c = 0 then iprop(∃ tab : Buf (Elt F) (tabLoc d), tabLoc d ↦{shareDrop fullShare 32} tab) else iprop(emp)

theorem remW_zero (d : Dev nD) : (remW d 0 : sProp 𝕄) = iprop(∃ tab : Buf (Elt F) (tabLoc d), tabLoc d ↦{shareDrop fullShare 32} tab) := if_pos rfl
theorem remW_one (d : Dev nD) : (remW d 1 : sProp 𝕄) = iprop(emp) := if_neg Nat.one_ne_zero

instance remW_storable (d : Dev nD) (c : ℕ) : BI.Storable (upEmb : UEmb _ 𝕄) (remW (F := F) d c) := by
  unfold remW; split <;> infer_instance

/-- The one call: a tile's part as above, a SparseCore's its sixteen tiles' parts together and its rest of the table. -/
def P : (K (F := F)).Pay (nD := nD) (Val := Elt F) (Name := ℕ) (U := UU) where
  st := fun q d c => match q with | 0 => iprop((bigSep Finset.univ fun i : Fin ((K (F := F)).nSub 0) => goW m d (widK c i)) ∗ remW d c.val)
  dn := fun q d c => match q with | 0 => iprop((bigSep Finset.univ fun i : Fin ((K (F := F)).nSub 0) => tdW m d (widK c i)) ∗ remW d c.val)
  go := fun q d c i => match q with | 0 => goW m d (widK c i)
  td := fun q d c i => match q with | 0 => tdW m d (widK c i)
  x := fun _ _ => iprop(emp)

instance P_storable : (P (F := F) m).IsStorable where
  st q d c := match q with
    | 0 => (inferInstance : BI.Storable (upEmb : UEmb _ 𝕄) iprop((bigSep Finset.univ fun i : Fin ((K (F := F)).nSub 0) => goW m d (widK c i)) ∗ remW d c.val))
  dn q d c := match q with
    | 0 => (inferInstance : BI.Storable (upEmb : UEmb _ 𝕄) iprop((bigSep Finset.univ fun i : Fin ((K (F := F)).nSub 0) => tdW m d (widK c i)) ∗ remW d c.val))
  go q d c i := match q with
    | 0 => (inferInstance : BI.Storable (upEmb : UEmb _ 𝕄) (goW m d (widK c i)))
  td q d c i := match q with
    | 0 => (inferInstance : BI.Storable (upEmb : UEmb _ 𝕄) (tdW m d (widK c i)))

theorem P_x (q : Fin 1) (thr : Thread nD τ) : (P (F := F) m).x q thr = iprop(emp) := rfl
theorem P_ox : (P (F := F) m).ox = fun _ _ => 0 := rfl
theorem P_go (d : Dev nD) (c : Fin ((K (F := F)).nCore 0)) (i : Fin ((K (F := F)).nSub 0)) : (P (F := F) m).go 0 d c i = goW m d (widK c i) := rfl
theorem P_td (d : Dev nD) (c : Fin ((K (F := F)).nCore 0)) (i : Fin ((K (F := F)).nSub 0)) : (P (F := F) m).td 0 d c i = tdW m d (widK c i) := rfl
theorem P_st (d : Dev nD) (c : Fin ((K (F := F)).nCore 0)) :
    (P (F := F) m).st 0 d c = iprop((bigSep Finset.univ fun i : Fin ((K (F := F)).nSub 0) => goW m d (widK c i)) ∗ remW d c.val) := rfl
theorem P_dn (d : Dev nD) (c : Fin ((K (F := F)).nCore 0)) :
    (P (F := F) m).dn 0 d c = iprop((bigSep Finset.univ fun i : Fin ((K (F := F)).nSub 0) => tdW m d (widK c i)) ∗ remW d c.val) := rfl

end Cert.KernelIdeal.Hand

end
-- ==== Proof.Main.lean ====
/-
  @main on the TensorCore, inside the SparseCore launch: a host transpose, the first TensorCore
  region, the SparseCore call, twelve host operations, the second TensorCore region, a host
  transpose. Each region is entered from every unscoped buffer held whole; the SparseCore call
  borrows the ids, the halves table and the gathered array and returns them.
-/
import proofs.«217423_g17910013624755_cont_8to1_1683_16_alg».proof.Proof.Common
import proofs.«217423_g17910013624755_cont_8to1_1683_16_alg».proof.Proof.Good
import Idealize.ShloMosaic.Lib.Pipeline.Frame
import proofs.«217423_g17910013624755_cont_8to1_1683_16_alg».proof.Proof.ScPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- No pipeline has a prefetched table. -/
abbrev adm : (p : Fin 2) → (pcfgs (F := F) p).Adm := fun p => (cfgs p).toPCfg_adm

/-- What the TensorCore owes the launch handshakes sits at a call's index, never at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

variable [FloatOps F]

variable (m : (ℓ : Loc nD τ sig) → Buf (Elt F) ℓ) (ρ : Dev nD → PrngReg)

/-- The two pipelines' staging-cell ghost state on a device, as the launch funds it. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

/-- The launch valuation. -/
def V0 (d : Dev nD) : Valuation τ sig (Elt F) := fun b => m (d, b)

/-! ## Contents on the TensorCore's references as a valuation -/

/-- The valuation that is `V'` on the TensorCore's references and `W` elsewhere. -/
def ofTc (d : Dev nD) (W : Valuation τ sig (Elt F)) (V' : (b : Ref sig .tc) → Buf (Elt F) ((d.tc : Thread nD τ).loc b)) : Valuation τ sig (Elt F) := fun b =>
  if h : ∃ r : Ref sig .tc, Proc.devRef .tc r = b then cast (congrArg (fun b' : DevRef τ sig => b'.ty.Contents (Elt F)) h.choose_spec) (V' h.choose)
  else W b

theorem ofTc_tc (d : Dev nD) (W : Valuation τ sig (Elt F)) (V' : (b : Ref sig .tc) → Buf (Elt F) ((d.tc : Thread nD τ).loc b)) (r : Ref sig .tc) :
    ofTc d W V' (Proc.devRef .tc r) = V' r := by
  unfold ofTc
  have h : ∃ r' : Ref sig .tc, Proc.devRef .tc r' = Proc.devRef (τ := τ) .tc r := ⟨r, rfl⟩
  rw [dif_pos h]
  suffices ∀ (r' : Ref sig .tc) (e : Proc.devRef .tc r' = Proc.devRef (τ := τ) .tc r),
      cast (congrArg (fun b' : DevRef τ sig => b'.ty.Contents (Elt F)) e) (V' r') = V' r from this _ h.choose_spec
  intro r' e
  obtain rfl : r' = r := Proc.devRef_injective _ e
  rfl

/-- Every unscoped buffer at `V'` is the unscoped set held at `ofTc d W V'`. -/
theorem unscopedBufs_ofTc (d : Dev nD) (W : Valuation τ sig (Elt F)) (V' : (b : Ref sig .tc) → Buf (Elt F) ((d.tc : Thread nD τ).loc b)) :
    (unscopedBufs d V' : sProp 𝕄) = StableHlo.held (SparseCore.T d) (Pipeline.ucRefs τ sig) (ofTc d W V') := by
  rw [← Pipeline.unscopedBufs_held d (ofTc d W V')]
  congr 1; funext b; exact (ofTc_tc d W V' b).symm

/-- A valuation read at the TensorCore's references. -/
abbrev rd (d : Dev nD) (W : Valuation τ sig (Elt F)) : (b : Ref sig .tc) → Buf (Elt F) ((d.tc : Thread nD τ).loc b) := fun b => W (Proc.devRef .tc b)

/-! ## The TensorCore's handshake state, its `owes` apart -/

/-- What `tcSt` holds besides the `owes`. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcTail d n) := rfl

/-- Pairs recorded at the index of a kernel's own waits keep the bound. -/
theorem wBelow_of (d : Dev nD) (b : ℕ) {W W' : Waits sig (HIx 1)} (hW : (K (F := F)).WBelow (SparseCore.T d) W b)
    (h : ∀ p ∈ W', p ∈ W ∨ p.2 = none) : (K (F := F)).WBelow (SparseCore.T d) W' b := fun p hp => by
  rcases h p hp with h | h
  · exact hW p h
  · rw [h, SparseCore.Cfg.lev_none]; exact Nat.zero_le _

/-! ## @main's host operations, named -/

abbrev opA : HloOp τ sig (Elt F) := StableHlo.unary main_arg2 main_v0 ((transpose S64x100000 [1, 0] · transposes_S100000x64_S64x100000_1_0) : (⟨S100000x64, .f32⟩ : BufTy).Contents (Elt F) → (⟨S64x100000, .f32⟩ : BufTy).Contents (Elt F))
abbrev opsB : List (HloOp τ sig (Elt F)) :=
  [ StableHlo.nullary main_c (constantI S_ 32 50176#32),
    StableHlo.unary main_c main_v3 (broadcastInDim S1024 ![] bcast_S_S1024 : (⟨S_, .i32⟩ : BufTy).Contents (Elt F) → (⟨S1024, .i32⟩ : BufTy).Contents (Elt F)),
    StableHlo.binary main_arg0 main_v3 main_v4 (cmpi .sge : (⟨S1024, .i32⟩ : BufTy).Contents (Elt F) → (⟨S1024, .i32⟩ : BufTy).Contents (Elt F) → (⟨S1024, .i1⟩ : BufTy).Contents (Elt F)),
    StableHlo.unary main_v4 main_v5 (uitofp .f32 : (⟨S1024, .i1⟩ : BufTy).Contents (Elt F) → (⟨S1024, .f32⟩ : BufTy).Contents (Elt F)),
    StableHlo.reshape main_v5 main_v6 rfl shapeCasts_S1024_S1024x1,
    StableHlo.unary main_arg13 main_v7 ((transpose S100000x256 [1, 0] · transposes_S256x100000_S100000x256_1_0) : (⟨S256x100000, .f32⟩ : BufTy).Contents (Elt F) → (⟨S100000x256, .f32⟩ : BufTy).Contents (Elt F)),
    StableHlo.reshape main_arg4 main_v8 rfl shapeCasts_S256_S1x256,
    StableHlo.reshape main_arg6 main_v9 rfl shapeCasts_S256_S1x256,
    StableHlo.reshape main_arg8 main_v10 rfl shapeCasts_S256_S1x256,
    StableHlo.reshape main_arg12 main_v11 rfl shapeCasts_S256_S1x256,
    StableHlo.reshape main_arg14 main_v12 rfl shapeCasts_S100000_S1x100000 ]
abbrev opL : HloOp τ sig (Elt F) := StableHlo.unary main_v13_0 main_v14 ((transpose S1024x100000 [1, 0] · transposes_S100000x1024_S1024x100000_1_0) : (⟨S100000x1024, .f32⟩ : BufTy).Contents (Elt F) → (⟨S1024x100000, .f32⟩ : BufTy).Contents (Elt F))

variable (Post0 Post2 : (d : Dev nD) → (V V' : (b : Ref sig .tc) → Buf (Elt F) ((d.tc : Thread nD τ).loc b)) → Prop)

/-- The valuation after the first host operation. -/
abbrev WA (d : Dev nD) : Valuation τ sig (Elt F) := (opA (F := F)).result (V0 m d)
/-- After the SparseCore call: the halves table at what came back, the gathered array at `g`. -/
def WC (d : Dev nD) (V1 : (b : Ref sig .tc) → Buf (Elt F) ((d.tc : Thread nD τ).loc b)) (tab' : Buf (Elt F) (tabLoc d)) (g : Buf (Elt F) (outLoc d)) : Valuation τ sig (Elt F) :=
  Function.update (Function.update (ofTc d (WA m d) V1) (Proc.devRef .tc main_v1) tab') (Proc.devRef .tc main_v2) g

/-- How the final valuation came about: the first region's exit contents, what the SparseCore call returned, the second region's exit contents. -/
def Chain (d : Dev nD) (Wf : Valuation τ sig (Elt F)) : Prop :=
  ∃ (V1 : (b : Ref sig .tc) → Buf (Elt F) ((d.tc : Thread nD τ).loc b)) (tab' : Buf (Elt F) (tabLoc d)) (g : Buf (Elt F) (outLoc d))
    (V3 : (b : Ref sig .tc) → Buf (Elt F) ((d.tc : Thread nD τ).loc b)),
    Post0 d (rd d (WA m d)) V1 ∧ Cert.Good.GatherGood (m (embLoc d)) (m (xLoc d)) g
      ∧ Post2 d (rd d (StableHlo.after opsB (WC m d V1 tab' g))) V3
      ∧ Wf = (opL (F := F)).result (ofTc d (StableHlo.after opsB (WC m d V1 tab' g)) V3)

/-- What @main leaves: every unscoped buffer at a valuation the chain produced. -/
def FIN (d : Dev nD) : sProp 𝕄 := iprop(∃ Wf, ⌜Chain m Post0 Post2 d Wf⌝ ∗ StableHlo.held (SparseCore.T d) (Pipeline.ucRefs τ sig) Wf)

/-- The three buffers the SparseCore call borrows. -/
abbrev scRefs : Finset (DevRef τ sig) := {Proc.devRef .tc main_arg0, Proc.devRef .tc main_v1, Proc.devRef .tc main_v2}

theorem held_scRefs (d : Dev nD) (W : Valuation τ sig (Elt F)) :
    (StableHlo.held (SparseCore.T d) scRefs W : sProp 𝕄)
      = iprop((xLoc d ↦{fullShare} W (Proc.devRef .tc main_arg0)) ∗ (tabLoc d ↦{fullShare} W (Proc.devRef .tc main_v1)) ∗ outLoc d ↦{fullShare} W (Proc.devRef .tc main_v2)) := by
  unfold StableHlo.held scRefs
  rw [SparseCore.bigSep_insert' (by decide), SparseCore.bigSep_insert' (by decide), bigSep_singleton]

theorem scRefs_sub : (scRefs : Finset (DevRef τ sig)) ⊆ Pipeline.ucRefs τ sig := by decide

/-- The unscoped set held again after the call, at the valuation that records what came back. -/
theorem held_WC (d : Dev nD) (V1 : (b : Ref sig .tc) → Buf (Elt F) ((d.tc : Thread nD τ).loc b)) (tab' : Buf (Elt F) (tabLoc d)) (g : Buf (Elt F) (outLoc d))
    (hx : V1 main_arg0 = m (xLoc d)) :
    iprop((xLoc d ↦{fullShare} m (xLoc d)) ∗ (tabLoc d ↦{fullShare} tab') ∗ (outLoc d ↦{fullShare} g)
        ∗ StableHlo.held (SparseCore.T d) (Pipeline.ucRefs τ sig \ scRefs) (ofTc d (WA m d) V1))
      ⊢ (StableHlo.held (SparseCore.T d) (Pipeline.ucRefs τ sig) (WC m d V1 tab' g) : sProp 𝕄) := by
  have h0 : WC m d V1 tab' g (Proc.devRef .tc main_arg0) = m (xLoc d) := by
    unfold WC
    rw [Function.update_of_ne (StableHlo.devRef_ne_of_ne (by decide)), Function.update_of_ne (StableHlo.devRef_ne_of_ne (by decide)), ofTc_tc, hx]
  have h1 : WC m d V1 tab' g (Proc.devRef .tc main_v1) = tab' := by
    unfold WC
    rw [Function.update_of_ne (StableHlo.devRef_ne_of_ne (by decide)), Function.update_self]
  have h2 : WC m d V1 tab' g (Proc.devRef .tc main_v2) = g := by
    unfold WC; rw [Function.update_self]
  rw [StableHlo.held_sub_split (SparseCore.T d) scRefs_sub (WC m d V1 tab' g), held_scRefs, h0, h1, h2,
    StableHlo.held_congr (SparseCore.T d) (S := Pipeline.ucRefs τ sig \ scRefs) (V := WC m d V1 tab' g) (V' := ofTc d (WA m d) V1) (fun b hb => by
      have hb' := (Finset.mem_sdiff.mp hb).2
      unfold WC
      rw [Function.update_of_ne (fun e => hb' (by rw [e]; decide)), Function.update_of_ne (fun e => hb' (by rw [e]; decide))])]
  iintro ⟨Hx, Htab, Hout, Hrest⟩
  isplitl [Hx Htab Hout]
  · isplitl [Hx]; · iexact Hx
    isplitl [Htab]; · iexact Htab
    iexact Hout
  · iexact Hrest

set_option maxHeartbeats 4000000 in
theorem hmain (κ : GSem nD τ sig → ℕ) (d : Dev nD)
    (hreg0 : ∀ (d : Dev nD) (V : (b : Ref sig .tc) → Buf (Elt F) ((d.tc : Thread nD τ).loc b)) (O : CellTallies nD τ sig (HIx 1)) (hO : ∀ g, O g none = 0) (W : Waits sig (HIx 1)) {α : Type} (k : PUnit → Prog (TpuEff nD τ sig (Elt F) (ΛP (F := F)) .tc) α) (Q : α → sProp 𝕄),
    iprop((iprop(boundary (d.tc : Thread nD τ) ∗ (∃ V', ⌜Post0 d V V'⌝ ∗ unscopedBufs d V') ∗ (∃ W', ⌜∀ p ∈ W', p ∈ W ∨ p.2 = none⌝ ∗ owes (d.tc : Thread nD τ) O W')) -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q)
    (hreg2 : ∀ (d : Dev nD) (V : (b : Ref sig .tc) → Buf (Elt F) ((d.tc : Thread nD τ).loc b)) (O : CellTallies nD τ sig (HIx 1)) (hO : ∀ g, O g none = 0) (W : Waits sig (HIx 1)) {α : Type} (k : PUnit → Prog (TpuEff nD τ sig (Elt F) (ΛP (F := F)) .tc) α) (Q : α → sProp 𝕄),
    iprop((iprop(boundary (d.tc : Thread nD τ) ∗ (∃ V', ⌜Post2 d V V'⌝ ∗ unscopedBufs d V') ∗ (∃ W', ⌜∀ p ∈ W', p ∈ W ∨ p.2 = none⌝ ∗ owes (d.tc : Thread nD τ) O W')) -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q)
    (hst : ∀ (d : Dev nD) (tab : Buf (Elt F) (tabLoc d)), Cert.Good.TabGood (m (embLoc d)) tab →
      iprop((xLoc d ↦{fullShare} m (xLoc d)) ∗ (tabLoc d ↦{fullShare} tab) ∗ (∃ f : Buf (Elt F) (outLoc d), outLoc d ↦{fullShare} f))
        ⊢ (bigSep Finset.univ fun c : Fin ((K (F := F)).nCore 0) => (P m).st 0 d c : sProp 𝕄))
    (hdn : ∀ d : Dev nD, (bigSep Finset.univ fun c : Fin ((K (F := F)).nCore 0) => (P m).dn 0 d c : sProp 𝕄)
        ⊢ iprop((xLoc d ↦{fullShare} m (xLoc d)) ∗ (∃ tab' : Buf (Elt F) (tabLoc d), tabLoc d ↦{fullShare} tab')
          ∗ ∃ f : Buf (Elt F) (outLoc d), ⌜Cert.Good.GatherGood (m (embLoc d)) (m (xLoc d)) f⌝ ∗ outLoc d ↦{fullShare} f))
    (hx0 : ∀ (d : Dev nD) V1, Post0 d (rd d (WA m d)) V1 → V1 main_arg0 = m (xLoc d))
    (htab : ∀ (d : Dev nD) V1, Post0 d (rd d (WA m d)) V1 → Cert.Good.TabGood (m (embLoc d)) (V1 main_v1)) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m Post0 Post2 d) := by
  unfold SparseCore.Cfg.tcRes
  rw [show (unscopedBufs d fun b => m ((SparseCore.T d).loc b) : sProp 𝕄) = StableHlo.held (SparseCore.T d) (Pipeline.ucRefs τ sig) (V0 m d) from
    Pipeline.unscopedBufs_held d (V0 m d), tcSt_eq, tcSt_eq]
  simp only [main, wp_bind, wp_pure]
  unfold G
  iintro ⟨#Hctx, ⟨⟨%W, %hW, HO⟩, Hst⟩, ⟨Hb, Hheld, -, -⟩, ⟨HG0a, HG0b⟩, ⟨HG1a, HG1b⟩⟩
  ihave Hlev := (SparseCore.Cfg.ctx_levAts (K := K (F := F)) κ) $$ Hctx
  -- the transpose of the embedding table
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  -- the first region
  iapply ((K (F := F)).wp_liftProg (D (F := F)) 𝒱 (SparseCore.T d) Set.univ none (Prog.op (TpuEff.customCall (Pipeline.entry 0) ()) fun _ => Prog.ret PUnit.unit) _)
  ihave Hub := (Entails.of_eq (Pipeline.unscopedBufs_held (Ix := HIx 1) (Name := ℕ) (U := UU) (Lvl := ℕ) d _).symm) $$ Hheld
  iapply (hreg0 d _ ((K (F := F)).Otc d 0) (Otc_none d 0) W (fun _ => Prog.ret PUnit.unit) _) $$ [Hb Hub HO HG0a HG0b Hst HG1a HG1b]
  isplitr [Hb Hub HO HG0a HG0b]
  swap
  · isplitl [Hb]; · iexact Hb
    isplitl [Hub]; · iexact Hub
    isplitl [HO]; · iexact HO
    isplitr; · iexact Hlev
    isplitl [HG0a] <;> iassumption
  iintro ⟨Hb, ⟨%V1, %hV1, Hub⟩, ⟨%W1, %hW1, HO⟩⟩
  rw [wp_ret]; imodintro
  -- the SparseCore call: the ids, the halves table and the gathered array out of the unscoped set, and back
  ihave Hheld := (Entails.of_eq (unscopedBufs_ofTc d (WA m d) V1)) $$ Hub
  ihave Hsp := (Entails.of_eq (StableHlo.held_sub_split (SparseCore.T d) scRefs_sub (ofTc d (WA m d) V1))) $$ Hheld
  icases Hsp with ⟨Hsc, Hrest⟩
  ihave Hsc' := (Entails.of_eq (held_scRefs d (ofTc d (WA m d) V1))) $$ Hsc
  icases Hsc' with ⟨Hx, Htab, Hout⟩
  rw [ofTc_tc, ofTc_tc, ofTc_tc, hx0 d V1 hV1]
  iapply ((K (F := F)).wp_run (D (F := F)) 𝒱 (EH := EH) (P := P m) κ d 0) $$ [HO Hst Hx Htab Hout Hb Hrest HG1a HG1b]
  isplitr; · iexact Hctx
  isplitl [HO Hst]
  · rw [tcSt_eq]
    isplitl [HO]
    · iexists W1; isplitr
      · ipureintro; exact wBelow_of d _ hW hW1
      · iexact HO
    · iexact Hst
  isplitl [Hx Htab Hout]
  · iapply (hst d (V1 main_v1) (htab d V1 hV1))
    isplitl [Hx]; · iexact Hx
    isplitl [Htab]; · iexact Htab
    iexists _; iexact Hout
  iintro ⟨Hst, Hdn⟩
  ihave Hdn' := (hdn d) $$ Hdn
  icases Hdn' with ⟨Hx, ⟨%tab', Htab⟩, ⟨%g, %hg, Hout⟩⟩
  ihave Hheld := (held_WC m d V1 tab' g (hx0 d V1 hV1)) $$ [Hx Htab Hout Hrest]
  · isplitl [Hx]; · iexact Hx
    isplitl [Htab]; · iexact Htab
    isplitl [Hout]; · iexact Hout
    iexact Hrest
  -- eleven host operations
  iapply (wp_hlo_within 𝒱 (SparseCore.T d) none Set.univ (S := Pipeline.ucRefs τ sig) (Pipeline.sub_ucRefs _ (StableHlo.nullary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.binary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  -- the second region
  iapply ((K (F := F)).wp_liftProg (D (F := F)) 𝒱 (SparseCore.T d) Set.univ none (Prog.op (TpuEff.customCall (Pipeline.entry 1) ()) fun _ => Prog.ret PUnit.unit) _)
  ihave Hub := (Entails.of_eq (Pipeline.unscopedBufs_held (Ix := HIx 1) (Name := ℕ) (U := UU) (Lvl := ℕ) d _).symm) $$ Hheld
  ihave Hst1 := (Entails.of_eq (show ((K (F := F)).tcSt EH d ((0 : Fin 1).val + 1) : sProp 𝕄) = (K (F := F)).tcSt EH d 1 from rfl)) $$ Hst
  ihave Hst' := (Entails.of_eq (tcSt_eq (F := F) d 1)) $$ Hst1
  icases Hst' with ⟨⟨%W2, %hW2, HO⟩, Hst⟩
  iapply (hreg2 d _ ((K (F := F)).Otc d 1) (Otc_none d 1) W2 (fun _ => Prog.ret PUnit.unit) _) $$ [Hb Hub HO HG1a HG1b Hst]
  isplitr [Hb Hub HO HG1a HG1b]
  swap
  · isplitl [Hb]; · iexact Hb
    isplitl [Hub]; · iexact Hub
    isplitl [HO]; · iexact HO
    isplitr; · iexact Hlev
    isplitl [HG1a] <;> iassumption
  iintro ⟨Hb, ⟨%V3, %hV3, Hub⟩, ⟨%W3, %hW3, HO⟩⟩
  rw [wp_ret]; imodintro
  ihave Hheld := (Entails.of_eq (unscopedBufs_ofTc d (StableHlo.after opsB (WC m d V1 tab' g)) V3)) $$ Hub
  -- the last transpose
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  imodintro
  isplitl [HO Hst]
  · isplitl [HO]
    · iexists W3; isplitr
      · ipureintro; exact wBelow_of d _ hW2 hW3
      · iexact HO
    · iexact Hst
  unfold FIN
  iexists _; isplitr
  · ipureintro; exact ⟨V1, tab', g, V3, hV1, hg, hV3, rfl⟩
  · iexact Hheld

/-! ## The launch element -/

/-- The staging cells of the two pipelines are pairwise distinct. -/
theorem phinj : Function.Injective (Pipeline.cellOf (nD := nD) (τ := τ) (Pipeline.pin (pcfgs (F := F)) adm)) := cellOf_inj

/-- The launch element: the handshakes' rounds, the pipelines' staging cells' rounds, no counter. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem hu₀ : (ownU (u₀ (F := F)) : sProp 𝕄)
    ⊢ |={Set.univ}=> iprop(BI.own (EH (initOf (K (F := F)).hsCells (K (F := F)).hsToks)) ∗ (bigSep Finset.univ fun d : Dev nD => (G d : sProp 𝕄))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR (A := UH)) _ _) $$ HR
  icases H2 with ⟨HP, -⟩
  ihave HP' := (Entails.of_eq (show (BI.own ((((Emb.inl : Emb UP (UP × Counters)).trans (embR (A := UH))) : Emb UP 𝕄)
      (initOf (Pipeline.cells (Pipeline.pin (pcfgs (F := F)) adm) phinj) (Pipeline.launchToks (Pipeline.pin (pcfgs (F := F)) adm) phinj))) : sProp 𝕄)
      = BI.own (EP (initOf (Pipeline.cells (Pipeline.pin (pcfgs (F := F)) adm) phinj) (Pipeline.launchToks (Pipeline.pin (pcfgs (F := F)) adm) phinj))) from rfl)) $$ HP
  imod (Pipeline.fund_ghost (Pipeline.pin (pcfgs (F := F)) adm) EP phinj) $$ HP' with ⟨Hg, Ht⟩
  imodintro
  isplitl [HH]; · iexact HH
  isplitl [Hg Ht]
  · unfold G
    simp only [bigSep_fin2, bigSep_sep']
    icases Hg with ⟨Hg0, Hg1⟩
    icases Ht with ⟨Ht0, Ht1⟩
    isplitl [Hg0 Ht0]
    · isplitl [Hg0] <;> iassumption
    · isplitl [Hg1] <;> iassumption
  · simp only [P_x]
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## Reading the final memory -/

/-- A set of whole buffers held at a valuation pins the memory at each of them. -/
theorem held_read_all (d : Dev nD) (W : Valuation τ sig (Elt F)) (s' : Phys nD τ sig (Elt F)) :
    ∀ S : Finset (DevRef τ sig), iprop(StableHlo.held (SparseCore.T d) S W ∗ SI s')
      ⊢ (iprop(⌜∀ b ∈ S, s'.mem.mem ((d, b) : Loc nD τ sig) = W b⌝ ∗ SI s') : sProp 𝕄) := by
  intro S
  induction S using Finset.induction_on with
  | empty =>
    iintro ⟨-, HSI⟩
    isplitr; · ipureintro; intro b hb; exact absurd hb (Finset.notMem_empty b)
    iexact HSI
  | insert a S ha ih =>
    unfold StableHlo.held
    rw [SparseCore.bigSep_insert' ha]
    iintro ⟨⟨Ha, HS⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%h1, HSI, -⟩
    ihave H2 := ih $$ [HS HSI]
    · isplitl [HS]
      · unfold StableHlo.held; iexact HS
      · iexact HSI
    icases H2 with ⟨%h2, HSI⟩
    isplitr
    · ipureintro; intro b hb
      rcases Finset.mem_insert.mp hb with rfl | hb
      · exact funext fun i => h1 i (Finset.mem_univ i)
      · exact h2 b hb
    · iexact HSI

/-- What the final memory of device `d` satisfies. -/
def fq (d : Dev nD) (s' : Phys nD τ sig (Elt F)) : Prop :=
  ∃ Wf, Chain m Post0 Post2 d Wf ∧ ∀ b ∈ Pipeline.ucRefs τ sig, s'.mem.mem ((d, b) : Loc nD τ sig) = Wf b

theorem hfin (d : Dev nD) (s' : Phys nD τ sig (Elt F)) : iprop(FIN m Post0 Post2 d ∗ SI s') ⊢ (⌜fq m Post0 Post2 d s'⌝ : sProp 𝕄) := by
  unfold FIN
  iintro ⟨⟨%Wf, %hc, Hh⟩, HSI⟩
  ihave H := (held_read_all d Wf s' (Pipeline.ucRefs τ sig)) $$ [Hh HSI]
  · isplitl [Hh] <;> iassumption
  icases H with ⟨%h, -⟩
  ipureintro; exact ⟨Wf, hc, h⟩

/-- The program's post, device by device. -/
def QC : PUnit × MemSt nD τ sig (Elt F) → Prop := fun r =>
  ∀ c : Dev nD, ∃ Wf, Chain m Post0 Post2 c Wf ∧ ∀ b ∈ Pipeline.ucRefs τ sig, r.2.mem ((c, b) : Loc nD τ sig) = Wf b

end Cert.KernelIdeal.Hand

end
-- ==== Proof.ScSplit.lean ====
/-
  How the gather's arrays are dealt among the 32 tiles and gathered back.

  The tile on SparseCore c, subcore i has number 2·i + c: a bijection between the 2 × 16 tiles and
  the 32 runs, so a product over the tiles is a product over the runs. The 32 runs of the ids (of
  the gathered array) are pairwise disjoint and cover it, so the whole array is its 32 runs side by
  side, and 32 runs held at 32 different contents are the whole held at one contents that agrees
  with each on its run. The halves table's full share is the 32 read shares and a rest; shares of
  one array held at different contents agree wherever both are held, so the rest and the 32 shares,
  each at some contents, are the full share at the rest's contents. A row's goodness reads only
  that row, so goodness of every run of the joined array follows from goodness of each tile's run.
-/
import proofs.«217423_g17910013624755_cont_8to1_1683_16_alg».proof.Proof.ScPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.ValueIdx (ix1 ix2)

variable {F : FTy → Type}

local notation "𝕄" => MT nD τ sig (HIx 1) (Elt F) ℕ UU ℕ

/-- An entailment of the logic, as the proof mode reads one. -/
theorem ent {A B : sProp 𝕄} (h : Idealize.SL.BI.Entails A B) : A ⊢ B := h

/-! ## Tiles and runs -/

/-- (c, i) ↦ 2·i + c is a bijection from the 2 × 16 tiles onto the 32 runs. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, i⟩
    have hc := c.isLt
    refine Prod.ext (Fin.ext ?_) (Fin.ext ?_)
    · show (2 * i.val + c.val) % 2 = c.val; omega
    · show (2 * i.val + c.val) / 2 = i.val; omega
  right_inv w := by
    apply Fin.ext
    show 2 * (w.val / 2) + w.val % 2 = w.val; omega

/-- A product over the tiles, as the launch indexes them, is the product over the runs. -/
theorem bigSep_tiles (Φ : Fin 32 → sProp 𝕄) :
    (bigSep Finset.univ fun c : Fin ((K (F := F)).nCore 0) => bigSep Finset.univ fun i : Fin ((K (F := F)).nSub 0) => Φ (widK c i))
      = bigSep Finset.univ Φ := by
  show (bigSep (Finset.univ : Finset (Fin 2)) fun c => bigSep (Finset.univ : Finset (Fin 16)) fun i => Φ (wid c i)) = _
  rw [bigSep_univ_equiv widEquiv Φ, bigSep_univ_prod (fun p : Fin 2 × Fin 16 => Φ (widEquiv p))]
  rfl

theorem idsSet_eq (w : Fin 32) : idsSet w = (idsRow w).set := by
  show ((View.whole (main_arg0_scv : Ref sig .scVector)).slice (idsRow w)).set = _
  rw [View.set_slice]; exact Finset.map_refl
theorem outSet_eq (w : Fin 32) : outSet w = (outRow w).set := by
  show ((View.whole (main_v2_scv : Ref sig .scVector)).slice (outRow w)).set = _
  rw [View.set_slice]; exact Finset.map_refl

theorem ids_disjoint : ∀ i ∈ (Finset.univ : Finset (Fin 32)), ∀ j ∈ (Finset.univ : Finset (Fin 32)), i ≠ j → Disjoint (idsSet i) (idsSet j) :=
  fun i _ j _ h => by rw [idsSet_eq, idsSet_eq]; exact Rect.part_disjoint hdiv1 h
theorem ids_cover : (Finset.univ : Finset (Fin 32)).biUnion idsSet = Finset.univ :=
  (Finset.biUnion_congr rfl fun i _ => idsSet_eq i).trans (Rect.biUnion_part hdiv1)
theorem out_disjoint : ∀ i ∈ (Finset.univ : Finset (Fin 32)), ∀ j ∈ (Finset.univ : Finset (Fin 32)), i ≠ j → Disjoint (outSet i) (outSet j) :=
  fun i _ j _ h => by rw [outSet_eq, outSet_eq]; exact Rect.part_disjoint hdiv2 h
theorem out_cover : (Finset.univ : Finset (Fin 32)).biUnion outSet = Finset.univ :=
  (Finset.biUnion_congr rfl fun i _ => outSet_eq i).trans (Rect.biUnion_part hdiv2)

/-- The ids whole are their 32 runs. -/
theorem xPts_runs (d : Dev nD) (f : Buf (Elt F) (xLoc d)) :
    (xLoc d ↦{fullShare} f : sProp 𝕄) = bigSep Finset.univ fun w : Fin 32 => xLoc d ↦[idsSet w]{fullShare} f := by
  rw [← pointsTo_biUnion Finset.univ (ℓ := xLoc d) idsSet ids_disjoint, ids_cover]; try rfl
/-- The gathered array whole is its 32 runs. -/
theorem outPts_runs (d : Dev nD) (f : Buf (Elt F) (outLoc d)) :
    (outLoc d ↦{fullShare} f : sProp 𝕄) = bigSep Finset.univ fun w : Fin 32 => outLoc d ↦[outSet w]{fullShare} f := by
  rw [← pointsTo_biUnion Finset.univ (ℓ := outLoc d) outSet out_disjoint, out_cover]; try rfl

/-- Entry (32·w + k, j) of the gathered array lies in run `w`. -/
theorem mem_outSet (w k : Fin 32) (j : Fin 128) : (ix2 (rowIx w k) j : S1024x128.Idx) ∈ outSet w := by
  rw [outSet_eq]
  refine Rect.mem_set_unit.mpr fun a => ?_
  have hk := k.isLt
  have hj := j.isLt
  match a with
  | ⟨0, _⟩ =>
    show Shape.partIx S1024x128 0 w.val 0 * Shape.partSize S1024x128 0 32 0 ≤ 32 * w.val + k.val
      ∧ 32 * w.val + k.val < Shape.partIx S1024x128 0 w.val 0 * Shape.partSize S1024x128 0 32 0 + Shape.partSize S1024x128 0 32 0
    simp [Shape.partIx, Shape.partSize] <;> omega
  | ⟨1, _⟩ =>
    show Shape.partIx S1024x128 0 w.val 1 * Shape.partSize S1024x128 0 32 1 ≤ j.val
      ∧ j.val < Shape.partIx S1024x128 0 w.val 1 * Shape.partSize S1024x128 0 32 1 + Shape.partSize S1024x128 0 32 1
    simp [Shape.partIx, Shape.partSize] <;> omega

/-! ## The launch's payloads, all tiles together -/

variable (m : (ℓ : Loc nD τ sig) → Buf (Elt F) ℓ)

theorem st_all (d : Dev nD) :
    (bigSep Finset.univ fun c : Fin ((K (F := F)).nCore 0) => (P m).st 0 d c)
      = iprop((bigSep Finset.univ fun w : Fin 32 => goW m d w) ∗ (remW (F := F) d 0 ∗ remW (F := F) d 1)) := by
  show (bigSep Finset.univ fun c : Fin ((K (F := F)).nCore 0) =>
      iprop((bigSep Finset.univ fun i : Fin ((K (F := F)).nSub 0) => goW m d (widK c i)) ∗ remW d c.val)) = _
  rw [bigSep_sep', bigSep_tiles (fun w => goW m d w)]
  congr 1
  exact bigSep_univ_two (fun c : Fin 2 => remW (F := F) d c.val)

theorem dn_all (d : Dev nD) :
    (bigSep Finset.univ fun c : Fin ((K (F := F)).nCore 0) => (P m).dn 0 d c)
      = iprop((bigSep Finset.univ fun w : Fin 32 => tdW m d w) ∗ (remW (F := F) d 0 ∗ remW (F := F) d 1)) := by
  show (bigSep Finset.univ fun c : Fin ((K (F := F)).nCore 0) =>
      iprop((bigSep Finset.univ fun i : Fin ((K (F := F)).nSub 0) => tdW m d (widK c i)) ∗ remW d c.val)) = _
  rw [bigSep_sep', bigSep_tiles (fun w => tdW m d w)]
  congr 1
  exact bigSep_univ_two (fun c : Fin 2 => remW (F := F) d c.val)

/-! ## A SparseCore's part splits into its tiles' parts -/

theorem vecSplit : (K (F := F)).VecSplit' (P m) 0 := by
  intro d c
  show iprop((bigSep Finset.univ fun i : Fin ((K (F := F)).nSub 0) => goW m d (widK c i)) ∗ remW d c.val)
    ⊢ |={Set.univ}=> iprop((bigSep Finset.univ fun i : Fin ((K (F := F)).nSub 0) => goW m d (widK c i))
      ∗ ((bigSep Finset.univ fun i : Fin ((K (F := F)).nSub 0) => tdW m d (widK c i))
          -∗ iprop((bigSep Finset.univ fun i : Fin ((K (F := F)).nSub 0) => tdW m d (widK c i)) ∗ remW d c.val)))
  iintro ⟨Hgo, Hrem⟩; imodintro
  isplitl [Hgo]; · iexact Hgo
  iintro Htd
  isplitl [Htd]; · iexact Htd
  iexact Hrem

/-! ## Whole arrays in -/

theorem st0_intro (d : Dev nD) (tab : Buf (Elt F) (tabLoc d)) (htab : Cert.Good.TabGood (m (embLoc d)) tab) :
    iprop((xLoc d ↦{fullShare} m (xLoc d)) ∗ (tabLoc d ↦{fullShare} tab) ∗ (∃ f : Buf (Elt F) (outLoc d), outLoc d ↦{fullShare} f))
      ⊢ (bigSep Finset.univ fun c : Fin ((K (F := F)).nCore 0) => (P m).st 0 d c) := by
  rw [st_all, remW_zero, remW_one]
  have htok : ∀ w : Fin 32, (tabLoc d ↦{shareTok fullShare 32 w} tab : sProp 𝕄)
      ⊢ iprop(∃ tab : Buf (Elt F) (tabLoc d), ⌜Cert.Good.TabGood (m (embLoc d)) tab⌝ ∗ tabTok d w tab) := fun w => by
    iintro H; iexists tab; isplitr
    · ipureintro; exact htab
    · iexact H
  have hout : ∀ (f : Buf (Elt F) (outLoc d)) (w : Fin 32), (outLoc d ↦[outSet w]{fullShare} f : sProp 𝕄)
      ⊢ iprop(∃ f : Buf (Elt F) (outLoc d), outPts d w f) := fun f w => by
    iintro H; iexists f; iexact H
  iintro ⟨Hx, Ht, %f, Ho⟩
  ihave Hx' := (Entails.of_eq (xPts_runs (F := F) d (m (xLoc d)))) $$ Hx
  ihave Ho' := (Entails.of_eq (outPts_runs (F := F) d f)) $$ Ho
  ihave Ht' := (pointsTo_toks_split (ℓ := tabLoc d) (S := Finset.univ) (f := tab) fullShare 32) $$ Ht
  icases Ht' with ⟨Hrem, Htoks⟩
  isplitr [Hrem]
  · unfold goW
    rw [bigSep_sep', bigSep_sep']
    isplitl [Hx']; · iexact Hx'
    isplitl [Htoks]
    · iapply (ent (bigSep_mono (s := Finset.univ) fun w _ => htok w)) $$ Htoks
    · iapply (ent (bigSep_mono (s := Finset.univ) fun w _ => hout f w)) $$ Ho'
  · isplitl [Hrem]
    · iexists tab; iexact Hrem
    · iempintro

/-! ## Whole arrays out -/

/-- Beside the rest of the table's share, read shares at any contents are read shares at the rest's contents. -/
theorem toks_agree (d : Dev nD) (tr : Buf (Elt F) (tabLoc d)) (s : Finset (Fin 32)) :
    iprop((tabLoc d ↦{shareDrop fullShare 32} tr) ∗ bigSep s fun w : Fin 32 => iprop(∃ tab : Buf (Elt F) (tabLoc d), tabTok d w tab))
      ⊢ (iprop((tabLoc d ↦{shareDrop fullShare 32} tr) ∗ bigSep s fun w : Fin 32 => tabTok d w tr) : sProp 𝕄) := by
  classical
  induction s using Finset.induction_on with
  | empty => rw [bigSep_empty, bigSep_empty]
  | insert w s hw ih =>
    have e₁ : (bigSep (insert w s) fun w : Fin 32 => iprop(∃ tab : Buf (Elt F) (tabLoc d), tabTok d w tab))
        = iprop((∃ tab : Buf (Elt F) (tabLoc d), tabTok d w tab) ∗ bigSep s fun w : Fin 32 => iprop(∃ tab : Buf (Elt F) (tabLoc d), tabTok d w tab)) :=
      bigSep_insert hw
    have e₂ : (bigSep (insert w s) fun w : Fin 32 => (tabTok d w tr : sProp 𝕄))
        = iprop(tabTok d w tr ∗ bigSep s fun w : Fin 32 => tabTok d w tr) := bigSep_insert hw
    rw [e₁, e₂]
    iintro ⟨Hr, ⟨%tab, Hw⟩, Hs⟩
    ihave H := (persistent_entails_right (pointsTo_agree (ℓ := tabLoc d) (I := Finset.univ) (J := Finset.univ)
      (q₁ := shareDrop fullShare 32) (q₂ := shareTok fullShare 32 w) (f := tr) (g := tab))) $$ [Hr Hw]
    · isplitl [Hr] <;> iassumption
    icases H with ⟨%hag, Hr, Hw⟩
    have e : tab = tr := funext fun i => ((hag i (Finset.mem_inter.mpr ⟨Finset.mem_univ _, Finset.mem_univ _⟩)).1).symm
    subst e
    ihave H := ih $$ [Hr Hs]
    · isplitl [Hr] <;> iassumption
    icases H with ⟨Hr, Hs⟩
    isplitl [Hr]; · iexact Hr
    isplitl [Hw] <;> iassumption

/-- Goodness of every tile's run of an array that agrees with the tile's on its run is goodness of the whole. -/
theorem gatherGood_of_runs (d : Dev nD) (fs : Fin 32 → Buf (Elt F) (outLoc d)) (g : Buf (Elt F) (outLoc d))
    (hgood : ∀ w, RunGood m d w (fs w)) (hg : ∀ w, ∀ i ∈ outSet w, g i = fs w i) :
    Cert.Good.GatherGood (m (embLoc d)) (m (xLoc d)) g := by
  intro b
  have hb := b.isLt
  obtain ⟨w, k, rfl⟩ : ∃ w k : Fin 32, b = rowIx w k :=
    ⟨⟨b.val / 32, by omega⟩, ⟨b.val % 32, Nat.mod_lt _ (by decide)⟩, Fin.ext (by show b.val = 32 * (b.val / 32) + b.val % 32; omega)⟩
  intro j
  have h := hgood w k j
  refine ⟨fun hlt => ?_, fun hge => ?_⟩
  · rw [hg w _ (mem_outSet w k _)]; exact h.1 hlt
  · rw [hg w _ (mem_outSet w k _)]; exact h.2 hge

theorem dn0_elim (d : Dev nD) :
    (bigSep Finset.univ fun c : Fin ((K (F := F)).nCore 0) => (P m).dn 0 d c)
      ⊢ iprop((xLoc d ↦{fullShare} m (xLoc d)) ∗ (∃ tab' : Buf (Elt F) (tabLoc d), tabLoc d ↦{fullShare} tab')
          ∗ ∃ f : Buf (Elt F) (outLoc d), ⌜Cert.Good.GatherGood (m (embLoc d)) (m (xLoc d)) f⌝ ∗ outLoc d ↦{fullShare} f) := by
  have hne : ∀ _ : Fin 32, Nonempty (Buf (Elt F) (outLoc d)) := fun _ => ⟨m (outLoc d)⟩
  rw [dn_all, remW_zero, remW_one]
  unfold tdW
  rw [bigSep_sep', bigSep_sep']
  iintro ⟨⟨Hx, Htoks, Ho⟩, ⟨%tr, Hrem⟩, -⟩
  isplitl [Hx]
  · iapply (Entails.of_eq (xPts_runs (F := F) d (m (xLoc d))).symm); iexact Hx
  isplitl [Htoks Hrem]
  · ihave H := (toks_agree (F := F) d tr Finset.univ) $$ [Hrem Htoks]
    · isplitl [Hrem] <;> iassumption
    iexists tr
    iapply (pointsTo_toks_join (ℓ := tabLoc d) (S := Finset.univ) (f := tr) fullShare 32); iexact H
  · ihave H := (@bigSep_exists_pi _ _ _ _ (fun _ : Fin 32 => Buf (Elt F) (outLoc d)) hne Finset.univ (fun (w : Fin 32) (f : Buf (Elt F) (outLoc d)) => iprop(⌜RunGood m d w f⌝ ∗ outPts d w f))) $$ Ho
    icases H with ⟨%fs, H⟩
    ihave H' := (bigSep_pure_sep Finset.univ (fun w : Fin 32 => RunGood m d w (fs w)) (fun w : Fin 32 => outPts d w (fs w))) $$ H
    icases H' with ⟨%hgood, H⟩
    ihave H'' := (pointsTo_biUnion_join Finset.univ outSet fs (fs 0) out_disjoint) $$ H
    icases H'' with ⟨%g, %hg, Hg⟩
    rw [out_cover]
    iexists g; isplitr
    · ipureintro
      exact gatherGood_of_runs m d fs g (fun w => hgood w (Finset.mem_univ w)) (fun w i hi => hg w (Finset.mem_univ w) i hi)
    · iexact Hg

end Cert.KernelIdeal.Hand

end
-- ==== Proof.Run.lean ====
/-
  The whole program's run from the launch theorem: every weakly fair execution of the device's
  threads terminates, nothing faulting, and every final memory holds, on every device, the
  unscoped buffers at a valuation the chain of @main's steps produced.
-/
import proofs.«217423_g17910013624755_cont_8to1_1683_16_alg».proof.Proof.Main
import proofs.«217423_g17910013624755_cont_8to1_1683_16_alg».proof.Proof.ScSplit

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (Post0 Post2 : (d : Dev nD) → (V V' : (b : Ref sig .tc) → Buf (Elt F) ((d.tc : Thread nD τ).loc b)) → Prop)

theorem run_main [∀ e, Nonempty (Elt F e)]
    (hreg0 : ∀ (d : Dev nD) (V : (b : Ref sig .tc) → Buf (Elt F) ((d.tc : Thread nD τ).loc b)) (O : CellTallies nD τ sig (HIx 1)) (hO : ∀ g, O g none = 0) (W : Waits sig (HIx 1)) {α : Type} (k : PUnit → Prog (TpuEff nD τ sig (Elt F) (ΛP (F := F)) .tc) α) (Q : α → sProp 𝕄),
    iprop((iprop(boundary (d.tc : Thread nD τ) ∗ (∃ V', ⌜Post0 d V V'⌝ ∗ unscopedBufs d V') ∗ (∃ W', ⌜∀ p ∈ W', p ∈ W ∨ p.2 = none⌝ ∗ owes (d.tc : Thread nD τ) O W')) -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q)
    (hreg2 : ∀ (d : Dev nD) (V : (b : Ref sig .tc) → Buf (Elt F) ((d.tc : Thread nD τ).loc b)) (O : CellTallies nD τ sig (HIx 1)) (hO : ∀ g, O g none = 0) (W : Waits sig (HIx 1)) {α : Type} (k : PUnit → Prog (TpuEff nD τ sig (Elt F) (ΛP (F := F)) .tc) α) (Q : α → sProp 𝕄),
    iprop((iprop(boundary (d.tc : Thread nD τ) ∗ (∃ V', ⌜Post2 d V V'⌝ ∗ unscopedBufs d V') ∗ (∃ W', ⌜∀ p ∈ W', p ∈ W ∨ p.2 = none⌝ ∗ owes (d.tc : Thread nD τ) O W')) -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q)
    (hx0 : ∀ (d : Dev nD) V1, Post0 d (rd d (WA m d)) V1 → V1 main_arg0 = m (xLoc d))
    (htab : ∀ (d : Dev nD) V1, Post0 d (rd d (WA m d)) V1 → Cert.Good.TabGood (m (embLoc d)) (V1 main_v1))
    (htile : (K (F := F)).TileObl (D (F := F)) 𝒱 (P m) v₀ 0) :
    θ_run (Cert.KernelIdeal.defs (F := F)) (Cert.KernelIdeal.threads (F := F)) ⟨m, fun _ => 0, ρ⟩ (QC m Post0 Post2) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main G (FIN m Post0 Post2) (u₀ (F := F)) (sep_elim_left.trans (hu₀ m))
    (fun κ d => hmain m ρ Post0 Post2 κ d hreg0 hreg2 (st0_intro m) (dn0_elim m) hx0 htab)
    (fq m Post0 Post2) (hfin m Post0 Post2) (QC m Post0 Post2) (fun _ h => h)

end Cert.KernelIdeal.Hand

end
-- ==== Proof.Final.lean ====
/-
  What the chain of @main's steps leaves in the argument arrays: no host operation and neither
  region writes one, and the SparseCore call returns the ids as it found them; so each ends at
  its launch contents.
-/
import proofs.«217423_g17910013624755_cont_8to1_1683_16_alg».proof.Proof.Run

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.Sem

variable {F : FTy → Type} [FloatOps F]

variable (m : (ℓ : Loc nD τ sig) → Buf (Elt F) ℓ)
variable (Post0 Post2 : (d : Dev nD) → (V V' : (b : Ref sig .tc) → Buf (Elt F) ((d.tc : Thread nD τ).loc b)) → Prop)

/-- A buffer that nothing in @main writes ends at its launch contents. -/
theorem chain_keeps
    (hP0 : ∀ (d : Dev nD) V V', Post0 d V V' → ∀ b, b ≠ main_v1 → V' b = V b)
    (hP2 : ∀ (d : Dev nD) V V', Post2 d V V' → ∀ b, b ≠ main_v13_0 → b ≠ main_v13_1 → V' b = V b)
    (d : Dev nD) (Wf : Valuation τ sig (Elt F)) (hc : Chain m Post0 Post2 d Wf) (r : Ref sig .tc)
    (h0 : r ≠ main_v0) (h1 : r ≠ main_v1) (h2 : r ≠ main_v2)
    (hB : ∀ op ∈ (opsB (F := F)), Proc.devRef (τ := τ) .tc r ∉ op.writes)
    (h130 : r ≠ main_v13_0) (h131 : r ≠ main_v13_1) (h14 : r ≠ main_v14) :
    Wf (Proc.devRef .tc r) = m (d, Proc.devRef .tc r) := by
  obtain ⟨V1, tab', g, V3, hV1, hg, hV3, rfl⟩ := hc
  rw [StableHlo.unary_result_ne _ _ _ _ _ _ h14, ofTc_tc, hP2 d _ _ hV3 r h130 h131]
  show StableHlo.after opsB (WC m d V1 tab' g) (Proc.devRef .tc r) = _
  rw [StableHlo.after_of_forall_not_mem _ _ hB]
  unfold WC
  rw [Function.update_of_ne (StableHlo.devRef_ne_of_ne h2), Function.update_of_ne (StableHlo.devRef_ne_of_ne h1), ofTc_tc, hP0 d _ _ hV1 r h1]
  show (opA (F := F)).result (V0 m d) (Proc.devRef .tc r) = _
  rw [StableHlo.unary_result_ne _ _ _ _ _ _ h0]; rfl

/-- None of the eleven host operations between the call and the second region writes an argument array. -/
theorem opsB_keeps (r : Ref sig .tc) (hr : r ≠ main_c ∧ r ≠ main_v3 ∧ r ≠ main_v4 ∧ r ≠ main_v5 ∧ r ≠ main_v6 ∧ r ≠ main_v7 ∧ r ≠ main_v8 ∧ r ≠ main_v9 ∧ r ≠ main_v10 ∧ r ≠ main_v11 ∧ r ≠ main_v12) :
    ∀ op ∈ (opsB (F := F)), Proc.devRef (τ := τ) .tc r ∉ op.writes := by
  obtain ⟨a, b, c, d, e, f, g, h, i, j, k⟩ := hr
  refine List.forall_iff_forall_mem.mp ?_
  simp only [opsB, List.Forall, StableHlo.nullary_writes, StableHlo.unary_writes, StableHlo.binary_writes, StableHlo.reshape_writes, Finset.mem_singleton]
  exact ⟨StableHlo.devRef_ne_of_ne a, StableHlo.devRef_ne_of_ne b, StableHlo.devRef_ne_of_ne c, StableHlo.devRef_ne_of_ne d, StableHlo.devRef_ne_of_ne e,
    StableHlo.devRef_ne_of_ne f, StableHlo.devRef_ne_of_ne g, StableHlo.devRef_ne_of_ne h, StableHlo.devRef_ne_of_ne i, StableHlo.devRef_ne_of_ne j, StableHlo.devRef_ne_of_ne k⟩

/-- An unscoped TensorCore reference is among those @main holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The post read at an argument array: it ends at its launch contents. -/
theorem arg_kept
    (hP0 : ∀ (d : Dev nD) V V', Post0 d V V' → ∀ b, b ≠ main_v1 → V' b = V b)
    (hP2 : ∀ (d : Dev nD) V V', Post2 d V V' → ∀ b, b ≠ main_v13_0 → b ≠ main_v13_1 → V' b = V b)
    (r : PUnit × MemSt nD τ sig (Elt F)) (h : QC m Post0 Post2 r) (c : Dev nD) (a : Ref sig .tc)
    (hu : ¬ (Proc.devRef .tc a : DevRef τ sig).isScoped)
    (h0 : a ≠ main_v0) (h1 : a ≠ main_v1) (h2 : a ≠ main_v2)
    (hB : a ≠ main_c ∧ a ≠ main_v3 ∧ a ≠ main_v4 ∧ a ≠ main_v5 ∧ a ≠ main_v6 ∧ a ≠ main_v7 ∧ a ≠ main_v8 ∧ a ≠ main_v9 ∧ a ≠ main_v10 ∧ a ≠ main_v11 ∧ a ≠ main_v12)
    (h130 : a ≠ main_v13_0) (h131 : a ≠ main_v13_1) (h14 : a ≠ main_v14) :
    r.2.mem ((c.tc : Thread nD τ).loc a) = m ((c.tc : Thread nD τ).loc a) := by
  obtain ⟨Wf, hc, hmem⟩ := h c
  exact (hmem _ (mem_uc a hu)).trans (chain_keeps m Post0 Post2 hP0 hP2 c Wf hc a h0 h1 h2 (opsB_keeps a hB) h130 h131 h14)

end Cert.KernelIdeal.Hand

end
-- ==== Proof.ScData.lean ====
/-
  The arithmetic of one tile's task, apart from any program.

  A token id below 100000 read as a 32-bit word: replacing v by v − 50176 where v ≥ 50176 as signed
  words is, on the numbers, the remapping of the id to its row of the halves table. The 32-entry
  offset list, written in two halves of 16 with the remapped ids, reads entry by entry as the
  remapped ids whatever it held before. Entry k of the tile's run of the ids is id 32·w + k of the
  whole, and entry (k, c) of its run of the gathered array is entry (32·w + k, c) of the whole. A
  gather of table rows at a list of offsets delivers, at row k and column c, the table's entry at row
  list[k], column c. Together: after the tile's copies, row 32·w + k of the gathered array is the
  table's row at the remapped id of token 32·w + k, which is what makes that row good.
-/
import proofs.«217423_g17910013624755_cont_8to1_1683_16_alg».proof.Proof.ScPay
import Idealize.ShloMosaic.Lib.SparseCore.Stream
import Idealize.ShloMosaic.Lib.Pipeline.Value
import Idealize.ShloMosaic.Lib.Writes
import Idealize.ShloMosaic.Lib.Affine

noncomputable section

namespace Cert.KernelIdeal.Hand

open Cert.KernelIdeal Cert.KernelIdeal.Gen

open Idealize.ShloMosaic
open Idealize.ShloMosaic.SparseCore (S V T)
open Idealize.ShloMosaic.ValueIdx (ix1 ix2)

variable {F : FTy → Type}

/-! ## The remapping on words -/

/-- v − 50176 where v ≥ 50176 as signed words, else v. -/
def remapW (v : BitVec 32) : BitVec 32 := Scalar.select (IntOp.cmpi .sge v 50176#32) (IntOp.subi v 50176#32) v

theorem remapW_toNat {v : BitVec 32} (h : v.toNat < 100000) : (remapW v).toNat = Cert.Good.remap v.toNat := by
  unfold remapW Cert.Good.remap Scalar.select
  have e1 : (50176#32 : BitVec 32).toInt = 50176 := by decide
  have e1' : (50176#32 : BitVec 32).toNat = 50176 := by decide
  have hlt : 2 * v.toNat < 2 ^ 32 := by omega
  have e2 : v.toInt = v.toNat := BitVec.toInt_eq_toNat_of_lt hlt
  by_cases hv : v.toNat < 50176
  · have hc : ¬ IntOp.cmpi .sge v 50176#32 = 1 := fun hc => by
      have := IntOp.cmpi_sge.mp hc
      rw [e1, e2] at this; omega
    rw [if_pos hv, if_neg hc]
  · have hc : IntOp.cmpi .sge v 50176#32 = 1 := IntOp.cmpi_sge.mpr (by rw [e1, e2]; omega)
    rw [if_neg hv, if_pos hc]
    show (v - 50176#32).toNat = _
    rw [BitVec.toNat_sub, e1']; omega

theorem remapW_lt {v : BitVec 32} (h : v.toNat < 100000) : (remapW v).toNat < 50176 := by
  rw [remapW_toNat h]; exact Cert.Good.remap_lt h

variable [FloatOps F]

/-- The two stored halves are the remapping, entry by entry, of what was loaded. -/
theorem pay1_apply (v : Vec F S16 .i32) (x : S16.Idx) : k1_pay1 v x = remapW (v x) := by
  unfold k1_pay1
  simp only [shapeCast_self]
  rfl
theorem pay2_apply (v : Vec F S16 .i32) (x : S16.Idx) : k1_pay2 v x = remapW (v x) := by
  unfold k1_pay2
  simp only [shapeCast_self]
  rfl

/-! ## The offset list after its two halves are stored -/

local notation "sI" => (Memref.whole Cert.KernelIdeal.cc1_scratch0 : Memref Cert.KernelIdeal.sig Kind.scVector Space.vmem Cert.KernelIdeal.S32 EltTy.i32)

abbrev R0 : Rect S32 := Rect.unit (s := S32) ![0] S16.size inb_S32_S16_0
abbrev R16 : Rect S32 := Rect.unit (s := S32) ![16] S16.size inb_S32_S16_16

omit [FloatOps F] in
theorem list_read (g : S32.Idx → BitVec 32) (base : (sI).view.ty.Contents (Elt F)) (p16 p0 : S16.Idx → BitVec 32)
    (h16 : ∀ x, p16 x = remapW (g (R16.emb x))) (h0 : ∀ x, p0 x = remapW (g (R0.emb x))) (y : S32.Idx) :
    (sI).view.read (Elt F) ((sI).view.writes (Elt F) base [⟨R16, p16⟩, ⟨R0, p0⟩]) y = remapW (g y) := by
  refine View.read_writes_apply_of_pieces (sI).view base (fun y => remapW (g y)) _ ?_ y ?_
  · intro p hp x
    rcases List.mem_cons.mp hp with rfl | hp
    · exact h16 x
    · rcases List.mem_cons.mp hp with rfl | hp
      · exact h0 x
      · exact absurd hp List.not_mem_nil
  · have hy := (y 0).isLt
    by_cases hlo : (y 0).val < 16
    · have hm : y ∈ R0.set := (Rect.mem_set_unit (inb := inb_S32_S16_0)).mpr fun a => by
        match a with
        | ⟨0, _⟩ => exact ⟨Nat.zero_le _, by show (y 0).val < 0 + 16; omega⟩
      exact ⟨⟨R0, p0⟩, List.mem_cons_of_mem _ List.mem_cons_self, hm⟩
    · have hm : y ∈ R16.set := (Rect.mem_set_unit (inb := inb_S32_S16_16)).mpr fun a => by
        match a with
        | ⟨0, _⟩ => exact ⟨by show 16 ≤ (y 0).val; omega, by show (y 0).val < 16 + 16; have : (y 0).val < 32 := hy; omega⟩
      exact ⟨⟨R16, p16⟩, List.mem_cons_self, hm⟩

/-! ## The tile's runs, as the kernel slices them -/

local notation "tabW" => (Memref.whole Cert.KernelIdeal.main_v1_scv : Memref Cert.KernelIdeal.sig Kind.scVector Space.hbm Cert.KernelIdeal.S50176x128 EltTy.f32)
local notation "idsW" => (Memref.whole Cert.KernelIdeal.main_arg0_scv : Memref Cert.KernelIdeal.sig Kind.scVector Space.hbm Cert.KernelIdeal.S1024 EltTy.i32)
local notation "outW" => (Memref.whole Cert.KernelIdeal.main_v2_scv : Memref Cert.KernelIdeal.sig Kind.scVector Space.hbm Cert.KernelIdeal.S1024x128 EltTy.f32)
local notation "sR" => (Memref.whole Cert.KernelIdeal.cc1_scratch1 : Memref Cert.KernelIdeal.sig Kind.scVector Space.vmem Cert.KernelIdeal.S32x128 EltTy.f32)

theorem bound_zero : grid1.bound 0 = 2 := rfl
theorem bound_one : grid1.bound 1 = 16 := rfl
/-- The number of the tile at grid coordinates `L`. -/
abbrev wL (L : grid1.Coords) : Fin 32 := wid (Fin.cast bound_zero (L 0)) (Fin.cast bound_one (L 1))
theorem wL_val (L : grid1.Coords) : (wL L).val = 2 * (L 1).val + (L 0).val := rfl

abbrev idsK (L : grid1.Coords) : Memref sig .scVector .hbm S32 .i32 :=
  (idsW).slice (Rect.unit (s := S1024) (k1_off1 L) S32.size (k1_off1_inb L)) (fun _ => rfl)
abbrev outK (L : grid1.Coords) : Memref sig .scVector .hbm S32x128 .f32 :=
  (outW).slice (Rect.unit (s := S1024x128) (k1_off2 L) S32x128.size (k1_off2_inb L)) (fun _ => rfl)
abbrev tabK : Memref sig .scVector .hbm S50176x128 .f32 :=
  (tabW).slice (Rect.unit (s := S50176x128) ![0, 0] S50176x128.size inb_S50176x128_S50176x128_0_0) (fun _ => rfl)

variable (L : grid1.Coords)

omit [FloatOps F] in
/-- Entry `y` of the tile's run of the ids is entry 32·w + y of the whole. -/
theorem idsK_emb (y : S32.Idx) : (idsK L).view.emb y = (ix1 (rowIx (wL L) (y 0)) : S1024.Idx) := by
  funext a; apply Fin.ext
  match a with
  | ⟨0, _⟩ =>
    show ((Rect.unit (s := S1024) (k1_off1 L) S32.size (k1_off1_inb L)).emb y 0).val = 32 * (wL L).val + (y 0).val
    rw [Rect.emb_apply, wL_val]
    simp only [Rect.off_unit, Rect.stride_unit, k1_off1_eq]
    show 64 * (L 1).val + 32 * (L 0).val + 1 * (y 0).val = 32 * (2 * (L 1).val + (L 0).val) + (y 0).val
    omega

omit [FloatOps F] in
/-- Entry (k, c) of the tile's run of the gathered array is entry (32·w + k, c) of the whole. -/
theorem outK_emb (k : Fin 32) (c : Fin 128) : (outK L).view.emb (ix2 k c : S32x128.Idx) = (ix2 (rowIx (wL L) k) c : S1024x128.Idx) := by
  funext a; apply Fin.ext
  match a with
  | ⟨0, _⟩ =>
    show ((Rect.unit (s := S1024x128) (k1_off2 L) S32x128.size (k1_off2_inb L)).emb (ix2 k c) 0).val = 32 * (wL L).val + k.val
    rw [Rect.emb_apply, wL_val]
    simp only [Rect.off_unit, Rect.stride_unit, k1_off2_eq]
    show 64 * (L 1).val + 32 * (L 0).val + 1 * k.val = 32 * (2 * (L 1).val + (L 0).val) + k.val
    omega
  | ⟨1, _⟩ =>
    show ((Rect.unit (s := S1024x128) (k1_off2 L) S32x128.size (k1_off2_inb L)).emb (ix2 k c) 1).val = c.val
    rw [Rect.emb_apply]
    simp only [Rect.off_unit, Rect.stride_unit, k1_off2_eq]
    show 0 + 1 * c.val = c.val
    omega

/-! ## What the copies move -/

variable (m : (ℓ : Loc nD τ sig) → Buf (Elt F) ℓ) (d : Dev nD)

omit [FloatOps F] in
/-- The fetched ids: entry `y` is id 32·w + y. -/
theorem ids_read (y : S32.Idx) :
    (ReadAs.same : ReadAs (Elt F) S32 .i32 S32 .i32).apply (View.read (Elt F) (idsK L).view (m (xLoc d))) y
      = m (xLoc d) (ix1 (rowIx (wL L) (y 0))) := by
  rw [ReadAs.apply_same, View.read_apply, idsK_emb]
  exact cast_eq _ _

omit [FloatOps F] in
/-- The table read through the kernel's full-size window of it is the table. -/
theorem tab_read (tab : Buf (Elt F) (tabLoc d)) (i : S50176x128.Idx) : View.read (Elt F) (tabK).view tab i = tab i := by
  rw [View.read_apply]
  have e : (tabK).view.emb i = i := by
    funext a; apply Fin.ext
    show ((Rect.unit (s := S50176x128) ![0, 0] S50176x128.size inb_S50176x128_S50176x128_0_0).emb i a).val = (i a).val
    rw [Rect.emb_apply]
    simp only [Rect.off_unit, Rect.stride_unit]
    match a with
    | ⟨0, _⟩ => show 0 + 1 * (i 0).val = (i 0).val; omega
    | ⟨1, _⟩ => show 0 + 1 * (i 1).val = (i 1).val; omega
  rw [e]; exact cast_eq _ _

omit [FloatOps F] in
/-- The row scratch, written whole, reads back what was written. -/
theorem rows_write_read (fr : (sR).view.ty.Contents (Elt F)) (G : S32x128.Idx → Elt F .f32) (x : S32x128.Idx) :
    (ReadAs.same : ReadAs (Elt F) S32x128 .f32 S32x128 .f32).apply
        ((sR).view.read (Elt F) ((sR).view.writes (Elt F) fr [⟨Rect.whole S32x128, G⟩])) x = G x := by
  rw [ReadAs.apply_same]
  have h := View.read_writes_cons_emb (sR).view fr (Rect.whole S32x128) G [] x
  have e : (Rect.whole S32x128).emb x = x := by
    funext a; apply Fin.ext; show 0 + 1 * (x a : Nat) = x a; omega
  exact (congrArg (fun z => (sR).view.read (Elt F) ((sR).view.writes (Elt F) fr [⟨Rect.whole S32x128, G⟩]) z) e.symm).trans h

omit [FloatOps F] in
/-- The tile's run of the gathered array, written whole with `P`, holds `P`'s entry (k, c) at (32·w + k, c). -/
theorem out_write_at (fo : Buf (Elt F) (outLoc d)) (P : S32x128.Idx → Elt F .f32) (k : Fin 32) (c : Fin 128) :
    ((outK L).view.writes (Elt F) fo [⟨Rect.whole S32x128, P⟩]) (ix2 (rowIx (wL L) k) c) = P (ix2 k c) := by
  have h := View.read_writes_cons_emb (outK L).view fo (Rect.whole S32x128) P [] (ix2 k c)
  have e : (Rect.whole S32x128).emb (ix2 k c) = (ix2 k c : S32x128.Idx) := by
    funext a; apply Fin.ext; show 0 + 1 * ((ix2 k c : S32x128.Idx) a : Nat) = (ix2 k c : S32x128.Idx) a; omega
  have h' : (outK L).view.read (Elt F) ((outK L).view.writes (Elt F) fo [⟨Rect.whole S32x128, P⟩]) (ix2 k c) = P (ix2 k c) :=
    (congrArg (fun z => (outK L).view.read (Elt F) ((outK L).view.writes (Elt F) fo [⟨Rect.whole S32x128, P⟩]) z) e.symm).trans h
  rw [View.read_apply, outK_emb] at h'
  exact (cast_eq _ _).symm.trans h'

/-- A gather of table rows at the offsets `lst` delivers, at row `k` and column `c`, the table's entry at row `lst k`. -/
theorem gather_at (tab : S50176x128.Idx → Elt F .f32) (lst : S32.Idx → Elt F .i32)
    (hn : S32.numel = S32x128.size gathers_S50176x128_S32x128.axis')
    (h : ∀ x, (lst x).toNat < S50176x128.size gathers_S50176x128_S32x128.axis) (k : Fin 32) (c : Fin 128) :
    SparseCore.gatherPayload gathers_S50176x128_S32x128 tab (SparseCore.rows lst hn h) (ix2 k c)
      = tab (ix2 (⟨(lst (ix1 k)).toNat, h (ix1 k)⟩ : Fin 50176) c) := by
  unfold SparseCore.gatherPayload
  congr 1
  funext b; apply Fin.ext
  match b with
  | ⟨0, _⟩ =>
    have e := Shape.Gathers.idx_axis gathers_S50176x128_S32x128 (SparseCore.rows lst hn h) (ix2 k c)
    show (gathers_S50176x128_S32x128.idx (SparseCore.rows lst hn h) (ix2 k c) gathers_S50176x128_S32x128.axis).val = (lst (ix1 k)).toNat
    rw [e]
    show (lst (S32.rowMajor.symm ((k : Fin 32).cast hn.symm))).toNat = (lst (ix1 k)).toNat
    congr 2
    refine (Equiv.symm_apply_eq _).mpr (Fin.ext ?_)
    rw [Shape.rowMajor_val_one]
    rfl
  | ⟨1, _⟩ =>
    exact Shape.Gathers.idx_of_ne gathers_S50176x128_S32x128 (SparseCore.rows lst hn h) (ix2 k c) ⟨1, by decide⟩ (by decide)

omit [FloatOps F] in
/-- Rows that are the table's at the remapped ids are good rows. -/
theorem run_good (hx : ∀ b : Fin 1024, (m (xLoc d) (ix1 b)).toNat < 100000) (tab : Buf (Elt F) (tabLoc d))
    (htab : Cert.Good.TabGood (m (embLoc d)) tab) (fout : Buf (Elt F) (outLoc d))
    (hf : ∀ (k : Fin 32) (c : Fin 128), fout (ix2 (rowIx (wL L) k) c)
      = tab (ix2 (⟨Cert.Good.remap (m (xLoc d) (ix1 (rowIx (wL L) k))).toNat, Cert.Good.remap_lt (hx _)⟩ : Fin 50176) c)) :
    RunGood m d (wL L) fout :=
  fun k => Cert.Good.rowGood_of_tab htab (m (xLoc d)) fout (rowIx (wL L) k) (hx _) (hf k)

end Cert.KernelIdeal.Hand

end
-- ==== Proof.ScTile.lean ====
/-
  One tile's task, and the obligation the launch asks of every tile.

  The tile with number w fetches its run of 32 token ids into a scratch list and waits; in two halves
  of 16 it loads the list, remaps each id to its row of the halves table and stores it back, so the
  list then holds the remapped ids, each below 50176: every offset of the gather that follows is in
  range. The gather copies, for each k, table row list[k] into row k of a second scratch, and the
  tile waits; a last copy moves that scratch onto the tile's run of the gathered array, and the tile
  waits. Each copy is alone on its semaphore and each wait sits below everything the tile owes the
  launch. What the run of the gathered array then holds at row k is the table's row at the remapped
  id of token 32·w + k: a good row. The ids, the table's read share, both scratches and the three
  semaphores are handed back as they came.
-/
import proofs.«217423_g17910013624755_cont_8to1_1683_16_alg».proof.Proof.ScData
import Idealize.ShloMosaic.Lib.SparseCore.Ops
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)

-- the kernel's memrefs, spelt as the body table passes them
local notation "tabW" => (Memref.whole Cert.KernelIdeal.main_v1_scv : Memref Cert.KernelIdeal.sig Kind.scVector Space.hbm Cert.KernelIdeal.S50176x128 EltTy.f32)
local notation "idsW" => (Memref.whole Cert.KernelIdeal.main_arg0_scv : Memref Cert.KernelIdeal.sig Kind.scVector Space.hbm Cert.KernelIdeal.S1024 EltTy.i32)
local notation "outW" => (Memref.whole Cert.KernelIdeal.main_v2_scv : Memref Cert.KernelIdeal.sig Kind.scVector Space.hbm Cert.KernelIdeal.S1024x128 EltTy.f32)
local notation "sI" => (Memref.whole Cert.KernelIdeal.cc1_scratch0 : Memref Cert.KernelIdeal.sig Kind.scVector Space.vmem Cert.KernelIdeal.S32 EltTy.i32)
local notation "sR" => (Memref.whole Cert.KernelIdeal.cc1_scratch1 : Memref Cert.KernelIdeal.sig Kind.scVector Space.vmem Cert.KernelIdeal.S32x128 EltTy.f32)

variable [FloatOps F]

/-! ## The task -/

section Tile

variable (d : Dev nD) (L : grid1.Coords)

abbrev cV (L : grid1.Coords) : Fin τ.nSC := (L 0).castLE hcore1
abbrev jV (L : grid1.Coords) : Fin τ.nSub := (L 1).castLE hsub1

/-- The tile's three semaphores: the gather's, the fetch's, the write-out's. -/
abbrev cGcell (d : Dev nD) (c : Fin τ.nSC) (i : Fin τ.nSub) : GSem nD τ sig := (V d c i, .dma cc1_scratch2.sem)
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc1_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc1_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc1_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The run the kernel slices out of the ids is run `w`; -/
theorem idsRect_eq : Rect.unit (s := S1024) (k1_off1 L) S32.size (k1_off1_inb L) = idsRow (wL L) := by
  unfold idsRow Rect.part Rect.block
  congr 1 <;> funext a
  · rw [k1_off1_eq]
    match a with
    | 0 => show 64 * (L 1).val + 32 * (L 0).val = (2 * (L 1).val + (L 0).val) * (1024 / 32); omega
  · match a with
    | 0 => simp [Shape.partSize]
omit [FloatOps F] in
/-- and likewise of the gathered array. -/
theorem outRect_eq : Rect.unit (s := S1024x128) (k1_off2 L) S32x128.size (k1_off2_inb L) = outRow (wL L) := by
  unfold outRow Rect.part Rect.block
  congr 1 <;> funext a
  · rw [k1_off2_eq]
    match a with
    | 0 => show 64 * (L 1).val + 32 * (L 0).val = (2 * (L 1).val + (L 0).val) * (1024 / 32); omega
    | 1 => show (0 : Nat) = 0 * 128; omega
  · match a with
    | 0 => simp [Shape.partSize]
    | 1 => simp [Shape.partSize]

omit [FloatOps F] in
theorem set_idsK : (idsK L).view.set = idsSet (wL L) := by
  show ((idsW).view.slice (Rect.unit (s := S1024) (k1_off1 L) S32.size (k1_off1_inb L))).set = ((idsW).view.slice (idsRow (wL L))).set
  exact idsRect_eq L ▸ rfl
omit [FloatOps F] in
theorem set_outK : (outK L).view.set = outSet (wL L) := by
  show ((outW).view.slice (Rect.unit (s := S1024x128) (k1_off2 L) S32x128.size (k1_off2_inb L))).set = ((outW).view.slice (outRow (wL L))).set
  exact outRect_eq L ▸ rfl

omit [FloatOps F] in
theorem pts_idsK (f : Buf (Elt F) (xLoc d)) :
    ((idsK L).view.loc (V d (cV L) (jV L)) ↦[(idsK L).view.set]{fullShare} f : sProp 𝕄) = xLoc d ↦[idsSet (wL L)]{fullShare} f := by
  rw [set_idsK]
omit [FloatOps F] in
theorem pts_outK (f : Buf (Elt F) (outLoc d)) :
    ((outK L).view.loc (V d (cV L) (jV L)) ↦[(outK L).view.set]{fullShare} f : sProp 𝕄) = outLoc d ↦[outSet (wL L)]{fullShare} f := by
  rw [set_outK]
omit [FloatOps F] in
theorem pts_tab (q : PosShare TreeShare) (f : Buf (Elt F) (tabLoc d)) :
    ((tabW).view.loc (V d (cV L) (jV L)) ↦{q} f : sProp 𝕄) = tabLoc d ↦{q} f := rfl
omit [FloatOps F] in
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
omit [FloatOps F] in
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl

/-- The task on vector subcore `(L 0, L 1)` of device `d`: the fetch and its wait, the two remapping passes over the
    list, the gather and its wait, the write-out and its wait; the gathered run good at the end. -/
theorem tile_body (hF : (K (F := F)).Facts) (hx : ∀ (d : Dev nD) (b : Fin 1024), (m (xLoc d) (ix1 b)).toNat < 100000)
    (O : CellTallies nD τ sig (HIx 1)) (W : Waits sig (HIx 1)) (hO : ∀ g, O g none = 0) :
    iprop(levAts (K (F := F)).L (K (F := F)).lev ∗ emp ∗ goW m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tabW (Memref.isWhole_whole _) idsW (Memref.isWhole_whole _) outW (Memref.isWhole_whole _)
            sI (Memref.isWhole_whole _) sR (Memref.isWhole_whole _) cc1_scratch2 cc1_scoped0 cc1_scoped1)
          fun _ => iprop(tdW m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold goW
  iintro ⟨#Hlv, -, ⟨Hi, ⟨%tab, %htab, Ht⟩, ⟨%fo, Ho⟩⟩, ⟨⟨%fs, Hs⟩, ⟨%fr, Hr⟩, Hbufs⟩, ⟨HsemG, HsemA, HsemB, Hsems⟩, HO⟩
  ihave Hmw := ((K (F := F)).mayWaits_none (thr := V d (cV L) (jV L)) hO) $$ Hlv
  ihave Hi' := (Entails.of_eq (pts_idsK (F := F) d L _).symm) $$ Hi
  ihave Ho' := (Entails.of_eq (pts_outK (F := F) d L _).symm) $$ Ho
  ihave Ht' := (Entails.of_eq (pts_tab (F := F) d L _ _).symm) $$ Ht
  ihave Hs' := (Entails.of_eq (pts_sI (F := F) d L _).symm) $$ Hs
  ihave Hr' := (Entails.of_eq (pts_sR (F := F) d L _).symm) $$ Hr
  -- the fetch, its wait, the two remapping passes
  sl_exec
  -- the list now holds the remapped ids, each in range
  have hids : ∀ y : S32.Idx, ((tile_body.sl.dma0 m d L) y).toNat < 100000 := fun y => by
    show ((ReadAs.same : ReadAs (Elt F) S32 .i32 S32 .i32).apply (View.read (Elt F) (idsK L).view (m (xLoc d))) y).toNat < 100000
    rw [ids_read]; exact hx d _
  have hlist : ∀ y : S32.Idx,
      (sI).view.read (Elt F) ((sI).view.writes (Elt F) (sI).view.junk (tile_body.sl.Hs'_2 m d L fs)) y
        = remapW (tile_body.sl.dma0 m d L y) := fun y =>
    list_read (tile_body.sl.dma0 m d L) (sI).view.junk (tile_body.sl.v22 m d L fs) (tile_body.sl.v12 m d L fs)
      (fun x => by
        show k1_pay2 (tile_body.sl.v13 m d L fs) x = _
        rw [pay2_apply]
        show remapW (View.readAt (Elt F) (sI).view R16.toLoadRect
          (View.write (Elt F) (sI).view fs (tile_body.sl.dma0 m d L) Finset.univ) x) = _
        simp only [View.readAt_apply, Memref.view_whole, View.write_whole_univ, View.read_whole]
        rfl)
      (fun x => by
        show k1_pay1 (View.readAt (Elt F) (sI).view R0.toLoadRect
          (View.write (Elt F) (sI).view fs (tile_body.sl.dma0 m d L) Finset.univ)) x = _
        rw [pay1_apply]
        simp only [View.readAt_apply, Memref.view_whole, View.write_whole_univ, View.read_whole]
        rfl) y
  have hin : ∀ x, (((sI).view.read (Elt F) ((sI).view.writes (Elt F) (sI).view.junk (tile_body.sl.Hs'_2 m d L fs))) x).toNat < 50176 :=
    fun x => by rw [hlist]; exact remapW_lt (hids x)
  -- the gather, its wait, the write-out, its wait
  sl_exec
  -- what the run of the gathered array now holds
  have hf : ∀ (k : Fin 32) (c : Fin 128),
      ((outK L).view.writes (Elt F) fo [⟨Rect.whole S32x128, tile_body.sl.dma0_1 m d L tab fs fr hin⟩]) (ix2 (rowIx (wL L) k) c)
        = tab (ix2 (⟨Cert.Good.remap (m (xLoc d) (ix1 (rowIx (wL L) k))).toNat, Cert.Good.remap_lt (hx d _)⟩ : Fin 50176) c) := fun k c => by
    rw [out_write_at]
    show (ReadAs.same : ReadAs (Elt F) S32x128 .f32 S32x128 .f32).apply
      ((sR).view.read (Elt F) ((sR).view.writes (Elt F) fr [⟨Rect.whole S32x128, tile_body.sl.gather0 m d L tab fs hin⟩])) (ix2 k c) = _
    rw [rows_write_read]
    show SparseCore.gatherPayload gathers_S50176x128_S32x128 (View.read (Elt F) (tabK).view tab)
      (SparseCore.rows ((sI).view.read (Elt F) ((sI).view.writes (Elt F) (sI).view.junk (tile_body.sl.Hs'_2 m d L fs))) _ _) (ix2 k c) = _
    refine (gather_at (View.read (Elt F) (tabK).view tab) _ _ _ k c).trans ?_
    refine (tab_read d tab _).trans ?_
    refine congrArg (fun r : Fin 50176 => tab (ix2 r c)) (Fin.ext ?_)
    show ((sI).view.read (Elt F) ((sI).view.writes (Elt F) (sI).view.junk (tile_body.sl.Hs'_2 m d L fs)) (ix1 k)).toNat = _
    rw [hlist, remapW_toNat (hids _)]
    show Cert.Good.remap ((ReadAs.same : ReadAs (Elt F) S32 .i32 S32 .i32).apply (View.read (Elt F) (idsK L).view (m (xLoc d))) (ix1 k)).toNat = _
    rw [ids_read]
  sl_step
  unfold tdW
  isplitl [Hi' Ht' Ho']
  · isplitl [Hi']; · iapply (Entails.of_eq (pts_idsK (F := F) d L _)); iexact Hi'
    isplitl [Ht']; · iexists tab; iapply (Entails.of_eq (pts_tab (F := F) d L _ _)); iexact Ht'
    iexists _; isplitr
    · ipureintro; exact run_good L m d (hx d) tab htab _ hf
    · iapply (Entails.of_eq (pts_outK (F := F) d L _)); iexact Ho'
  isplitl [Hs' Hr' Hbufs]
  · isplitl [Hs']; · iexists _; iapply (Entails.of_eq (pts_sI (F := F) d L _)); iexact Hs'
    isplitl [Hr']; · iexists _; iapply (Entails.of_eq (pts_sR (F := F) d L _)); iexact Hr'
    iexact Hbufs
  isplitl [HsemG HsemA HsemB Hsems]
  · isplitl [HsemG]; · iexact HsemG
    isplitl [HsemA]; · iexact HsemA
    isplitl [HsemB]; · iexact HsemB
    iexact Hsems
  iexists (insert (SemLoc.dma cc1_scoped1.sem, (default : HIx 1)) (insert (SemLoc.dma cc1_scratch2.sem, (default : HIx 1))
    (insert (SemLoc.dma cc1_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tabW (Memref.isWhole_whole _) idsW (Memref.isWhole_whole _) outW (Memref.isWhole_whole _)
          sI (Memref.isWhole_whole _) sR (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the launch's obligation, under the ids' range. -/
theorem tileObl (hx : ∀ (d : Dev nD) (b : Fin 1024), (m (xLoc d) (ix1 b)).toNat < 100000) :
    (K (F := F)).TileObl (D (F := F)) 𝒱 (P m) v₀ 0 := by
  intro d c i O W hO _ _
  -- the tile owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) facts hx O W hO).trans (wp_mono frame _ _ fun _ => obl_post)

end Cert.KernelIdeal.Hand

end
-- ==== Proof.Region0Body.lean ====
/-
  The first TensorCore region's kernel body, run once on whole staging buffers.

  The body reads its two input buffers whole (64 x 12544 each), stacks the first over the second
  (128 x 12544), transposes (12544 x 128) and writes the result over the whole output buffer.
  So after it the inputs are as they were and the output buffer holds, at (r, j), the first input's
  (j, r) for j < 64 and the second input's (j - 64, r) from there on: the payload `k0_pay1` of the
  two contents read, whatever they are. Nothing is asked of the output buffer's earlier contents.
-/
import proofs.«217423_g17910013624755_cont_8to1_1683_16_alg».proof.Proof.Common
import proofs.«217423_g17910013624755_cont_8to1_1683_16_alg».proof.Proof.Good
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

/-- The two zero offsets, however spelt. -/
theorem zero_off2 : (![0, 0] : Fin 2 → Nat) = fun _ => 0 := funext fun a => by fin_cases a <;> rfl

/-- The whole-buffer rectangles of the body's loads and of its store. -/
abbrev rIn0 : Rect S64x12544 := Rect.unit (s := S64x12544) ![0, 0] S64x12544.size inb_S64x12544_S64x12544_0_0
abbrev rOut0 : Rect S12544x128 := Rect.unit (s := S12544x128) ![0, 0] S12544x128.size inb_S12544x128_S12544x128_0_0

/-- What the body leaves in the output buffer, from what the two input buffers hold: its one store, over
    the loads' readings. -/
def out0_2 [∀ e, Nonempty (Elt F e)] (x0 x1 : Vec F S64x12544 .f32) : Vec F S12544x128 .f32 :=
  View.canon [⟨rOut0, k0_pay1 (View.ld x0 rIn0) (View.ld x1 rIn0)⟩]

/-- The loads read the buffers whole and the store covers its buffer: the output is the payload of the inputs. -/
theorem out0_2_eq [∀ e, Nonempty (Elt F e)] (x0 x1 : Vec F S64x12544 .f32) : out0_2 x0 x1 = k0_pay1 x0 x1 := by
  unfold out0_2
  rw [View.canon_unit_zero zero_off2, View.ld_unit_zero (S := S64x12544) zero_off2, View.ld_unit_zero (S := S64x12544) zero_off2]

set_option maxHeartbeats 1000000 in
/-- The body on whole staging memrefs: from the two inputs at any contents and the output at any contents, to the
    inputs unchanged and the output at the payload of the inputs. -/
theorem sound_kernel0 [∀ e, Nonempty (Elt F e)] (c : Dev nD) (E : Set ℕ) (i : grid0.Coords)
    (arg1 : Memref sig .tc .vmem S64x12544 .f32) (harg1 : arg1.IsWhole)
    (arg2 : Memref sig .tc .vmem S64x12544 .f32) (harg2 : arg2.IsWhole)
    (arg3 : Memref sig .tc .vmem S12544x128 .f32) (harg3 : arg3.IsWhole)
    (x0 x1 : Vec F S64x12544 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0_body i arg1 harg1 arg2 harg2 arg3 harg3) K := by
  rw [← out0_2_eq x0 x1]
  simp only [cc0_body_eq_skeleton]; unfold cc0_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero zero_off2 inb_S12544x128_S12544x128_0_0 y⟩)

end Cert.KernelIdeal.Hand

end
-- ==== Proof.Region0Data.lean ====
/-
  The first TensorCore region's proof data, stated relationally.

  The grid has four points t. Windows 0 and 1 both read the 64 x 100000 array (the transposed embedding
  table) in blocks of 12544 columns: window 0 block t, window 1 block t + 4; window 2 writes block t
  (12544 rows) of the 50176 x 128 table of halves. Window 1's last block overhangs the array by 352
  columns: a fetch of it first leaves the whole staging buffer at words nothing names and then lands the
  block's part inside the array, so a just-fetched input buffer holds the block on the part the fetch
  moves and anything elsewhere.

  Hence the data says of each input buffer that the body leaves it as found, and of the output buffer
  only that it holds the stacked-and-transposed payload of SOME two buffers that are the two blocks on
  the parts their fetches move. The arrays' entry contents are those the region is entered with; the
  invariant is the core's scoped buffers no window stages; the two input windows hold the two halves of
  their common array's share; what the core owes stays constant, at an index no wait of the loop uses.
-/
import proofs.«217423_g17910013624755_cont_8to1_1683_16_alg».proof.Proof.Common
import proofs.«217423_g17910013624755_cont_8to1_1683_16_alg».proof.Proof.Good

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

section
-- the TensorCore's unscoped buffers when the region is entered, what the core owes throughout, and what its
-- waits have recorded before the region
variable (VV : (c : Dev nD) → (b : Ref sig .tc) → Buf (Elt F) ((c : Thread nD τ).loc b))
variable (O : CellTallies nD τ sig (HIx 1)) (W : Waits sig (HIx 1))

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (VV c (Pipeline.arrRef spec0 w))

/-- What window `w`'s staging buffer holds once the fetch at point `t` has landed, if the overwrite before it
    left `d`: the block on the part the fetch moves, `d` elsewhere. -/
def fetched0 (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk0 VV c w t)

/-- The proof data of the region on device `c`'s TensorCore. -/
def rdat0 (c : Dev nD) : RDat τ (Elt F) (HIx 1) ℕ UU ℕ cfg0 c where
  A w := VV c (Pipeline.arrRef spec0 w)
  after w t := match w with
    | ⟨0, _⟩ => fun Y X => X = Y
    | ⟨1, _⟩ => fun Y X => X = Y
    | ⟨2, _⟩ => fun _ X => ∃ d0 d1, X = k0_pay1 (fetched0 VV c 0 t d0) (fetched0 VV c 1 t d1)
  Φ _ := Pipeline.scopedRest (Ix := HIx 1) (Name := ℕ) (U := UU) (Lvl := ℕ) (Val := Elt F) spec0 c
  q w := match w with
    | ⟨0, _⟩ => fullShare.left
    | ⟨1, _⟩ => fullShare.right
    | ⟨2, _⟩ => fullShare
  owed _ := O
  recorded _ := {p | p ∈ W ∨ p.2 = none}

/-- The data's arrays are the entry contents. -/
theorem A_eq0 (c : Dev nD) (w : Fin cfg0.W) : (rdat0 VV O W c).A w = VV c (Pipeline.arrRef spec0 w) := by
  dsimp only [rdat0]

/-- What the body may leave, window by window. -/
theorem after0_0 (c : Dev nD) (t : Fin cfg0.N) (Y X) : (rdat0 VV O W c).after 0 t Y X = (X = Y) := by dsimp only [rdat0]
theorem after0_1 (c : Dev nD) (t : Fin cfg0.N) (Y X) : (rdat0 VV O W c).after 1 t Y X = (X = Y) := by dsimp only [rdat0]
theorem after0_2 (c : Dev nD) (t : Fin cfg0.N) (Y X) :
    (rdat0 VV O W c).after 2 t Y X = ∃ d0 d1, X = k0_pay1 (fetched0 VV c 0 t d0) (fetched0 VV c 1 t d1) := by dsimp only [rdat0]

/-- A just-fetched buffer, in the data's words, is `fetched0`. -/
theorem fetched_eq0 (c : Dev nD) (w : Fin cfg0.W) (t : Fin cfg0.N) (d) :
    (rdat0 VV O W c).fetched w t d = fetched0 VV c w t d := by
  unfold RDat.fetched RDat.blockOf fetched0 iblk0; rw [A_eq0]

/-- Both inputs are fetched at every point: what the body finds in their buffers is a just-fetched block. -/
theorem finds0_0 (c : Dev nD) (t : Fin cfg0.N) (Y) (h : (rdat0 VV O W c).Finds 0 t Y) : ∃ d, Y = fetched0 VV c 0 t d := by
  obtain ⟨d, hd⟩ := ((rdat0 VV O W c).finds_of_fetch (fetch0_0 t) Y).mp h
  exact ⟨d, hd.trans (fetched_eq0 VV O W c 0 t d)⟩
theorem finds0_1 (c : Dev nD) (t : Fin cfg0.N) (Y) (h : (rdat0 VV O W c).Finds 1 t Y) : ∃ d, Y = fetched0 VV c 1 t d := by
  obtain ⟨d, hd⟩ := ((rdat0 VV O W c).finds_of_fetch (fetch0_1 t) Y).mp h
  exact ⟨d, hd.trans (fetched_eq0 VV O W c 1 t d)⟩

/-- The shares: the two input windows hold the two halves of their array's, the output its whole. -/
theorem share0_0 (c : Dev nD) : (rdat0 VV O W c).share 0 = fullShare.left := by unfold RDat.share; rfl
theorem share0_1 (c : Dev nD) : (rdat0 VV O W c).share 1 = fullShare.right := by unfold RDat.share; rfl
theorem share0_2 (c : Dev nD) : (rdat0 VV O W c).share 2 = fullShare := by unfold RDat.share; rfl

/-! ## The region's pure post -/

/-- A 50176 x 128 table names a 64 x 100000 array's columns in halves: row r holds column r in its columns
    0‥63 and column r + 50176 in its columns 64‥127, the latter while r + 50176 is a column of the array. -/
def TabOf (emb : S64x100000.Idx → Elt F .f32) (tab : S50176x128.Idx → Elt F .f32) : Prop :=
  ∀ (r : Fin 50176) (j : Fin 64),
    tab (ValueIdx.ix2 r (Cert.Good.colL j)) = emb (ValueIdx.ix2 j (⟨r.val, by omega⟩ : Fin 100000))
    ∧ ∀ h : r.val + 50176 < 100000, tab (ValueIdx.ix2 r (Cert.Good.colR j)) = emb (ValueIdx.ix2 j (⟨r.val + 50176, h⟩ : Fin 100000))

/-- The unscoped buffers after the region, against those before it: only the table of halves has changed, and
    it names the transposed embedding table's columns in halves. -/
def Post0 (c : Dev nD) (V V' : (b : Ref sig .tc) → Buf (Elt F) ((c : Thread nD τ).loc b)) : Prop :=
  (∀ b, b ≠ main_v1 → V' b = V b) ∧ TabOf (V main_v0) (V' main_v1)

end

end Cert.KernelIdeal.Hand

end
-- ==== Proof.Region0Oblig.lean ====
/-
  The first TensorCore region's body obligation.

  At every point both input windows have just been fetched, so each input buffer holds its block on the
  part the fetch moves and some words elsewhere; the output buffer holds anything. The body leaves the
  inputs as found and the output at the stacked-and-transposed payload of the two buffers it read: which
  is what the data's relations ask, with those very buffers as the witnesses. The invariant and what
  the core owes pass through unread.
-/
import proofs.«217423_g17910013624755_cont_8to1_1683_16_alg».proof.Proof.Region0Body
import proofs.«217423_g17910013624755_cont_8to1_1683_16_alg».proof.Proof.Region0Data

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

section
variable [∀ e, Nonempty (Elt F e)]
variable (VV : (c : Dev nD) → (b : Ref sig .tc) → Buf (Elt F) ((c : Thread nD τ).loc b))
variable (O : CellTallies nD τ sig (HIx 1)) (W : Waits sig (HIx 1))

/-- The body at any point, on the staging buffers the pipeline calls it with. -/
theorem sound_body0 (c : Dev nD) (t : Fin cfg0.N)
    (Y : (w : Fin cfg0.W) → (cfg0.win w).block.Idx → Elt F (cfg0.win w).elt) (hY : ∀ w, (rdat0 VV O W c).Finds w t (Y w)) :
    iprop((rdat0 VV O W c).Φ t.castSucc ∗ (rdat0 VV O W c).owesAt none t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdat0 VV O W c).Φ t.succ ∗ (rdat0 VV O W c).owesAt none t.succ
            ∗ (∃ X, ⌜(rdat0 VV O W c).after 0 t (Y 0) X⌝ ∗ owns (c : Thread nD τ) (st0_0 t) fullShare X)
            ∗ (∃ X, ⌜(rdat0 VV O W c).after 1 t (Y 1) X⌝ ∗ owns (c : Thread nD τ) (st0_1 t) fullShare X)
            ∗ (∃ X, ⌜(rdat0 VV O W c).after 2 t (Y 2) X⌝ ∗ owns (c : Thread nD τ) (st0_2 t) fullShare X))) := by
  obtain ⟨d0, h0⟩ := finds0_0 VV O W c t (Y 0) (hY 0)
  obtain ⟨d1, h1⟩ := finds0_1 VV O W c t (Y 1) (hY 1)
  unfold bodyAt0
  rw [show (rdat0 VV O W c).Φ t.succ = (rdat0 VV O W c).Φ t.castSucc from rfl,
    show (rdat0 VV O W c).owesAt none t.succ = (rdat0 VV O W c).owesAt none t.castSucc from rfl]
  iintro ⟨HΦ, Ho, H0, H1, H2⟩
  iapply (sound_kernel0 (F := F) c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; rw [after0_0]
    iexact H0
  isplitl [H1]
  · iexists (Y 1); isplitr; · ipureintro; rw [after0_1]
    iexact H1
  iexists _; isplitr
  swap; · iexact H2
  ipureintro
  rw [after0_2]
  exact ⟨d0, d1, by rw [← h0, ← h1]⟩

/-- The library's relational body obligation, at every point and for all contents the buffers may hold. -/
theorem body_obligation0 (c : Dev nD) :
    (rdat0 VV O W c).BodyObligation (defs₀ (F := F)) Variants.none (none : HIx 1) Set.univ := fun t Y hY => by
  rw [bigSep_W0, bigSep_W0]
  exact sound_body0 VV O W c t Y hY

end

end Cert.KernelIdeal.Hand

end
-- ==== Proof.Region0.lean ====
/-
  The first TensorCore region as one step of the TensorCore's program.

  Entered holding every unscoped buffer at given contents and owing given units (none at the index the
  pipeline's own waits use), the region runs its four points and is left holding every unscoped buffer
  again, the table of halves alone changed, and owing what it owed. Its two input windows read one
  array: the array's points-to is dealt to them in halves at the entry and put together again at the
  exit; an input array ends as it began; the output array ends at contents the four write-backs allow.
-/
import proofs.«217423_g17910013624755_cont_8to1_1683_16_alg».proof.Proof.Region0Oblig
import Idealize.ShloMosaic.Lib.Pipeline.RegionsLoop

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

/-- No pipeline has a prefetched table. -/
abbrev adm0 : (p : Fin 2) → (pcfgs (F := F) p).Adm := fun p => (cfgs p).toPCfg_adm

section
variable [∀ e, Nonempty (Elt F e)]
variable (VV : (c : Dev nD) → (b : Ref sig .tc) → Buf (Elt F) ((c : Thread nD τ).loc b))
variable (O : CellTallies nD τ sig (HIx 1)) (W : Waits sig (HIx 1))

/-- The buffers behind the region's three windows are two. -/
theorem arrs_image0 : Finset.univ.image (Pipeline.arrRef spec0) = {main_v0, main_v1} := by decide

/-- So the buffers behind the windows, each whole, are these two. -/
theorem arrBufs_eq0 (c : Dev nD) (V : (b : Ref sig .tc) → Buf (Elt F) ((c : Thread nD τ).loc b)) :
    (Pipeline.arrBufs (Ix := HIx 1) (Name := ℕ) (U := UU) (Lvl := ℕ) spec0 c V : sProp 𝕄)
      = iprop((((c : Thread nD τ).loc main_v0) ↦{fullShare} V main_v0) ∗ (((c : Thread nD τ).loc main_v1) ↦{fullShare} V main_v1)) := by
  unfold Pipeline.arrBufs
  rw [arrs_image0, bigSep_insert (by decide), bigSep_singleton]
  rfl

/-- ENTRY: the two buffers whole are the three windows' arrays, the read one dealt in halves. -/
theorem arrays_entry0 (c : Dev nD) :
    (Pipeline.arrBufs (Ix := HIx 1) (Name := ℕ) (U := UU) (Lvl := ℕ) spec0 c (VV c) : sProp 𝕄)
      ⊢ (rdat0 VV O W c).arrays (rdat0 VV O W c).A := by
  unfold RDat.arrays
  rw [arrBufs_eq0, bigSep_W0, share0_0, share0_1, share0_2]
  rw [show (cfg0.win 0).arr.view.set = Finset.univ from (arr_whole0 0).set_eq_univ,
    show (cfg0.win 2).arr.view.set = Finset.univ from (arr_whole0 2).set_eq_univ, A_eq0, A_eq0, A_eq0]
  show iprop((((c : Thread nD τ).loc main_v0) ↦{fullShare} VV c main_v0) ∗ (((c : Thread nD τ).loc main_v1) ↦{fullShare} VV c main_v1))
    ⊢ iprop((((c : Thread nD τ).loc main_v0) ↦{fullShare.left} VV c main_v0) ∗ (((c : Thread nD τ).loc main_v0) ↦{fullShare.right} VV c main_v0)
        ∗ (((c : Thread nD τ).loc main_v1) ↦{fullShare} VV c main_v1))
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- EXIT: the three windows' arrays after the last write-back — the read one as at entry in both its halves, the
    written one at contents the write-backs allow — are the two buffers whole, the table of halves at those contents. -/
theorem arrays_exit0 (c : Dev nD) :
    (rdat0 VV O W c).arraysAt cfg0.N
      ⊢ iprop(∃ G, ⌜(rdat0 VV O W c).ArrAt 2 cfg0.N G⌝
          ∗ (Pipeline.arrBufs (Ix := HIx 1) (Name := ℕ) (U := UU) (Lvl := ℕ) spec0 c (Function.update (VV c) main_v1 G) : sProp 𝕄)) := by
  unfold RDat.arraysAt
  rw [bigSep_W0, share0_0, share0_1, share0_2,
    (rdat0 VV O W c).ArrAt_in 0 rfl, (rdat0 VV O W c).ArrAt_in 1 rfl,
    show (cfg0.win 0).arr.view.set = Finset.univ from (arr_whole0 0).set_eq_univ,
    show (cfg0.win 2).arr.view.set = Finset.univ from (arr_whole0 2).set_eq_univ]
  iintro ⟨⟨%F0, %h0, H0⟩, ⟨%F1, %h1, H1⟩, ⟨%G, %hG, H2⟩⟩
  subst h0; subst h1
  iexists G
  isplitr; · ipureintro; exact hG
  rw [arrBufs_eq0, A_eq0, A_eq0, Function.update_self, Function.update_of_ne (show main_v0 ≠ main_v1 by decide)]
  isplitl [H0 H1]
  · iapply (pointsTo_share (PosShare.mem_left_op_right fullShare)).2
    isplitl [H0] <;> iassumption
  iexact H2

/-- The other pipeline's data, which this region's step never reads: it says nothing. -/
def rdatOther (c : Dev nD) : RDat τ (Elt F) (HIx 1) ℕ UU ℕ cfg2 c where
  A w := VV c (Pipeline.arrRef spec2 w)
  after _ _ _ _ := True
  Φ _ := iprop(emp)
  q _ := fullShare
  owed _ := 0

/-- The family of proof data the library's region rule takes: this region's at its index. -/
def rdats0 : (p : Fin 2) → (c : Dev nD) → RDat τ (Elt F) (HIx 1) ℕ UU ℕ (Pipeline.pin (pcfgs (F := F)) adm0 p) c
  | ⟨0, _⟩ => fun c => rdat0 VV O W c
  | ⟨1, _⟩ => fun c => rdatOther VV c

/-- The unscoped buffers that are no array of the region do not see a change of the table of halves. -/
theorem unscopedRest_update0 (c : Dev nD) (V : (b : Ref sig .tc) → Buf (Elt F) ((c : Thread nD τ).loc b)) (G) :
    (Pipeline.unscopedRest (Ix := HIx 1) (Name := ℕ) (U := UU) (Lvl := ℕ) spec0 c (Function.update V main_v1 G) : sProp 𝕄)
      = Pipeline.unscopedRest spec0 c V := by
  unfold Pipeline.unscopedRest
  refine bigSep_congr fun b hb => ?_
  rw [Function.update_of_ne]
  rintro rfl
  exact (Finset.mem_sdiff.mp hb).2 (by rw [arrs_image0]; decide)

/-- ENTRY, whole: the unscoped buffers are the windows' arrays at the entry contents and the rest. -/
theorem entry_split0 (c : Dev nD) :
    (unscopedBufs c (VV c) : sProp 𝕄)
      ⊢ iprop((rdat0 VV O W c).arrays (rdat0 VV O W c).A
          ∗ Pipeline.unscopedRest (Ix := HIx 1) (Name := ℕ) (U := UU) (Lvl := ℕ) spec0 c (VV c)) := by
  rw [Pipeline.unscopedBufs_split₀ (Ix := HIx 1) (Name := ℕ) (U := UU) (Lvl := ℕ) cfgs (0 : Fin 2) winFacts₀0.arr_unscoped c (VV c)]
  exact sep_mono (arrays_entry0 VV O W c) .rfl

/-- EXIT, whole: the windows' arrays after the last write-back and the rest are the unscoped buffers again, changed
    at the table of halves alone, which holds what the pure fact `hpost` says of the written array. -/
theorem exit_bufs0 (hpost : ∀ c G, (rdat0 VV O W c).ArrAt 2 cfg0.N G → TabOf (VV c main_v0) G) (c : Dev nD) :
    iprop((rdat0 VV O W c).arraysAt cfg0.N ∗ Pipeline.unscopedRest (Ix := HIx 1) (Name := ℕ) (U := UU) (Lvl := ℕ) spec0 c (VV c))
      ⊢ iprop(∃ V', ⌜Post0 c (VV c) V'⌝ ∗ (unscopedBufs c V' : sProp 𝕄)) := by
  iintro ⟨Ha, Hrest⟩
  ihave H := (arrays_exit0 VV O W c) $$ Ha
  icases H with ⟨%G, %hG, Hb⟩
  iexists Function.update (VV c) main_v1 G
  isplitr
  · ipureintro
    refine ⟨fun b hb => Function.update_of_ne hb _ _, ?_⟩
    rw [Function.update_self]
    exact hpost c G hG
  rw [Pipeline.unscopedBufs_split₀ (Ix := HIx 1) (Name := ℕ) (U := UU) (Lvl := ℕ) cfgs (0 : Fin 2) winFacts₀0.arr_unscoped c
    (Function.update (VV c) main_v1 G)]
  isplitl [Hb]; · iexact Hb
  iapply (Entails.of_eq (unscopedRest_update0 c (VV c) G).symm)
  iexact Hrest

/-- The pipeline's own waits are at an index at which the core owes nothing: they sit below everything it owes. -/
theorem hwaits0 (hO : ∀ g, O g none = 0) (c : Dev nD) :
    (levAts (K (F := F)).L (K (F := F)).lev : sProp 𝕄)
      ⊢ Pipeline.RDat.cellsWaits (Pipeline.pin (pcfgs (F := F)) adm0) (rdats0 VV O W) (none : HIx 1) 0 c :=
  Pipeline.RDat.cellsWaits_intro (Pipeline.pin (pcfgs (F := F)) adm0) (rdats0 VV O W) (none : HIx 1) 0 c
    fun w s t => (K (F := F)).mayWait_none _ hO

set_option backward.isDefEq.respectTransparency.types false in
/-- The region as the library's record: entered from every unscoped buffer at `VV` and the core owing `O` with
    recorded waits `W`; left at every unscoped buffer changed at the table of halves alone, owing `O` still. -/
def reg0 (hO : ∀ g, O g none = 0) (hpost : ∀ c G, (rdat0 VV O W c).ArrAt 2 cfg0.N G → TabOf (VV c main_v0) G) :
    Pipeline.RDat.RegionSeg (pcfgs (F := F)) adm0 (rdats0 VV O W) (none : HIx 1) defs₀ 𝒱₀ (K (F := F)).L (K (F := F)).lev 0 where
  win := winFacts₀0
  block_pos := block_pos0
  stage_whole := stage_whole0
  K := PEmpty
  osem k := k.elim
  ho := Pipeline.OwnSemFacts.none _
  hbody c := body_obligation0 VV O W c
  hwaits c := hwaits0 VV O W hO c
  pre c := iprop(unscopedBufs c (VV c) ∗ owes (c : Thread nD τ) O W)
  post c := iprop((∃ V', ⌜Post0 c (VV c) V'⌝ ∗ unscopedBufs c V')
    ∗ (∃ W' : Waits sig (HIx 1), ⌜∀ p ∈ W', p ∈ W ∨ p.2 = none⌝ ∗ owes (c : Thread nD τ) O W'))
  X _ := iprop(emp)
  Y _ := iprop(emp)
  Z c := Pipeline.unscopedRest (Ix := HIx 1) (Name := ℕ) (U := UU) (Lvl := ℕ) spec0 c (VV c)
  hentry c := by
    rw [Pipeline.ownSems0_none]
    iintro ⟨⟨Hub, HO⟩, -, -⟩
    ihave H := (entry_split0 VV O W c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (Or.inl hp)
      iexact HO
    isplitr; · iempintro
    iexact Hrest
  hin c := by
    rw [show (rdats0 VV O W 0 c).Φ 0 = Pipeline.scopedRest spec0 c from rfl]
    iintro ⟨-, -, Hr⟩
    iexact Hr
  hout c := by
    rw [Pipeline.ownSems0_none, show (rdats0 VV O W 0 c).Φ (Fin.last _) = Pipeline.scopedRest spec0 c from rfl]
    iintro Hr
    isplitr; · iempintro
    isplitr; · iempintro
    iexact Hr
  hexit c := by
    iintro ⟨Ha, HO, -, Hrest⟩
    imodintro
    isplitl [Ha Hrest]
    · iapply (exit_bufs0 VV O W hpost c)
      isplitl [Ha]
      · iexact Ha
      · iexact Hrest
    unfold Pipeline.RDat.owesAt Pipeline.owesWithin
    icases HO with ⟨%W', %hW', HO⟩
    iexists W'; isplitr
    · ipureintro
      intro p hp
      rcases hW' (Finset.mem_coe.mpr hp) with h | ⟨w, s, rfl⟩
      · exact h
      · exact Or.inr rfl
    iexact HO

set_option backward.isDefEq.respectTransparency.types false in
/-- The region as one step of the TensorCore's program, under any continuation: from the boundary, every unscoped
    buffer at `VV`, the core owing `O` (nothing at the pipeline's own index) with recorded waits `W`, the level
    facts and the pipeline's cells' ghost state, the region's call runs to the continuation entered with the boundary,
    every unscoped buffer at contents that differ at the table of halves alone, and the core owing `O` still. The
    pure fact about the written array is the hypothesis `hpost`. -/
theorem region0_wp_of (hO : ∀ g, O g none = 0)
    (hpost : ∀ c G, (rdat0 VV O W c).ArrAt 2 cfg0.N G → TabOf (VV c main_v0) G) (c : Dev nD)
    {α : Type} (k : PUnit → Prog (TpuEff nD τ sig (Elt F) (ΛP (F := F)) .tc) α) (Q : α → sProp 𝕄) :
    iprop((iprop(boundary (c : Thread nD τ) ∗ (∃ V', ⌜Post0 c (VV c) V'⌝ ∗ unscopedBufs c V')
              ∗ (∃ W' : Waits sig (HIx 1), ⌜∀ p ∈ W', p ∈ W ∨ p.2 = none⌝ ∗ owes (c : Thread nD τ) O W'))
            -∗ wp frame (wpE (D (F := F)) 𝒱 (c : Thread nD τ) none) Set.univ (k ⟨⟩) Q)
        ∗ boundary (c : Thread nD τ) ∗ unscopedBufs c (VV c) ∗ owes (c : Thread nD τ) O W
        ∗ levAts (K (F := F)).L (K (F := F)).lev
        ∗ Pipeline.cellsGhost (Pipeline.pin (pcfgs (F := F)) adm0) EP 0 c ∗ Pipeline.toksInit (Pipeline.pin (pcfgs (F := F)) adm0) EP 0 c)
      ⊢ wp frame (wpE (D (F := F)) 𝒱 (c : Thread nD τ) none) Set.univ (.op (.customCall (Pipeline.entry 0) ()) k) Q := by
  have h := Pipeline.RDat.RegionSeg.wp (pcfgs (F := F)) adm0 (rdats0 VV O W) (none : HIx 1) cellOf_inj EP defs₀ 𝒱₀
    (K (F := F)).L (K (F := F)).lev (reg0 VV O W hO hpost) c none (fun u hu => absurd hu (Option.not_mem_none u)) k Q
  dsimp only [reg0] at h
  refine BIBase.Entails.trans ?_ h
  iintro ⟨Hk, Hb, Hub, HO, Hl, Hg, Ht⟩
  isplitl [Hk]
  · iintro ⟨Hb, HV, HW⟩
    iapply Hk
    isplitl [Hb]; · iexact Hb
    isplitl [HV]; · iexact HV
    iexact HW
  isplitl [Hb]; · iexact Hb
  isplitl [Hub HO]
  · isplitl [Hub]; · iexact Hub
    iexact HO
  isplitl [Hl]; · iexact Hl
  isplitl [Hg]; · iexact Hg
  iexact Ht

end

end Cert.KernelIdeal.Hand

end
-- ==== Proof.Region0Post.lean ====
/-
  The first TensorCore region's pure post: what the table of halves holds after the four write-backs.

  Point t writes rows 12544 t ‥ 12544 t + 12543 of the table from the output buffer, which holds the
  stacked-and-transposed payload of two buffers: at (y, j), j < 64, the first buffer's (j, y), which is
  column 12544 t + y of the array read (window 0's block t lies inside the array); at (y, 64 + j) the
  second buffer's (j, y), which is column 12544 (t + 4) + y of the array wherever that is a column of it
  (window 1's last block overhangs by 352 columns, and there the buffer holds words nothing names).
  Later points write other rows. So after point t every row below 12544 (t + 1) names the array's
  columns in halves, and after the last point all 50176 rows do.
-/
import proofs.«217423_g17910013624755_cont_8to1_1683_16_alg».proof.Proof.Region0Data
import Idealize.ShloMosaic.Lib.Pipeline.Value
import Idealize.ShloMosaic.Lib.ValueLayout

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

open Idealize.ShloMosaic.ValueIdx Cert.Good

/-! ## The payload at an index -/

/-- Columns 0‥63 of the payload's row y are the first buffer's column y. -/
theorem pay0_left (x0 x1 : Vec F S64x12544 .f32) (y : Fin 12544) (j : Fin 64) :
    k0_pay1 x0 x1 (ix2 y (colL j)) = x0 (ix2 j y) := by
  unfold k0_pay1
  dsimp only
  refine (transpose_ix2_apply (a := 128) (b := 12544) _ _ y (colL j)).trans ?_
  refine (concatenate_pair_apply_left (t := S128x12544) (s₁ := S64x12544) (s₂ := S64x12544) (0 : Fin 2) _ _ _ (ix2 (colL j) y) rfl (ix2 j y : S64x12544.Idx)
    (fun b => match b with | ⟨0, _⟩ => rfl | ⟨1, _⟩ => rfl)).trans ?_
  rw [shapeCast_self]

/-- Columns 64‥127 of the payload's row y are the second buffer's column y. -/
theorem pay0_right (x0 x1 : Vec F S64x12544 .f32) (y : Fin 12544) (j : Fin 64) :
    k0_pay1 x0 x1 (ix2 y (colR j)) = x1 (ix2 j y) := by
  unfold k0_pay1
  dsimp only
  refine (transpose_ix2_apply (a := 128) (b := 12544) _ _ y (colR j)).trans ?_
  refine (concatenate_pair_apply_right (t := S128x12544) (s₁ := S64x12544) (s₂ := S64x12544) (0 : Fin 2) _ _ _ (ix2 (colR j) y) rfl rfl (ix2 j y : S64x12544.Idx)
    (fun b => match b with | ⟨0, _⟩ => fun h => absurd rfl h | ⟨1, _⟩ => fun _ => rfl)
    (by show j.val + 64 = 64 + j.val; omega)).trans ?_
  rw [shapeCast_self]

/-! ## The windows' index maps and cuts, decided over the grid -/

theorem idx0_0 : ∀ t : Fin grid0.N, win0_0.index t 0 = 0 ∧ win0_0.index t 1 = t.val := by decide +kernel
theorem idx0_1 : ∀ t : Fin grid0.N, win0_1.index t 0 = 0 ∧ win0_1.index t 1 = t.val + 4 := by decide +kernel
theorem idx0_2 : ∀ t : Fin grid0.N, win0_2.index t 0 = t.val ∧ win0_2.index t 1 = 0 := by decide +kernel
theorem xs0_0 : ∀ t : Fin grid0.N, win0_0.xsize (grid0.coords t) 0 = 64 ∧ win0_0.xsize (grid0.coords t) 1 = 12544 := by decide +kernel
theorem xs0_1 : ∀ t : Fin grid0.N, win0_1.xsize (grid0.coords t) 0 = 64
    ∧ win0_1.xsize (grid0.coords t) 1 = if t.val = 3 then 12192 else 12544 := by decide +kernel
theorem xs0_2 : ∀ t : Fin grid0.N, win0_2.xsize (grid0.coords t) 0 = 12544 ∧ win0_2.xsize (grid0.coords t) 1 = 128 := by decide +kernel

section
variable (VV : (c : Dev nD) → (b : Ref sig .tc) → Buf (Elt F) ((c : Thread nD τ).loc b))
variable (O : CellTallies nD τ sig (HIx 1)) (W : Waits sig (HIx 1))

/-! ## What a just-fetched input buffer holds where its fetch moves -/

/-- At an index the fetch moves, a just-fetched buffer holds the array's element under the block. -/
theorem fetched0_apply (c : Dev nD) (w : Fin cfg0.W) (t : Fin cfg0.N) (d) (j : (cfg0.win w).block.Idx)
    (h : ∀ a, (j a).val < (cfg0.win w).xsize (cfg0.grid.coords t) a) :
    fetched0 VV c w t d j
      = ((cfg0.win w).blk t).view.read (Elt F) (VV c (Pipeline.arrRef spec0 w)) (fun a => ⟨(j a).val, h a⟩) := by
  unfold fetched0 Window.fill iblk0
  rw [dif_pos (((cfg0.win w).moved_iff _ j).mpr h)]

/-- Window 0's buffer at point t holds, at (j, y), the array's (j, 12544 t + y): its blocks lie inside the array. -/
theorem in0_apply (c : Dev nD) (t : Fin cfg0.N) (ht : t.val < 4) (d) (j : Fin 64) (y : Fin 12544) :
    (fetched0 VV c 0 t d : S64x12544.Idx → Elt F .f32) (ix2 j y)
      = (VV c main_v0 : S64x100000.Idx → Elt F .f32) (ix2 j (⟨12544 * t.val + y.val, by omega⟩ : Fin 100000)) := by
  have hx := xs0_0 t
  have hm : ∀ a, ((ix2 j y : S64x12544.Idx) a).val < win0_0.xsize (grid0.coords t) a := fun a => match a with
    | ⟨0, _⟩ => by show j.val < win0_0.xsize (grid0.coords t) 0; rw [hx.1]; exact j.isLt
    | ⟨1, _⟩ => by show y.val < win0_0.xsize (grid0.coords t) 1; rw [hx.2]; exact y.isLt
  refine (fetched0_apply VV c 0 t d (ix2 j y) hm).trans ?_
  rw [View.read_apply]
  show VV c main_v0 ((win0_0.blk t).view.emb _) = _
  refine congrArg (VV c main_v0) (funext fun a => Fin.ext ?_)
  match a with
  | ⟨0, _⟩ => show win0_0.index t 0 * 64 + 1 * j.val = j.val; rw [(idx0_0 t).1]; omega
  | ⟨1, _⟩ => show win0_0.index t 1 * 12544 + 1 * y.val = 12544 * t.val + y.val; rw [(idx0_0 t).2]; omega

/-- Window 1's buffer at point t holds, at (j, y), the array's (j, 12544 (t + 4) + y) wherever that is a column of it. -/
theorem in1_apply (c : Dev nD) (t : Fin cfg0.N) (ht : t.val < 4) (d) (j : Fin 64) (y : Fin 12544)
    (h : 12544 * (t.val + 4) + y.val < 100000) :
    (fetched0 VV c 1 t d : S64x12544.Idx → Elt F .f32) (ix2 j y)
      = (VV c main_v0 : S64x100000.Idx → Elt F .f32) (ix2 j (⟨12544 * (t.val + 4) + y.val, h⟩ : Fin 100000)) := by
  have hx := xs0_1 t
  have hm : ∀ a, ((ix2 j y : S64x12544.Idx) a).val < win0_1.xsize (grid0.coords t) a := fun a => match a with
    | ⟨0, _⟩ => by show j.val < win0_1.xsize (grid0.coords t) 0; rw [hx.1]; exact j.isLt
    | ⟨1, _⟩ => by show y.val < win0_1.xsize (grid0.coords t) 1; rw [hx.2]; have := y.isLt; split <;> omega
  refine (fetched0_apply VV c 1 t d (ix2 j y) hm).trans ?_
  rw [View.read_apply]
  show VV c main_v0 ((win0_1.blk t).view.emb _) = _
  refine congrArg (VV c main_v0) (funext fun a => Fin.ext ?_)
  match a with
  | ⟨0, _⟩ => show win0_1.index t 0 * 64 + 1 * j.val = j.val; rw [(idx0_1 t).1]; omega
  | ⟨1, _⟩ => show win0_1.index t 1 * 12544 + 1 * y.val = 12544 * (t.val + 4) + y.val; rw [(idx0_1 t).2]; omega

/-! ## One write-back of the table -/

/-- Inside the block written at point t, the table takes the written buffer's entry. -/
theorem out_in_blk (c : Dev nD) (t : Fin cfg0.N) (ht : t.val < 4)
    (G₀ : Buf (Elt F) ((cfg0.win 2).arr.view.loc (c : Thread nD τ))) (X : (cfg0.win 2).block.Idx → Elt F (cfg0.win 2).elt)
    (y : Fin 12544) (col : Fin 128) :
    ((win0_2.blk t).view.write (Elt F) G₀ (win0_2.cut (grid0.coords t) X) Finset.univ : S50176x128.Idx → Elt F .f32)
        (ix2 (⟨12544 * t.val + y.val, by omega⟩ : Fin 50176) col)
      = (X : S12544x128.Idx → Elt F .f32) (ix2 y col) := by
  have e : (win0_2.blk t).view.emb (ix2 y col : S12544x128.Idx) = (ix2 (⟨12544 * t.val + y.val, by omega⟩ : Fin 50176) col : S50176x128.Idx) :=
    funext fun a => Fin.ext (match a with
      | ⟨0, _⟩ => by show win0_2.index t 0 * 12544 + 1 * y.val = 12544 * t.val + y.val; rw [(idx0_2 t).1]; omega
      | ⟨1, _⟩ => by show win0_2.index t 1 * 128 + 1 * col.val = col.val; rw [(idx0_2 t).2]; omega)
  rw [← e, View.write_emb_of_mem _ _ (Finset.mem_univ _)]
  rfl

/-- Below the block written at point t the table is unchanged. -/
theorem out_off_blk (c : Dev nD) (t : Fin cfg0.N)
    (G₀ : Buf (Elt F) ((cfg0.win 2).arr.view.loc (c : Thread nD τ))) (w : (win0_2.xblock (grid0.coords t)).Idx → Elt F win0_2.elt)
    (r : Fin 50176) (col : Fin 128) (hr : r.val < 12544 * t.val) :
    ((win0_2.blk t).view.write (Elt F) G₀ w Finset.univ : S50176x128.Idx → Elt F .f32) (ix2 r col)
      = (G₀ : S50176x128.Idx → Elt F .f32) (ix2 r col) := by
  refine View.write_of_not_mem _ _ _ ?_
  rw [View.setOn_univ]
  show (ix2 r col : S50176x128.Idx) ∉ ((View.whole main_v1).slice (win0_2.rect t)).set
  rw [View.set_slice_whole, Rect.mem_set_unit]
  intro h
  have h0 := (h 0).1
  change win0_2.index t 0 * 12544 ≤ r.val at h0
  rw [(idx0_2 t).1] at h0
  omega

/-! ## The rows written so far -/

/-- Every row below 12544 n names the array's columns in halves. -/
def RowsGood (emb : S64x100000.Idx → Elt F .f32) (n : Nat) (tab : S50176x128.Idx → Elt F .f32) : Prop :=
  ∀ r : Fin 50176, r.val < 12544 * n → ∀ j : Fin 64,
    tab (ix2 r (colL j)) = emb (ix2 j (⟨r.val, by omega⟩ : Fin 100000))
    ∧ ∀ h : r.val + 50176 < 100000, tab (ix2 r (colR j)) = emb (ix2 j (⟨r.val + 50176, h⟩ : Fin 100000))

/-- The write-back at point t adds its 12544 rows. -/
theorem rowsGood_step (c : Dev nD) (t : Fin cfg0.N) (ht : t.val < 4)
    (G₀ G : Buf (Elt F) ((cfg0.win 2).arr.view.loc (c : Thread nD τ))) (X : (cfg0.win 2).block.Idx → Elt F (cfg0.win 2).elt)
    (hX : (rdat0 VV O W c).Leaves 2 t X)
    (hG : G = (win0_2.blk t).view.write (Elt F) G₀ (win0_2.cut (grid0.coords t) X) Finset.univ)
    (h0 : RowsGood (VV c main_v0) t.val G₀) : RowsGood (VV c main_v0) (t.val + 1) G := by
  obtain ⟨Y, -, hYX⟩ := hX
  rw [after0_2] at hYX
  obtain ⟨d0, d1, rfl⟩ := hYX
  subst hG
  intro r hr j
  by_cases hlt : r.val < 12544 * t.val
  · rw [out_off_blk c t G₀ _ r (colL j) hlt, out_off_blk c t G₀ _ r (colR j) hlt]
    exact h0 r hlt j
  · obtain ⟨rv, hrv⟩ := r
    have hr' : rv < 12544 * (t.val + 1) := hr
    have hlt' : ¬ rv < 12544 * t.val := hlt
    obtain ⟨y, hy⟩ : ∃ y : Fin 12544, rv = 12544 * t.val + y.val :=
      ⟨⟨rv - 12544 * t.val, by omega⟩, by show rv = 12544 * t.val + (rv - 12544 * t.val); omega⟩
    subst hy
    rw [out_in_blk c t ht G₀ _ y (colL j), out_in_blk c t ht G₀ _ y (colR j)]
    refine ⟨?_, fun h => ?_⟩
    · refine (pay0_left _ _ y j).trans ?_
      exact in0_apply VV c t ht d0 j y
    · refine (pay0_right _ _ y j).trans ?_
      refine (in1_apply VV c t ht d1 j y (by show 12544 * (t.val + 4) + y.val < 100000; have : 12544 * t.val + y.val + 50176 < 100000 := h; omega)).trans ?_
      exact congrArg (VV c main_v0) (congrArg (ix2 j) (Fin.ext (by show 12544 * (t.val + 4) + y.val = 12544 * t.val + y.val + 50176; omega)))

/-- After the four write-backs the table names the array's columns in halves. -/
theorem tab_of_arrAt (c : Dev nD) (G : Buf (Elt F) ((cfg0.win 2).arr.view.loc (c : Thread nD τ)))
    (h : (rdat0 VV O W c).ArrAt 2 cfg0.N G) : TabOf (VV c main_v0) G := by
  rw [show cfg0.N = t0_3.val + 1 from rfl, RDat.ArrAt_succ, if_pos (flush0_2 _)] at h
  obtain ⟨G3, X3, h3, hX3, e3⟩ := h
  rw [show t0_3.val = t0_2.val + 1 from rfl, RDat.ArrAt_succ, if_pos (flush0_2 _)] at h3
  obtain ⟨G2, X2, h2, hX2, e2⟩ := h3
  rw [show t0_2.val = t0_1.val + 1 from rfl, RDat.ArrAt_succ, if_pos (flush0_2 _)] at h2
  obtain ⟨G1, X1, h1, hX1, e1⟩ := h2
  rw [show t0_1.val = t0_0.val + 1 from rfl, RDat.ArrAt_succ, if_pos (flush0_2 _)] at h1
  obtain ⟨G0, X0, -, hX0, e0⟩ := h1
  have g0 : RowsGood (VV c main_v0) t0_0.val G0 := fun r hr => absurd hr (by show ¬ r.val < 12544 * 0; omega)
  have g1 := rowsGood_step VV O W c t0_0 (by decide) G0 G1 X0 hX0 e0 g0
  have g2 := rowsGood_step VV O W c t0_1 (by decide) G1 G2 X1 hX1 e1 g1
  have g3 := rowsGood_step VV O W c t0_2 (by decide) G2 G3 X2 hX2 e2 g2
  have g4 := rowsGood_step VV O W c t0_3 (by decide) G3 G X3 hX3 e3 g3
  intro r j
  exact g4 r (by show r.val < 12544 * (3 + 1); omega) j

end

end Cert.KernelIdeal.Hand

end
-- ==== Proof.Region2Body.lean ====
/-
  The projection kernel's body, run once per control case on whole staging buffers.

  The grid has 25 points; the body branches on "this is the first point". At the first point it
  forms the new recurrent state H (1024 × 256) from the thirteen operands that are whole arrays —
  the gathered embedding rows (each row holding two candidate halves, one of which the indicator
  column selects), the incoming state, the six weight matrices and four bias rows —, writes the
  transpose of H into a 256 × 1024 scratch and H itself into the state's output buffer. At every
  point it then writes, into the logits block's buffer, the product of the current 4096 × 256
  block of the output weights with the scratch, plus the current block of the output bias as a
  column. So after the first point the scratch carries the transposed state unchanged, and each
  logits block is a function of its two input blocks and that one carried array.

  Both cases are stated over variables for the operands' contents; the arithmetic appears only
  through the named payload terms, and holds at every float instance.
-/
import proofs.«217423_g17910013624755_cont_8to1_1683_16_alg».proof.Proof.Common
import Idealize.ShloMosaic.Lib.Pipeline.FrameBody
import Idealize.ShloMosaic.Lib.Pipeline.Value
import Idealize.ShloMosaic.Lib.Tactic

set_option maxRecDepth 16384

noncomputable section

namespace Cert.KernelIdeal.Hand.Region2

open Cert.KernelIdeal Cert.KernelIdeal.Gen Cert.KernelIdeal.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The two column halves of a gathered row block: columns 0‥63 and columns 64‥127. -/
abbrev rL : Rect S1024x128 := Rect.unit (s := S1024x128) ![0, 0] S1024x64.size inb_S1024x128_S1024x64_0_0
abbrev rR : Rect S1024x128 := Rect.unit (s := S1024x128) ![0, 64] S1024x64.size inb_S1024x128_S1024x64_0_64

/-- The new state from the thirteen whole operands: the embedding half selected per row, the three
    gate pre-activations, the candidate, the convex combination with the old state. -/
def stateOf (x0 : Vec F S1024x128 .f32) (x1 : Vec F S1024x1 .f32) (x2 : Vec F S1024x256 .f32) (x3 : Vec F S64x256 .f32) (x4 : Vec F S1x256 .f32) (x5 : Vec F S64x256 .f32) (x6 : Vec F S1x256 .f32) (x7 : Vec F S64x256 .f32) (x8 : Vec F S1x256 .f32) (x9 : Vec F S256x256 .f32) (x10 : Vec F S256x256 .f32) (x11 : Vec F S256x256 .f32) (x12 : Vec F S1x256 .f32) : FVec F S1024x256 .f32 :=
  k2_pay1 (k2_pay4 x1 (View.ld x0 rL) (View.ld x0 rR)) x2 (k2_pay5 x2 x10) (k2_pay6 x2 x11)
    (k2_pay7 x1 (View.ld x0 rL) (View.ld x0 rR) x2 x9 x3 x4) (k2_pay8 x1 (View.ld x0 rL) (View.ld x0 rR) x5 x6) x7 x8 x12

/-- The new state transposed: what the scratch carries from the first point on. -/
def stateTOf (x0 : Vec F S1024x128 .f32) (x1 : Vec F S1024x1 .f32) (x2 : Vec F S1024x256 .f32) (x3 : Vec F S64x256 .f32) (x4 : Vec F S1x256 .f32) (x5 : Vec F S64x256 .f32) (x6 : Vec F S1x256 .f32) (x7 : Vec F S64x256 .f32) (x8 : Vec F S1x256 .f32) (x9 : Vec F S256x256 .f32) (x10 : Vec F S256x256 .f32) (x11 : Vec F S256x256 .f32) (x12 : Vec F S1x256 .f32) : FVec F S256x1024 .f32 :=
  k2_pay2 (k2_pay4 x1 (View.ld x0 rL) (View.ld x0 rR)) x2 (k2_pay5 x2 x10) (k2_pay6 x2 x11)
    (k2_pay7 x1 (View.ld x0 rL) (View.ld x0 rR) x2 x9 x3 x4) (k2_pay8 x1 (View.ld x0 rL) (View.ld x0 rR) x5 x6) x7 x8 x12

theorem hz : (![0, 0] : Fin 2 → Nat) = fun _ => 0 := funext fun a => by fin_cases a <;> rfl

/-- One store through the whole-shape rectangle covers the shape. -/
theorem cover_unit_zero {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

/-- The branch condition holds at the first point only. -/
theorem hcond : ∀ t : Fin cfg2.N, k2_cond1 (grid2.coords t) = 1#1 ↔ t.val = 0 :=
  (by decide +kernel : ∀ t : Fin grid2.N, k2_cond1 (grid2.coords t) = 1#1 ↔ t.val = 0)

set_option maxHeartbeats 4000000 in
/-- The body at the first point: the branch is taken; the new state is computed from the thirteen
    whole operands, its transpose goes to the scratch and the state itself to its output buffer;
    then the logits block is computed from the weight block, the scratch just written and the bias block. -/
theorem sound_kernelA (c : Dev nD) (E : Set ℕ) (i : grid2.Coords) (hc : k2_cond1 i = 1#1) (arg1 : Memref sig .tc .vmem S1024x128 .f32) (harg1 : arg1.IsWhole) (arg2 : Memref sig .tc .vmem S1024x1 .f32) (harg2 : arg2.IsWhole) (arg3 : Memref sig .tc .vmem S1024x256 .f32) (harg3 : arg3.IsWhole) (arg4 : Memref sig .tc .vmem S64x256 .f32) (harg4 : arg4.IsWhole) (arg5 : Memref sig .tc .vmem S1x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S4096x256 .f32) (harg14 : arg14.IsWhole) (arg15 : Memref sig .tc .vmem S1x4096 .f32) (harg15 : arg15.IsWhole) (arg16 : Memref sig .tc .vmem S4096x1024 .f32) (harg16 : arg16.IsWhole) (arg17 : Memref sig .tc .vmem S1024x256 .f32) (harg17 : arg17.IsWhole) (arg18 : Memref sig .tc .vmem S256x1024 .f32) (harg18 : arg18.IsWhole)
    (x0 : Vec F S1024x128 .f32) (x1 : Vec F S1024x1 .f32) (x2 : Vec F S1024x256 .f32) (x3 : Vec F S64x256 .f32) (x4 : Vec F S1x256 .f32) (x5 : Vec F S64x256 .f32) (x6 : Vec F S1x256 .f32) (x7 : Vec F S64x256 .f32) (x8 : Vec F S1x256 .f32) (x9 : Vec F S256x256 .f32) (x10 : Vec F S256x256 .f32) (x11 : Vec F S256x256 .f32) (x12 : Vec F S1x256 .f32) (x13 : Vec F S4096x256 .f32) (x14 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (k2_pay3 x13 (stateTOf x0 x1 x2 x3 x4 x5 x6 x7 x8 x9 x10 x11 x12) x14)
            ∗ owns (c : Thread nD τ) arg17 fullShare (stateOf x0 x1 x2 x3 x4 x5 x6 x7 x8 x9 x10 x11 x12)
            ∗ owns (c : Thread nD τ) arg18 fullShare (stateTOf x0 x1 x2 x3 x4 x5 x6 x7 x8 x9 x10 x11 x12)) -∗ K ⟨⟩))
      ⊢ wp frame (wpE (defs₀ (F := F)) Variants.none c none) E (cc2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc2_body_eq_skeleton]; unfold cc2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0; subst hf1; subst hf2; subst hf3; subst hf4; subst hf5; subst hf6; subst hf7; subst hf8; subst hf9; subst hf10; subst hf11; subst hf12; subst hf13; subst hf14
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    rw [View.read_writes_eq_canon _ _ _ (cover_unit_zero (S := S4096x1024) hz _ _), View.canon_unit_zero hz, View.readCov_unit_zero (S := S256x1024) _ hz]
    unfold stateTOf
    simp only [View.readAt_eq_ld, View.ld_unit_zero (S := S1024x1) hz, View.ld_unit_zero (S := S1024x256) hz, View.ld_unit_zero (S := S256x256) hz, View.ld_unit_zero (S := S64x256) hz, View.ld_unit_zero (S := S1x256) hz, View.ld_unit_zero (S := S4096x256) hz, View.ld_unit_zero (S := S1x4096) hz]
  isplitl [H16]
  · iexists _; isplitr
    swap; · iexact H16
    ipureintro
    sl_unfold_run_names
    rw [View.read_writes_eq_canon _ _ _ (cover_unit_zero (S := S1024x256) hz _ _), View.canon_unit_zero hz]
    unfold stateOf
    simp only [View.readAt_eq_ld, View.ld_unit_zero (S := S1024x1) hz, View.ld_unit_zero (S := S1024x256) hz, View.ld_unit_zero (S := S256x256) hz, View.ld_unit_zero (S := S64x256) hz, View.ld_unit_zero (S := S1x256) hz, View.ld_unit_zero (S := S4096x256) hz, View.ld_unit_zero (S := S1x4096) hz]
  iexists _; isplitr
  swap; · iexact H17
  ipureintro
  sl_unfold_run_names
  rw [View.read_writes_eq_canon _ _ _ (cover_unit_zero (S := S256x1024) hz _ _), View.canon_unit_zero hz]
  unfold stateTOf
  simp only [View.readAt_eq_ld, View.ld_unit_zero (S := S1024x1) hz, View.ld_unit_zero (S := S1024x256) hz, View.ld_unit_zero (S := S256x256) hz, View.ld_unit_zero (S := S64x256) hz, View.ld_unit_zero (S := S1x256) hz, View.ld_unit_zero (S := S4096x256) hz, View.ld_unit_zero (S := S1x4096) hz]

set_option maxHeartbeats 4000000 in
/-- The body at a later point: the branch is skipped; the logits block is the matrix product of the
    weight block with whatever the scratch holds, plus the bias column; the state's buffer and the
    scratch are not touched. -/
theorem sound_kernelB (c : Dev nD) (E : Set ℕ) (i : grid2.Coords) (hc : ¬ k2_cond1 i = 1#1) (arg1 : Memref sig .tc .vmem S1024x128 .f32) (harg1 : arg1.IsWhole) (arg2 : Memref sig .tc .vmem S1024x1 .f32) (harg2 : arg2.IsWhole) (arg3 : Memref sig .tc .vmem S1024x256 .f32) (harg3 : arg3.IsWhole) (arg4 : Memref sig .tc .vmem S64x256 .f32) (harg4 : arg4.IsWhole) (arg5 : Memref sig .tc .vmem S1x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S4096x256 .f32) (harg14 : arg14.IsWhole) (arg15 : Memref sig .tc .vmem S1x4096 .f32) (harg15 : arg15.IsWhole) (arg16 : Memref sig .tc .vmem S4096x1024 .f32) (harg16 : arg16.IsWhole) (arg17 : Memref sig .tc .vmem S1024x256 .f32) (harg17 : arg17.IsWhole) (arg18 : Memref sig .tc .vmem S256x1024 .f32) (harg18 : arg18.IsWhole)
    (x0 : Vec F S1024x128 .f32) (x1 : Vec F S1024x1 .f32) (x2 : Vec F S1024x256 .f32) (x3 : Vec F S64x256 .f32) (x4 : Vec F S1x256 .f32) (x5 : Vec F S64x256 .f32) (x6 : Vec F S1x256 .f32) (x7 : Vec F S64x256 .f32) (x8 : Vec F S1x256 .f32) (x9 : Vec F S256x256 .f32) (x10 : Vec F S256x256 .f32) (x11 : Vec F S256x256 .f32) (x12 : Vec F S1x256 .f32) (x13 : Vec F S4096x256 .f32) (x14 : Vec F S1x4096 .f32) (y16 : Vec F S1024x256 .f32) (s : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (∃ d, owns (c : Thread nD τ) arg16 fullShare d) ∗ owns (c : Thread nD τ) arg17 fullShare y16 ∗ owns (c : Thread nD τ) arg18 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (k2_pay3 x13 s x14)
            ∗ owns (c : Thread nD τ) arg17 fullShare y16
            ∗ owns (c : Thread nD τ) arg18 fullShare s) -∗ K ⟨⟩))
      ⊢ wp frame (wpE (defs₀ (F := F)) Variants.none c none) E (cc2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc2_body_eq_skeleton]; unfold cc2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, Hk⟩
  subst hf0; subst hf1; subst hf2; subst hf3; subst hf4; subst hf5; subst hf6; subst hf7; subst hf8; subst hf9; subst hf10; subst hf11; subst hf12; subst hf13; subst hf14; subst hf16; subst hf17
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    rw [View.read_writes_eq_canon _ _ _ (cover_unit_zero (S := S4096x1024) hz _ _), View.canon_unit_zero hz]
    simp only [View.readAt_eq_ld, View.ld_unit_zero (S := S1024x1) hz, View.ld_unit_zero (S := S1024x256) hz, View.ld_unit_zero (S := S256x256) hz, View.ld_unit_zero (S := S64x256) hz, View.ld_unit_zero (S := S1x256) hz, View.ld_unit_zero (S := S4096x256) hz, View.ld_unit_zero (S := S1x4096) hz, View.ld_unit_zero (S := S256x1024) hz]
  isplitl [H16]
  · iexists f16; isplitr; · ipureintro; rfl
    iexact H16
  iexists f17; isplitr; · ipureintro; rfl
  iexact H17

end Cert.KernelIdeal.Hand.Region2

end
-- ==== Proof.PostSpec.lean ====
/-
  What the two TensorCore regions leave, as pure predicates on the contents of the unscoped buffers
  before (V) and after (V') each region.

  The first region writes the halves table from the transposed embedding table: row r of the table
  holds column r of the transposed table in its left half and column r + 50176 in its right half,
  the latter only where that column exists. The second region writes the new state — the body's
  new-state term of the thirteen whole-array windows — and, block by block of 4096 rows, the
  transposed logits: each block is the body's projection term of SOME staged blocks that agree
  with the weight and bias arrays on the rows inside the arrays (the last block's remaining rows
  are never written back).
-/
import proofs.«217423_g17910013624755_cont_8to1_1683_16_alg».proof.Proof.Common
import proofs.«217423_g17910013624755_cont_8to1_1683_16_alg».proof.Proof.Good
import proofs.«217423_g17910013624755_cont_8to1_1683_16_alg».proof.Proof.Region2Body

noncomputable section

namespace Cert.KernelIdeal.Hand

open Cert.KernelIdeal Cert.KernelIdeal.Gen
open Idealize.ShloMosaic Idealize.ShloMosaic.ValueIdx Idealize.SL.Sem

variable {F : FTy → Type} [FloatOps F]

/-- The contents of the TensorCore's unscoped buffers on device d. -/
abbrev TcVal (F : FTy → Type) (d : Dev nD) : Type := (b : Ref sig .tc) → Buf (Elt F) ((d.tc : Thread nD τ).loc b)

/-- What the first region leaves. -/
def Post0Spec (d : Dev nD) (V V' : TcVal F d) : Prop :=
  (∀ b, b ≠ main_v1 → V' b = V b)
  ∧ ∀ (r : Fin 50176) (j : Fin 64),
      (V' main_v1 : S50176x128.Idx → F .f32) (ix2 r (Cert.Good.colL j)) = (V main_v0 : S64x100000.Idx → F .f32) (ix2 j (⟨r.val, by omega⟩ : Fin 100000))
      ∧ ∀ h : r.val + 50176 < 100000,
          (V' main_v1 : S50176x128.Idx → F .f32) (ix2 r (Cert.Good.colR j)) = (V main_v0 : S64x100000.Idx → F .f32) (ix2 j (⟨r.val + 50176, h⟩ : Fin 100000))

/-- The new state as the second region computes it from the buffers it is entered with. -/
def newHOf (d : Dev nD) (V : TcVal F d) : FVec F S1024x256 .f32 :=
  Region2.stateOf (V main_v2) (V main_v6) (V main_arg1) (V main_arg3) (V main_v8) (V main_arg5) (V main_v9) (V main_arg7) (V main_v10)
    (V main_arg9) (V main_arg10) (V main_arg11) (V main_v11)
/-- Its transpose, as the region keeps it in its scratch. -/
def newHTOf (d : Dev nD) (V : TcVal F d) : FVec F S256x1024 .f32 :=
  Region2.stateTOf (V main_v2) (V main_v6) (V main_arg1) (V main_arg3) (V main_v8) (V main_arg5) (V main_v9) (V main_arg7) (V main_v10)
    (V main_arg9) (V main_arg10) (V main_arg11) (V main_v11)

/-- What the second region leaves. -/
def Post2Spec (d : Dev nD) (V V' : TcVal F d) : Prop :=
  (∀ b, b ≠ main_v13_0 → b ≠ main_v13_1 → V' b = V b)
  ∧ (V' main_v13_1 : S1024x256.Idx → F .f32) = newHOf d V
  ∧ ∀ t : Fin 25, ∃ (w13 : Vec F S4096x256 .f32) (w14 : Vec F S1x4096 .f32),
      (∀ (r : Fin 4096) (k : Fin 256) (h : 4096 * t.val + r.val < 100000),
          w13 (ix2 r k) = (V main_v7 : S100000x256.Idx → F .f32) (ix2 (⟨4096 * t.val + r.val, h⟩ : Fin 100000) k))
      ∧ (∀ (r : Fin 4096) (h : 4096 * t.val + r.val < 100000),
          w14 (ix2 (0 : Fin 1) r) = (V main_v12 : S1x100000.Idx → F .f32) (ix2 (0 : Fin 1) (⟨4096 * t.val + r.val, h⟩ : Fin 100000)))
      ∧ ∀ (r : Fin 4096) (b : Fin 1024) (h : 4096 * t.val + r.val < 100000),
          (V' main_v13_0 : S100000x1024.Idx → F .f32) (ix2 (⟨4096 * t.val + r.val, h⟩ : Fin 100000) b) = k2_pay3 w13 (newHTOf d V) w14 (ix2 r b)

end Cert.KernelIdeal.Hand

end
-- ==== Proof.Region0Wp.lean ====
/-
  The first TensorCore region's step at one device, with its post stated purely.

  At device d, entered with every unscoped buffer at V, the region leaves every unscoped buffer at some V'
  that differs from V at the table of halves alone, and that table names the transposed embedding table's
  columns in halves: row r holds column r in its columns 0‥63 and column r + 50176 in its columns 64‥127
  wherever the array has that column. The core owes afterwards what it owed before, and its waits have
  recorded nothing new but at the pipeline's own index.
-/
import proofs.«217423_g17910013624755_cont_8to1_1683_16_alg».proof.Proof.Region0
import proofs.«217423_g17910013624755_cont_8to1_1683_16_alg».proof.Proof.Region0Post
import proofs.«217423_g17910013624755_cont_8to1_1683_16_alg».proof.Proof.PostSpec

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

section
variable [∀ e, Nonempty (Elt F e)]

/-- Contents given on one device, read on every device: there is one device. -/
def spread0 (d : Dev nD) (V : TcVal F d) : (c : Dev nD) → (b : Ref sig .tc) → Buf (Elt F) ((c : Thread nD τ).loc b) :=
  fun c => (Subsingleton.elim d c : d = c) ▸ V

theorem spread0_self (d : Dev nD) (V : TcVal F d) : spread0 d V d = V := rfl

/-- The post as the data module states it is the post as the specification module states it. -/
theorem post0_iff (d : Dev nD) (V V' : TcVal F d) : Post0 d V V' ↔ Post0Spec d V V' := Iff.rfl

/-- The first TensorCore region under any continuation. -/
theorem region0_wp (d : Dev nD) (V : TcVal F d) (O : CellTallies nD τ sig (HIx 1)) (hO : ∀ g, O g none = 0)
    (W : Waits sig (HIx 1)) {α : Type} (k : PUnit → Prog (TpuEff nD τ sig (Elt F) (ΛP (F := F)) .tc) α) (Q : α → sProp 𝕄) :
    iprop((iprop(boundary (d.tc : Thread nD τ) ∗ (∃ V', ⌜Post0Spec d V V'⌝ ∗ unscopedBufs d V')
              ∗ (∃ W' : Waits sig (HIx 1), ⌜∀ p ∈ W', p ∈ W ∨ p.2 = none⌝ ∗ owes (d.tc : Thread nD τ) O W'))
            -∗ wp frame (wpE (D (F := F)) 𝒱 (d.tc : Thread nD τ) none) Set.univ (k ⟨⟩) Q)
        ∗ boundary (d.tc : Thread nD τ) ∗ unscopedBufs d V ∗ owes (d.tc : Thread nD τ) O W
        ∗ levAts (K (F := F)).L (K (F := F)).lev
        ∗ Pipeline.cellsGhost (Pipeline.pin (pcfgs (F := F)) adm0) EP 0 d ∗ Pipeline.toksInit (Pipeline.pin (pcfgs (F := F)) adm0) EP 0 d)
      ⊢ wp frame (wpE (D (F := F)) 𝒱 (d.tc : Thread nD τ) none) Set.univ (.op (.customCall (Pipeline.entry 0) ()) k) Q :=
  region0_wp_of (spread0 d V) O W hO (fun c G hG => tab_of_arrAt (spread0 d V) O W c G hG) d k Q

end

end Cert.KernelIdeal.Hand

end
-- ==== Proof.Region2Data.lean ====
/-
  The proof data of the projection pipeline, and what its body finds in each window's buffer.

  Thirteen windows are whole arrays at block index zero, fetched once: from the first point on their
  buffers hold the arrays themselves, the body leaving them as found. Two inputs (a 4096-row block
  of the output weights and the matching block of the output bias) and the logits output move with
  the point; their last block overhangs the arrays, so a buffer is known only on the part inside.
  The state's output is written by the body at the first point and written back at the last. The
  scratch, which no window stages, carries the transposed new state from the first point on.
-/
import proofs.«217423_g17910013624755_cont_8to1_1683_16_alg».proof.Proof.PostSpec
import Idealize.ShloMosaic.Lib.Pipeline.RegionsLoop

set_option maxRecDepth 16384

noncomputable section

namespace Cert.KernelIdeal.Hand.Region2

open Cert.KernelIdeal Cert.KernelIdeal.Gen Cert.KernelIdeal.Hand
open Idealize.ShloMosaic.Pipeline (RDat Cfg Window cellOf)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Data

variable (V : (c : Dev nD) → (b : Ref sig .tc) → Buf (Elt F) ((c.tc : Thread nD τ).loc b))
variable (O : CellTallies nD τ sig (HIx 1)) (W : Waits sig (HIx 1))

/-- Window `w`'s block at point `t`, its part inside the array, read off the entry contents. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What a staging buffer that held `d` holds once that block has landed in it: the block on the part
    inside the array, `d` on the overhang. -/
def fet (c : Dev nD) (w : Fin cfg2.W) (t : Fin cfg2.N) (d : (cfg2.win w).block.Idx → Elt F (cfg2.win w).elt) :
    (cfg2.win w).block.Idx → Elt F (cfg2.win w).elt :=
  (cfg2.win w).fill (cfg2.grid.coords t) d (iblk V c w t)

/-- The scoped buffers of the other call, which this region never names. -/
def restSix (c : Dev nD) : sProp 𝕄 :=
  iprop((∃ f : Buf (Elt F) ((c.tc : Thread nD τ).loc cc0_stg0_0), ((c.tc : Thread nD τ).loc cc0_stg0_0) ↦{fullShare} f) ∗ (∃ f : Buf (Elt F) ((c.tc : Thread nD τ).loc cc0_stg0_1), ((c.tc : Thread nD τ).loc cc0_stg0_1) ↦{fullShare} f) ∗ (∃ f : Buf (Elt F) ((c.tc : Thread nD τ).loc cc0_stg1_0), ((c.tc : Thread nD τ).loc cc0_stg1_0) ↦{fullShare} f) ∗ (∃ f : Buf (Elt F) ((c.tc : Thread nD τ).loc cc0_stg1_1), ((c.tc : Thread nD τ).loc cc0_stg1_1) ↦{fullShare} f) ∗ (∃ f : Buf (Elt F) ((c.tc : Thread nD τ).loc cc0_stg2_0), ((c.tc : Thread nD τ).loc cc0_stg2_0) ↦{fullShare} f) ∗ (∃ f : Buf (Elt F) ((c.tc : Thread nD τ).loc cc0_stg2_1), ((c.tc : Thread nD τ).loc cc0_stg2_1) ↦{fullShare} f))

/-- The scratch before point `t`: anything before the first point, the transposed new state from then on. -/
def scrOf (c : Dev nD) (t : Fin (cfg2.N + 1)) : sProp 𝕄 :=
  if t.val = 0 then iprop(∃ f : Buf (Elt F) ((c.tc : Thread nD τ).loc cc2_scratch0), ((c.tc : Thread nD τ).loc cc2_scratch0) ↦{fullShare} f)
  else (((c.tc : Thread nD τ).loc cc2_scratch0) ↦{fullShare} (newHTOf c (V c) : Buf (Elt F) ((c.tc : Thread nD τ).loc cc2_scratch0)) : sProp 𝕄)

/-- The proof data of the projection pipeline. An input's buffer is left as found. The logits block's
    buffer is left at the block product of SOME contents the two moving inputs' buffers may hold at
    the point (their blocks inside the arrays, anything on the overhang) with the transposed new
    state. The state's buffer is left at the new state. Between points the scratch is as `scrOf` says.
    The core owes `O` throughout and its recorded pairs stay within `W` and index `none`. -/
def rdat (c : Dev nD) : RDat τ (Elt F) (HIx 1) ℕ UU ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun Y X => X = Y
    | ⟨15, _⟩ => fun _ X => ∃ (w13 : Vec F S4096x256 .f32) (w14 : Vec F S1x4096 .f32),
        (∃ d, w13 = fet V c 13 t d) ∧ (∃ d, w14 = fet V c 14 t d) ∧ X = k2_pay3 w13 (newHTOf c (V c)) w14
    | ⟨16, _⟩ => fun _ X => X = newHOf c (V c)
    | ⟨_ + 17, h⟩ => absurd h (Nat.not_lt.2 (Nat.le_add_left _ _))
  Φ t := iprop(restSix c ∗ scrOf V c t)
  q _ := fullShare
  owed _ := O
  recorded _ := {p | p ∈ W ∨ p.2 = none}

theorem after2_0 (c : Dev nD) (t : Fin cfg2.N) : (rdat V O W c).after 0 t = fun Y X => X = Y := by dsimp only [rdat]
theorem after2_1 (c : Dev nD) (t : Fin cfg2.N) : (rdat V O W c).after 1 t = fun Y X => X = Y := by dsimp only [rdat]
theorem after2_2 (c : Dev nD) (t : Fin cfg2.N) : (rdat V O W c).after 2 t = fun Y X => X = Y := by dsimp only [rdat]
theorem after2_3 (c : Dev nD) (t : Fin cfg2.N) : (rdat V O W c).after 3 t = fun Y X => X = Y := by dsimp only [rdat]
theorem after2_4 (c : Dev nD) (t : Fin cfg2.N) : (rdat V O W c).after 4 t = fun Y X => X = Y := by dsimp only [rdat]
theorem after2_5 (c : Dev nD) (t : Fin cfg2.N) : (rdat V O W c).after 5 t = fun Y X => X = Y := by dsimp only [rdat]
theorem after2_6 (c : Dev nD) (t : Fin cfg2.N) : (rdat V O W c).after 6 t = fun Y X => X = Y := by dsimp only [rdat]
theorem after2_7 (c : Dev nD) (t : Fin cfg2.N) : (rdat V O W c).after 7 t = fun Y X => X = Y := by dsimp only [rdat]
theorem after2_8 (c : Dev nD) (t : Fin cfg2.N) : (rdat V O W c).after 8 t = fun Y X => X = Y := by dsimp only [rdat]
theorem after2_9 (c : Dev nD) (t : Fin cfg2.N) : (rdat V O W c).after 9 t = fun Y X => X = Y := by dsimp only [rdat]
theorem after2_10 (c : Dev nD) (t : Fin cfg2.N) : (rdat V O W c).after 10 t = fun Y X => X = Y := by dsimp only [rdat]
theorem after2_11 (c : Dev nD) (t : Fin cfg2.N) : (rdat V O W c).after 11 t = fun Y X => X = Y := by dsimp only [rdat]
theorem after2_12 (c : Dev nD) (t : Fin cfg2.N) : (rdat V O W c).after 12 t = fun Y X => X = Y := by dsimp only [rdat]
theorem after2_13 (c : Dev nD) (t : Fin cfg2.N) : (rdat V O W c).after 13 t = fun Y X => X = Y := by dsimp only [rdat]
theorem after2_14 (c : Dev nD) (t : Fin cfg2.N) : (rdat V O W c).after 14 t = fun Y X => X = Y := by dsimp only [rdat]
theorem after2_15 (c : Dev nD) (t : Fin cfg2.N) : (rdat V O W c).after 15 t = fun _ X => ∃ (w13 : Vec F S4096x256 .f32) (w14 : Vec F S1x4096 .f32),
    (∃ d, w13 = fet V c 13 t d) ∧ (∃ d, w14 = fet V c 14 t d) ∧ X = k2_pay3 w13 (newHTOf c (V c)) w14 := by dsimp only [rdat]; rfl
theorem after2_16 (c : Dev nD) (t : Fin cfg2.N) : (rdat V O W c).after 16 t = fun _ X => X = newHOf c (V c) := by dsimp only [rdat]; rfl

theorem A_eq2 (c : Dev nD) (w : Fin cfg2.W) : (rdat V O W c).A w = V c (Pipeline.arrRef spec2 w) := by dsimp only [rdat]
theorem fetched_eq2 (c : Dev nD) (w : Fin cfg2.W) (t : Fin cfg2.N) (d) : (rdat V O W c).fetched w t d = fet V c w t d := rfl

variable [∀ e, Nonempty (Elt F e)]

theorem zz2 : ∀ a : Fin 2, (![0, 0] : Fin 2 → Nat) a = 0 := by decide

/-! An input whose block is its whole array sits at block index zero on both axes: a fetch leaves
    the array itself in the buffer, and so does every later point, the body leaving it as found. -/
theorem fet2_0 (c : Dev nD) (t : Fin cfg2.N) (d) : fet V c 0 t d = (V c main_v2 : Vec F S1024x128 .f32) := by
  funext j
  show (V c main_v2 : Vec F S1024x128 .f32) (((cfg2.win 0).blk t).view.emb (fun a => ⟨(j a).val, _⟩)) = (V c main_v2 : Vec F S1024x128 .f32) j
  refine congrArg _ (funext fun a => Fin.ext ?_)
  exact (cfg2.win 0).rect_emb_val_of_index_zero t a (zz2 a) _
theorem finds2_0 (c : Dev nD) (t : Fin cfg2.N) (Y) (h : (rdat V O W c).Finds 0 t Y) : Y = (V c main_v2 : Vec F S1024x128 .f32) := by
  obtain ⟨d, hd⟩ := Pipeline.RDat.finds_in_eq_fetched (rdat V O W c) 0 rfl (fun _ _ _ => rfl)
    (fun t Y X h => by rw [after2_0] at h; exact h) t Y h
  exact hd.trans (fet2_0 V c t d)
theorem fet2_1 (c : Dev nD) (t : Fin cfg2.N) (d) : fet V c 1 t d = (V c main_v6 : Vec F S1024x1 .f32) := by
  funext j
  show (V c main_v6 : Vec F S1024x1 .f32) (((cfg2.win 1).blk t).view.emb (fun a => ⟨(j a).val, _⟩)) = (V c main_v6 : Vec F S1024x1 .f32) j
  refine congrArg _ (funext fun a => Fin.ext ?_)
  exact (cfg2.win 1).rect_emb_val_of_index_zero t a (zz2 a) _
theorem finds2_1 (c : Dev nD) (t : Fin cfg2.N) (Y) (h : (rdat V O W c).Finds 1 t Y) : Y = (V c main_v6 : Vec F S1024x1 .f32) := by
  obtain ⟨d, hd⟩ := Pipeline.RDat.finds_in_eq_fetched (rdat V O W c) 1 rfl (fun _ _ _ => rfl)
    (fun t Y X h => by rw [after2_1] at h; exact h) t Y h
  exact hd.trans (fet2_1 V c t d)
theorem fet2_2 (c : Dev nD) (t : Fin cfg2.N) (d) : fet V c 2 t d = (V c main_arg1 : Vec F S1024x256 .f32) := by
  funext j
  show (V c main_arg1 : Vec F S1024x256 .f32) (((cfg2.win 2).blk t).view.emb (fun a => ⟨(j a).val, _⟩)) = (V c main_arg1 : Vec F S1024x256 .f32) j
  refine congrArg _ (funext fun a => Fin.ext ?_)
  exact (cfg2.win 2).rect_emb_val_of_index_zero t a (zz2 a) _
theorem finds2_2 (c : Dev nD) (t : Fin cfg2.N) (Y) (h : (rdat V O W c).Finds 2 t Y) : Y = (V c main_arg1 : Vec F S1024x256 .f32) := by
  obtain ⟨d, hd⟩ := Pipeline.RDat.finds_in_eq_fetched (rdat V O W c) 2 rfl (fun _ _ _ => rfl)
    (fun t Y X h => by rw [after2_2] at h; exact h) t Y h
  exact hd.trans (fet2_2 V c t d)
theorem fet2_3 (c : Dev nD) (t : Fin cfg2.N) (d) : fet V c 3 t d = (V c main_arg3 : Vec F S64x256 .f32) := by
  funext j
  show (V c main_arg3 : Vec F S64x256 .f32) (((cfg2.win 3).blk t).view.emb (fun a => ⟨(j a).val, _⟩)) = (V c main_arg3 : Vec F S64x256 .f32) j
  refine congrArg _ (funext fun a => Fin.ext ?_)
  exact (cfg2.win 3).rect_emb_val_of_index_zero t a (zz2 a) _
theorem finds2_3 (c : Dev nD) (t : Fin cfg2.N) (Y) (h : (rdat V O W c).Finds 3 t Y) : Y = (V c main_arg3 : Vec F S64x256 .f32) := by
  obtain ⟨d, hd⟩ := Pipeline.RDat.finds_in_eq_fetched (rdat V O W c) 3 rfl (fun _ _ _ => rfl)
    (fun t Y X h => by rw [after2_3] at h; exact h) t Y h
  exact hd.trans (fet2_3 V c t d)
theorem fet2_4 (c : Dev nD) (t : Fin cfg2.N) (d) : fet V c 4 t d = (V c main_v8 : Vec F S1x256 .f32) := by
  funext j
  show (V c main_v8 : Vec F S1x256 .f32) (((cfg2.win 4).blk t).view.emb (fun a => ⟨(j a).val, _⟩)) = (V c main_v8 : Vec F S1x256 .f32) j
  refine congrArg _ (funext fun a => Fin.ext ?_)
  exact (cfg2.win 4).rect_emb_val_of_index_zero t a (zz2 a) _
theorem finds2_4 (c : Dev nD) (t : Fin cfg2.N) (Y) (h : (rdat V O W c).Finds 4 t Y) : Y = (V c main_v8 : Vec F S1x256 .f32) := by
  obtain ⟨d, hd⟩ := Pipeline.RDat.finds_in_eq_fetched (rdat V O W c) 4 rfl (fun _ _ _ => rfl)
    (fun t Y X h => by rw [after2_4] at h; exact h) t Y h
  exact hd.trans (fet2_4 V c t d)
theorem fet2_5 (c : Dev nD) (t : Fin cfg2.N) (d) : fet V c 5 t d = (V c main_arg5 : Vec F S64x256 .f32) := by
  funext j
  show (V c main_arg5 : Vec F S64x256 .f32) (((cfg2.win 5).blk t).view.emb (fun a => ⟨(j a).val, _⟩)) = (V c main_arg5 : Vec F S64x256 .f32) j
  refine congrArg _ (funext fun a => Fin.ext ?_)
  exact (cfg2.win 5).rect_emb_val_of_index_zero t a (zz2 a) _
theorem finds2_5 (c : Dev nD) (t : Fin cfg2.N) (Y) (h : (rdat V O W c).Finds 5 t Y) : Y = (V c main_arg5 : Vec F S64x256 .f32) := by
  obtain ⟨d, hd⟩ := Pipeline.RDat.finds_in_eq_fetched (rdat V O W c) 5 rfl (fun _ _ _ => rfl)
    (fun t Y X h => by rw [after2_5] at h; exact h) t Y h
  exact hd.trans (fet2_5 V c t d)
theorem fet2_6 (c : Dev nD) (t : Fin cfg2.N) (d) : fet V c 6 t d = (V c main_v9 : Vec F S1x256 .f32) := by
  funext j
  show (V c main_v9 : Vec F S1x256 .f32) (((cfg2.win 6).blk t).view.emb (fun a => ⟨(j a).val, _⟩)) = (V c main_v9 : Vec F S1x256 .f32) j
  refine congrArg _ (funext fun a => Fin.ext ?_)
  exact (cfg2.win 6).rect_emb_val_of_index_zero t a (zz2 a) _
theorem finds2_6 (c : Dev nD) (t : Fin cfg2.N) (Y) (h : (rdat V O W c).Finds 6 t Y) : Y = (V c main_v9 : Vec F S1x256 .f32) := by
  obtain ⟨d, hd⟩ := Pipeline.RDat.finds_in_eq_fetched (rdat V O W c) 6 rfl (fun _ _ _ => rfl)
    (fun t Y X h => by rw [after2_6] at h; exact h) t Y h
  exact hd.trans (fet2_6 V c t d)
theorem fet2_7 (c : Dev nD) (t : Fin cfg2.N) (d) : fet V c 7 t d = (V c main_arg7 : Vec F S64x256 .f32) := by
  funext j
  show (V c main_arg7 : Vec F S64x256 .f32) (((cfg2.win 7).blk t).view.emb (fun a => ⟨(j a).val, _⟩)) = (V c main_arg7 : Vec F S64x256 .f32) j
  refine congrArg _ (funext fun a => Fin.ext ?_)
  exact (cfg2.win 7).rect_emb_val_of_index_zero t a (zz2 a) _
theorem finds2_7 (c : Dev nD) (t : Fin cfg2.N) (Y) (h : (rdat V O W c).Finds 7 t Y) : Y = (V c main_arg7 : Vec F S64x256 .f32) := by
  obtain ⟨d, hd⟩ := Pipeline.RDat.finds_in_eq_fetched (rdat V O W c) 7 rfl (fun _ _ _ => rfl)
    (fun t Y X h => by rw [after2_7] at h; exact h) t Y h
  exact hd.trans (fet2_7 V c t d)
theorem fet2_8 (c : Dev nD) (t : Fin cfg2.N) (d) : fet V c 8 t d = (V c main_v10 : Vec F S1x256 .f32) := by
  funext j
  show (V c main_v10 : Vec F S1x256 .f32) (((cfg2.win 8).blk t).view.emb (fun a => ⟨(j a).val, _⟩)) = (V c main_v10 : Vec F S1x256 .f32) j
  refine congrArg _ (funext fun a => Fin.ext ?_)
  exact (cfg2.win 8).rect_emb_val_of_index_zero t a (zz2 a) _
theorem finds2_8 (c : Dev nD) (t : Fin cfg2.N) (Y) (h : (rdat V O W c).Finds 8 t Y) : Y = (V c main_v10 : Vec F S1x256 .f32) := by
  obtain ⟨d, hd⟩ := Pipeline.RDat.finds_in_eq_fetched (rdat V O W c) 8 rfl (fun _ _ _ => rfl)
    (fun t Y X h => by rw [after2_8] at h; exact h) t Y h
  exact hd.trans (fet2_8 V c t d)
theorem fet2_9 (c : Dev nD) (t : Fin cfg2.N) (d) : fet V c 9 t d = (V c main_arg9 : Vec F S256x256 .f32) := by
  funext j
  show (V c main_arg9 : Vec F S256x256 .f32) (((cfg2.win 9).blk t).view.emb (fun a => ⟨(j a).val, _⟩)) = (V c main_arg9 : Vec F S256x256 .f32) j
  refine congrArg _ (funext fun a => Fin.ext ?_)
  exact (cfg2.win 9).rect_emb_val_of_index_zero t a (zz2 a) _
theorem finds2_9 (c : Dev nD) (t : Fin cfg2.N) (Y) (h : (rdat V O W c).Finds 9 t Y) : Y = (V c main_arg9 : Vec F S256x256 .f32) := by
  obtain ⟨d, hd⟩ := Pipeline.RDat.finds_in_eq_fetched (rdat V O W c) 9 rfl (fun _ _ _ => rfl)
    (fun t Y X h => by rw [after2_9] at h; exact h) t Y h
  exact hd.trans (fet2_9 V c t d)
theorem fet2_10 (c : Dev nD) (t : Fin cfg2.N) (d) : fet V c 10 t d = (V c main_arg10 : Vec F S256x256 .f32) := by
  funext j
  show (V c main_arg10 : Vec F S256x256 .f32) (((cfg2.win 10).blk t).view.emb (fun a => ⟨(j a).val, _⟩)) = (V c main_arg10 : Vec F S256x256 .f32) j
  refine congrArg _ (funext fun a => Fin.ext ?_)
  exact (cfg2.win 10).rect_emb_val_of_index_zero t a (zz2 a) _
theorem finds2_10 (c : Dev nD) (t : Fin cfg2.N) (Y) (h : (rdat V O W c).Finds 10 t Y) : Y = (V c main_arg10 : Vec F S256x256 .f32) := by
  obtain ⟨d, hd⟩ := Pipeline.RDat.finds_in_eq_fetched (rdat V O W c) 10 rfl (fun _ _ _ => rfl)
    (fun t Y X h => by rw [after2_10] at h; exact h) t Y h
  exact hd.trans (fet2_10 V c t d)
theorem fet2_11 (c : Dev nD) (t : Fin cfg2.N) (d) : fet V c 11 t d = (V c main_arg11 : Vec F S256x256 .f32) := by
  funext j
  show (V c main_arg11 : Vec F S256x256 .f32) (((cfg2.win 11).blk t).view.emb (fun a => ⟨(j a).val, _⟩)) = (V c main_arg11 : Vec F S256x256 .f32) j
  refine congrArg _ (funext fun a => Fin.ext ?_)
  exact (cfg2.win 11).rect_emb_val_of_index_zero t a (zz2 a) _
theorem finds2_11 (c : Dev nD) (t : Fin cfg2.N) (Y) (h : (rdat V O W c).Finds 11 t Y) : Y = (V c main_arg11 : Vec F S256x256 .f32) := by
  obtain ⟨d, hd⟩ := Pipeline.RDat.finds_in_eq_fetched (rdat V O W c) 11 rfl (fun _ _ _ => rfl)
    (fun t Y X h => by rw [after2_11] at h; exact h) t Y h
  exact hd.trans (fet2_11 V c t d)
theorem fet2_12 (c : Dev nD) (t : Fin cfg2.N) (d) : fet V c 12 t d = (V c main_v11 : Vec F S1x256 .f32) := by
  funext j
  show (V c main_v11 : Vec F S1x256 .f32) (((cfg2.win 12).blk t).view.emb (fun a => ⟨(j a).val, _⟩)) = (V c main_v11 : Vec F S1x256 .f32) j
  refine congrArg _ (funext fun a => Fin.ext ?_)
  exact (cfg2.win 12).rect_emb_val_of_index_zero t a (zz2 a) _
theorem finds2_12 (c : Dev nD) (t : Fin cfg2.N) (Y) (h : (rdat V O W c).Finds 12 t Y) : Y = (V c main_v11 : Vec F S1x256 .f32) := by
  obtain ⟨d, hd⟩ := Pipeline.RDat.finds_in_eq_fetched (rdat V O W c) 12 rfl (fun _ _ _ => rfl)
    (fun t Y X h => by rw [after2_12] at h; exact h) t Y h
  exact hd.trans (fet2_12 V c t d)

/-- The two moving inputs are fetched at every point: the buffer holds the block inside the array and
    anything on the overhang. -/
theorem finds2_13 (c : Dev nD) (t : Fin cfg2.N) (Y) (h : (rdat V O W c).Finds 13 t Y) : ∃ d, Y = fet V c 13 t d :=
  ((rdat V O W c).finds_of_fetch (fetch2_13 t) Y).mp h
theorem finds2_14 (c : Dev nD) (t : Fin cfg2.N) (Y) (h : (rdat V O W c).Finds 14 t Y) : ∃ d, Y = fet V c 14 t d :=
  ((rdat V O W c).finds_of_fetch (fetch2_14 t) Y).mp h

/-- The state's buffer is written at the first point and written back only at the last: at a later
    point the body finds the new state there. -/
theorem finds2_16 (c : Dev nD) (t : Fin cfg2.N) (ht : t.val ≠ 0) (Y) (h : (rdat V O W c).Finds 16 t Y) : Y = newHOf c (V c) := by
  have hf : (cfg2.win 16).fetch t = false := rfl
  rcases ((rdat V O W c).finds_of_pos hf ht Y).mp h with hfl | ⟨Y', -, hR⟩
  · have := (flush2_16 ⟨t.val - 1, Nat.lt_of_le_of_lt (Nat.sub_le _ _) t.isLt⟩).mp hfl
    have hN : t.val < 25 := by have := t.isLt; have e : cfg2.N = 25 := N_2; omega
    simp only at this; omega
  · rw [after2_16] at hR; exact hR

end Data

end Cert.KernelIdeal.Hand.Region2

end
-- ==== Proof.Region2Oblig.lean ====
/-
  The projection kernel's body obligation against the relational proof data.

  At the first point the thirteen whole-array windows hold their arrays, so the state the body
  computes is the one the entry contents name: it goes to the state's buffer, its transpose to the
  scratch, and the logits block is the block product with that transpose. At a later point the
  branch is skipped: the scratch still holds the transpose and the state's buffer the state, and
  the logits block is again the block product with the scratch. In both cases the two moving
  inputs enter as whatever their buffers hold — their blocks inside the arrays, anything on the
  overhang — which is all the logits block's relation records.
-/
import proofs.«217423_g17910013624755_cont_8to1_1683_16_alg».proof.Proof.Region2Data

set_option maxRecDepth 16384

noncomputable section

namespace Cert.KernelIdeal.Hand.Region2

open Cert.KernelIdeal Cert.KernelIdeal.Gen Cert.KernelIdeal.Hand
open Idealize.ShloMosaic.Pipeline (RDat Cfg Window cellOf)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Oblig

variable (V : (c : Dev nD) → (b : Ref sig .tc) → Buf (Elt F) ((c.tc : Thread nD τ).loc b))
variable (O : CellTallies nD τ sig (HIx 1)) (W : Waits sig (HIx 1))
variable [∀ e, Nonempty (Elt F e)]

theorem Φ_zero (c : Dev nD) (t : Fin (cfg2.N + 1)) (h : t.val = 0) :
    (rdat V O W c).Φ t = iprop(restSix c ∗ ∃ f : Buf (Elt F) ((c.tc : Thread nD τ).loc cc2_scratch0), ((c.tc : Thread nD τ).loc cc2_scratch0) ↦{fullShare} f) := by
  show iprop(restSix c ∗ scrOf V c t) = _
  unfold scrOf; rw [if_pos h]

theorem Φ_pos (c : Dev nD) (t : Fin (cfg2.N + 1)) (h : t.val ≠ 0) :
    (rdat V O W c).Φ t = iprop(restSix c ∗ (((c.tc : Thread nD τ).loc cc2_scratch0) ↦{fullShare} (newHTOf c (V c) : Buf (Elt F) ((c.tc : Thread nD τ).loc cc2_scratch0)))) := by
  show iprop(restSix c ∗ scrOf V c t) = _
  unfold scrOf; rw [if_neg h]

set_option maxHeartbeats 4000000 in
/-- The body at any point, from whatever the windows' buffers may hold there: the whole-array inputs
    hold their arrays, so the first point's new state is the one the entry contents name; at a later
    point the scratch and the state's buffer already hold it and its transpose. -/
theorem sound_body (c : Dev nD) (t : Fin cfg2.N) (Y : (w : Fin cfg2.W) → (cfg2.win w).block.Idx → Elt F (cfg2.win w).elt)
    (hY : ∀ w, (rdat V O W c).Finds w t (Y w)) :
    iprop((rdat V O W c).Φ t.castSucc ∗ (rdat V O W c).owesAt none t.castSucc
        ∗ owns (c.tc : Thread nD τ) (st2_0 t) fullShare (Y 0)
        ∗ owns (c.tc : Thread nD τ) (st2_1 t) fullShare (Y 1)
        ∗ owns (c.tc : Thread nD τ) (st2_2 t) fullShare (Y 2)
        ∗ owns (c.tc : Thread nD τ) (st2_3 t) fullShare (Y 3)
        ∗ owns (c.tc : Thread nD τ) (st2_4 t) fullShare (Y 4)
        ∗ owns (c.tc : Thread nD τ) (st2_5 t) fullShare (Y 5)
        ∗ owns (c.tc : Thread nD τ) (st2_6 t) fullShare (Y 6)
        ∗ owns (c.tc : Thread nD τ) (st2_7 t) fullShare (Y 7)
        ∗ owns (c.tc : Thread nD τ) (st2_8 t) fullShare (Y 8)
        ∗ owns (c.tc : Thread nD τ) (st2_9 t) fullShare (Y 9)
        ∗ owns (c.tc : Thread nD τ) (st2_10 t) fullShare (Y 10)
        ∗ owns (c.tc : Thread nD τ) (st2_11 t) fullShare (Y 11)
        ∗ owns (c.tc : Thread nD τ) (st2_12 t) fullShare (Y 12)
        ∗ owns (c.tc : Thread nD τ) (st2_13 t) fullShare (Y 13)
        ∗ owns (c.tc : Thread nD τ) (st2_14 t) fullShare (Y 14)
        ∗ owns (c.tc : Thread nD τ) (st2_15 t) fullShare (Y 15)
        ∗ owns (c.tc : Thread nD τ) (st2_16 t) fullShare (Y 16))
      ⊢ wp frame (wpE (defs₀ (F := F)) 𝒱₀ (c.tc : Thread nD τ) none) Set.univ (bodyAt2 t) (fun _ =>
          iprop((rdat V O W c).Φ t.succ ∗ (rdat V O W c).owesAt none t.succ
            ∗ (∃ X, ⌜(rdat V O W c).after 0 t (Y 0) X⌝ ∗ owns (c.tc : Thread nD τ) (st2_0 t) fullShare X)
            ∗ (∃ X, ⌜(rdat V O W c).after 1 t (Y 1) X⌝ ∗ owns (c.tc : Thread nD τ) (st2_1 t) fullShare X)
            ∗ (∃ X, ⌜(rdat V O W c).after 2 t (Y 2) X⌝ ∗ owns (c.tc : Thread nD τ) (st2_2 t) fullShare X)
            ∗ (∃ X, ⌜(rdat V O W c).after 3 t (Y 3) X⌝ ∗ owns (c.tc : Thread nD τ) (st2_3 t) fullShare X)
            ∗ (∃ X, ⌜(rdat V O W c).after 4 t (Y 4) X⌝ ∗ owns (c.tc : Thread nD τ) (st2_4 t) fullShare X)
            ∗ (∃ X, ⌜(rdat V O W c).after 5 t (Y 5) X⌝ ∗ owns (c.tc : Thread nD τ) (st2_5 t) fullShare X)
            ∗ (∃ X, ⌜(rdat V O W c).after 6 t (Y 6) X⌝ ∗ owns (c.tc : Thread nD τ) (st2_6 t) fullShare X)
            ∗ (∃ X, ⌜(rdat V O W c).after 7 t (Y 7) X⌝ ∗ owns (c.tc : Thread nD τ) (st2_7 t) fullShare X)
            ∗ (∃ X, ⌜(rdat V O W c).after 8 t (Y 8) X⌝ ∗ owns (c.tc : Thread nD τ) (st2_8 t) fullShare X)
            ∗ (∃ X, ⌜(rdat V O W c).after 9 t (Y 9) X⌝ ∗ owns (c.tc : Thread nD τ) (st2_9 t) fullShare X)
            ∗ (∃ X, ⌜(rdat V O W c).after 10 t (Y 10) X⌝ ∗ owns (c.tc : Thread nD τ) (st2_10 t) fullShare X)
            ∗ (∃ X, ⌜(rdat V O W c).after 11 t (Y 11) X⌝ ∗ owns (c.tc : Thread nD τ) (st2_11 t) fullShare X)
            ∗ (∃ X, ⌜(rdat V O W c).after 12 t (Y 12) X⌝ ∗ owns (c.tc : Thread nD τ) (st2_12 t) fullShare X)
            ∗ (∃ X, ⌜(rdat V O W c).after 13 t (Y 13) X⌝ ∗ owns (c.tc : Thread nD τ) (st2_13 t) fullShare X)
            ∗ (∃ X, ⌜(rdat V O W c).after 14 t (Y 14) X⌝ ∗ owns (c.tc : Thread nD τ) (st2_14 t) fullShare X)
            ∗ (∃ X, ⌜(rdat V O W c).after 15 t (Y 15) X⌝ ∗ owns (c.tc : Thread nD τ) (st2_15 t) fullShare X)
            ∗ (∃ X, ⌜(rdat V O W c).after 16 t (Y 16) X⌝ ∗ owns (c.tc : Thread nD τ) (st2_16 t) fullShare X))) := by
  have h0 := finds2_0 V O W c t _ (hY 0)
  have h1 := finds2_1 V O W c t _ (hY 1)
  have h2 := finds2_2 V O W c t _ (hY 2)
  have h3 := finds2_3 V O W c t _ (hY 3)
  have h4 := finds2_4 V O W c t _ (hY 4)
  have h5 := finds2_5 V O W c t _ (hY 5)
  have h6 := finds2_6 V O W c t _ (hY 6)
  have h7 := finds2_7 V O W c t _ (hY 7)
  have h8 := finds2_8 V O W c t _ (hY 8)
  have h9 := finds2_9 V O W c t _ (hY 9)
  have h10 := finds2_10 V O W c t _ (hY 10)
  have h11 := finds2_11 V O W c t _ (hY 11)
  have h12 := finds2_12 V O W c t _ (hY 12)
  obtain ⟨d13, h13⟩ := finds2_13 V O W c t _ (hY 13)
  obtain ⟨d14, h14⟩ := finds2_14 V O W c t _ (hY 14)
  have eT : stateTOf (Y 0) (Y 1) (Y 2) (Y 3) (Y 4) (Y 5) (Y 6) (Y 7) (Y 8) (Y 9) (Y 10) (Y 11) (Y 12) = newHTOf c (V c) := by rw [h0, h1, h2, h3, h4, h5, h6, h7, h8, h9, h10, h11, h12]; rfl
  have eH : stateOf (Y 0) (Y 1) (Y 2) (Y 3) (Y 4) (Y 5) (Y 6) (Y 7) (Y 8) (Y 9) (Y 10) (Y 11) (Y 12) = newHOf c (V c) := by rw [h0, h1, h2, h3, h4, h5, h6, h7, h8, h9, h10, h11, h12]; rfl
  rw [show (rdat V O W c).owesAt none t.succ = (rdat V O W c).owesAt none t.castSucc from rfl]
  simp only [after2_0, after2_1, after2_2, after2_3, after2_4, after2_5, after2_6, after2_7, after2_8, after2_9, after2_10, after2_11, after2_12, after2_13, after2_14, after2_15, after2_16]
  by_cases ht : t.val = 0
  · have hc : k2_cond1 (grid2.coords t) = 1#1 := (hcond t).mpr ht
    rw [Φ_zero V O W c t.castSucc ht, Φ_pos V O W c t.succ (by rw [Fin.val_succ]; exact Nat.succ_ne_zero _)]
    iintro ⟨⟨Hr, ⟨%fs, Hs⟩⟩, Ho, H0, H1, H2, H3, H4, H5, H6, H7, H8, H9, H10, H11, H12, H13, H14, H15, H16⟩
    iapply (sound_kernelA (c.tc : Thread nD τ).1 Set.univ (grid2.coords t) hc _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [Hs]
    · iexists fs; rw [owns_whole]; iexact Hs
    rw [eT, eH, owns_whole]
    iintro ⟨H0, H1, H2, H3, H4, H5, H6, H7, H8, H9, H10, H11, H12, H13, H14, H15, H16, Hs⟩
    isplitl [Hr Hs]
    · isplitl [Hr]; · iexact Hr
      iexact Hs
    isplitl [Ho]; · iexact Ho
    isplitl [H0]
    · iexists (Y 0); isplitr; · ipureintro; rfl
      iexact H0
    isplitl [H1]
    · iexists (Y 1); isplitr; · ipureintro; rfl
      iexact H1
    isplitl [H2]
    · iexists (Y 2); isplitr; · ipureintro; rfl
      iexact H2
    isplitl [H3]
    · iexists (Y 3); isplitr; · ipureintro; rfl
      iexact H3
    isplitl [H4]
    · iexists (Y 4); isplitr; · ipureintro; rfl
      iexact H4
    isplitl [H5]
    · iexists (Y 5); isplitr; · ipureintro; rfl
      iexact H5
    isplitl [H6]
    · iexists (Y 6); isplitr; · ipureintro; rfl
      iexact H6
    isplitl [H7]
    · iexists (Y 7); isplitr; · ipureintro; rfl
      iexact H7
    isplitl [H8]
    · iexists (Y 8); isplitr; · ipureintro; rfl
      iexact H8
    isplitl [H9]
    · iexists (Y 9); isplitr; · ipureintro; rfl
      iexact H9
    isplitl [H10]
    · iexists (Y 10); isplitr; · ipureintro; rfl
      iexact H10
    isplitl [H11]
    · iexists (Y 11); isplitr; · ipureintro; rfl
      iexact H11
    isplitl [H12]
    · iexists (Y 12); isplitr; · ipureintro; rfl
      iexact H12
    isplitl [H13]
    · iexists (Y 13); isplitr; · ipureintro; rfl
      iexact H13
    isplitl [H14]
    · iexists (Y 14); isplitr; · ipureintro; rfl
      iexact H14
    isplitl [H15]
    · iexists _; isplitr
      swap; · iexact H15
      ipureintro
      exact ⟨Y 13, Y 14, ⟨d13, h13⟩, ⟨d14, h14⟩, rfl⟩
    iexists _; isplitr
    swap; · iexact H16
    ipureintro; rfl
  · have hc : ¬ k2_cond1 (grid2.coords t) = 1#1 := fun h => ht ((hcond t).mp h)
    have h16 := finds2_16 V O W c t ht _ (hY 16)
    rw [Φ_pos V O W c t.castSucc ht, Φ_pos V O W c t.succ (by rw [Fin.val_succ]; exact Nat.succ_ne_zero _)]
    iintro ⟨⟨Hr, Hs⟩, Ho, H0, H1, H2, H3, H4, H5, H6, H7, H8, H9, H10, H11, H12, H13, H14, H15, H16⟩
    iapply (sound_kernelB (c.tc : Thread nD τ).1 Set.univ (grid2.coords t) hc _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 16) (newHTOf c (V c)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [Hs]
    · rw [owns_whole]; iexact Hs
    rw [owns_whole]
    iintro ⟨H0, H1, H2, H3, H4, H5, H6, H7, H8, H9, H10, H11, H12, H13, H14, H15, H16, Hs⟩
    isplitl [Hr Hs]
    · isplitl [Hr]; · iexact Hr
      iexact Hs
    isplitl [Ho]; · iexact Ho
    isplitl [H0]
    · iexists (Y 0); isplitr; · ipureintro; rfl
      iexact H0
    isplitl [H1]
    · iexists (Y 1); isplitr; · ipureintro; rfl
      iexact H1
    isplitl [H2]
    · iexists (Y 2); isplitr; · ipureintro; rfl
      iexact H2
    isplitl [H3]
    · iexists (Y 3); isplitr; · ipureintro; rfl
      iexact H3
    isplitl [H4]
    · iexists (Y 4); isplitr; · ipureintro; rfl
      iexact H4
    isplitl [H5]
    · iexists (Y 5); isplitr; · ipureintro; rfl
      iexact H5
    isplitl [H6]
    · iexists (Y 6); isplitr; · ipureintro; rfl
      iexact H6
    isplitl [H7]
    · iexists (Y 7); isplitr; · ipureintro; rfl
      iexact H7
    isplitl [H8]
    · iexists (Y 8); isplitr; · ipureintro; rfl
      iexact H8
    isplitl [H9]
    · iexists (Y 9); isplitr; · ipureintro; rfl
      iexact H9
    isplitl [H10]
    · iexists (Y 10); isplitr; · ipureintro; rfl
      iexact H10
    isplitl [H11]
    · iexists (Y 11); isplitr; · ipureintro; rfl
      iexact H11
    isplitl [H12]
    · iexists (Y 12); isplitr; · ipureintro; rfl
      iexact H12
    isplitl [H13]
    · iexists (Y 13); isplitr; · ipureintro; rfl
      iexact H13
    isplitl [H14]
    · iexists (Y 14); isplitr; · ipureintro; rfl
      iexact H14
    isplitl [H15]
    · iexists _; isplitr
      swap; · iexact H15
      ipureintro
      exact ⟨Y 13, Y 14, ⟨d13, h13⟩, ⟨d14, h14⟩, rfl⟩
    iexists (Y 16); isplitr; · ipureintro; exact h16
    iexact H16

/-- The body obligation of the relational proof data, at every point. -/
theorem body_obligation (c : Dev nD) : (rdat V O W c).BodyObligation (defs₀ (F := F)) 𝒱₀ (none : HIx 1) Set.univ := fun t Y hY => by
  rw [bigSep_W2, bigSep_W2]
  exact sound_body V O W c t Y hY

end Oblig

end Cert.KernelIdeal.Hand.Region2

end
-- ==== Proof.Region2Rec.lean ====
/-
  The second TensorCore region as one step of the TensorCore's program, the pure fact about what
  it writes a hypothesis.

  Entered holding every unscoped buffer at given contents and owing given units (none at the index
  the pipeline's own waits use), the region runs its twenty-five points and is left holding every
  unscoped buffer again, the new state's array and the transposed logits' array alone changed, and
  owing what it owed. Its seventeen windows sit on seventeen different arrays, each whole: the
  unscoped buffers split into those arrays and the rest at the entry, and go back together at the
  exit with the two written arrays at what the write-backs left. An input array ends as it began.
  The scoped buffers no window stages — six staging buffers of the other region and this region's
  scratch — enter the invariant at some contents and come back at some contents. The waits of the
  pipeline's own cells are at an index at which the core owes nothing.
-/
import proofs.«217423_g17910013624755_cont_8to1_1683_16_alg».proof.Proof.Region2Oblig
import Idealize.ShloMosaic.Lib.Pipeline.RegionsLoop

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.ValueIdx (ix1 ix2)

variable {F : FTy → Type} [FloatOps F]

local notation "𝕄" => MT nD τ sig (HIx 1) (Elt F) ℕ UU ℕ

set_option pp.deepTerms false
set_option pp.maxSteps 5000

namespace Region2

/-- No pipeline has a prefetched table. -/
abbrev adm : (p : Fin 2) → (pcfgs (F := F) p).Adm := fun p => (cfgs p).toPCfg_adm

section
variable [∀ e, Nonempty (Elt F e)]
variable (V : (c : Dev nD) → (b : Ref sig .tc) → Buf (Elt F) ((c.tc : Thread nD τ).loc b))
variable (O : CellTallies nD τ sig (HIx 1)) (W : Waits sig (HIx 1))

/-- What the two written arrays hold after the region: the state's array the new state; the logits' array, block by
    block of 4096 rows, the block product of some staged blocks that agree with the weights and the bias inside them. -/
def Out2 (c : Dev nD) (V : TcVal F c) (G15 : S100000x1024.Idx → F .f32) (G16 : S1024x256.Idx → F .f32) : Prop :=
  G16 = newHOf c V
  ∧ ∀ t : Fin 25, ∃ (w13 : Vec F S4096x256 .f32) (w14 : Vec F S1x4096 .f32),
      (∀ (r : Fin 4096) (k : Fin 256) (h : 4096 * t.val + r.val < 100000),
          w13 (ix2 r k) = (V main_v7 : S100000x256.Idx → F .f32) (ix2 (⟨4096 * t.val + r.val, h⟩ : Fin 100000) k))
      ∧ (∀ (r : Fin 4096) (h : 4096 * t.val + r.val < 100000),
          w14 (ix2 (0 : Fin 1) r) = (V main_v12 : S1x100000.Idx → F .f32) (ix2 (0 : Fin 1) (⟨4096 * t.val + r.val, h⟩ : Fin 100000)))
      ∧ ∀ (r : Fin 4096) (b : Fin 1024) (h : 4096 * t.val + r.val < 100000),
          G15 (ix2 (⟨4096 * t.val + r.val, h⟩ : Fin 100000) b) = k2_pay3 w13 (newHTOf c V) w14 (ix2 r b)

/-- The other pipeline's data, which this region's step never reads: it says nothing. -/
def rdatOther (c : Dev nD) : RDat τ (Elt F) (HIx 1) ℕ UU ℕ cfg0 c where
  A w := V c (Pipeline.arrRef spec0 w)
  after _ _ _ _ := True
  Φ _ := iprop(emp)
  q _ := fullShare
  owed _ := O

/-- The family of proof data the library's region rule takes: this region's at its index. -/
def rdats : (p : Fin 2) → (c : Dev nD) → RDat τ (Elt F) (HIx 1) ℕ UU ℕ (Pipeline.pin (pcfgs (F := F)) adm p) c
  | ⟨0, _⟩ => fun c => rdatOther V O c
  | ⟨1, _⟩ => fun c => rdat V O W c

/-- Every array of the region is held at the full share. -/
theorem share2 (c : Dev nD) (w : Fin cfg2.W) : (rdat V O W c).share w = fullShare := by
  unfold RDat.share; split <;> rfl

/-- The pipeline's own waits are at an index at which the core owes nothing: they sit below everything it owes. -/
theorem hwaits2 (hO : ∀ g, O g none = 0) (c : Dev nD) :
    (levAts (K (F := F)).L (K (F := F)).lev : sProp 𝕄)
      ⊢ Pipeline.RDat.cellsWaits (Pipeline.pin (pcfgs (F := F)) adm) (rdats V O W) (none : HIx 1) 1 c :=
  Pipeline.RDat.cellsWaits_intro (Pipeline.pin (pcfgs (F := F)) adm) (rdats V O W) (none : HIx 1) 1 c
    fun w s t => (K (F := F)).mayWait_none _ hO

/-- The buffers the region writes are the two outputs' arrays; every other window's array is neither. -/
theorem in_ne : ∀ w : Fin cfg2.W, (cfg2.win w).isOut = false →
    Pipeline.arrRef spec2 w ≠ main_v13_0 ∧ Pipeline.arrRef spec2 w ≠ main_v13_1 := by decide
theorem out_cases : ∀ w : Fin cfg2.W, (cfg2.win w).isOut = true → w = 15 ∨ w = 16 := by decide

/-- The unscoped buffers after the region: those before it but at the two written arrays. -/
def V2 (c : Dev nD) (G15 : Buf (Elt F) ((c.tc : Thread nD τ).loc main_v13_0)) (G16 : Buf (Elt F) ((c.tc : Thread nD τ).loc main_v13_1)) :
    (b : Ref sig .tc) → Buf (Elt F) ((c.tc : Thread nD τ).loc b) :=
  Function.update (Function.update (V c) main_v13_0 G15) main_v13_1 G16

theorem V2_of_ne (c : Dev nD) (G15) (G16) (b : Ref sig .tc) (h0 : b ≠ main_v13_0) (h1 : b ≠ main_v13_1) : V2 V c G15 G16 b = V c b := by
  unfold V2; rw [Function.update_of_ne h1, Function.update_of_ne h0]
theorem V2_15 (c : Dev nD) (G15) (G16) : V2 V c G15 G16 main_v13_0 = G15 := by
  unfold V2; rw [Function.update_of_ne (show main_v13_0 ≠ main_v13_1 by decide), Function.update_self]
theorem V2_16 (c : Dev nD) (G15) (G16) : V2 V c G15 G16 main_v13_1 = G16 := by
  unfold V2; rw [Function.update_self]

/-- An entailment of the logic, as the proof mode reads one. -/
theorem ent2 {A B : sProp 𝕄} (h : Idealize.SL.BI.Entails A B) : A ⊢ B := h

/-- The unscoped buffers that are no array of the region do not see a change of the two written arrays. -/
theorem unscopedRest_V2 (c : Dev nD) (G15) (G16) :
    (Pipeline.unscopedRest (Ix := HIx 1) (Name := ℕ) (U := UU) (Lvl := ℕ) spec2 c (V2 V c G15 G16) : sProp 𝕄)
      = Pipeline.unscopedRest spec2 c (V c) := by
  unfold Pipeline.unscopedRest
  refine bigSep_congr fun b hb => ?_
  have hb' := (Finset.mem_sdiff.mp hb).2
  rw [V2_of_ne V c G15 G16 b
    (fun e => hb' (Finset.mem_image.mpr ⟨15, Finset.mem_univ _, e.symm⟩))
    (fun e => hb' (Finset.mem_image.mpr ⟨16, Finset.mem_univ _, e.symm⟩))]

/-- ENTRY, whole: the unscoped buffers are the windows' arrays at the entry contents and the rest. -/
theorem entry_split2 (c : Dev nD) :
    (unscopedBufs c (V c) : sProp 𝕄)
      ⊢ iprop((rdat V O W c).arrays (rdat V O W c).A
          ∗ Pipeline.unscopedRest (Ix := HIx 1) (Name := ℕ) (U := UU) (Lvl := ℕ) spec2 c (V c)) :=
  Pipeline.RDat.arrays_of_unscopedBufs (p := (1 : Fin 2)) (pcfgs (F := F)) adm (rdats V O W) winFacts2 arr_whole2 c
    (share2 V O W c) (V c) (A_eq2 V O W c)

/-- EXIT, whole: the windows' arrays after the last write-back and the rest are the unscoped buffers again, changed
    at the two written arrays alone, which hold what the pure fact `hpost` says of them. -/
theorem exit_bufs2
    (hpost : ∀ c G15 G16, (rdat V O W c).ArrAt 15 cfg2.N G15 → (rdat V O W c).ArrAt 16 cfg2.N G16 → Out2 c (V c) G15 G16) (c : Dev nD) :
    iprop((rdat V O W c).arraysAt cfg2.N ∗ Pipeline.unscopedRest (Ix := HIx 1) (Name := ℕ) (U := UU) (Lvl := ℕ) spec2 c (V c))
      ⊢ iprop(∃ V', ⌜Post2Spec c (V c) V'⌝ ∗ (unscopedBufs c V' : sProp 𝕄)) := by
  have hne : ∀ w : Fin cfg2.W, Nonempty (Buf (Elt F) ((cfg2.win w).arr.view.loc (c.tc : Thread nD τ))) := fun w => ⟨(rdat V O W c).A w⟩
  unfold RDat.arraysAt
  iintro ⟨Ha, Hrest⟩
  ihave H := (@bigSep_exists_pi _ _ _ _ (fun w : Fin cfg2.W => Buf (Elt F) ((cfg2.win w).arr.view.loc (c.tc : Thread nD τ))) hne Finset.univ
    (fun (w : Fin cfg2.W) (Fw : Buf (Elt F) ((cfg2.win w).arr.view.loc (c.tc : Thread nD τ))) =>
      iprop(⌜(rdat V O W c).ArrAt w cfg2.N Fw⌝
        ∗ (cfg2.win w).arr.view.loc (c.tc : Thread nD τ) ↦[(cfg2.win w).arr.view.set]{(rdat V O W c).share w} Fw))) $$ Ha
  icases H with ⟨%Fs, H⟩
  ihave H' := (bigSep_pure_sep Finset.univ (fun w : Fin cfg2.W => (rdat V O W c).ArrAt w cfg2.N (Fs w))
    (fun w : Fin cfg2.W => ((cfg2.win w).arr.view.loc (c.tc : Thread nD τ) ↦[(cfg2.win w).arr.view.set]{(rdat V O W c).share w} Fs w : sProp 𝕄))) $$ H
  icases H' with ⟨%hFs, H⟩
  have hF : ∀ w : Fin cfg2.W, Fs w = V2 V c (Fs 15) (Fs 16) (Pipeline.arrRef spec2 w) := fun w => by
    cases hio : (cfg2.win w).isOut
    · have e : Fs w = (rdat V O W c).A w := by
        have h := hFs w (Finset.mem_univ w)
        rw [(rdat V O W c).ArrAt_in w hio] at h
        exact h
      rw [V2_of_ne V c _ _ _ (in_ne w hio).1 (in_ne w hio).2, e, A_eq2]
    · rcases out_cases w hio with rfl | rfl
      · exact (V2_15 V c _ _).symm
      · exact (V2_16 V c _ _).symm
  obtain ⟨h16, h15⟩ := hpost c (Fs 15) (Fs 16) (hFs 15 (Finset.mem_univ _)) (hFs 16 (Finset.mem_univ _))
  iexists V2 V c (Fs 15) (Fs 16)
  isplitr
  · ipureintro
    refine ⟨fun b h0 h1 => V2_of_ne V c _ _ b h0 h1, ?_, ?_⟩
    · rw [V2_16]; exact h16
    · rw [V2_15]; exact h15
  rw [Pipeline.unscopedBufs_split (Ix := HIx 1) (Name := ℕ) (U := UU) (Lvl := ℕ) cfgs (1 : Fin 2) winFacts2.arr_unscoped winFacts2.arr_inj c
    (V2 V c (Fs 15) (Fs 16))]
  have harr : (bigSep Finset.univ fun w : Fin cfg2.W =>
        ((cfg2.win w).arr.view.loc (c.tc : Thread nD τ) ↦[(cfg2.win w).arr.view.set]{(rdat V O W c).share w} Fs w : sProp 𝕄))
      = bigSep Finset.univ fun w : Fin cfg2.W =>
          (((c.tc : Thread nD τ).loc (Pipeline.arrRef spec2 w)) ↦{fullShare} V2 V c (Fs 15) (Fs 16) (Pipeline.arrRef spec2 w) : sProp 𝕄) :=
    (Pipeline.RDat.arrays_eq (pcfgs (F := F)) adm (rdats V O W) (1 : Fin 2) c arr_whole2 (share2 V O W c) Fs).trans
      (bigSep_congr fun w _ => by rw [← hF w]; rfl)
  isplitl [H]
  · iapply (Entails.of_eq harr) $$ H
  · iapply (Entails.of_eq (unscopedRest_V2 V c _ _).symm); iexact Hrest

-- the library's lemmas stated over the pinned configuration unify with the printed one only when unification may
-- unfold plain definitions in a metavariable's type
set_option backward.isDefEq.respectTransparency.types false in
/-- The region as the library's record: entered from every unscoped buffer at `V` and the core owing `O` with
    recorded waits `W`; left at every unscoped buffer changed at the two written arrays alone, owing `O` still. -/
def reg2 (hO : ∀ g, O g none = 0)
    (hpost : ∀ c G15 G16, (rdat V O W c).ArrAt 15 cfg2.N G15 → (rdat V O W c).ArrAt 16 cfg2.N G16 → Out2 c (V c) G15 G16) :
    Pipeline.RDat.RegionSeg (pcfgs (F := F)) adm (rdats V O W) (none : HIx 1) defs₀ 𝒱₀ (K (F := F)).L (K (F := F)).lev 1 where
  win := winFacts2.to₀
  block_pos := block_pos2
  stage_whole := stage_whole2
  K := PEmpty
  osem k := k.elim
  ho := Pipeline.OwnSemFacts.none _
  hbody c := body_obligation V O W c
  hwaits c := hwaits2 V O W hO c
  pre c := iprop(unscopedBufs c (V c) ∗ owes (c.tc : Thread nD τ) O W)
  post c := iprop((∃ V', ⌜Post2Spec c (V c) V'⌝ ∗ unscopedBufs c V')
    ∗ (∃ W' : Waits sig (HIx 1), ⌜∀ p ∈ W', p ∈ W ∨ p.2 = none⌝ ∗ owes (c.tc : Thread nD τ) O W'))
  X _ := iprop(emp)
  Y _ := iprop(emp)
  Z c := Pipeline.unscopedRest (Ix := HIx 1) (Name := ℕ) (U := UU) (Lvl := ℕ) spec2 c (V c)
  hentry c := by
    rw [Pipeline.ownSems0_none]
    iintro ⟨⟨Hub, HO⟩, -, -⟩
    ihave H := (entry_split2 V O W c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (Or.inl hp)
      iexact HO
    isplitr; · iempintro
    iexact Hrest
  hin c := by
    rw [show (rdats V O W 1 c).Φ 0 = (rdat V O W c).Φ 0 from rfl, Φ_zero V O W c 0 rfl,
      show Pipeline.scopedRest (Pipeline.pin (pcfgs (F := F)) adm 1).spec c
        = Pipeline.scopedRest (Ix := HIx 1) (Name := ℕ) (U := UU) (Lvl := ℕ) (Val := Elt F) spec2 c from rfl, scopedRest2_eq]
    unfold restSix
    iintro ⟨-, -, H0, H1, H2, H3, H4, H5, Hs⟩
    isplitr [Hs]
    · isplitl [H0]; · iexact H0
      isplitl [H1]; · iexact H1
      isplitl [H2]; · iexact H2
      isplitl [H3]; · iexact H3
      isplitl [H4]; · iexact H4
      iexact H5
    · iexact Hs
  hout c := by
    rw [Pipeline.ownSems0_none, show (rdats V O W 1 c).Φ (Fin.last _) = (rdat V O W c).Φ (Fin.last cfg2.N) from rfl,
      Φ_pos V O W c (Fin.last cfg2.N) (by rw [Fin.val_last, show cfg2.N = 25 from N_2]; decide),
      show Pipeline.scopedRest (Pipeline.pin (pcfgs (F := F)) adm 1).spec c
        = Pipeline.scopedRest (Ix := HIx 1) (Name := ℕ) (U := UU) (Lvl := ℕ) (Val := Elt F) spec2 c from rfl, scopedRest2_eq]
    unfold restSix
    iintro ⟨⟨H0, H1, H2, H3, H4, H5⟩, Hs⟩
    isplitr; · iempintro
    isplitr; · iempintro
    isplitl [H0]; · iexact H0
    isplitl [H1]; · iexact H1
    isplitl [H2]; · iexact H2
    isplitl [H3]; · iexact H3
    isplitl [H4]; · iexact H4
    isplitl [H5]; · iexact H5
    iexists _; iexact Hs
  hexit c := by
    iintro ⟨Ha, HO, -, Hrest⟩
    imodintro
    isplitl [Ha Hrest]
    · iapply (exit_bufs2 V O W hpost c)
      isplitl [Ha]
      · iexact Ha
      · iexact Hrest
    unfold Pipeline.RDat.owesAt Pipeline.owesWithin
    icases HO with ⟨%W', %hW', HO⟩
    iexists W'; isplitr
    · ipureintro
      intro p hp
      rcases hW' (Finset.mem_coe.mpr hp) with h | ⟨w, s, rfl⟩
      · exact h
      · exact Or.inr rfl
    iexact HO

set_option backward.isDefEq.respectTransparency.types false in
/-- The region as one step of the TensorCore's program, under any continuation, the pure fact about the two
    written arrays a hypothesis. -/
theorem region2_wp_of (hO : ∀ g, O g none = 0)
    (hpost : ∀ c G15 G16, (rdat V O W c).ArrAt 15 cfg2.N G15 → (rdat V O W c).ArrAt 16 cfg2.N G16 → Out2 c (V c) G15 G16) (c : Dev nD)
    {α : Type} (k : PUnit → Prog (TpuEff nD τ sig (Elt F) (ΛP (F := F)) .tc) α) (Q : α → sProp 𝕄) :
    iprop((iprop(boundary (c.tc : Thread nD τ) ∗ (∃ V', ⌜Post2Spec c (V c) V'⌝ ∗ unscopedBufs c V')
              ∗ (∃ W' : Waits sig (HIx 1), ⌜∀ p ∈ W', p ∈ W ∨ p.2 = none⌝ ∗ owes (c.tc : Thread nD τ) O W'))
            -∗ wp frame (wpE (D (F := F)) 𝒱 (c.tc : Thread nD τ) none) Set.univ (k ⟨⟩) Q)
        ∗ boundary (c.tc : Thread nD τ) ∗ unscopedBufs c (V c) ∗ owes (c.tc : Thread nD τ) O W
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q := by
  have h := Pipeline.RDat.RegionSeg.wp (pcfgs (F := F)) adm (rdats V O W) (none : HIx 1) cellOf_inj EP defs₀ 𝒱₀
    (K (F := F)).L (K (F := F)).lev (reg2 V O W hO hpost) c none (fun u hu => absurd hu (Option.not_mem_none u)) k Q
  have e1 : (reg2 V O W hO hpost).post c = iprop((∃ V', ⌜Post2Spec c (V c) V'⌝ ∗ unscopedBufs c V')
      ∗ (∃ W' : Waits sig (HIx 1), ⌜∀ p ∈ W', p ∈ W ∨ p.2 = none⌝ ∗ owes (c.tc : Thread nD τ) O W')) := rfl
  have e2 : (reg2 V O W hO hpost).pre c = iprop(unscopedBufs c (V c) ∗ owes (c.tc : Thread nD τ) O W) := rfl
  rw [e1, e2] at h
  refine BIBase.Entails.trans ?_ h
  iintro ⟨Hk, Hb, Hub, HO, Hl, Hg, Ht⟩
  isplitl [Hk]
  · iintro ⟨Hb, HV, HW⟩
    iapply Hk
    isplitl [Hb]; · iexact Hb
    isplitl [HV]; · iexact HV
    iexact HW
  isplitl [Hb]; · iexact Hb
  isplitl [Hub HO]
  · isplitl [Hub]; · iexact Hub
    iexact HO
  isplitl [Hl]; · iexact Hl
  isplitl [Hg]; · iexact Hg
  iexact Ht

end

end Region2

end Cert.KernelIdeal.Hand

end
-- ==== Proof.Region2Post.lean ====
/-
  What the projection pipeline's write-backs leave in its two output arrays.

  The state's array is written back once, after the last point, from a buffer holding the new state
  since the first point; the block written is the whole array. The logits array is written back at
  every point: point t writes rows 4096·t … of the array from the buffer's leading rows, the last
  point only the 1696 rows inside the array; blocks of different points share no row, so a later
  write-back leaves an earlier block alone, and after all 25 the rows of block t read what the
  body left at point t: the block product of some contents of the two moving inputs' buffers —
  equal to the weight and bias arrays on the rows inside them — with the transposed new state.
-/
import proofs.«217423_g17910013624755_cont_8to1_1683_16_alg».proof.Proof.Region2Data
import Idealize.ShloMosaic.Lib.ValueIdx

set_option maxRecDepth 16384

noncomputable section

namespace Cert.KernelIdeal.Hand.Region2

open Cert.KernelIdeal Cert.KernelIdeal.Gen Cert.KernelIdeal.Hand
open Idealize.ShloMosaic.Pipeline (RDat Cfg Window cellOf)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Post

variable (V : (c : Dev nD) → (b : Ref sig .tc) → Buf (Elt F) ((c.tc : Thread nD τ).loc b))
variable (O : CellTallies nD τ sig (HIx 1)) (W : Waits sig (HIx 1))
variable [∀ e, Nonempty (Elt F e)]

/-! ## Generic facts about what an array may hold after some write-backs -/

/-- While no point below `n` writes the window back, its array holds its entry contents. -/
theorem arrAt_of_noflush {cfg : Cfg sig Λ₀} {c : Dev nD} (rd : RDat τ (Elt F) (HIx 1) ℕ UU ℕ cfg c) (w : Fin cfg.W) :
    ∀ n, n ≤ cfg.N → (∀ u : Fin cfg.N, u.val < n → (cfg.win w).flush u = false) → rd.ArrAt w n = fun G => G = rd.A w
  | 0, _, _ => rfl
  | n + 1, hn, h => by
    have e := rd.ArrAt_succ w ⟨n, hn⟩
    rw [show n + 1 = (⟨n, hn⟩ : Fin cfg.N).val + 1 from rfl, e, h ⟨n, hn⟩ (Nat.lt_succ_self n), if_neg Bool.false_ne_true]
    exact arrAt_of_noflush rd w n (Nat.le_of_succ_le hn) (fun u hu => h u (Nat.lt_succ_of_lt hu))

/-- When the blocks of different flushing points share no element, block `t` of the array after the
    write-backs below `n` (`t < n`) is the moved part of SOME contents the body may have left at `t`. -/
theorem read_blk_arrAt {cfg : Cfg sig Λ₀} {c : Dev nD} (rd : RDat τ (Elt F) (HIx 1) ℕ UU ℕ cfg c) (w : Fin cfg.W)
    (hdisj : ∀ t t' : Fin cfg.N, (cfg.win w).flush t = true → (cfg.win w).flush t' = true → t ≠ t' →
      Disjoint ((cfg.win w).blk t).view.set ((cfg.win w).blk t').view.set) :
    ∀ (n : Nat), n ≤ cfg.N → ∀ (t : Fin cfg.N), t.val < n → (cfg.win w).flush t = true → ∀ G, rd.ArrAt w n G →
      ∃ X, rd.Leaves w t X ∧ ((cfg.win w).blk t).view.read (Elt F) G = (cfg.win w).cut (cfg.grid.coords t) X
  | 0, _, _, ht, _, _, _ => absurd ht (Nat.not_lt_zero _)
  | n + 1, hn, t, ht, hf, G, hG => by
    have hn' : n < cfg.N := hn
    rw [show n + 1 = (⟨n, hn'⟩ : Fin cfg.N).val + 1 from rfl, rd.ArrAt_succ w ⟨n, hn'⟩] at hG
    by_cases hfn : (cfg.win w).flush ⟨n, hn'⟩ = true
    · rw [if_pos hfn] at hG
      obtain ⟨G₀, X, hG₀, hX, rfl⟩ := hG
      by_cases htn : t.val = n
      · have e : t = ⟨n, hn'⟩ := Fin.ext htn
        subst e
        exact ⟨X, hX, View.read_write_univ _ _⟩
      · obtain ⟨X', hX', hr⟩ := read_blk_arrAt rd w hdisj n (Nat.le_of_succ_le hn) t (by omega) hf G₀ hG₀
        refine ⟨X', hX', Eq.trans ?_ hr⟩
        exact View.read_congr fun i hi => View.write_of_not_mem _ _ _
          (Finset.disjoint_left.mp (hdisj t ⟨n, hn'⟩ hf hfn (fun e => htn (congrArg Fin.val e))) hi)
    · rw [if_neg hfn] at hG
      have htn : t.val ≠ n := fun e => hfn (by have : t = ⟨n, hn'⟩ := Fin.ext e; exact this ▸ hf)
      exact read_blk_arrAt rd w hdisj n (Nat.le_of_succ_le hn) t (by omega) hf G hG

/-! ## The moving windows' block indices and cuts -/

theorem idx13 : ∀ t : Fin cfg2.N, (cfg2.win 13).index t = ![t.val, 0] :=
  (by decide +kernel : ∀ t : Fin grid2.N, win2_13.index t = ![t.val, 0])
theorem idx14 : ∀ t : Fin cfg2.N, (cfg2.win 14).index t = ![0, t.val] :=
  (by decide +kernel : ∀ t : Fin grid2.N, win2_14.index t = ![0, t.val])
theorem idx15 : ∀ t : Fin cfg2.N, (cfg2.win 15).index t = ![t.val, 0] :=
  (by decide +kernel : ∀ t : Fin grid2.N, win2_15.index t = ![t.val, 0])

/-- A block coordinate is among those a cut transfer moves exactly when it lies inside the array. -/
theorem lt_extent_iff {ix k d j : Nat} (hj : j < k) : j < (Pipeline.Clip.of ix k d).extent k ↔ ix * k + j < d := by
  unfold Pipeline.Clip.of
  split
  · next h =>
    rw [Nat.add_mul, Nat.one_mul] at h
    show j < k ↔ _
    constructor
    · intro _; omega
    · intro _; exact hj
  · next h =>
    rw [Nat.add_mul, Nat.one_mul] at h
    show j < d - ix * k ↔ _
    omega

/-- Inside the weight array, a fetched block of window 13 is the array's rows 4096·t …. -/
theorem fet13_inside (c : Dev nD) (t : Fin cfg2.N) (d) (r : Fin 4096) (k : Fin 256) (h : 4096 * t.val + r.val < 100000) :
    (fet V c 13 t d : Vec F S4096x256 .f32) (ix2 r k)
      = (V c main_v7 : S100000x256.Idx → F .f32) (ix2 (⟨4096 * t.val + r.val, h⟩ : Fin 100000) k) := by
  have hm : (cfg2.win 13).moved (cfg2.grid.coords t) (ix2 r k) = true := by
    rw [Pipeline.Window.moved_iff]
    intro a
    match a with
    | ⟨0, _⟩ =>
      show r.val < (Pipeline.Clip.of ((cfg2.win 13).index t 0) 4096 100000).extent 4096
      rw [idx13 t]; exact (lt_extent_iff r.isLt).mpr (by show t.val * 4096 + r.val < 100000; omega)
    | ⟨1, _⟩ =>
      show k.val < (Pipeline.Clip.of ((cfg2.win 13).index t 1) 256 256).extent 256
      rw [idx13 t]; exact (lt_extent_iff k.isLt).mpr (by show 0 * 256 + k.val < 256; omega)
  unfold fet Pipeline.Window.fill
  rw [dif_pos hm]
  show (V c main_v7 : S100000x256.Idx → F .f32) (((cfg2.win 13).blk t).view.emb _) = _
  refine congrArg _ (funext fun a => Fin.ext ?_)
  refine ((cfg2.win 13).rect_emb_val t _ a).trans ?_
  match a with
  | ⟨0, _⟩ => rw [idx13 t]; show t.val * 4096 + r.val = 4096 * t.val + r.val; omega
  | ⟨1, _⟩ => rw [idx13 t]; show 0 * 256 + k.val = k.val; omega

/-- Inside the bias array, a fetched block of window 14 is the array's columns 4096·t …. -/
theorem fet14_inside (c : Dev nD) (t : Fin cfg2.N) (d) (r : Fin 4096) (h : 4096 * t.val + r.val < 100000) :
    (fet V c 14 t d : Vec F S1x4096 .f32) (ix2 (0 : Fin 1) r)
      = (V c main_v12 : S1x100000.Idx → F .f32) (ix2 (0 : Fin 1) (⟨4096 * t.val + r.val, h⟩ : Fin 100000)) := by
  have hm : (cfg2.win 14).moved (cfg2.grid.coords t) (ix2 (0 : Fin 1) r) = true := by
    rw [Pipeline.Window.moved_iff]
    intro a
    match a with
    | ⟨0, _⟩ =>
      show (0 : Fin 1).val < (Pipeline.Clip.of ((cfg2.win 14).index t 0) 1 1).extent 1
      rw [idx14 t]; exact (lt_extent_iff (by decide)).mpr (by show 0 * 1 + (0 : Fin 1).val < 1; decide)
    | ⟨1, _⟩ =>
      show r.val < (Pipeline.Clip.of ((cfg2.win 14).index t 1) 4096 100000).extent 4096
      rw [idx14 t]; exact (lt_extent_iff r.isLt).mpr (by show t.val * 4096 + r.val < 100000; omega)
  unfold fet Pipeline.Window.fill
  rw [dif_pos hm]
  show (V c main_v12 : S1x100000.Idx → F .f32) (((cfg2.win 14).blk t).view.emb _) = _
  refine congrArg _ (funext fun a => Fin.ext ?_)
  refine ((cfg2.win 14).rect_emb_val t _ a).trans ?_
  match a with
  | ⟨0, _⟩ => rw [idx14 t]; show 0 * 1 + (0 : Fin 1).val = (0 : Fin 1).val; omega
  | ⟨1, _⟩ => rw [idx14 t]; show t.val * 4096 + r.val = 4096 * t.val + r.val; omega

/-! ## The state's array -/

theorem noflush16 (u : Fin cfg2.N) (hu : u.val < 24) : (cfg2.win 16).flush u = false :=
  Bool.eq_false_iff.mpr fun h => by have := (flush2_16 u).mp h; omega

/-- The state's block is its whole array: read through the block, an array reads itself. -/
theorem readblk16 (t : Fin cfg2.N) (G : Vec F S1024x256 .f32) : ((cfg2.win 16).blk t).view.read (Elt F) G = G := by
  funext j
  show G (((cfg2.win 16).blk t).view.emb j) = G j
  refine congrArg _ (funext fun a => Fin.ext ?_)
  exact (cfg2.win 16).rect_emb_val_of_index_zero t a (zz2 a) _

/-- After the run the state's array holds the new state. -/
theorem arrAt16 (c : Dev nD) (G : Buf (Elt F) ((cfg2.win 16).arr.view.loc (c.tc : Thread nD τ)))
    (h : (rdat V O W c).ArrAt 16 cfg2.N G) : (G : S1024x256.Idx → F .f32) = newHOf c (V c) := by
  have h24 : 24 < cfg2.N := by have e : cfg2.N = 25 := N_2; omega
  have h' : (rdat V O W c).ArrAt 16 ((⟨24, h24⟩ : Fin cfg2.N).val + 1) G :=
    (congrArg (fun n => (rdat V O W c).ArrAt 16 n G) (N_2 : cfg2.N = 25)).mp h
  rw [(rdat V O W c).ArrAt_succ 16 ⟨24, h24⟩, if_pos ((flush2_16 ⟨24, h24⟩).mpr (show 24 % 25 = 24 from rfl))] at h'
  obtain ⟨G₀, X, -, ⟨Y, -, hR⟩, rfl⟩ := h'
  rw [after2_16] at hR
  refine ((readblk16 ⟨24, h24⟩ _).symm.trans (View.read_write_univ _ _)).trans ?_
  exact hR

/-! ## The logits array -/

theorem idx15_inj : ∀ t t' : Fin cfg2.N, (cfg2.win 15).index t = (cfg2.win 15).index t' → t = t' :=
  (by decide +kernel : ∀ t t' : Fin grid2.N, win2_15.index t = win2_15.index t' → t = t')

theorem disjoint15 : ∀ t t' : Fin cfg2.N, (cfg2.win 15).flush t = true → (cfg2.win 15).flush t' = true → t ≠ t' →
    Disjoint ((cfg2.win 15).blk t).view.set ((cfg2.win 15).blk t').view.set :=
  fun t t' _ _ hne => (cfg2.win 15).disjoint_blk fun h => hne (idx15_inj t t' h)

/-- Row `r`, column `b` of point `t`'s block, as an index of the part the write-back moves. -/
def y15 (t : Fin cfg2.N) (r : Fin 4096) (b : Fin 1024) (h : 4096 * t.val + r.val < 100000) :
    ((cfg2.win 15).xblock (cfg2.grid.coords t)).Idx :=
  fun a => match a with
    | ⟨0, _⟩ => ⟨r.val, by
        show r.val < (Pipeline.Clip.of ((cfg2.win 15).index t 0) 4096 100000).extent 4096
        rw [idx15 t]; exact (lt_extent_iff r.isLt).mpr (by show t.val * 4096 + r.val < 100000; omega)⟩
    | ⟨1, _⟩ => ⟨b.val, by
        show b.val < (Pipeline.Clip.of ((cfg2.win 15).index t 1) 1024 1024).extent 1024
        rw [idx15 t]; exact (lt_extent_iff b.isLt).mpr (by show 0 * 1024 + b.val < 1024; omega)⟩

theorem emb_y15 (t : Fin cfg2.N) (r : Fin 4096) (b : Fin 1024) (h : 4096 * t.val + r.val < 100000) :
    ((cfg2.win 15).blk t).view.emb (y15 t r b h) = (ix2 (⟨4096 * t.val + r.val, h⟩ : Fin 100000) b : S100000x1024.Idx) :=
  funext fun a => Fin.ext (((cfg2.win 15).rect_emb_val t _ a).trans (by
    match a with
    | ⟨0, _⟩ => rw [idx15 t]; show t.val * 4096 + r.val = 4096 * t.val + r.val; omega
    | ⟨1, _⟩ => rw [idx15 t]; show 0 * 1024 + b.val = b.val; omega))

theorem xinj_y15 (t : Fin cfg2.N) (r : Fin 4096) (b : Fin 1024) (h : 4096 * t.val + r.val < 100000) :
    (cfg2.win 15).xinj (cfg2.grid.coords t) (y15 t r b h) = (ix2 r b : S4096x1024.Idx) :=
  funext fun a => Fin.ext (by match a with | ⟨0, _⟩ => rfl | ⟨1, _⟩ => rfl)

/-- After the run, the rows of block `t` of the logits array read the block product of some
    contents of the two moving inputs' buffers at point `t` — the weight and bias arrays on the rows
    inside them — with the transposed new state. -/
theorem arrAt15 (c : Dev nD) (G : Buf (Elt F) ((cfg2.win 15).arr.view.loc (c.tc : Thread nD τ)))
    (h : (rdat V O W c).ArrAt 15 cfg2.N G) :
    ∀ t : Fin 25, ∃ (w13 : Vec F S4096x256 .f32) (w14 : Vec F S1x4096 .f32),
      (∀ (r : Fin 4096) (k : Fin 256) (h : 4096 * t.val + r.val < 100000),
          w13 (ix2 r k) = (V c main_v7 : S100000x256.Idx → F .f32) (ix2 (⟨4096 * t.val + r.val, h⟩ : Fin 100000) k))
      ∧ (∀ (r : Fin 4096) (h : 4096 * t.val + r.val < 100000),
          w14 (ix2 (0 : Fin 1) r) = (V c main_v12 : S1x100000.Idx → F .f32) (ix2 (0 : Fin 1) (⟨4096 * t.val + r.val, h⟩ : Fin 100000)))
      ∧ ∀ (r : Fin 4096) (b : Fin 1024) (h : 4096 * t.val + r.val < 100000),
          (G : S100000x1024.Idx → F .f32) (ix2 (⟨4096 * t.val + r.val, h⟩ : Fin 100000) b) = k2_pay3 w13 (newHTOf c (V c)) w14 (ix2 r b) := by
  intro t
  have ht : t.val < cfg2.N := by have e : cfg2.N = 25 := N_2; have := t.isLt; omega
  obtain ⟨X, ⟨Y, -, hR⟩, hr⟩ := read_blk_arrAt (rdat V O W c) 15 disjoint15 cfg2.N le_rfl ⟨t.val, ht⟩ ht (flush2_15 _) G h
  rw [after2_15] at hR
  obtain ⟨w13, w14, ⟨d13, e13⟩, ⟨d14, e14⟩, rfl⟩ := hR
  refine ⟨w13, w14, fun r k hh => ?_, fun r hh => ?_, fun r b hh => ?_⟩
  · rw [e13]; exact fet13_inside V c ⟨t.val, ht⟩ d13 r k hh
  · rw [e14]; exact fet14_inside V c ⟨t.val, ht⟩ d14 r hh
  · have e := congrFun hr (y15 ⟨t.val, ht⟩ r b hh)
    rw [← emb_y15 ⟨t.val, ht⟩ r b hh, ← xinj_y15 ⟨t.val, ht⟩ r b hh]
    exact e

end Post

end Cert.KernelIdeal.Hand.Region2

end
-- ==== Proof.Region2.lean ====
/-
  The second TensorCore region as one step of the TensorCore's program.

  The step is the region's rule at its record, with the pure fact about the two written arrays
  supplied: after the twenty-five write-backs the state's array is the new state and every block of
  the logits' array inside the array is the block product the body computes. There is one device,
  so buffer contents given for it are contents for every device.
-/
import proofs.«217423_g17910013624755_cont_8to1_1683_16_alg».proof.Proof.Region2Rec
import proofs.«217423_g17910013624755_cont_8to1_1683_16_alg».proof.Proof.Region2Post

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

namespace Region2

/-- Contents of the one device's unscoped buffers, as contents for every device. -/
def famOf (d : Dev nD) (V : (b : Ref sig .tc) → Buf (Elt F) ((d.tc : Thread nD τ).loc b)) :
    (c : Dev nD) → (b : Ref sig .tc) → Buf (Elt F) ((c.tc : Thread nD τ).loc b) :=
  fun c => (Subsingleton.elim d c) ▸ V

theorem famOf_self (d : Dev nD) (V : (b : Ref sig .tc) → Buf (Elt F) ((d.tc : Thread nD τ).loc b)) : famOf d V d = V := rfl

end Region2

open Region2 in
/-- From the boundary, every unscoped buffer at `V`, the core owing `O` (nothing at the pipeline's own index) with
    recorded waits `W`, the level facts and the pipeline's cells' ghost state, the region's call runs to the
    continuation entered with the boundary, every unscoped buffer at contents that differ at the two written arrays
    alone and there hold what the region computes, and the core owing `O` still. -/
theorem region2_wp [∀ e, Nonempty (Elt F e)] (d : Dev nD) (V : (b : Ref sig .tc) → Buf (Elt F) ((d.tc : Thread nD τ).loc b))
    (O : CellTallies nD τ sig (HIx 1)) (hO : ∀ g, O g none = 0) (W : Waits sig (HIx 1))
    {α : Type} (k : PUnit → Prog (TpuEff nD τ sig (Elt F) (ΛP (F := F)) .tc) α) (Q : α → sProp 𝕄) :
    iprop((iprop(boundary (d.tc : Thread nD τ) ∗ (∃ V', ⌜Post2Spec d V V'⌝ ∗ unscopedBufs d V')
              ∗ (∃ W', ⌜∀ p ∈ W', p ∈ W ∨ p.2 = none⌝ ∗ owes (d.tc : Thread nD τ) O W'))
            -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) (fun p => (cfgs p).toPCfg_adm)) EP 1 d
        ∗ Pipeline.toksInit (Pipeline.pin (pcfgs (F := F)) (fun p => (cfgs p).toPCfg_adm)) EP 1 d)
      ⊢ wp frame (wpE (D (F := F)) 𝒱 (d.tc : Thread nD τ) none) Set.univ (.op (.customCall (Pipeline.entry 1) ()) k) Q := by
  have h := region2_wp_of (famOf d V) O W hO
    (fun c G15 G16 h15 h16 => ⟨arrAt16 (famOf d V) O W c G16 h16, arrAt15 (famOf d V) O W c G15 h15⟩) d k Q
  rw [famOf_self] at h
  exact h

end Cert.KernelIdeal.Hand

end
-- ==== Proof.KernelFacts.lean ====
/-
  Two facts about what the first TensorCore region is entered with and leaves, at any float
  instance: the ids are still the launched ones (nothing before the SparseCore call writes them),
  and the halves table holds the embedding rows — the host transposed the embedding table, and the
  region transposes it back half by half, so entry (r, j) of the left half is entry (r, j) of the
  embedding table and entry (r, j) of the right half is its entry (r + 50176, j).
-/
import proofs.«217423_g17910013624755_cont_8to1_1683_16_alg».proof.Proof.Main
import proofs.«217423_g17910013624755_cont_8to1_1683_16_alg».proof.Proof.PostSpec
import Idealize.ShloMosaic.Lib.ValueLayout

noncomputable section

namespace Cert.KernelIdeal.Hand

open Cert.KernelIdeal Cert.KernelIdeal.Gen
open Idealize.ShloMosaic Idealize.ShloMosaic.ValueIdx Idealize.SL.Sem

variable {F : FTy → Type} [FloatOps F]
variable (m : (ℓ : Loc nD τ sig) → Buf (Elt F) ℓ)

/-- The first region is entered with the ids as launched, and leaves them. -/
theorem x_kept (d : Dev nD) (V1 : TcVal F d) (h : Post0Spec d (rd d (WA m d)) V1) : V1 main_arg0 = m (xLoc d) := by
  rw [h.1 main_arg0 (by decide)]
  show (opA (F := F)).result (V0 m d) (Proc.devRef .tc main_arg0) = _
  rw [StableHlo.unary_result_ne _ _ _ _ _ _ (by decide)]; rfl

/-- The transposed table the first region reads is the host's transpose of the embedding table. -/
theorem WA_v0 (d : Dev nD) (j : Fin 64) (r : Fin 100000) :
    ((WA m d (Proc.devRef .tc main_v0)) : S64x100000.Idx → F .f32) (ix2 j r) = (m (embLoc d) : S100000x64.Idx → F .f32) (ix2 r j) := by
  show ((opA (F := F)).result (V0 m d) (Proc.devRef .tc main_v0) : S64x100000.Idx → F .f32) (ix2 j r) = _
  rw [StableHlo.unary_result]
  exact transpose_ix2_apply _ _ j r

/-- The halves table the first region leaves holds the embedding rows. -/
theorem tab_good (d : Dev nD) (V1 : TcVal F d) (h : Post0Spec d (rd d (WA m d)) V1) : Cert.Good.TabGood (m (embLoc d)) (V1 main_v1) := by
  intro r j
  obtain ⟨hl, hr⟩ := h.2 r j
  refine ⟨hl.trans (WA_v0 m d j _), fun hh => (hr hh).trans (WA_v0 m d j _)⟩

end Cert.KernelIdeal.Hand

end
-- ==== Proof.IdealRead.lean ====
/-
  Reading the vector unit's non-pointwise operations at one entry, over the extended reals.

  A product of an m × k matrix by a k × n matrix accumulated into the zero matrix is, at entry
  (a, b), the finite sum over the contracted coordinate c of A[a, c] · B[c, b]: the accumulator
  contributes the extended real 0, and the contraction's one-axis index set is carried onto
  `Fin k` by the bijection that reads its single coordinate.

  A column (an [a, 1] array) broadcast along its unit axis reads, at (p, c), the column's entry p;
  a vector reshaped to a column reads, at (i, 0), the vector's entry i. Both hold for any element
  type: they only move indices.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.IdealValue

open Idealize.ShloMosaic Idealize.ShloMosaic.ValueIdx
open scoped BigOperators

/-- The dimension numbers of a plain matrix product, built from any proof that they are well formed. -/
abbrev plainDims {m k n : Nat}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- (A · B)[a, b] = Σ_c A[a, c] · B[c, b] for a product accumulated into zero, at the ideal values. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 (plainDims w) k rfl rfl).symm c) = ix2 a c := by
    funext ax; apply Fin.ext
    match ax with
    | ⟨0, _⟩ => simp [DotDims.lhsIdx, plainDims]; rfl
    | ⟨1, _⟩ => simp [DotDims.lhsIdx, plainDims]; exact c2
  have r2 : (plainDims w).rhsIdx (ix2 a b) ((contrEquiv1 (plainDims w) k rfl rfl).symm c) = ix2 c b := by
    funext ax; apply Fin.ext
    match ax with
    | ⟨0, _⟩ => simp [DotDims.rhsIdx, plainDims]; exact c2
    | ⟨1, _⟩ => simp [DotDims.rhsIdx, plainDims]; rfl
  rw [l2, r2]

variable {α : Type}

/-- An [a, 1] column broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector reshaped to an [a, 1] column reads, at (i, u), the vector's entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.KernelIdeal.IdealValue

end
-- ==== Proof.Blocks.lean ====
/-
  The stored blocks of the two TensorCore kernels and the host's layout operations, read at one
  entry.

  The first kernel stacks two 64 × 12544 slabs on top of each other and transposes the stack: row r
  of the 12544 × 128 result holds column r of the first slab in its columns 0‥63 and column r of the
  second slab in its columns 64‥127. That is a statement about indices only and holds for any element
  type.

  The second kernel's logits block is a matrix product plus a bias laid along the rows: entry (r, b)
  is Σ_k W[r, k] · hᵀ[k, b] + bias[r], over the extended reals; and what it keeps of the new state
  for that product is the new state transposed.

  The host's operations around the kernels only move entries: a transpose swaps the two
  coordinates, the reshape of a vector to a row or a column keeps the entry, and the comparison
  of the token ids against 50176 converted to a float is 1 where the id is at least 50176 and
  0 elsewhere (for ids below 2³¹ the signed comparison of the words is the comparison of the numbers).
-/
import proofs.«217423_g17910013624755_cont_8to1_1683_16_alg».proof.Proof.IdealRead
import proofs.«217423_g17910013624755_cont_8to1_1683_16_alg».proof.Proof.Good
import proofs.«217423_g17910013624755_cont_8to1_1683_16_alg».proof.KernelIdeal
import proofs.«217423_g17910013624755_cont_8to1_1683_16_alg».proof.Proof.Gen.KernelIdeal
import proofs.«217423_g17910013624755_cont_8to1_1683_16_alg».proof.Proof.Gen.KernelIdeal.Skeleton

noncomputable section

namespace Cert.KernelIdeal.IdealValue

open Cert.KernelIdeal
open Idealize.ShloMosaic Idealize.ShloMosaic.ValueIdx
open scoped BigOperators

/-! ## The halves table's block -/

section AnyElement
variable {F : FTy → Type} [FloatOps F]

/-- Columns 0‥63 of row r hold column r of the first slab. -/
theorem halves_left (x0 x1 : Vec F S64x12544 .f32) (r : Fin 12544) (j : Fin 64) :
    Gen.k0_pay1 x0 x1 (ix2 r (Cert.Good.colL j)) = x0 (ix2 j r) := by
  unfold Gen.k0_pay1
  dsimp only
  rw [shapeCast_self, shapeCast_self]
  refine (transpose_ix2_apply _ _ r (Cert.Good.colL j)).trans ?_
  exact concatenate_pair_apply_left _ x0 x1 _ (ix2 (Cert.Good.colL j) r) rfl (ix2 j r) (fun b => by
    match b with
    | ⟨0, _⟩ => rfl
    | ⟨1, _⟩ => rfl)

/-- Columns 64‥127 of row r hold column r of the second slab. -/
theorem halves_right (x0 x1 : Vec F S64x12544 .f32) (r : Fin 12544) (j : Fin 64) :
    Gen.k0_pay1 x0 x1 (ix2 r (Cert.Good.colR j)) = x1 (ix2 j r) := by
  unfold Gen.k0_pay1
  dsimp only
  rw [shapeCast_self, shapeCast_self]
  refine (transpose_ix2_apply _ _ r (Cert.Good.colR j)).trans ?_
  exact concatenate_pair_apply_right _ x0 x1 _ (ix2 (Cert.Good.colR j) r) rfl rfl (ix2 j r) (fun b hb => by
    match b with
    | ⟨0, _⟩ => exact absurd rfl hb
    | ⟨1, _⟩ => rfl) (by show j.val + 64 = 64 + j.val; omega)

/-! ## The host's layout operations -/

/-- The transposed embedding table. -/
theorem host_transpose_table (a : Vec F S100000x64 .f32) (h : S100000x64.Transposes [1, 0] S64x100000)
    (j : Fin 64) (r : Fin 100000) : transpose S64x100000 [1, 0] a h (ix2 j r) = a (ix2 r j) :=
  transpose_ix2_apply a h j r

/-- The transposed output weight. -/
theorem host_transpose_wout (a : Vec F S256x100000 .f32) (h : S256x100000.Transposes [1, 0] S100000x256)
    (v : Fin 100000) (k : Fin 256) : transpose S100000x256 [1, 0] a h (ix2 v k) = a (ix2 k v) :=
  transpose_ix2_apply a h v k

/-- The transposed logits. -/
theorem host_transpose_logits (a : Vec F S100000x1024 .f32) (h : S100000x1024.Transposes [1, 0] S1024x100000)
    (b : Fin 1024) (v : Fin 100000) : transpose S1024x100000 [1, 0] a h (ix2 b v) = a (ix2 v b) :=
  transpose_ix2_apply a h b v

/-- A bias reshaped to a row. -/
theorem host_reshape_bias (a : Vec F S256 .f32) (h : S256.ShapeCasts S1x256) (k : Fin 256) :
    shapeCast S1x256 a h (ix2 (0 : Fin 1) k) = a (ix1 k) :=
  shapeCast_a_1a_apply a h 0 k

/-- The output bias reshaped to a row. -/
theorem host_reshape_bout (a : Vec F S100000 .f32) (h : S100000.ShapeCasts S1x100000) (v : Fin 100000) :
    shapeCast S1x100000 a h (ix2 (0 : Fin 1) v) = a (ix1 v) :=
  shapeCast_a_1a_apply a h 0 v

/-- The parity vector reshaped to a column. -/
theorem host_reshape_parity (a : Vec F S1024 .f32) (h : S1024.ShapeCasts S1024x1) (b : Fin 1024) :
    shapeCast S1024x1 a h (ix2 b (0 : Fin 1)) = a (ix1 b) :=
  shapeCast_a_a1_apply a h b 0

end AnyElement

/-! ## The parity of a token id, over the extended reals -/

/-- The signed comparison against 50176 of a word below 100000, converted to a float: 1 or 0. -/
theorem host_parity (x : Cert.Spec.Ids) (hb : S_.BroadcastsInDim S1024 (![] : Fin 0 → Fin S1024.rank))
    (b : Fin 1024) (hx : (x (ix1 b)).toNat < 100000) :
    (uitofp (F := Ideal) .f32 (cmpi .sge x (broadcastInDim S1024 ![] hb (constantI S_ 32 50176#32))) : FVec Ideal S1024 .f32) (ix1 b)
      = if 50176 ≤ (x (ix1 b)).toNat then (1 : EReal) else 0 := by
  show (((IntOp.cmpi .sge (x (ix1 b)) (broadcastInDim S1024 ![] hb (constantI S_ 32 50176#32) (ix1 b))).toNat : ℝ) : EReal) = _
  rw [broadcastInDim_scalar_apply]
  show (((BitVec.ofBool ((50176#32 : BitVec 32).sle (x (ix1 b)))).toNat : ℝ) : EReal) = _
  have hi : (x (ix1 b)).toInt = ((x (ix1 b)).toNat : Int) := BitVec.toInt_eq_toNat_of_lt (by omega)
  by_cases hge : 50176 ≤ (x (ix1 b)).toNat
  · have hs : (50176#32 : BitVec 32).sle (x (ix1 b)) = true := by
      rw [BitVec.sle_iff_toInt_le, hi, show (50176#32 : BitVec 32).toInt = 50176 from by decide]; omega
    rw [hs, if_pos hge]; simp
  · have hs : (50176#32 : BitVec 32).sle (x (ix1 b)) = false := by
      rw [← Bool.not_eq_true, BitVec.sle_iff_toInt_le, hi, show (50176#32 : BitVec 32).toInt = 50176 from by decide]; omega
    rw [hs, if_neg hge]; simp

/-! ## The logits block and the kept transpose -/

/-- Entry (r, b) of the logits block. -/
theorem logits_block (w13 : Vec Ideal S4096x256 .f32) (hT : Vec Ideal S256x1024 .f32) (w14 : Vec Ideal S1x4096 .f32)
    (r : Fin 4096) (b : Fin 1024) :
    Gen.k2_pay3 w13 hT w14 (ix2 r b) = (∑ k : Fin 256, w13 (ix2 r k) * hT (ix2 k b)) + w14 (ix2 (0 : Fin 1) r) := by
  unfold Gen.k2_pay3
  dsimp only
  rw [shapeCast_self, shapeCast_self]
  refine (addf_apply _ _ _).trans ?_
  refine congrArg₂ (· + ·) ?_ ?_
  · exact matmul_zero_ix2 _ none w13 hT r b
  · refine (broadcastTo_a1_ab_apply _ _ r b).trans ?_
    exact transpose_ix2_apply w14 _ r (0 : Fin 1)

/-- What is kept for the product is the new state transposed. -/
theorem kept_transpose (v23 : FVec Ideal S1024x64 .f32) (v24 : Vec Ideal S1024x256 .f32) (v28 v30 v38 v44 : FVec Ideal S1024x256 .f32)
    (v47 : Vec Ideal S64x256 .f32) (v49 v53 : Vec Ideal S1x256 .f32) (k : Fin 256) (b : Fin 1024) :
    Gen.k2_pay2 v23 v24 v28 v30 v38 v44 v47 v49 v53 (ix2 k b) = Gen.k2_pay1 v23 v24 v28 v30 v38 v44 v47 v49 v53 (ix2 b k) := by
  unfold Gen.k2_pay2
  dsimp only
  rw [shapeCast_self]
  exact transpose_ix2_apply _ _ k b

end Cert.KernelIdeal.IdealValue

end
-- ==== Proof.NewState.lean ====
/-
  The new state of the recurrent step, entry by entry, over the extended reals.

  The second kernel first chooses, row by row, which half of the gathered row is the token's
  embedding: the left half where the parity column is 0, the right half elsewhere. Under the
  hypotheses that the left half is the embedding row for ids below 50176, the right half for ids
  from 50176 on, and that the parity is 0 or 1 accordingly, the chosen row IS the embedding row.
  Each product into a zero accumulator is then a finite sum over the contracted coordinate, each
  bias row is read at its column, and the gates compose exactly as in the specification:
    r  = logistic (e·W_ir + b_ir + h·W_hr)
    z  = logistic (e·W_iz + b_iz + h·W_hz)
    n  = tanh (e·W_in + b_in + r · (h·W_hn + b_hn))
    h' = (1 − z) · n + z · h.
  The literal 1 is the extended real one. No law beyond the definitions is used, so nothing here
  needs finiteness.
-/
import proofs.«217423_g17910013624755_cont_8to1_1683_16_alg».proof.Proof.IdealRead
import proofs.«217423_g17910013624755_cont_8to1_1683_16_alg».proof.Proof.Spec
import proofs.«217423_g17910013624755_cont_8to1_1683_16_alg».proof.KernelIdeal
import proofs.«217423_g17910013624755_cont_8to1_1683_16_alg».proof.Proof.Gen.KernelIdeal
import proofs.«217423_g17910013624755_cont_8to1_1683_16_alg».proof.Proof.Gen.KernelIdeal.Skeleton

noncomputable section

namespace Cert.KernelIdeal.IdealValue

open Cert.KernelIdeal
open Idealize.ShloMosaic Idealize.ShloMosaic.ValueIdx
open scoped BigOperators

/-! ## The chosen half -/

/-- The choice at one entry: the left half where the parity is zero, the right half elsewhere. -/
theorem chosen_apply (par : Vec Ideal S1024x1 .f32) (eL eR : Vec Ideal S1024x64 .f32) (b : Fin 1024) (j : Fin 64) :
    Gen.k2_pay4 par eL eR (ix2 b j) = if par (ix2 b (0 : Fin 1)) = 0 then eL (ix2 b j) else eR (ix2 b j) := by
  unfold Gen.k2_pay4
  rw [shapeCast_self, shapeCast_self, shapeCast_self, shapeCast_self]
  refine (select_apply _ _ _ _).trans ?_
  rw [broadcastTo_a1_ab_apply]
  show Scalar.select (Ideal.cmp .oeq (par (ix2 b (0 : Fin 1))) (Ideal.ofBits .f32 0x00000000#32)) _ _ = _
  rw [Ideal.ofBits_zero_f32]
  by_cases h0 : par (ix2 b (0 : Fin 1)) = 0
  · rw [if_pos h0]
    show Scalar.select (BitVec.ofBool (decide (par (ix2 b (0 : Fin 1)) = 0))) _ _ = _
    rw [decide_eq_true h0]; exact select_one _ _
  · rw [if_neg h0]
    show Scalar.select (BitVec.ofBool (decide (par (ix2 b (0 : Fin 1)) = 0))) _ _ = _
    rw [decide_eq_false h0]; exact select_zero _ _

section Step

variable (x : Cert.Spec.Ids) (emb : Vec Ideal S100000x64 .f32) (eL eR : Vec Ideal S1024x64 .f32)
  (par : Vec Ideal S1024x1 .f32)
  (hL : ∀ (b : Fin 1024) (j : Fin 64), (x (ix1 b)).toNat < 50176 → eL (ix2 b j) = emb (ix2 (Cert.Spec.rowOf x b) j))
  (hR : ∀ (b : Fin 1024) (j : Fin 64), 50176 ≤ (x (ix1 b)).toNat → eR (ix2 b j) = emb (ix2 (Cert.Spec.rowOf x b) j))
  (hpar : ∀ b : Fin 1024, par (ix2 b (0 : Fin 1)) = if 50176 ≤ (x (ix1 b)).toNat then (1 : EReal) else 0)

include hL hR hpar

/-- The chosen row is the token's embedding row. -/
theorem chosen_eq_emb (b : Fin 1024) (j : Fin 64) :
    Gen.k2_pay4 par eL eR (ix2 b j) = Cert.Spec.emb emb x b j := by
  rw [chosen_apply, hpar b]
  by_cases hge : 50176 ≤ (x (ix1 b)).toNat
  · rw [if_pos hge, if_neg (one_ne_zero : (1 : EReal) ≠ 0)]; exact hR b j hge
  · rw [if_neg hge, if_pos rfl]; exact hL b j (by omega)

/-- The chosen rows times an input weight: (e·W)[b, k]. -/
theorem chosen_matmul (W : Vec Ideal S64x256 .f32) (b : Fin 1024) (k : Fin 256) :
    matmul (F := Ideal) (φ₁ := .f32) (φ₂ := .f32) dot_S1024x64_S64x256_S1024x256_1_0_0_1_n_n none (Gen.k2_pay4 par eL eR) W
        (constant (F := Ideal) S1024x256 .f32 0x00000000#32) (ix2 b k)
      = Cert.Spec.inProj emb x W b k := by
  refine (matmul_zero_ix2 _ none (Gen.k2_pay4 par eL eR) W b k).trans ?_
  exact Finset.sum_congr rfl fun j _ => congrArg (· * W (ix2 j k)) (chosen_eq_emb x emb eL eR par hL hR hpar b j)

omit hL hR hpar

end Step

/-- The state times a state weight: (h·W)[b, k]. -/
theorem state_matmul (h : Vec Ideal S1024x256 .f32) (W : Vec Ideal S256x256 .f32) (b : Fin 1024) (k : Fin 256) :
    matmul (F := Ideal) (φ₁ := .f32) (φ₂ := .f32) dot_S1024x256_S256x256_S1024x256_1_0_0_1_n_n none h W
        (constant (F := Ideal) S1024x256 .f32 0x00000000#32) (ix2 b k)
      = Cert.Spec.stProj h W b k :=
  matmul_zero_ix2 _ none h W b k

/-- A bias row laid over the 1024 rows reads its column. -/
theorem bias_apply (bias : Vec Ideal S1x256 .f32) (h₁ : S1x256.ShapeCasts S1x256) (h₂ : S1x256.Broadcasts S1024x256)
    (b : Fin 1024) (k : Fin 256) :
    broadcastTo S1024x256 (shapeCast S1x256 bias h₁) h₂ (ix2 b k) = bias (ix2 (0 : Fin 1) k) := by
  rw [shapeCast_self]; exact broadcastTo_1b_ab_apply bias h₂ b k

/-- h·W_hz and h·W_hn as the kernel forms them. -/
theorem state_proj5 (h : Vec Ideal S1024x256 .f32) (W : Vec Ideal S256x256 .f32) (b : Fin 1024) (k : Fin 256) :
    Gen.k2_pay5 h W (ix2 b k) = Cert.Spec.stProj h W b k := state_matmul h W b k
theorem state_proj6 (h : Vec Ideal S1024x256 .f32) (W : Vec Ideal S256x256 .f32) (b : Fin 1024) (k : Fin 256) :
    Gen.k2_pay6 h W (ix2 b k) = Cert.Spec.stProj h W b k := state_matmul h W b k

section Gates

variable (x : Cert.Spec.Ids) (emb : Vec Ideal S100000x64 .f32) (eL eR : Vec Ideal S1024x64 .f32)
  (par : Vec Ideal S1024x1 .f32)
  (hL : ∀ (b : Fin 1024) (j : Fin 64), (x (ix1 b)).toNat < 50176 → eL (ix2 b j) = emb (ix2 (Cert.Spec.rowOf x b) j))
  (hR : ∀ (b : Fin 1024) (j : Fin 64), 50176 ≤ (x (ix1 b)).toNat → eR (ix2 b j) = emb (ix2 (Cert.Spec.rowOf x b) j))
  (hpar : ∀ b : Fin 1024, par (ix2 b (0 : Fin 1)) = if 50176 ≤ (x (ix1 b)).toNat then (1 : EReal) else 0)

include hL hR hpar

/-- The reset gate r[b, k]. -/
theorem reset_gate (h : Vec Ideal S1024x256 .f32) (whr : Vec Ideal S256x256 .f32) (wir : Vec Ideal S64x256 .f32)
    (bir : Vec Ideal S1x256 .f32) (b : Fin 1024) (k : Fin 256) :
    Gen.k2_pay7 par eL eR h whr wir bir (ix2 b k)
      = Cert.Spec.gate emb x h wir (fun i => bir (ix2 (0 : Fin 1) (i 0))) whr b k := by
  unfold Gen.k2_pay7
  show Ideal.logistic (_ + _ + _) = Ideal.logistic (_ + _ + _)
  rw [chosen_matmul x emb eL eR par hL hR hpar, state_matmul, bias_apply]

/-- The update gate before its state term and its logistic: (e·W_iz + b_iz)[b, k]. -/
theorem update_input (wiz : Vec Ideal S64x256 .f32) (biz : Vec Ideal S1x256 .f32) (b : Fin 1024) (k : Fin 256) :
    Gen.k2_pay8 par eL eR wiz biz (ix2 b k) = Cert.Spec.inProj emb x wiz b k + biz (ix2 (0 : Fin 1) k) := by
  unfold Gen.k2_pay8
  show _ + _ = _
  rw [chosen_matmul x emb eL eR par hL hR hpar, bias_apply]

/-- The new state h'[b, k]. -/
theorem new_state_apply (h : Vec Ideal S1024x256 .f32) (wir wiz win : Vec Ideal S64x256 .f32)
    (whr whz whn : Vec Ideal S256x256 .f32) (bir biz bin bhn : Vec Ideal S1x256 .f32) (b : Fin 1024) (k : Fin 256) :
    Gen.k2_pay1 (Gen.k2_pay4 par eL eR) h (Gen.k2_pay5 h whz) (Gen.k2_pay6 h whn)
        (Gen.k2_pay7 par eL eR h whr wir bir) (Gen.k2_pay8 par eL eR wiz biz) win bin bhn (ix2 b k)
      = Cert.Spec.newH emb x h wir (fun i => bir (ix2 (0 : Fin 1) (i 0))) wiz (fun i => biz (ix2 (0 : Fin 1) (i 0)))
          win (fun i => bin (ix2 (0 : Fin 1) (i 0))) whr whz whn (fun i => bhn (ix2 (0 : Fin 1) (i 0))) b k := by
  unfold Gen.k2_pay1
  show (Ideal.ofBits .f32 0x3F800000#32 - Ideal.logistic (_ + _)) * Ideal.tanh (_ + _ + _ * (_ + _)) + Ideal.logistic (_ + _) * _
    = (1 - Ideal.logistic (_ + _ + _)) * Ideal.tanh (_ + _ + _ * (_ + _)) + Ideal.logistic (_ + _ + _) * _
  rw [Ideal.ofBits_one_f32, update_input x emb eL eR par hL hR hpar, state_proj5, state_proj6,
    reset_gate x emb eL eR par hL hR hpar, chosen_matmul x emb eL eR par hL hR hpar, bias_apply, bias_apply]

/-- The new state as an array. -/
theorem new_state (h : Vec Ideal S1024x256 .f32) (wir wiz win : Vec Ideal S64x256 .f32)
    (whr whz whn : Vec Ideal S256x256 .f32) (bir biz bin bhn : Vec Ideal S1x256 .f32) :
    Gen.k2_pay1 (Gen.k2_pay4 par eL eR) h (Gen.k2_pay5 h whz) (Gen.k2_pay6 h whn)
        (Gen.k2_pay7 par eL eR h whr wir bir) (Gen.k2_pay8 par eL eR wiz biz) win bin bhn
      = Cert.Spec.newHArr emb x h wir (fun i => bir (ix2 (0 : Fin 1) (i 0))) wiz (fun i => biz (ix2 (0 : Fin 1) (i 0)))
          win (fun i => bin (ix2 (0 : Fin 1) (i 0))) whr whz whn (fun i => bhn (ix2 (0 : Fin 1) (i 0))) := by
  funext i
  obtain ⟨b, k, rfl⟩ : ∃ (b : Fin 1024) (k : Fin 256), i = ix2 b k := ⟨i 0, i 1, eq_ix2 i⟩
  exact new_state_apply x emb eL eR par hL hR hpar h wir wiz win whr whz whn bir biz bin bhn b k

end Gates

end Cert.KernelIdeal.IdealValue

end
-- ==== Proof.KernelValue.lean ====
/-
  The kernel's two results, at the extended reals, are the specification.

  The last host operation transposes the logits the second TensorCore region wrote; the region's
  other output is the new state. What the region computes is a function of the buffers it is
  entered with, and each of those is read back through the steps before it: the gathered rows as
  the SparseCore call returned them; the indicator column — 1 where the id is at least 50176, else
  0 — from the ids; the four bias rows and the output bias as reshapes of the argument vectors;
  the output weights transposed; every other operand as launched. With the gathered rows holding
  the embedding row of each id in the half the indicator selects, the region's new-state term is
  the specification's new state; and row v of the transposed logits is
  Σ_k W_out[k, v] · h'[b, k] + b_out[v], the specification's logit (b, v) with each product's
  factors exchanged.
-/
import proofs.«217423_g17910013624755_cont_8to1_1683_16_alg».proof.Proof.Final
import proofs.«217423_g17910013624755_cont_8to1_1683_16_alg».proof.Proof.PostSpec
import proofs.«217423_g17910013624755_cont_8to1_1683_16_alg».proof.Proof.IdealRead
import proofs.«217423_g17910013624755_cont_8to1_1683_16_alg».proof.Proof.Blocks
import proofs.«217423_g17910013624755_cont_8to1_1683_16_alg».proof.Proof.NewState
import Idealize.ShloMosaic.Lib.ValueLayout

noncomputable section

open scoped BigOperators

namespace Cert.KernelIdeal.IdealValue

open Cert.KernelIdeal Cert.KernelIdeal.Gen Cert.KernelIdeal.Hand
open Idealize.ShloMosaic Idealize.ShloMosaic.ValueIdx Idealize.SL.Sem

namespace Walk

/-! ## What the second region is entered with -/

section Entry
variable {F : FTy → Type} [FloatOps F]
variable (m : (ℓ : Loc nD τ sig) → Buf (Elt F) ℓ) (d : Dev nD) (V1 : TcVal F d)
variable (tab' : Buf (Elt F) (tabLoc d)) (g : Buf (Elt F) (outLoc d))
variable (hV1 : Post0Spec d (rd d (WA m d)) V1)
include hV1

/-- After the SparseCore call, a buffer that neither the first transpose, the first region nor the call writes is as
    launched. -/
theorem WC_keep (r : Ref sig .tc) (h0 : r ≠ main_v0) (h1 : r ≠ main_v1) (h2 : r ≠ main_v2) :
    WC m d V1 tab' g (Proc.devRef .tc r) = m (d, Proc.devRef .tc r) := by
  unfold WC
  rw [Function.update_of_ne (StableHlo.devRef_ne_of_ne h2), Function.update_of_ne (StableHlo.devRef_ne_of_ne h1), ofTc_tc,
    hV1.1 r h1]
  show (opA (F := F)).result (V0 m d) (Proc.devRef .tc r) = _
  rw [StableHlo.unary_result_ne _ _ _ _ _ _ h0]; rfl

/-- … and still so after the eleven host operations, if none of them writes it. -/
theorem entry_keep (r : Ref sig .tc) (h0 : r ≠ main_v0) (h1 : r ≠ main_v1) (h2 : r ≠ main_v2)
    (hB : r ≠ main_c ∧ r ≠ main_v3 ∧ r ≠ main_v4 ∧ r ≠ main_v5 ∧ r ≠ main_v6 ∧ r ≠ main_v7 ∧ r ≠ main_v8 ∧ r ≠ main_v9
      ∧ r ≠ main_v10 ∧ r ≠ main_v11 ∧ r ≠ main_v12) :
    StableHlo.after opsB (WC m d V1 tab' g) (Proc.devRef .tc r) = m (d, Proc.devRef .tc r) := by
  rw [StableHlo.after_of_forall_not_mem _ _ (opsB_keeps r hB)]
  exact WC_keep m d V1 tab' g hV1 r h0 h1 h2

omit hV1 in
/-- The gathered rows are what the SparseCore call returned. -/
theorem entry_v2 : StableHlo.after opsB (WC m d V1 tab' g) (Proc.devRef .tc main_v2) = g := by
  rw [StableHlo.after_of_forall_not_mem _ _ (opsB_keeps main_v2 (by decide))]
  unfold WC; rw [Function.update_self]

/-- The indicator column: the ids compared with 50176, converted, as a column. -/
theorem entry_v6 :
    (StableHlo.after opsB (WC m d V1 tab' g) (Proc.devRef .tc main_v6) : S1024x1.Idx → F .f32)
      = shapeCast S1024x1 (uitofp .f32 (cmpi .sge (m (d, Proc.devRef .tc main_arg0) : IVec S1024 32)
          (broadcastInDim S1024 ![] bcast_S_S1024 (constantI S_ 32 50176#32)))) shapeCasts_S1024_S1024x1 := by
  dsimp only [opsB]
  after_results
  rw [WC_keep m d V1 tab' g hV1 main_arg0 (by decide) (by decide) (by decide)]
  rfl

/-- The output weights, transposed. -/
theorem entry_v7 :
    (StableHlo.after opsB (WC m d V1 tab' g) (Proc.devRef .tc main_v7) : S100000x256.Idx → F .f32)
      = transpose S100000x256 [1, 0] (m (d, Proc.devRef .tc main_arg13) : S256x100000.Idx → F .f32)
          transposes_S256x100000_S100000x256_1_0 := by
  dsimp only [opsB]
  after_results
  rw [WC_keep m d V1 tab' g hV1 main_arg13 (by decide) (by decide) (by decide)]

/-- The four bias rows and the output bias: the argument vectors as one-row matrices. -/
theorem entry_v8 :
    (StableHlo.after opsB (WC m d V1 tab' g) (Proc.devRef .tc main_v8) : S1x256.Idx → F .f32)
      = shapeCast S1x256 (m (d, Proc.devRef .tc main_arg4) : S256.Idx → F .f32) shapeCasts_S256_S1x256 := by
  dsimp only [opsB]
  after_results
  rw [WC_keep m d V1 tab' g hV1 main_arg4 (by decide) (by decide) (by decide)]
  rfl
theorem entry_v9 :
    (StableHlo.after opsB (WC m d V1 tab' g) (Proc.devRef .tc main_v9) : S1x256.Idx → F .f32)
      = shapeCast S1x256 (m (d, Proc.devRef .tc main_arg6) : S256.Idx → F .f32) shapeCasts_S256_S1x256 := by
  dsimp only [opsB]
  after_results
  rw [WC_keep m d V1 tab' g hV1 main_arg6 (by decide) (by decide) (by decide)]
  rfl
theorem entry_v10 :
    (StableHlo.after opsB (WC m d V1 tab' g) (Proc.devRef .tc main_v10) : S1x256.Idx → F .f32)
      = shapeCast S1x256 (m (d, Proc.devRef .tc main_arg8) : S256.Idx → F .f32) shapeCasts_S256_S1x256 := by
  dsimp only [opsB]
  after_results
  rw [WC_keep m d V1 tab' g hV1 main_arg8 (by decide) (by decide) (by decide)]
  rfl
theorem entry_v11 :
    (StableHlo.after opsB (WC m d V1 tab' g) (Proc.devRef .tc main_v11) : S1x256.Idx → F .f32)
      = shapeCast S1x256 (m (d, Proc.devRef .tc main_arg12) : S256.Idx → F .f32) shapeCasts_S256_S1x256 := by
  dsimp only [opsB]
  after_results
  rw [WC_keep m d V1 tab' g hV1 main_arg12 (by decide) (by decide) (by decide)]
  rfl
theorem entry_v12 :
    (StableHlo.after opsB (WC m d V1 tab' g) (Proc.devRef .tc main_v12) : S1x100000.Idx → F .f32)
      = shapeCast S1x100000 (m (d, Proc.devRef .tc main_arg14) : S100000.Idx → F .f32) shapeCasts_S100000_S1x100000 := by
  dsimp only [opsB]
  after_results
  rw [WC_keep m d V1 tab' g hV1 main_arg14 (by decide) (by decide) (by decide)]
  rfl

end Entry

/-! ## Pieces read at an index -/

section Read
variable {F : FTy → Type}

/-- The left half of a gathered row block reads columns 0‥63 … -/
theorem ld_rL (X : Vec F S1024x128 .f32) (b : Fin 1024) (j : Fin 64) :
    View.ld X Region2.rL (ix2 b j) = X (ix2 b (Cert.Good.colL j)) := by
  show X (Region2.rL.idx (ix2 b j)) = _
  refine congrArg X (funext fun a => Fin.ext ?_)
  match a with
  | ⟨0, _⟩ => show 0 + 1 * b.val = b.val; omega
  | ⟨1, _⟩ => show 0 + 1 * j.val = j.val; omega

/-- … and the right half columns 64‥127. -/
theorem ld_rR (X : Vec F S1024x128 .f32) (b : Fin 1024) (j : Fin 64) :
    View.ld X Region2.rR (ix2 b j) = X (ix2 b (Cert.Good.colR j)) := by
  show X (Region2.rR.idx (ix2 b j)) = _
  refine congrArg X (funext fun a => Fin.ext ?_)
  match a with
  | ⟨0, _⟩ => show 0 + 1 * b.val = b.val; omega
  | ⟨1, _⟩ => show 64 + 1 * j.val = 64 + j.val; omega

/-- A vector as a one-row matrix, read back along the row, is the vector. -/
theorem row_back {α : Type} {n : Nat} (v : (⟨1, ![n]⟩ : Shape).Idx → α) (h : (⟨1, ![n]⟩ : Shape).ShapeCasts ⟨2, ![1, n]⟩) :
    (fun i : (⟨1, ![n]⟩ : Shape).Idx => shapeCast ⟨2, ![1, n]⟩ v h (ix2 (0 : Fin 1) (i 0))) = v :=
  funext fun i => (shapeCast_a_1a_apply v h 0 (i 0)).trans (congrArg v (eq_ix1 i).symm)

end Read

/-- The indicator column at row b, for an id below 100000: 1 if the id is at least 50176, else 0. -/
theorem indicator_apply (x : IVec S1024 32) (hx : ∀ b : Fin 1024, (x (ix1 b)).toNat < 100000) (b : Fin 1024) :
    (shapeCast S1024x1 (uitofp (F := Ideal) .f32 (cmpi .sge x (broadcastInDim S1024 ![] bcast_S_S1024 (constantI S_ 32 50176#32))))
        shapeCasts_S1024_S1024x1 : S1024x1.Idx → EReal) (ix2 b (0 : Fin 1))
      = if 50176 ≤ (x (ix1 b)).toNat then 1 else 0 := by
  rw [shapeCast_a_a1_apply]
  show (((IntOp.cmpi .sge (x (ix1 b)) 50176#32).toNat : ℝ) : EReal) = _
  have hi : (x (ix1 b)).toInt = ((x (ix1 b)).toNat : Int) := BitVec.toInt_eq_toNat_of_lt (by have := hx b; omega)
  have hc : (50176#32 : BitVec 32).toInt = 50176 := by decide
  by_cases h : 50176 ≤ (x (ix1 b)).toNat
  · rw [if_pos h, IntOp.cmpi_sge.mpr (by rw [hc, hi]; omega)]
    show (((1 : ℕ) : ℝ) : EReal) = 1
    norm_num
  · have hz : IntOp.cmpi .sge (x (ix1 b)) 50176#32 = 0#1 := eq_zero_of_ne_one fun h1 => h (by
      have h2 := IntOp.cmpi_sge.mp h1; rw [hc, hi] at h2; omega)
    rw [if_neg h, hz]
    show (((0 : ℕ) : ℝ) : EReal) = 0
    norm_num

/-! ## The two results -/

section Values
variable (m : (ℓ : Loc nD τ sig) → Buf (Elt Ideal) ℓ) (d : Dev nD)
variable (hx : ∀ b : Fin 1024, ((m (xLoc d) : IVec S1024 32) (ix1 b)).toNat < 100000)
variable (V1 : TcVal Ideal d) (tab' : Buf (Elt Ideal) (tabLoc d)) (g : Buf (Elt Ideal) (outLoc d))
variable (hV1 : Post0Spec d (rd d (WA m d)) V1) (hg : Cert.Good.GatherGood (m (embLoc d)) (m (xLoc d)) g)
-- The new-state term of a selected embedding half and the gate terms is the specification's new state, when the two
-- halves hold the embedding row where the id selects them and the indicator says which.
variable (hE1 : ∀ (par : Vec Ideal S1024x1 .f32) (eL eR : Vec Ideal S1024x64 .f32) (h : Vec Ideal S1024x256 .f32)
    (whr whz whn : Vec Ideal S256x256 .f32) (wir wiz win : Vec Ideal S64x256 .f32) (bir biz bin bhn : Vec Ideal S1x256 .f32)
    (emb : Cert.Spec.Mat 100000 64) (x : Cert.Spec.Ids),
    (∀ (b : Fin 1024) (j : Fin 64), (x (ix1 b)).toNat < 50176 → eL (ix2 b j) = emb (ix2 (Cert.Spec.rowOf x b) j)) →
    (∀ (b : Fin 1024) (j : Fin 64), 50176 ≤ (x (ix1 b)).toNat → eR (ix2 b j) = emb (ix2 (Cert.Spec.rowOf x b) j)) →
    (∀ b : Fin 1024, par (ix2 b (0 : Fin 1)) = if 50176 ≤ (x (ix1 b)).toNat then 1 else 0) →
    k2_pay1 (k2_pay4 par eL eR) h (k2_pay5 h whz) (k2_pay6 h whn) (k2_pay7 par eL eR h whr wir bir)
        (k2_pay8 par eL eR wiz biz) win bin bhn
      = Cert.Spec.newHArr emb x h wir (fun i => bir (ix2 (0 : Fin 1) (i 0))) wiz (fun i => biz (ix2 (0 : Fin 1) (i 0)))
          win (fun i => bin (ix2 (0 : Fin 1) (i 0))) whr whz whn (fun i => bhn (ix2 (0 : Fin 1) (i 0))))
include hx hV1 hg hE1

/-- The new state the second region computes from the buffers it is entered with is the specification's. -/
theorem newHOf_eq :
    newHOf d (rd d (StableHlo.after opsB (WC m d V1 tab' g))) = Cert.Spec.newHArr (m ((d.tc : Thread nD τ).loc main_arg2)) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  show Region2.stateOf (StableHlo.after opsB (WC m d V1 tab' g) (Proc.devRef .tc main_v2))
      (StableHlo.after opsB (WC m d V1 tab' g) (Proc.devRef .tc main_v6))
      (StableHlo.after opsB (WC m d V1 tab' g) (Proc.devRef .tc main_arg1))
      (StableHlo.after opsB (WC m d V1 tab' g) (Proc.devRef .tc main_arg3))
      (StableHlo.after opsB (WC m d V1 tab' g) (Proc.devRef .tc main_v8))
      (StableHlo.after opsB (WC m d V1 tab' g) (Proc.devRef .tc main_arg5))
      (StableHlo.after opsB (WC m d V1 tab' g) (Proc.devRef .tc main_v9))
      (StableHlo.after opsB (WC m d V1 tab' g) (Proc.devRef .tc main_arg7))
      (StableHlo.after opsB (WC m d V1 tab' g) (Proc.devRef .tc main_v10))
      (StableHlo.after opsB (WC m d V1 tab' g) (Proc.devRef .tc main_arg9))
      (StableHlo.after opsB (WC m d V1 tab' g) (Proc.devRef .tc main_arg10))
      (StableHlo.after opsB (WC m d V1 tab' g) (Proc.devRef .tc main_arg11))
      (StableHlo.after opsB (WC m d V1 tab' g) (Proc.devRef .tc main_v11)) = _
  rw [entry_v2, entry_v6 m d V1 tab' g hV1, entry_v8 m d V1 tab' g hV1, entry_v9 m d V1 tab' g hV1, entry_v10 m d V1 tab' g hV1,
    entry_v11 m d V1 tab' g hV1,
    entry_keep m d V1 tab' g hV1 main_arg1 (by decide) (by decide) (by decide) (by decide),
    entry_keep m d V1 tab' g hV1 main_arg3 (by decide) (by decide) (by decide) (by decide),
    entry_keep m d V1 tab' g hV1 main_arg5 (by decide) (by decide) (by decide) (by decide),
    entry_keep m d V1 tab' g hV1 main_arg7 (by decide) (by decide) (by decide) (by decide),
    entry_keep m d V1 tab' g hV1 main_arg9 (by decide) (by decide) (by decide) (by decide),
    entry_keep m d V1 tab' g hV1 main_arg10 (by decide) (by decide) (by decide) (by decide),
    entry_keep m d V1 tab' g hV1 main_arg11 (by decide) (by decide) (by decide) (by decide)]
  unfold Region2.stateOf
  rw [hE1 _ _ _ _ _ _ _ _ _ _ _ _ _ _ (m (embLoc d)) (m (xLoc d))
    (fun b j hlt => (ld_rL _ b j).trans ((hg b j).1 hlt))
    (fun b j hge => (ld_rR _ b j).trans ((hg b j).2 hge))
    (fun b => indicator_apply (m (xLoc d)) hx b),
    row_back, row_back, row_back, row_back]

end Values

/-! ## The chain -/

section Chain
variable (m : (ℓ : Loc nD τ sig) → Buf (Elt Ideal) ℓ) (d : Dev nD)
variable (hx : ∀ b : Fin 1024, ((m (xLoc d) : IVec S1024 32) (ix1 b)).toNat < 100000)
variable (hE1 : ∀ (par : Vec Ideal S1024x1 .f32) (eL eR : Vec Ideal S1024x64 .f32) (h : Vec Ideal S1024x256 .f32)
    (whr whz whn : Vec Ideal S256x256 .f32) (wir wiz win : Vec Ideal S64x256 .f32) (bir biz bin bhn : Vec Ideal S1x256 .f32)
    (emb : Cert.Spec.Mat 100000 64) (x : Cert.Spec.Ids),
    (∀ (b : Fin 1024) (j : Fin 64), (x (ix1 b)).toNat < 50176 → eL (ix2 b j) = emb (ix2 (Cert.Spec.rowOf x b) j)) →
    (∀ (b : Fin 1024) (j : Fin 64), 50176 ≤ (x (ix1 b)).toNat → eR (ix2 b j) = emb (ix2 (Cert.Spec.rowOf x b) j)) →
    (∀ b : Fin 1024, par (ix2 b (0 : Fin 1)) = if 50176 ≤ (x (ix1 b)).toNat then 1 else 0) →
    k2_pay1 (k2_pay4 par eL eR) h (k2_pay5 h whz) (k2_pay6 h whn) (k2_pay7 par eL eR h whr wir bir)
        (k2_pay8 par eL eR wiz biz) win bin bhn
      = Cert.Spec.newHArr emb x h wir (fun i => bir (ix2 (0 : Fin 1) (i 0))) wiz (fun i => biz (ix2 (0 : Fin 1) (i 0)))
          win (fun i => bin (ix2 (0 : Fin 1) (i 0))) whr whz whn (fun i => bhn (ix2 (0 : Fin 1) (i 0))))
-- A block of the transposed logits at (r, b): the weight block's row r against column b of the carried array, plus the
-- bias block's entry r.
variable (hE2a : ∀ (w13 : Vec Ideal S4096x256 .f32) (hT : Vec Ideal S256x1024 .f32) (w14 : Vec Ideal S1x4096 .f32)
    (r : Fin 4096) (b : Fin 1024),
    k2_pay3 w13 hT w14 (ix2 r b) = (∑ k : Fin 256, w13 (ix2 r k) * hT (ix2 k b)) + w14 (ix2 (0 : Fin 1) r))
-- The carried array is the new state transposed.
variable (hE2b : ∀ (v23 : FVec Ideal S1024x64 .f32) (v24 : Vec Ideal S1024x256 .f32) (v28 v30 v38 v44 : FVec Ideal S1024x256 .f32)
    (v47 : Vec Ideal S64x256 .f32) (v49 v53 : Vec Ideal S1x256 .f32) (k : Fin 256) (b : Fin 1024),
    k2_pay2 v23 v24 v28 v30 v38 v44 v47 v49 v53 (ix2 k b) = k2_pay1 v23 v24 v28 v30 v38 v44 v47 v49 v53 (ix2 b k))
include hx hE1 hE2a hE2b

/-- However the final contents of the TensorCore's buffers came about along @main's steps, the logits' buffer holds the
    specification's logits and the new state's buffer the specification's new state, of the launched argument arrays. -/
theorem chain_values_of (Wf : Valuation τ sig (Elt Ideal)) (hc : Chain m Post0Spec Post2Spec d Wf) :
    (Wf (Proc.devRef .tc main_v14) : S1024x100000.Idx → EReal) = Cert.Spec.logitsArr (m ((d.tc : Thread nD τ).loc main_arg2)) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14))
    ∧ (Wf (Proc.devRef .tc main_v13_1) : S1024x256.Idx → EReal) = Cert.Spec.newHArr (m ((d.tc : Thread nD τ).loc main_arg2)) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  obtain ⟨V1, tab', g, V3, hV1, hg, hV3, rfl⟩ := hc
  have hN := newHOf_eq m d hx V1 tab' g hV1 hg hE1
  constructor
  · funext i
    obtain ⟨b, v, rfl⟩ : ∃ (b : Fin 1024) (v : Fin 100000), i = ix2 b v := ⟨i 0, i 1, eq_ix2 i⟩
    rw [StableHlo.unary_result]
    refine (transpose_ix2_apply _ _ b v).trans ?_
    rw [ofTc_tc]
    -- the block and the row inside it that hold row v of the transposed logits
    have hv := v.isLt
    have hrow : 4096 * (v.val / 4096) + v.val % 4096 < 100000 := by rw [Nat.div_add_mod]; exact hv
    have hvr : (⟨4096 * (v.val / 4096) + v.val % 4096, hrow⟩ : Fin 100000) = v := Fin.ext (Nat.div_add_mod _ _)
    obtain ⟨w13, w14, h13, h14, hout⟩ := hV3.2.2 (⟨v.val / 4096, by omega⟩ : Fin 25)
    let r : Fin 4096 := ⟨v.val % 4096, Nat.mod_lt _ (by decide)⟩
    refine (congrArg (fun w : Fin 100000 => (V3 main_v13_0 : S100000x1024.Idx → EReal) (ix2 w b)) hvr.symm).trans
      ((hout r b hrow).trans ?_)
    have e13 : ∀ k : Fin 256, w13 (ix2 r k) = ((m ((d.tc : Thread nD τ).loc main_arg13)) : S256x100000.Idx → EReal) (ix2 k v) := fun k =>
      (h13 r k hrow).trans
        ((congrArg (fun w : Fin 100000 =>
            (StableHlo.after opsB (WC m d V1 tab' g) (Proc.devRef .tc main_v7) : S100000x256.Idx → EReal) (ix2 w k)) hvr).trans
          (by rw [entry_v7 m d V1 tab' g hV1]; exact transpose_ix2_apply _ _ v k))
    have e14 : w14 (ix2 (0 : Fin 1) r) = ((m ((d.tc : Thread nD τ).loc main_arg14)) : S100000.Idx → EReal) (ix1 v) :=
      (h14 r hrow).trans
        ((congrArg (fun w : Fin 100000 =>
            (StableHlo.after opsB (WC m d V1 tab' g) (Proc.devRef .tc main_v12) : S1x100000.Idx → EReal) (ix2 (0 : Fin 1) w)) hvr).trans
          (by rw [entry_v12 m d V1 tab' g hV1]; exact shapeCast_a_1a_apply _ _ 0 v))
    have eT : ∀ k : Fin 256, newHTOf d (rd d (StableHlo.after opsB (WC m d V1 tab' g))) (ix2 k b)
        = Cert.Spec.newH (m ((d.tc : Thread nD τ).loc main_arg2)) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) b k := fun k => by
      have e : newHTOf d (rd d (StableHlo.after opsB (WC m d V1 tab' g))) (ix2 k b)
          = newHOf d (rd d (StableHlo.after opsB (WC m d V1 tab' g))) (ix2 b k) := by
        unfold newHTOf newHOf Region2.stateTOf Region2.stateOf
        exact hE2b _ _ _ _ _ _ _ _ _ k b
      rw [e, hN]; rfl
    rw [hE2a]
    show _ = (∑ k : Fin 256, Cert.Spec.newH (m ((d.tc : Thread nD τ).loc main_arg2)) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) b k * ((m ((d.tc : Thread nD τ).loc main_arg13)) : S256x100000.Idx → EReal) (ix2 k v))
      + ((m ((d.tc : Thread nD τ).loc main_arg14)) : S100000.Idx → EReal) (ix1 v)
    rw [e14]
    congr 1
    refine Finset.sum_congr rfl fun k _ => ?_
    rw [e13 k, eT k, mul_comm]
  · rw [StableHlo.unary_result_ne _ _ _ _ _ _ (by decide), ofTc_tc, hV3.2.1]
    exact hN

end Chain

end Walk

/-- The kernel's two results are the specification's, of the launched argument arrays, whenever every id is below
    100000: the walk back along @main's steps, with the kernel's arithmetic read entry by entry. -/
theorem chain_values (m : (ℓ : Loc nD τ sig) → Buf (Elt Ideal) ℓ) (d : Dev nD)
    (hx : ∀ b : Fin 1024, ((m (xLoc d) : IVec S1024 32) (ix1 b)).toNat < 100000)
    (Wf : Valuation τ sig (Elt Ideal)) (hc : Chain m Post0Spec Post2Spec d Wf) :
    (Wf (Proc.devRef .tc main_v14) : S1024x100000.Idx → EReal) = Cert.Spec.logitsArr (m ((d.tc : Thread nD τ).loc main_arg2)) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14))
    ∧ (Wf (Proc.devRef .tc main_v13_1) : S1024x256.Idx → EReal) = Cert.Spec.newHArr (m ((d.tc : Thread nD τ).loc main_arg2)) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) :=
  Walk.chain_values_of m d hx
    (fun par eL eR h whr whz whn wir wiz win bir biz bin bhn emb x hL hR hpar =>
      new_state x emb eL eR par hL hR hpar h wir wiz win whr whz whn bir biz bin bhn)
    logits_block kept_transpose Wf hc

end Cert.KernelIdeal.IdealValue

end
-- ==== Proof.Bits.Common.lean ====
/-
  The program as the SparseCore launch theorem sees it, and the ghost state its proof runs over:
  the launch handshakes' rounds, the two TensorCore pipelines' staging-cell rounds, and the
  counters of the tiles' own local copies, side by side in one product.
-/
import proofs.«217423_g17910013624755_cont_8to1_1683_16_alg».proof.Proof.Gen.Kernel
import proofs.«217423_g17910013624755_cont_8to1_1683_16_alg».proof.Proof.Gen.Kernel.Skeleton
import proofs.«217423_g17910013624755_cont_8to1_1683_16_alg».proof.Proof.Gen.Kernel.Launch
import proofs.«217423_g17910013624755_cont_8to1_1683_16_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Kernel.Hand

end
-- ==== Proof.Bits.ScPay.lean ====
/-
  What the gather's launch hands each tile and takes back, as assertions over the launch memory.

  The 1024 token ids and the 1024 gathered rows are cut along their first axis into 32 consecutive
  runs of 32; run w belongs to the tile on SparseCore c, subcore i with w = 2·i + c. A tile is
  handed its run of the ids at the launch contents, a read share of the whole halves table — the
  w-th of 32 shares split off the full one — at some contents that are a good halves table of the
  embedding, and its run of the gathered array at whatever it holds. It hands back the same, the
  gathered run now holding, in each of its 32 rows, the embedding row of that row's token in the half
  the id selects. A SparseCore is handed, and hands back, its sixteen tiles' parts side by side; SparseCore 0
  also carries, untouched, what is left of the table's full share once the 32 read shares are split
  off, so that the 32 shares and this rest together are the whole table again.
  Nothing is set aside for the tiles' own copies: those run under the counters.
-/
import proofs.«217423_g17910013624755_cont_8to1_1683_16_alg».proof.Proof.Bits.Common
import proofs.«217423_g17910013624755_cont_8to1_1683_16_alg».proof.Proof.Good
import Idealize.ShloMosaic.Lib.Transfers

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

/-! ## The arrays and their cut into 32 runs -/

/-- The token ids, the embedding table, the halves table and the gathered array, on device `d`. -/
abbrev xLoc (d : Dev nD) : Loc nD τ sig := (SparseCore.T d).loc main_arg0
abbrev embLoc (d : Dev nD) : Loc nD τ sig := (SparseCore.T d).loc main_arg2
abbrev tabLoc (d : Dev nD) : Loc nD τ sig := (SparseCore.T d).loc main_v1
abbrev outLoc (d : Dev nD) : Loc nD τ sig := (SparseCore.T d).loc main_v2

theorem nCore_zero : (K (F := F)).nCore 0 = 2 := rfl
theorem nSub_zero : (K (F := F)).nSub 0 = 16 := rfl

/-- The tile on SparseCore `c`, subcore `i` has number `2·i + c`. -/
def wid (c : Fin 2) (i : Fin 16) : Fin 32 := ⟨2 * i.val + c.val, by omega⟩
/-- The same, at the launch's own index types. -/
abbrev widK (c : Fin ((K (F := F)).nCore 0)) (i : Fin ((K (F := F)).nSub 0)) : Fin 32 :=
  wid (Fin.cast nCore_zero c) (Fin.cast nSub_zero i)

theorem hdiv1 : 32 ∣ S1024.size 0 := ⟨32, rfl⟩
theorem hdiv2 : 32 ∣ S1024x128.size 0 := ⟨32, rfl⟩
/-- Run `w` of the ids: entries 32·w ‥ 32·w + 31. -/
abbrev idsRow (w : Fin 32) : Rect S1024 := Rect.part (s := S1024) (a₀ := 0) hdiv1 w
/-- Run `w` of the gathered array: rows 32·w ‥ 32·w + 31, every column. -/
abbrev outRow (w : Fin 32) : Rect S1024x128 := Rect.part (s := S1024x128) (a₀ := 0) hdiv2 w
abbrev idsSet (w : Fin 32) : Finset S1024.Idx :=
  ((Memref.whole main_arg0_scv : Memref sig .scVector .hbm S1024 .i32).view.slice (idsRow w)).set
abbrev outSet (w : Fin 32) : Finset S1024x128.Idx :=
  ((Memref.whole main_v2_scv : Memref sig .scVector .hbm S1024x128 .f32).view.slice (outRow w)).set
/-- Row `k` of run `w`, as a row of the whole. -/
def rowIx (w k : Fin 32) : Fin 1024 := ⟨32 * w.val + k.val, by omega⟩

/-! ## What the handshakes carry -/

variable (m : (ℓ : Loc nD τ sig) → Buf (Elt F) ℓ)

/-- Run `w` of the ids at the launch contents; the `w`-th read share of the halves table; run `w` of the gathered array. -/
abbrev idsPts (d : Dev nD) (w : Fin 32) : sProp 𝕄 := xLoc d ↦[idsSet w]{fullShare} m (xLoc d)
abbrev tabTok (d : Dev nD) (w : Fin 32) (tab : Buf (Elt F) (tabLoc d)) : sProp 𝕄 := tabLoc d ↦{shareTok fullShare 32 w} tab
abbrev outPts (d : Dev nD) (w : Fin 32) (f : Buf (Elt F) (outLoc d)) : sProp 𝕄 := outLoc d ↦[outSet w]{fullShare} f

/-- Every row of run `w` of `f` holds its token's embedding row in the half the id selects. -/
def RunGood (d : Dev nD) (w : Fin 32) (f : Buf (Elt F) (outLoc d)) : Prop :=
  ∀ k : Fin 32, Cert.Good.RowGood (m (embLoc d)) (m (xLoc d)) f (rowIx w k)

/-- What tile `w` is handed. -/
def goW (d : Dev nD) (w : Fin 32) : sProp 𝕄 :=
  iprop(idsPts m d w ∗ (∃ tab, ⌜Cert.Good.TabGood (m (embLoc d)) tab⌝ ∗ tabTok d w tab) ∗ (∃ f, outPts d w f))
/-- What tile `w` hands back. -/
def tdW (d : Dev nD) (w : Fin 32) : sProp 𝕄 :=
  iprop(idsPts m d w ∗ (∃ tab, tabTok d w tab) ∗ (∃ f, ⌜RunGood m d w f⌝ ∗ outPts d w f))

instance goW_storable (d : Dev nD) (w : Fin 32) : BI.Storable (upEmb : UEmb _ 𝕄) (goW m d w) := by
  unfold goW; infer_instance
instance tdW_storable (d : Dev nD) (w : Fin 32) : BI.Storable (upEmb : UEmb _ 𝕄) (tdW m d w) := by
  unfold tdW; infer_instance

/-- What is left of the halves table's full share beside the 32 read shares, at some contents: carried by SparseCore 0. -/
def remW (d : Dev nD) (c : ℕ) : sProp 𝕄 :=
  if c = 0 then iprop(∃ tab : Buf (Elt F) (tabLoc d), tabLoc d ↦{shareDrop fullShare 32} tab) else iprop(emp)

theorem remW_zero (d : Dev nD) : (remW d 0 : sProp 𝕄) = iprop(∃ tab : Buf (Elt F) (tabLoc d), tabLoc d ↦{shareDrop fullShare 32} tab) := if_pos rfl
theorem remW_one (d : Dev nD) : (remW d 1 : sProp 𝕄) = iprop(emp) := if_neg Nat.one_ne_zero

instance remW_storable (d : Dev nD) (c : ℕ) : BI.Storable (upEmb : UEmb _ 𝕄) (remW (F := F) d c) := by
  unfold remW; split <;> infer_instance

/-- The one call: a tile's part as above, a SparseCore's its sixteen tiles' parts together and its rest of the table. -/
def P : (K (F := F)).Pay (nD := nD) (Val := Elt F) (Name := ℕ) (U := UU) where
  st := fun q d c => match q with | 0 => iprop((bigSep Finset.univ fun i : Fin ((K (F := F)).nSub 0) => goW m d (widK c i)) ∗ remW d c.val)
  dn := fun q d c => match q with | 0 => iprop((bigSep Finset.univ fun i : Fin ((K (F := F)).nSub 0) => tdW m d (widK c i)) ∗ remW d c.val)
  go := fun q d c i => match q with | 0 => goW m d (widK c i)
  td := fun q d c i => match q with | 0 => tdW m d (widK c i)
  x := fun _ _ => iprop(emp)

instance P_storable : (P (F := F) m).IsStorable where
  st q d c := match q with
    | 0 => (inferInstance : BI.Storable (upEmb : UEmb _ 𝕄) iprop((bigSep Finset.univ fun i : Fin ((K (F := F)).nSub 0) => goW m d (widK c i)) ∗ remW d c.val))
  dn q d c := match q with
    | 0 => (inferInstance : BI.Storable (upEmb : UEmb _ 𝕄) iprop((bigSep Finset.univ fun i : Fin ((K (F := F)).nSub 0) => tdW m d (widK c i)) ∗ remW d c.val))
  go q d c i := match q with
    | 0 => (inferInstance : BI.Storable (upEmb : UEmb _ 𝕄) (goW m d (widK c i)))
  td q d c i := match q with
    | 0 => (inferInstance : BI.Storable (upEmb : UEmb _ 𝕄) (tdW m d (widK c i)))

theorem P_x (q : Fin 1) (thr : Thread nD τ) : (P (F := F) m).x q thr = iprop(emp) := rfl
theorem P_ox : (P (F := F) m).ox = fun _ _ => 0 := rfl
theorem P_go (d : Dev nD) (c : Fin ((K (F := F)).nCore 0)) (i : Fin ((K (F := F)).nSub 0)) : (P (F := F) m).go 0 d c i = goW m d (widK c i) := rfl
theorem P_td (d : Dev nD) (c : Fin ((K (F := F)).nCore 0)) (i : Fin ((K (F := F)).nSub 0)) : (P (F := F) m).td 0 d c i = tdW m d (widK c i) := rfl
theorem P_st (d : Dev nD) (c : Fin ((K (F := F)).nCore 0)) :
    (P (F := F) m).st 0 d c = iprop((bigSep Finset.univ fun i : Fin ((K (F := F)).nSub 0) => goW m d (widK c i)) ∗ remW d c.val) := rfl
theorem P_dn (d : Dev nD) (c : Fin ((K (F := F)).nCore 0)) :
    (P (F := F) m).dn 0 d c = iprop((bigSep Finset.univ fun i : Fin ((K (F := F)).nSub 0) => tdW m d (widK c i)) ∗ remW d c.val) := rfl

end Cert.Kernel.Hand

end
-- ==== Proof.Bits.Main.lean ====
/-
  @main on the TensorCore, inside the SparseCore launch: a host transpose, the first TensorCore
  region, the SparseCore call, twelve host operations, the second TensorCore region, a host
  transpose. Each region is entered from every unscoped buffer held whole; the SparseCore call
  borrows the ids, the halves table and the gathered array and returns them.
-/
import proofs.«217423_g17910013624755_cont_8to1_1683_16_alg».proof.Proof.Bits.Common
import proofs.«217423_g17910013624755_cont_8to1_1683_16_alg».proof.Proof.Good
import Idealize.ShloMosaic.Lib.Pipeline.Frame
import proofs.«217423_g17910013624755_cont_8to1_1683_16_alg».proof.Proof.Bits.ScPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- No pipeline has a prefetched table. -/
abbrev adm : (p : Fin 2) → (pcfgs (F := F) p).Adm := fun p => (cfgs p).toPCfg_adm

/-- What the TensorCore owes the launch handshakes sits at a call's index, never at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

variable [FloatOps F]

variable (m : (ℓ : Loc nD τ sig) → Buf (Elt F) ℓ) (ρ : Dev nD → PrngReg)

/-- The two pipelines' staging-cell ghost state on a device, as the launch funds it. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

/-- The launch valuation. -/
def V0 (d : Dev nD) : Valuation τ sig (Elt F) := fun b => m (d, b)

/-! ## Contents on the TensorCore's references as a valuation -/

/-- The valuation that is `V'` on the TensorCore's references and `W` elsewhere. -/
def ofTc (d : Dev nD) (W : Valuation τ sig (Elt F)) (V' : (b : Ref sig .tc) → Buf (Elt F) ((d.tc : Thread nD τ).loc b)) : Valuation τ sig (Elt F) := fun b =>
  if h : ∃ r : Ref sig .tc, Proc.devRef .tc r = b then cast (congrArg (fun b' : DevRef τ sig => b'.ty.Contents (Elt F)) h.choose_spec) (V' h.choose)
  else W b

theorem ofTc_tc (d : Dev nD) (W : Valuation τ sig (Elt F)) (V' : (b : Ref sig .tc) → Buf (Elt F) ((d.tc : Thread nD τ).loc b)) (r : Ref sig .tc) :
    ofTc d W V' (Proc.devRef .tc r) = V' r := by
  unfold ofTc
  have h : ∃ r' : Ref sig .tc, Proc.devRef .tc r' = Proc.devRef (τ := τ) .tc r := ⟨r, rfl⟩
  rw [dif_pos h]
  suffices ∀ (r' : Ref sig .tc) (e : Proc.devRef .tc r' = Proc.devRef (τ := τ) .tc r),
      cast (congrArg (fun b' : DevRef τ sig => b'.ty.Contents (Elt F)) e) (V' r') = V' r from this _ h.choose_spec
  intro r' e
  obtain rfl : r' = r := Proc.devRef_injective _ e
  rfl

/-- Every unscoped buffer at `V'` is the unscoped set held at `ofTc d W V'`. -/
theorem unscopedBufs_ofTc (d : Dev nD) (W : Valuation τ sig (Elt F)) (V' : (b : Ref sig .tc) → Buf (Elt F) ((d.tc : Thread nD τ).loc b)) :
    (unscopedBufs d V' : sProp 𝕄) = StableHlo.held (SparseCore.T d) (Pipeline.ucRefs τ sig) (ofTc d W V') := by
  rw [← Pipeline.unscopedBufs_held d (ofTc d W V')]
  congr 1; funext b; exact (ofTc_tc d W V' b).symm

/-- A valuation read at the TensorCore's references. -/
abbrev rd (d : Dev nD) (W : Valuation τ sig (Elt F)) : (b : Ref sig .tc) → Buf (Elt F) ((d.tc : Thread nD τ).loc b) := fun b => W (Proc.devRef .tc b)

/-! ## The TensorCore's handshake state, its `owes` apart -/

/-- What `tcSt` holds besides the `owes`. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcTail d n) := rfl

/-- Pairs recorded at the index of a kernel's own waits keep the bound. -/
theorem wBelow_of (d : Dev nD) (b : ℕ) {W W' : Waits sig (HIx 1)} (hW : (K (F := F)).WBelow (SparseCore.T d) W b)
    (h : ∀ p ∈ W', p ∈ W ∨ p.2 = none) : (K (F := F)).WBelow (SparseCore.T d) W' b := fun p hp => by
  rcases h p hp with h | h
  · exact hW p h
  · rw [h, SparseCore.Cfg.lev_none]; exact Nat.zero_le _

/-! ## @main's host operations, named -/

abbrev opA : HloOp τ sig (Elt F) := StableHlo.unary main_arg2 main_v0 ((transpose S64x100000 [1, 0] · transposes_S100000x64_S64x100000_1_0) : (⟨S100000x64, .f32⟩ : BufTy).Contents (Elt F) → (⟨S64x100000, .f32⟩ : BufTy).Contents (Elt F))
abbrev opsB : List (HloOp τ sig (Elt F)) :=
  [ StableHlo.nullary main_c (constantI S_ 32 50176#32),
    StableHlo.unary main_c main_v3 (broadcastInDim S1024 ![] bcast_S_S1024 : (⟨S_, .i32⟩ : BufTy).Contents (Elt F) → (⟨S1024, .i32⟩ : BufTy).Contents (Elt F)),
    StableHlo.binary main_arg0 main_v3 main_v4 (cmpi .sge : (⟨S1024, .i32⟩ : BufTy).Contents (Elt F) → (⟨S1024, .i32⟩ : BufTy).Contents (Elt F) → (⟨S1024, .i1⟩ : BufTy).Contents (Elt F)),
    StableHlo.unary main_v4 main_v5 (uitofp .f32 : (⟨S1024, .i1⟩ : BufTy).Contents (Elt F) → (⟨S1024, .f32⟩ : BufTy).Contents (Elt F)),
    StableHlo.reshape main_v5 main_v6 rfl shapeCasts_S1024_S1024x1,
    StableHlo.unary main_arg13 main_v7 ((transpose S100000x256 [1, 0] · transposes_S256x100000_S100000x256_1_0) : (⟨S256x100000, .f32⟩ : BufTy).Contents (Elt F) → (⟨S100000x256, .f32⟩ : BufTy).Contents (Elt F)),
    StableHlo.reshape main_arg4 main_v8 rfl shapeCasts_S256_S1x256,
    StableHlo.reshape main_arg6 main_v9 rfl shapeCasts_S256_S1x256,
    StableHlo.reshape main_arg8 main_v10 rfl shapeCasts_S256_S1x256,
    StableHlo.reshape main_arg12 main_v11 rfl shapeCasts_S256_S1x256,
    StableHlo.reshape main_arg14 main_v12 rfl shapeCasts_S100000_S1x100000 ]
abbrev opL : HloOp τ sig (Elt F) := StableHlo.unary main_v13_0 main_v14 ((transpose S1024x100000 [1, 0] · transposes_S100000x1024_S1024x100000_1_0) : (⟨S100000x1024, .f32⟩ : BufTy).Contents (Elt F) → (⟨S1024x100000, .f32⟩ : BufTy).Contents (Elt F))

variable (Post0 Post2 : (d : Dev nD) → (V V' : (b : Ref sig .tc) → Buf (Elt F) ((d.tc : Thread nD τ).loc b)) → Prop)

/-- The valuation after the first host operation. -/
abbrev WA (d : Dev nD) : Valuation τ sig (Elt F) := (opA (F := F)).result (V0 m d)
/-- After the SparseCore call: the halves table at what came back, the gathered array at `g`. -/
def WC (d : Dev nD) (V1 : (b : Ref sig .tc) → Buf (Elt F) ((d.tc : Thread nD τ).loc b)) (tab' : Buf (Elt F) (tabLoc d)) (g : Buf (Elt F) (outLoc d)) : Valuation τ sig (Elt F) :=
  Function.update (Function.update (ofTc d (WA m d) V1) (Proc.devRef .tc main_v1) tab') (Proc.devRef .tc main_v2) g

/-- How the final valuation came about: the first region's exit contents, what the SparseCore call returned, the second region's exit contents. -/
def Chain (d : Dev nD) (Wf : Valuation τ sig (Elt F)) : Prop :=
  ∃ (V1 : (b : Ref sig .tc) → Buf (Elt F) ((d.tc : Thread nD τ).loc b)) (tab' : Buf (Elt F) (tabLoc d)) (g : Buf (Elt F) (outLoc d))
    (V3 : (b : Ref sig .tc) → Buf (Elt F) ((d.tc : Thread nD τ).loc b)),
    Post0 d (rd d (WA m d)) V1 ∧ Cert.Good.GatherGood (m (embLoc d)) (m (xLoc d)) g
      ∧ Post2 d (rd d (StableHlo.after opsB (WC m d V1 tab' g))) V3
      ∧ Wf = (opL (F := F)).result (ofTc d (StableHlo.after opsB (WC m d V1 tab' g)) V3)

/-- What @main leaves: every unscoped buffer at a valuation the chain produced. -/
def FIN (d : Dev nD) : sProp 𝕄 := iprop(∃ Wf, ⌜Chain m Post0 Post2 d Wf⌝ ∗ StableHlo.held (SparseCore.T d) (Pipeline.ucRefs τ sig) Wf)

/-- The three buffers the SparseCore call borrows. -/
abbrev scRefs : Finset (DevRef τ sig) := {Proc.devRef .tc main_arg0, Proc.devRef .tc main_v1, Proc.devRef .tc main_v2}

theorem held_scRefs (d : Dev nD) (W : Valuation τ sig (Elt F)) :
    (StableHlo.held (SparseCore.T d) scRefs W : sProp 𝕄)
      = iprop((xLoc d ↦{fullShare} W (Proc.devRef .tc main_arg0)) ∗ (tabLoc d ↦{fullShare} W (Proc.devRef .tc main_v1)) ∗ outLoc d ↦{fullShare} W (Proc.devRef .tc main_v2)) := by
  unfold StableHlo.held scRefs
  rw [SparseCore.bigSep_insert' (by decide), SparseCore.bigSep_insert' (by decide), bigSep_singleton]

theorem scRefs_sub : (scRefs : Finset (DevRef τ sig)) ⊆ Pipeline.ucRefs τ sig := by decide

/-- The unscoped set held again after the call, at the valuation that records what came back. -/
theorem held_WC (d : Dev nD) (V1 : (b : Ref sig .tc) → Buf (Elt F) ((d.tc : Thread nD τ).loc b)) (tab' : Buf (Elt F) (tabLoc d)) (g : Buf (Elt F) (outLoc d))
    (hx : V1 main_arg0 = m (xLoc d)) :
    iprop((xLoc d ↦{fullShare} m (xLoc d)) ∗ (tabLoc d ↦{fullShare} tab') ∗ (outLoc d ↦{fullShare} g)
        ∗ StableHlo.held (SparseCore.T d) (Pipeline.ucRefs τ sig \ scRefs) (ofTc d (WA m d) V1))
      ⊢ (StableHlo.held (SparseCore.T d) (Pipeline.ucRefs τ sig) (WC m d V1 tab' g) : sProp 𝕄) := by
  have h0 : WC m d V1 tab' g (Proc.devRef .tc main_arg0) = m (xLoc d) := by
    unfold WC
    rw [Function.update_of_ne (StableHlo.devRef_ne_of_ne (by decide)), Function.update_of_ne (StableHlo.devRef_ne_of_ne (by decide)), ofTc_tc, hx]
  have h1 : WC m d V1 tab' g (Proc.devRef .tc main_v1) = tab' := by
    unfold WC
    rw [Function.update_of_ne (StableHlo.devRef_ne_of_ne (by decide)), Function.update_self]
  have h2 : WC m d V1 tab' g (Proc.devRef .tc main_v2) = g := by
    unfold WC; rw [Function.update_self]
  rw [StableHlo.held_sub_split (SparseCore.T d) scRefs_sub (WC m d V1 tab' g), held_scRefs, h0, h1, h2,
    StableHlo.held_congr (SparseCore.T d) (S := Pipeline.ucRefs τ sig \ scRefs) (V := WC m d V1 tab' g) (V' := ofTc d (WA m d) V1) (fun b hb => by
      have hb' := (Finset.mem_sdiff.mp hb).2
      unfold WC
      rw [Function.update_of_ne (fun e => hb' (by rw [e]; decide)), Function.update_of_ne (fun e => hb' (by rw [e]; decide))])]
  iintro ⟨Hx, Htab, Hout, Hrest⟩
  isplitl [Hx Htab Hout]
  · isplitl [Hx]; · iexact Hx
    isplitl [Htab]; · iexact Htab
    iexact Hout
  · iexact Hrest

set_option maxHeartbeats 4000000 in
theorem hmain (κ : GSem nD τ sig → ℕ) (d : Dev nD)
    (hreg0 : ∀ (d : Dev nD) (V : (b : Ref sig .tc) → Buf (Elt F) ((d.tc : Thread nD τ).loc b)) (O : CellTallies nD τ sig (HIx 1)) (hO : ∀ g, O g none = 0) (W : Waits sig (HIx 1)) {α : Type} (k : PUnit → Prog (TpuEff nD τ sig (Elt F) (ΛP (F := F)) .tc) α) (Q : α → sProp 𝕄),
    iprop((iprop(boundary (d.tc : Thread nD τ) ∗ (∃ V', ⌜Post0 d V V'⌝ ∗ unscopedBufs d V') ∗ (∃ W', ⌜∀ p ∈ W', p ∈ W ∨ p.2 = none⌝ ∗ owes (d.tc : Thread nD τ) O W')) -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q)
    (hreg2 : ∀ (d : Dev nD) (V : (b : Ref sig .tc) → Buf (Elt F) ((d.tc : Thread nD τ).loc b)) (O : CellTallies nD τ sig (HIx 1)) (hO : ∀ g, O g none = 0) (W : Waits sig (HIx 1)) {α : Type} (k : PUnit → Prog (TpuEff nD τ sig (Elt F) (ΛP (F := F)) .tc) α) (Q : α → sProp 𝕄),
    iprop((iprop(boundary (d.tc : Thread nD τ) ∗ (∃ V', ⌜Post2 d V V'⌝ ∗ unscopedBufs d V') ∗ (∃ W', ⌜∀ p ∈ W', p ∈ W ∨ p.2 = none⌝ ∗ owes (d.tc : Thread nD τ) O W')) -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q)
    (hst : ∀ (d : Dev nD) (tab : Buf (Elt F) (tabLoc d)), Cert.Good.TabGood (m (embLoc d)) tab →
      iprop((xLoc d ↦{fullShare} m (xLoc d)) ∗ (tabLoc d ↦{fullShare} tab) ∗ (∃ f : Buf (Elt F) (outLoc d), outLoc d ↦{fullShare} f))
        ⊢ (bigSep Finset.univ fun c : Fin ((K (F := F)).nCore 0) => (P m).st 0 d c : sProp 𝕄))
    (hdn : ∀ d : Dev nD, (bigSep Finset.univ fun c : Fin ((K (F := F)).nCore 0) => (P m).dn 0 d c : sProp 𝕄)
        ⊢ iprop((xLoc d ↦{fullShare} m (xLoc d)) ∗ (∃ tab' : Buf (Elt F) (tabLoc d), tabLoc d ↦{fullShare} tab')
          ∗ ∃ f : Buf (Elt F) (outLoc d), ⌜Cert.Good.GatherGood (m (embLoc d)) (m (xLoc d)) f⌝ ∗ outLoc d ↦{fullShare} f))
    (hx0 : ∀ (d : Dev nD) V1, Post0 d (rd d (WA m d)) V1 → V1 main_arg0 = m (xLoc d))
    (htab : ∀ (d : Dev nD) V1, Post0 d (rd d (WA m d)) V1 → Cert.Good.TabGood (m (embLoc d)) (V1 main_v1)) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m Post0 Post2 d) := by
  unfold SparseCore.Cfg.tcRes
  rw [show (unscopedBufs d fun b => m ((SparseCore.T d).loc b) : sProp 𝕄) = StableHlo.held (SparseCore.T d) (Pipeline.ucRefs τ sig) (V0 m d) from
    Pipeline.unscopedBufs_held d (V0 m d), tcSt_eq, tcSt_eq]
  simp only [main, wp_bind, wp_pure]
  unfold G
  iintro ⟨#Hctx, ⟨⟨%W, %hW, HO⟩, Hst⟩, ⟨Hb, Hheld, -, -⟩, ⟨HG0a, HG0b⟩, ⟨HG1a, HG1b⟩⟩
  ihave Hlev := (SparseCore.Cfg.ctx_levAts (K := K (F := F)) κ) $$ Hctx
  -- the transpose of the embedding table
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  -- the first region
  iapply ((K (F := F)).wp_liftProg (D (F := F)) 𝒱 (SparseCore.T d) Set.univ none (Prog.op (TpuEff.customCall (Pipeline.entry 0) ()) fun _ => Prog.ret PUnit.unit) _)
  ihave Hub := (Entails.of_eq (Pipeline.unscopedBufs_held (Ix := HIx 1) (Name := ℕ) (U := UU) (Lvl := ℕ) d _).symm) $$ Hheld
  iapply (hreg0 d _ ((K (F := F)).Otc d 0) (Otc_none d 0) W (fun _ => Prog.ret PUnit.unit) _) $$ [Hb Hub HO HG0a HG0b Hst HG1a HG1b]
  isplitr [Hb Hub HO HG0a HG0b]
  swap
  · isplitl [Hb]; · iexact Hb
    isplitl [Hub]; · iexact Hub
    isplitl [HO]; · iexact HO
    isplitr; · iexact Hlev
    isplitl [HG0a] <;> iassumption
  iintro ⟨Hb, ⟨%V1, %hV1, Hub⟩, ⟨%W1, %hW1, HO⟩⟩
  rw [wp_ret]; imodintro
  -- the SparseCore call: the ids, the halves table and the gathered array out of the unscoped set, and back
  ihave Hheld := (Entails.of_eq (unscopedBufs_ofTc d (WA m d) V1)) $$ Hub
  ihave Hsp := (Entails.of_eq (StableHlo.held_sub_split (SparseCore.T d) scRefs_sub (ofTc d (WA m d) V1))) $$ Hheld
  icases Hsp with ⟨Hsc, Hrest⟩
  ihave Hsc' := (Entails.of_eq (held_scRefs d (ofTc d (WA m d) V1))) $$ Hsc
  icases Hsc' with ⟨Hx, Htab, Hout⟩
  rw [ofTc_tc, ofTc_tc, ofTc_tc, hx0 d V1 hV1]
  iapply ((K (F := F)).wp_run (D (F := F)) 𝒱 (EH := EH) (P := P m) κ d 0) $$ [HO Hst Hx Htab Hout Hb Hrest HG1a HG1b]
  isplitr; · iexact Hctx
  isplitl [HO Hst]
  · rw [tcSt_eq]
    isplitl [HO]
    · iexists W1; isplitr
      · ipureintro; exact wBelow_of d _ hW hW1
      · iexact HO
    · iexact Hst
  isplitl [Hx Htab Hout]
  · iapply (hst d (V1 main_v1) (htab d V1 hV1))
    isplitl [Hx]; · iexact Hx
    isplitl [Htab]; · iexact Htab
    iexists _; iexact Hout
  iintro ⟨Hst, Hdn⟩
  ihave Hdn' := (hdn d) $$ Hdn
  icases Hdn' with ⟨Hx, ⟨%tab', Htab⟩, ⟨%g, %hg, Hout⟩⟩
  ihave Hheld := (held_WC m d V1 tab' g (hx0 d V1 hV1)) $$ [Hx Htab Hout Hrest]
  · isplitl [Hx]; · iexact Hx
    isplitl [Htab]; · iexact Htab
    isplitl [Hout]; · iexact Hout
    iexact Hrest
  -- eleven host operations
  iapply (wp_hlo_within 𝒱 (SparseCore.T d) none Set.univ (S := Pipeline.ucRefs τ sig) (Pipeline.sub_ucRefs _ (StableHlo.nullary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.binary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  iapply (wp_hlo_within 𝒱 (SparseCore.T d) none Set.univ (S := Pipeline.ucRefs τ sig) (Pipeline.sub_ucRefs _ (StableHlo.reshape_bufs_sub ..))) $$ [Hb Hheld]
  · isplitl [Hb] <;> iassumption
  iintro ⟨Hb, Hheld⟩
  rw [wp_ret]; imodintro
  -- the second region
  iapply ((K (F := F)).wp_liftProg (D (F := F)) 𝒱 (SparseCore.T d) Set.univ none (Prog.op (TpuEff.customCall (Pipeline.entry 1) ()) fun _ => Prog.ret PUnit.unit) _)
  ihave Hub := (Entails.of_eq (Pipeline.unscopedBufs_held (Ix := HIx 1) (Name := ℕ) (U := UU) (Lvl := ℕ) d _).symm) $$ Hheld
  ihave Hst1 := (Entails.of_eq (show ((K (F := F)).tcSt EH d ((0 : Fin 1).val + 1) : sProp 𝕄) = (K (F := F)).tcSt EH d 1 from rfl)) $$ Hst
  ihave Hst' := (Entails.of_eq (tcSt_eq (F := F) d 1)) $$ Hst1
  icases Hst' with ⟨⟨%W2, %hW2, HO⟩, Hst⟩
  iapply (hreg2 d _ ((K (F := F)).Otc d 1) (Otc_none d 1) W2 (fun _ => Prog.ret PUnit.unit) _) $$ [Hb Hub HO HG1a HG1b Hst]
  isplitr [Hb Hub HO HG1a HG1b]
  swap
  · isplitl [Hb]; · iexact Hb
    isplitl [Hub]; · iexact Hub
    isplitl [HO]; · iexact HO
    isplitr; · iexact Hlev
    isplitl [HG1a] <;> iassumption
  iintro ⟨Hb, ⟨%V3, %hV3, Hub⟩, ⟨%W3, %hW3, HO⟩⟩
  rw [wp_ret]; imodintro
  ihave Hheld := (Entails.of_eq (unscopedBufs_ofTc d (StableHlo.after opsB (WC m d V1 tab' g)) V3)) $$ Hub
  -- the last transpose
  iapply (wp_hlo_within 𝒱 (SparseCore.T d) none Set.univ (S := Pipeline.ucRefs τ sig) (Pipeline.sub_ucRefs _ (StableHlo.unary_bufs_sub ..))) $$ [Hb Hheld]
  · isplitl [Hb] <;> iassumption
  iintro ⟨Hb, Hheld⟩
  rw [wp_ret]; imodintro
  imodintro
  isplitl [HO Hst]
  · isplitl [HO]
    · iexists W3; isplitr
      · ipureintro; exact wBelow_of d _ hW2 hW3
      · iexact HO
    · iexact Hst
  unfold FIN
  iexists _; isplitr
  · ipureintro; exact ⟨V1, tab', g, V3, hV1, hg, hV3, rfl⟩
  · iexact Hheld

/-! ## The launch element -/

/-- The staging cells of the two pipelines are pairwise distinct. -/
theorem phinj : Function.Injective (Pipeline.cellOf (nD := nD) (τ := τ) (Pipeline.pin (pcfgs (F := F)) adm)) := cellOf_inj

/-- The launch element: the handshakes' rounds, the pipelines' staging cells' rounds, no counter. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem hu₀ : (ownU (u₀ (F := F)) : sProp 𝕄)
    ⊢ |={Set.univ}=> iprop(BI.own (EH (initOf (K (F := F)).hsCells (K (F := F)).hsToks)) ∗ (bigSep Finset.univ fun d : Dev nD => (G d : sProp 𝕄))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR (A := UH)) _ _) $$ HR
  icases H2 with ⟨HP, -⟩
  ihave HP' := (Entails.of_eq (show (BI.own ((((Emb.inl : Emb UP (UP × Counters)).trans (embR (A := UH))) : Emb UP 𝕄)
      (initOf (Pipeline.cells (Pipeline.pin (pcfgs (F := F)) adm) phinj) (Pipeline.launchToks (Pipeline.pin (pcfgs (F := F)) adm) phinj))) : sProp 𝕄)
      = BI.own (EP (initOf (Pipeline.cells (Pipeline.pin (pcfgs (F := F)) adm) phinj) (Pipeline.launchToks (Pipeline.pin (pcfgs (F := F)) adm) phinj))) from rfl)) $$ HP
  imod (Pipeline.fund_ghost (Pipeline.pin (pcfgs (F := F)) adm) EP phinj) $$ HP' with ⟨Hg, Ht⟩
  imodintro
  isplitl [HH]; · iexact HH
  isplitl [Hg Ht]
  · unfold G
    simp only [bigSep_fin2, bigSep_sep']
    icases Hg with ⟨Hg0, Hg1⟩
    icases Ht with ⟨Ht0, Ht1⟩
    isplitl [Hg0 Ht0]
    · isplitl [Hg0] <;> iassumption
    · isplitl [Hg1] <;> iassumption
  · simp only [P_x]
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## Reading the final memory -/

/-- A set of whole buffers held at a valuation pins the memory at each of them. -/
theorem held_read_all (d : Dev nD) (W : Valuation τ sig (Elt F)) (s' : Phys nD τ sig (Elt F)) :
    ∀ S : Finset (DevRef τ sig), iprop(StableHlo.held (SparseCore.T d) S W ∗ SI s')
      ⊢ (iprop(⌜∀ b ∈ S, s'.mem.mem ((d, b) : Loc nD τ sig) = W b⌝ ∗ SI s') : sProp 𝕄) := by
  intro S
  induction S using Finset.induction_on with
  | empty =>
    iintro ⟨-, HSI⟩
    isplitr; · ipureintro; intro b hb; exact absurd hb (Finset.notMem_empty b)
    iexact HSI
  | insert a S ha ih =>
    unfold StableHlo.held
    rw [SparseCore.bigSep_insert' ha]
    iintro ⟨⟨Ha, HS⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%h1, HSI, -⟩
    ihave H2 := ih $$ [HS HSI]
    · isplitl [HS]
      · unfold StableHlo.held; iexact HS
      · iexact HSI
    icases H2 with ⟨%h2, HSI⟩
    isplitr
    · ipureintro; intro b hb
      rcases Finset.mem_insert.mp hb with rfl | hb
      · exact funext fun i => h1 i (Finset.mem_univ i)
      · exact h2 b hb
    · iexact HSI

/-- What the final memory of device `d` satisfies. -/
def fq (d : Dev nD) (s' : Phys nD τ sig (Elt F)) : Prop :=
  ∃ Wf, Chain m Post0 Post2 d Wf ∧ ∀ b ∈ Pipeline.ucRefs τ sig, s'.mem.mem ((d, b) : Loc nD τ sig) = Wf b

theorem hfin (d : Dev nD) (s' : Phys nD τ sig (Elt F)) : iprop(FIN m Post0 Post2 d ∗ SI s') ⊢ (⌜fq m Post0 Post2 d s'⌝ : sProp 𝕄) := by
  unfold FIN
  iintro ⟨⟨%Wf, %hc, Hh⟩, HSI⟩
  ihave H := (held_read_all d Wf s' (Pipeline.ucRefs τ sig)) $$ [Hh HSI]
  · isplitl [Hh] <;> iassumption
  icases H with ⟨%h, -⟩
  ipureintro; exact ⟨Wf, hc, h⟩

/-- The program's post, device by device. -/
def QC : PUnit × MemSt nD τ sig (Elt F) → Prop := fun r =>
  ∀ c : Dev nD, ∃ Wf, Chain m Post0 Post2 c Wf ∧ ∀ b ∈ Pipeline.ucRefs τ sig, r.2.mem ((c, b) : Loc nD τ sig) = Wf b

end Cert.Kernel.Hand

end
-- ==== Proof.Bits.ScSplit.lean ====
/-
  How the gather's arrays are dealt among the 32 tiles and gathered back.

  The tile on SparseCore c, subcore i has number 2·i + c: a bijection between the 2 × 16 tiles and
  the 32 runs, so a product over the tiles is a product over the runs. The 32 runs of the ids (of
  the gathered array) are pairwise disjoint and cover it, so the whole array is its 32 runs side by
  side, and 32 runs held at 32 different contents are the whole held at one contents that agrees
  with each on its run. The halves table's full share is the 32 read shares and a rest; shares of
  one array held at different contents agree wherever both are held, so the rest and the 32 shares,
  each at some contents, are the full share at the rest's contents. A row's goodness reads only
  that row, so goodness of every run of the joined array follows from goodness of each tile's run.
-/
import proofs.«217423_g17910013624755_cont_8to1_1683_16_alg».proof.Proof.Bits.ScPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.ValueIdx (ix1 ix2)

variable {F : FTy → Type}

local notation "𝕄" => MT nD τ sig (HIx 1) (Elt F) ℕ UU ℕ

/-- An entailment of the logic, as the proof mode reads one. -/
theorem ent {A B : sProp 𝕄} (h : Idealize.SL.BI.Entails A B) : A ⊢ B := h

/-! ## Tiles and runs -/

/-- (c, i) ↦ 2·i + c is a bijection from the 2 × 16 tiles onto the 32 runs. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, i⟩
    have hc := c.isLt
    refine Prod.ext (Fin.ext ?_) (Fin.ext ?_)
    · show (2 * i.val + c.val) % 2 = c.val; omega
    · show (2 * i.val + c.val) / 2 = i.val; omega
  right_inv w := by
    apply Fin.ext
    show 2 * (w.val / 2) + w.val % 2 = w.val; omega

/-- A product over the tiles, as the launch indexes them, is the product over the runs. -/
theorem bigSep_tiles (Φ : Fin 32 → sProp 𝕄) :
    (bigSep Finset.univ fun c : Fin ((K (F := F)).nCore 0) => bigSep Finset.univ fun i : Fin ((K (F := F)).nSub 0) => Φ (widK c i))
      = bigSep Finset.univ Φ := by
  show (bigSep (Finset.univ : Finset (Fin 2)) fun c => bigSep (Finset.univ : Finset (Fin 16)) fun i => Φ (wid c i)) = _
  rw [bigSep_univ_equiv widEquiv Φ, bigSep_univ_prod (fun p : Fin 2 × Fin 16 => Φ (widEquiv p))]
  rfl

theorem idsSet_eq (w : Fin 32) : idsSet w = (idsRow w).set := by
  show ((View.whole (main_arg0_scv : Ref sig .scVector)).slice (idsRow w)).set = _
  rw [View.set_slice]; exact Finset.map_refl
theorem outSet_eq (w : Fin 32) : outSet w = (outRow w).set := by
  show ((View.whole (main_v2_scv : Ref sig .scVector)).slice (outRow w)).set = _
  rw [View.set_slice]; exact Finset.map_refl

theorem ids_disjoint : ∀ i ∈ (Finset.univ : Finset (Fin 32)), ∀ j ∈ (Finset.univ : Finset (Fin 32)), i ≠ j → Disjoint (idsSet i) (idsSet j) :=
  fun i _ j _ h => by rw [idsSet_eq, idsSet_eq]; exact Rect.part_disjoint hdiv1 h
theorem ids_cover : (Finset.univ : Finset (Fin 32)).biUnion idsSet = Finset.univ :=
  (Finset.biUnion_congr rfl fun i _ => idsSet_eq i).trans (Rect.biUnion_part hdiv1)
theorem out_disjoint : ∀ i ∈ (Finset.univ : Finset (Fin 32)), ∀ j ∈ (Finset.univ : Finset (Fin 32)), i ≠ j → Disjoint (outSet i) (outSet j) :=
  fun i _ j _ h => by rw [outSet_eq, outSet_eq]; exact Rect.part_disjoint hdiv2 h
theorem out_cover : (Finset.univ : Finset (Fin 32)).biUnion outSet = Finset.univ :=
  (Finset.biUnion_congr rfl fun i _ => outSet_eq i).trans (Rect.biUnion_part hdiv2)

/-- The ids whole are their 32 runs. -/
theorem xPts_runs (d : Dev nD) (f : Buf (Elt F) (xLoc d)) :
    (xLoc d ↦{fullShare} f : sProp 𝕄) = bigSep Finset.univ fun w : Fin 32 => xLoc d ↦[idsSet w]{fullShare} f := by
  rw [← pointsTo_biUnion Finset.univ (ℓ := xLoc d) idsSet ids_disjoint, ids_cover]; try rfl
/-- The gathered array whole is its 32 runs. -/
theorem outPts_runs (d : Dev nD) (f : Buf (Elt F) (outLoc d)) :
    (outLoc d ↦{fullShare} f : sProp 𝕄) = bigSep Finset.univ fun w : Fin 32 => outLoc d ↦[outSet w]{fullShare} f := by
  rw [← pointsTo_biUnion Finset.univ (ℓ := outLoc d) outSet out_disjoint, out_cover]; try rfl

/-- Entry (32·w + k, j) of the gathered array lies in run `w`. -/
theorem mem_outSet (w k : Fin 32) (j : Fin 128) : (ix2 (rowIx w k) j : S1024x128.Idx) ∈ outSet w := by
  rw [outSet_eq]
  refine Rect.mem_set_unit.mpr fun a => ?_
  have hk := k.isLt
  have hj := j.isLt
  match a with
  | ⟨0, _⟩ =>
    show Shape.partIx S1024x128 0 w.val 0 * Shape.partSize S1024x128 0 32 0 ≤ 32 * w.val + k.val
      ∧ 32 * w.val + k.val < Shape.partIx S1024x128 0 w.val 0 * Shape.partSize S1024x128 0 32 0 + Shape.partSize S1024x128 0 32 0
    simp [Shape.partIx, Shape.partSize] <;> omega
  | ⟨1, _⟩ =>
    show Shape.partIx S1024x128 0 w.val 1 * Shape.partSize S1024x128 0 32 1 ≤ j.val
      ∧ j.val < Shape.partIx S1024x128 0 w.val 1 * Shape.partSize S1024x128 0 32 1 + Shape.partSize S1024x128 0 32 1
    simp [Shape.partIx, Shape.partSize] <;> omega

/-! ## The launch's payloads, all tiles together -/

variable (m : (ℓ : Loc nD τ sig) → Buf (Elt F) ℓ)

theorem st_all (d : Dev nD) :
    (bigSep Finset.univ fun c : Fin ((K (F := F)).nCore 0) => (P m).st 0 d c)
      = iprop((bigSep Finset.univ fun w : Fin 32 => goW m d w) ∗ (remW (F := F) d 0 ∗ remW (F := F) d 1)) := by
  show (bigSep Finset.univ fun c : Fin ((K (F := F)).nCore 0) =>
      iprop((bigSep Finset.univ fun i : Fin ((K (F := F)).nSub 0) => goW m d (widK c i)) ∗ remW d c.val)) = _
  rw [bigSep_sep', bigSep_tiles (fun w => goW m d w)]
  congr 1
  exact bigSep_univ_two (fun c : Fin 2 => remW (F := F) d c.val)

theorem dn_all (d : Dev nD) :
    (bigSep Finset.univ fun c : Fin ((K (F := F)).nCore 0) => (P m).dn 0 d c)
      = iprop((bigSep Finset.univ fun w : Fin 32 => tdW m d w) ∗ (remW (F := F) d 0 ∗ remW (F := F) d 1)) := by
  show (bigSep Finset.univ fun c : Fin ((K (F := F)).nCore 0) =>
      iprop((bigSep Finset.univ fun i : Fin ((K (F := F)).nSub 0) => tdW m d (widK c i)) ∗ remW d c.val)) = _
  rw [bigSep_sep', bigSep_tiles (fun w => tdW m d w)]
  congr 1
  exact bigSep_univ_two (fun c : Fin 2 => remW (F := F) d c.val)

/-! ## A SparseCore's part splits into its tiles' parts -/

theorem vecSplit : (K (F := F)).VecSplit' (P m) 0 := by
  intro d c
  show iprop((bigSep Finset.univ fun i : Fin ((K (F := F)).nSub 0) => goW m d (widK c i)) ∗ remW d c.val)
    ⊢ |={Set.univ}=> iprop((bigSep Finset.univ fun i : Fin ((K (F := F)).nSub 0) => goW m d (widK c i))
      ∗ ((bigSep Finset.univ fun i : Fin ((K (F := F)).nSub 0) => tdW m d (widK c i))
          -∗ iprop((bigSep Finset.univ fun i : Fin ((K (F := F)).nSub 0) => tdW m d (widK c i)) ∗ remW d c.val)))
  iintro ⟨Hgo, Hrem⟩; imodintro
  isplitl [Hgo]; · iexact Hgo
  iintro Htd
  isplitl [Htd]; · iexact Htd
  iexact Hrem

/-! ## Whole arrays in -/

theorem st0_intro (d : Dev nD) (tab : Buf (Elt F) (tabLoc d)) (htab : Cert.Good.TabGood (m (embLoc d)) tab) :
    iprop((xLoc d ↦{fullShare} m (xLoc d)) ∗ (tabLoc d ↦{fullShare} tab) ∗ (∃ f : Buf (Elt F) (outLoc d), outLoc d ↦{fullShare} f))
      ⊢ (bigSep Finset.univ fun c : Fin ((K (F := F)).nCore 0) => (P m).st 0 d c) := by
  rw [st_all, remW_zero, remW_one]
  have htok : ∀ w : Fin 32, (tabLoc d ↦{shareTok fullShare 32 w} tab : sProp 𝕄)
      ⊢ iprop(∃ tab : Buf (Elt F) (tabLoc d), ⌜Cert.Good.TabGood (m (embLoc d)) tab⌝ ∗ tabTok d w tab) := fun w => by
    iintro H; iexists tab; isplitr
    · ipureintro; exact htab
    · iexact H
  have hout : ∀ (f : Buf (Elt F) (outLoc d)) (w : Fin 32), (outLoc d ↦[outSet w]{fullShare} f : sProp 𝕄)
      ⊢ iprop(∃ f : Buf (Elt F) (outLoc d), outPts d w f) := fun f w => by
    iintro H; iexists f; iexact H
  iintro ⟨Hx, Ht, %f, Ho⟩
  ihave Hx' := (Entails.of_eq (xPts_runs (F := F) d (m (xLoc d)))) $$ Hx
  ihave Ho' := (Entails.of_eq (outPts_runs (F := F) d f)) $$ Ho
  ihave Ht' := (pointsTo_toks_split (ℓ := tabLoc d) (S := Finset.univ) (f := tab) fullShare 32) $$ Ht
  icases Ht' with ⟨Hrem, Htoks⟩
  isplitr [Hrem]
  · unfold goW
    rw [bigSep_sep', bigSep_sep']
    isplitl [Hx']; · iexact Hx'
    isplitl [Htoks]
    · iapply (ent (bigSep_mono (s := Finset.univ) fun w _ => htok w)) $$ Htoks
    · iapply (ent (bigSep_mono (s := Finset.univ) fun w _ => hout f w)) $$ Ho'
  · isplitl [Hrem]
    · iexists tab; iexact Hrem
    · iempintro

/-! ## Whole arrays out -/

/-- Beside the rest of the table's share, read shares at any contents are read shares at the rest's contents. -/
theorem toks_agree (d : Dev nD) (tr : Buf (Elt F) (tabLoc d)) (s : Finset (Fin 32)) :
    iprop((tabLoc d ↦{shareDrop fullShare 32} tr) ∗ bigSep s fun w : Fin 32 => iprop(∃ tab : Buf (Elt F) (tabLoc d), tabTok d w tab))
      ⊢ (iprop((tabLoc d ↦{shareDrop fullShare 32} tr) ∗ bigSep s fun w : Fin 32 => tabTok d w tr) : sProp 𝕄) := by
  classical
  induction s using Finset.induction_on with
  | empty => rw [bigSep_empty, bigSep_empty]
  | insert w s hw ih =>
    have e₁ : (bigSep (insert w s) fun w : Fin 32 => iprop(∃ tab : Buf (Elt F) (tabLoc d), tabTok d w tab))
        = iprop((∃ tab : Buf (Elt F) (tabLoc d), tabTok d w tab) ∗ bigSep s fun w : Fin 32 => iprop(∃ tab : Buf (Elt F) (tabLoc d), tabTok d w tab)) :=
      bigSep_insert hw
    have e₂ : (bigSep (insert w s) fun w : Fin 32 => (tabTok d w tr : sProp 𝕄))
        = iprop(tabTok d w tr ∗ bigSep s fun w : Fin 32 => tabTok d w tr) := bigSep_insert hw
    rw [e₁, e₂]
    iintro ⟨Hr, ⟨%tab, Hw⟩, Hs⟩
    ihave H := (persistent_entails_right (pointsTo_agree (ℓ := tabLoc d) (I := Finset.univ) (J := Finset.univ)
      (q₁ := shareDrop fullShare 32) (q₂ := shareTok fullShare 32 w) (f := tr) (g := tab))) $$ [Hr Hw]
    · isplitl [Hr] <;> iassumption
    icases H with ⟨%hag, Hr, Hw⟩
    have e : tab = tr := funext fun i => ((hag i (Finset.mem_inter.mpr ⟨Finset.mem_univ _, Finset.mem_univ _⟩)).1).symm
    subst e
    ihave H := ih $$ [Hr Hs]
    · isplitl [Hr] <;> iassumption
    icases H with ⟨Hr, Hs⟩
    isplitl [Hr]; · iexact Hr
    isplitl [Hw] <;> iassumption

/-- Goodness of every tile's run of an array that agrees with the tile's on its run is goodness of the whole. -/
theorem gatherGood_of_runs (d : Dev nD) (fs : Fin 32 → Buf (Elt F) (outLoc d)) (g : Buf (Elt F) (outLoc d))
    (hgood : ∀ w, RunGood m d w (fs w)) (hg : ∀ w, ∀ i ∈ outSet w, g i = fs w i) :
    Cert.Good.GatherGood (m (embLoc d)) (m (xLoc d)) g := by
  intro b
  have hb := b.isLt
  obtain ⟨w, k, rfl⟩ : ∃ w k : Fin 32, b = rowIx w k :=
    ⟨⟨b.val / 32, by omega⟩, ⟨b.val % 32, Nat.mod_lt _ (by decide)⟩, Fin.ext (by show b.val = 32 * (b.val / 32) + b.val % 32; omega)⟩
  intro j
  have h := hgood w k j
  refine ⟨fun hlt => ?_, fun hge => ?_⟩
  · rw [hg w _ (mem_outSet w k _)]; exact h.1 hlt
  · rw [hg w _ (mem_outSet w k _)]; exact h.2 hge

theorem dn0_elim (d : Dev nD) :
    (bigSep Finset.univ fun c : Fin ((K (F := F)).nCore 0) => (P m).dn 0 d c)
      ⊢ iprop((xLoc d ↦{fullShare} m (xLoc d)) ∗ (∃ tab' : Buf (Elt F) (tabLoc d), tabLoc d ↦{fullShare} tab')
          ∗ ∃ f : Buf (Elt F) (outLoc d), ⌜Cert.Good.GatherGood (m (embLoc d)) (m (xLoc d)) f⌝ ∗ outLoc d ↦{fullShare} f) := by
  have hne : ∀ _ : Fin 32, Nonempty (Buf (Elt F) (outLoc d)) := fun _ => ⟨m (outLoc d)⟩
  rw [dn_all, remW_zero, remW_one]
  unfold tdW
  rw [bigSep_sep', bigSep_sep']
  iintro ⟨⟨Hx, Htoks, Ho⟩, ⟨%tr, Hrem⟩, -⟩
  isplitl [Hx]
  · iapply (Entails.of_eq (xPts_runs (F := F) d (m (xLoc d))).symm); iexact Hx
  isplitl [Htoks Hrem]
  · ihave H := (toks_agree (F := F) d tr Finset.univ) $$ [Hrem Htoks]
    · isplitl [Hrem] <;> iassumption
    iexists tr
    iapply (pointsTo_toks_join (ℓ := tabLoc d) (S := Finset.univ) (f := tr) fullShare 32); iexact H
  · ihave H := (@bigSep_exists_pi _ _ _ _ (fun _ : Fin 32 => Buf (Elt F) (outLoc d)) hne Finset.univ (fun (w : Fin 32) (f : Buf (Elt F) (outLoc d)) => iprop(⌜RunGood m d w f⌝ ∗ outPts d w f))) $$ Ho
    icases H with ⟨%fs, H⟩
    ihave H' := (bigSep_pure_sep Finset.univ (fun w : Fin 32 => RunGood m d w (fs w)) (fun w : Fin 32 => outPts d w (fs w))) $$ H
    icases H' with ⟨%hgood, H⟩
    ihave H'' := (pointsTo_biUnion_join Finset.univ outSet fs (fs 0) out_disjoint) $$ H
    icases H'' with ⟨%g, %hg, Hg⟩
    rw [out_cover]
    iexists g; isplitr
    · ipureintro
      exact gatherGood_of_runs m d fs g (fun w => hgood w (Finset.mem_univ w)) (fun w i hi => hg w (Finset.mem_univ w) i hi)
    · iexact Hg

end Cert.Kernel.Hand

end
-- ==== Proof.Bits.Run.lean ====
/-
  The whole program's run from the launch theorem: every weakly fair execution of the device's
  threads terminates, nothing faulting, and every final memory holds, on every device, the
  unscoped buffers at a valuation the chain of @main's steps produced.
-/
import proofs.«217423_g17910013624755_cont_8to1_1683_16_alg».proof.Proof.Bits.Main
import proofs.«217423_g17910013624755_cont_8to1_1683_16_alg».proof.Proof.Bits.ScSplit

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (Post0 Post2 : (d : Dev nD) → (V V' : (b : Ref sig .tc) → Buf (Elt F) ((d.tc : Thread nD τ).loc b)) → Prop)

theorem run_main [∀ e, Nonempty (Elt F e)]
    (hreg0 : ∀ (d : Dev nD) (V : (b : Ref sig .tc) → Buf (Elt F) ((d.tc : Thread nD τ).loc b)) (O : CellTallies nD τ sig (HIx 1)) (hO : ∀ g, O g none = 0) (W : Waits sig (HIx 1)) {α : Type} (k : PUnit → Prog (TpuEff nD τ sig (Elt F) (ΛP (F := F)) .tc) α) (Q : α → sProp 𝕄),
    iprop((iprop(boundary (d.tc : Thread nD τ) ∗ (∃ V', ⌜Post0 d V V'⌝ ∗ unscopedBufs d V') ∗ (∃ W', ⌜∀ p ∈ W', p ∈ W ∨ p.2 = none⌝ ∗ owes (d.tc : Thread nD τ) O W')) -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q)
    (hreg2 : ∀ (d : Dev nD) (V : (b : Ref sig .tc) → Buf (Elt F) ((d.tc : Thread nD τ).loc b)) (O : CellTallies nD τ sig (HIx 1)) (hO : ∀ g, O g none = 0) (W : Waits sig (HIx 1)) {α : Type} (k : PUnit → Prog (TpuEff nD τ sig (Elt F) (ΛP (F := F)) .tc) α) (Q : α → sProp 𝕄),
    iprop((iprop(boundary (d.tc : Thread nD τ) ∗ (∃ V', ⌜Post2 d V V'⌝ ∗ unscopedBufs d V') ∗ (∃ W', ⌜∀ p ∈ W', p ∈ W ∨ p.2 = none⌝ ∗ owes (d.tc : Thread nD τ) O W')) -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q)
    (hx0 : ∀ (d : Dev nD) V1, Post0 d (rd d (WA m d)) V1 → V1 main_arg0 = m (xLoc d))
    (htab : ∀ (d : Dev nD) V1, Post0 d (rd d (WA m d)) V1 → Cert.Good.TabGood (m (embLoc d)) (V1 main_v1))
    (htile : (K (F := F)).TileObl (D (F := F)) 𝒱 (P m) v₀ 0) :
    θ_run (Cert.Kernel.defs (F := F)) (Cert.Kernel.threads (F := F)) ⟨m, fun _ => 0, ρ⟩ (QC m Post0 Post2) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main G (FIN m Post0 Post2) (u₀ (F := F)) (sep_elim_left.trans (hu₀ m))
    (fun κ d => hmain m ρ Post0 Post2 κ d hreg0 hreg2 (st0_intro m) (dn0_elim m) hx0 htab)
    (fq m Post0 Post2) (hfin m Post0 Post2) (QC m Post0 Post2) (fun _ h => h)

end Cert.Kernel.Hand

end
-- ==== Proof.Bits.Final.lean ====
/-
  What the chain of @main's steps leaves in the argument arrays: no host operation and neither
  region writes one, and the SparseCore call returns the ids as it found them; so each ends at
  its launch contents.
-/
import proofs.«217423_g17910013624755_cont_8to1_1683_16_alg».proof.Proof.Bits.Run

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.Sem

variable {F : FTy → Type} [FloatOps F]

variable (m : (ℓ : Loc nD τ sig) → Buf (Elt F) ℓ)
variable (Post0 Post2 : (d : Dev nD) → (V V' : (b : Ref sig .tc) → Buf (Elt F) ((d.tc : Thread nD τ).loc b)) → Prop)

/-- A buffer that nothing in @main writes ends at its launch contents. -/
theorem chain_keeps
    (hP0 : ∀ (d : Dev nD) V V', Post0 d V V' → ∀ b, b ≠ main_v1 → V' b = V b)
    (hP2 : ∀ (d : Dev nD) V V', Post2 d V V' → ∀ b, b ≠ main_v13_0 → b ≠ main_v13_1 → V' b = V b)
    (d : Dev nD) (Wf : Valuation τ sig (Elt F)) (hc : Chain m Post0 Post2 d Wf) (r : Ref sig .tc)
    (h0 : r ≠ main_v0) (h1 : r ≠ main_v1) (h2 : r ≠ main_v2)
    (hB : ∀ op ∈ (opsB (F := F)), Proc.devRef (τ := τ) .tc r ∉ op.writes)
    (h130 : r ≠ main_v13_0) (h131 : r ≠ main_v13_1) (h14 : r ≠ main_v14) :
    Wf (Proc.devRef .tc r) = m (d, Proc.devRef .tc r) := by
  obtain ⟨V1, tab', g, V3, hV1, hg, hV3, rfl⟩ := hc
  rw [StableHlo.unary_result_ne _ _ _ _ _ _ h14, ofTc_tc, hP2 d _ _ hV3 r h130 h131]
  show StableHlo.after opsB (WC m d V1 tab' g) (Proc.devRef .tc r) = _
  rw [StableHlo.after_of_forall_not_mem _ _ hB]
  unfold WC
  rw [Function.update_of_ne (StableHlo.devRef_ne_of_ne h2), Function.update_of_ne (StableHlo.devRef_ne_of_ne h1), ofTc_tc, hP0 d _ _ hV1 r h1]
  show (opA (F := F)).result (V0 m d) (Proc.devRef .tc r) = _
  rw [StableHlo.unary_result_ne _ _ _ _ _ _ h0]; rfl

/-- None of the eleven host operations between the call and the second region writes an argument array. -/
theorem opsB_keeps (r : Ref sig .tc) (hr : r ≠ main_c ∧ r ≠ main_v3 ∧ r ≠ main_v4 ∧ r ≠ main_v5 ∧ r ≠ main_v6 ∧ r ≠ main_v7 ∧ r ≠ main_v8 ∧ r ≠ main_v9 ∧ r ≠ main_v10 ∧ r ≠ main_v11 ∧ r ≠ main_v12) :
    ∀ op ∈ (opsB (F := F)), Proc.devRef (τ := τ) .tc r ∉ op.writes := by
  obtain ⟨a, b, c, d, e, f, g, h, i, j, k⟩ := hr
  refine List.forall_iff_forall_mem.mp ?_
  simp only [opsB, List.Forall, StableHlo.nullary_writes, StableHlo.unary_writes, StableHlo.binary_writes, StableHlo.reshape_writes, Finset.mem_singleton]
  exact ⟨StableHlo.devRef_ne_of_ne a, StableHlo.devRef_ne_of_ne b, StableHlo.devRef_ne_of_ne c, StableHlo.devRef_ne_of_ne d, StableHlo.devRef_ne_of_ne e,
    StableHlo.devRef_ne_of_ne f, StableHlo.devRef_ne_of_ne g, StableHlo.devRef_ne_of_ne h, StableHlo.devRef_ne_of_ne i, StableHlo.devRef_ne_of_ne j, StableHlo.devRef_ne_of_ne k⟩

/-- An unscoped TensorCore reference is among those @main holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The post read at an argument array: it ends at its launch contents. -/
theorem arg_kept
    (hP0 : ∀ (d : Dev nD) V V', Post0 d V V' → ∀ b, b ≠ main_v1 → V' b = V b)
    (hP2 : ∀ (d : Dev nD) V V', Post2 d V V' → ∀ b, b ≠ main_v13_0 → b ≠ main_v13_1 → V' b = V b)
    (r : PUnit × MemSt nD τ sig (Elt F)) (h : QC m Post0 Post2 r) (c : Dev nD) (a : Ref sig .tc)
    (hu : ¬ (Proc.devRef .tc a : DevRef τ sig).isScoped)
    (h0 : a ≠ main_v0) (h1 : a ≠ main_v1) (h2 : a ≠ main_v2)
    (hB : a ≠ main_c ∧ a ≠ main_v3 ∧ a ≠ main_v4 ∧ a ≠ main_v5 ∧ a ≠ main_v6 ∧ a ≠ main_v7 ∧ a ≠ main_v8 ∧ a ≠ main_v9 ∧ a ≠ main_v10 ∧ a ≠ main_v11 ∧ a ≠ main_v12)
    (h130 : a ≠ main_v13_0) (h131 : a ≠ main_v13_1) (h14 : a ≠ main_v14) :
    r.2.mem ((c.tc : Thread nD τ).loc a) = m ((c.tc : Thread nD τ).loc a) := by
  obtain ⟨Wf, hc, hmem⟩ := h c
  exact (hmem _ (mem_uc a hu)).trans (chain_keeps m Post0 Post2 hP0 hP2 c Wf hc a h0 h1 h2 (opsB_keeps a hB) h130 h131 h14)

end Cert.Kernel.Hand

end
-- ==== Proof.Bits.ScData.lean ====
/-
  The arithmetic of one tile's task, apart from any program.

  A token id below 100000 read as a 32-bit word: replacing v by v − 50176 where v ≥ 50176 as signed
  words is, on the numbers, the remapping of the id to its row of the halves table. The 32-entry
  offset list, written in two halves of 16 with the remapped ids, reads entry by entry as the
  remapped ids whatever it held before. Entry k of the tile's run of the ids is id 32·w + k of the
  whole, and entry (k, c) of its run of the gathered array is entry (32·w + k, c) of the whole. A
  gather of table rows at a list of offsets delivers, at row k and column c, the table's entry at row
  list[k], column c. Together: after the tile's copies, row 32·w + k of the gathered array is the
  table's row at the remapped id of token 32·w + k, which is what makes that row good.
-/
import proofs.«217423_g17910013624755_cont_8to1_1683_16_alg».proof.Proof.Bits.ScPay
import Idealize.ShloMosaic.Lib.SparseCore.Stream
import Idealize.ShloMosaic.Lib.Pipeline.Value
import Idealize.ShloMosaic.Lib.Writes
import Idealize.ShloMosaic.Lib.Affine

noncomputable section

namespace Cert.Kernel.Hand

open Cert.Kernel Cert.Kernel.Gen

open Idealize.ShloMosaic
open Idealize.ShloMosaic.SparseCore (S V T)
open Idealize.ShloMosaic.ValueIdx (ix1 ix2)

variable {F : FTy → Type}

/-! ## The remapping on words -/

/-- v − 50176 where v ≥ 50176 as signed words, else v. -/
def remapW (v : BitVec 32) : BitVec 32 := Scalar.select (IntOp.cmpi .sge v 50176#32) (IntOp.subi v 50176#32) v

theorem remapW_toNat {v : BitVec 32} (h : v.toNat < 100000) : (remapW v).toNat = Cert.Good.remap v.toNat := by
  unfold remapW Cert.Good.remap Scalar.select
  have e1 : (50176#32 : BitVec 32).toInt = 50176 := by decide
  have e1' : (50176#32 : BitVec 32).toNat = 50176 := by decide
  have hlt : 2 * v.toNat < 2 ^ 32 := by omega
  have e2 : v.toInt = v.toNat := BitVec.toInt_eq_toNat_of_lt hlt
  by_cases hv : v.toNat < 50176
  · have hc : ¬ IntOp.cmpi .sge v 50176#32 = 1 := fun hc => by
      have := IntOp.cmpi_sge.mp hc
      rw [e1, e2] at this; omega
    rw [if_pos hv, if_neg hc]
  · have hc : IntOp.cmpi .sge v 50176#32 = 1 := IntOp.cmpi_sge.mpr (by rw [e1, e2]; omega)
    rw [if_neg hv, if_pos hc]
    show (v - 50176#32).toNat = _
    rw [BitVec.toNat_sub, e1']; omega

theorem remapW_lt {v : BitVec 32} (h : v.toNat < 100000) : (remapW v).toNat < 50176 := by
  rw [remapW_toNat h]; exact Cert.Good.remap_lt h

variable [FloatOps F]

/-- The two stored halves are the remapping, entry by entry, of what was loaded. -/
theorem pay1_apply (v : Vec F S16 .i32) (x : S16.Idx) : k1_pay1 v x = remapW (v x) := by
  unfold k1_pay1
  simp only [shapeCast_self]
  rfl
theorem pay2_apply (v : Vec F S16 .i32) (x : S16.Idx) : k1_pay2 v x = remapW (v x) := by
  unfold k1_pay2
  simp only [shapeCast_self]
  rfl

/-! ## The offset list after its two halves are stored -/

local notation "sI" => (Memref.whole Cert.Kernel.cc1_scratch0 : Memref Cert.Kernel.sig Kind.scVector Space.vmem Cert.Kernel.S32 EltTy.i32)

abbrev R0 : Rect S32 := Rect.unit (s := S32) ![0] S16.size inb_S32_S16_0
abbrev R16 : Rect S32 := Rect.unit (s := S32) ![16] S16.size inb_S32_S16_16

omit [FloatOps F] in
theorem list_read (g : S32.Idx → BitVec 32) (base : (sI).view.ty.Contents (Elt F)) (p16 p0 : S16.Idx → BitVec 32)
    (h16 : ∀ x, p16 x = remapW (g (R16.emb x))) (h0 : ∀ x, p0 x = remapW (g (R0.emb x))) (y : S32.Idx) :
    (sI).view.read (Elt F) ((sI).view.writes (Elt F) base [⟨R16, p16⟩, ⟨R0, p0⟩]) y = remapW (g y) := by
  refine View.read_writes_apply_of_pieces (sI).view base (fun y => remapW (g y)) _ ?_ y ?_
  · intro p hp x
    rcases List.mem_cons.mp hp with rfl | hp
    · exact h16 x
    · rcases List.mem_cons.mp hp with rfl | hp
      · exact h0 x
      · exact absurd hp List.not_mem_nil
  · have hy := (y 0).isLt
    by_cases hlo : (y 0).val < 16
    · have hm : y ∈ R0.set := (Rect.mem_set_unit (inb := inb_S32_S16_0)).mpr fun a => by
        match a with
        | ⟨0, _⟩ => exact ⟨Nat.zero_le _, by show (y 0).val < 0 + 16; omega⟩
      exact ⟨⟨R0, p0⟩, List.mem_cons_of_mem _ List.mem_cons_self, hm⟩
    · have hm : y ∈ R16.set := (Rect.mem_set_unit (inb := inb_S32_S16_16)).mpr fun a => by
        match a with
        | ⟨0, _⟩ => exact ⟨by show 16 ≤ (y 0).val; omega, by show (y 0).val < 16 + 16; have : (y 0).val < 32 := hy; omega⟩
      exact ⟨⟨R16, p16⟩, List.mem_cons_self, hm⟩

/-! ## The tile's runs, as the kernel slices them -/

local notation "tabW" => (Memref.whole Cert.Kernel.main_v1_scv : Memref Cert.Kernel.sig Kind.scVector Space.hbm Cert.Kernel.S50176x128 EltTy.f32)
local notation "idsW" => (Memref.whole Cert.Kernel.main_arg0_scv : Memref Cert.Kernel.sig Kind.scVector Space.hbm Cert.Kernel.S1024 EltTy.i32)
local notation "outW" => (Memref.whole Cert.Kernel.main_v2_scv : Memref Cert.Kernel.sig Kind.scVector Space.hbm Cert.Kernel.S1024x128 EltTy.f32)
local notation "sR" => (Memref.whole Cert.Kernel.cc1_scratch1 : Memref Cert.Kernel.sig Kind.scVector Space.vmem Cert.Kernel.S32x128 EltTy.f32)

theorem bound_zero : grid1.bound 0 = 2 := rfl
theorem bound_one : grid1.bound 1 = 16 := rfl
/-- The number of the tile at grid coordinates `L`. -/
abbrev wL (L : grid1.Coords) : Fin 32 := wid (Fin.cast bound_zero (L 0)) (Fin.cast bound_one (L 1))
theorem wL_val (L : grid1.Coords) : (wL L).val = 2 * (L 1).val + (L 0).val := rfl

abbrev idsK (L : grid1.Coords) : Memref sig .scVector .hbm S32 .i32 :=
  (idsW).slice (Rect.unit (s := S1024) (k1_off1 L) S32.size (k1_off1_inb L)) (fun _ => rfl)
abbrev outK (L : grid1.Coords) : Memref sig .scVector .hbm S32x128 .f32 :=
  (outW).slice (Rect.unit (s := S1024x128) (k1_off2 L) S32x128.size (k1_off2_inb L)) (fun _ => rfl)
abbrev tabK : Memref sig .scVector .hbm S50176x128 .f32 :=
  (tabW).slice (Rect.unit (s := S50176x128) ![0, 0] S50176x128.size inb_S50176x128_S50176x128_0_0) (fun _ => rfl)

variable (L : grid1.Coords)

omit [FloatOps F] in
/-- Entry `y` of the tile's run of the ids is entry 32·w + y of the whole. -/
theorem idsK_emb (y : S32.Idx) : (idsK L).view.emb y = (ix1 (rowIx (wL L) (y 0)) : S1024.Idx) := by
  funext a; apply Fin.ext
  match a with
  | ⟨0, _⟩ =>
    show ((Rect.unit (s := S1024) (k1_off1 L) S32.size (k1_off1_inb L)).emb y 0).val = 32 * (wL L).val + (y 0).val
    rw [Rect.emb_apply, wL_val]
    simp only [Rect.off_unit, Rect.stride_unit, k1_off1_eq]
    show 64 * (L 1).val + 32 * (L 0).val + 1 * (y 0).val = 32 * (2 * (L 1).val + (L 0).val) + (y 0).val
    omega

omit [FloatOps F] in
/-- Entry (k, c) of the tile's run of the gathered array is entry (32·w + k, c) of the whole. -/
theorem outK_emb (k : Fin 32) (c : Fin 128) : (outK L).view.emb (ix2 k c : S32x128.Idx) = (ix2 (rowIx (wL L) k) c : S1024x128.Idx) := by
  funext a; apply Fin.ext
  match a with
  | ⟨0, _⟩ =>
    show ((Rect.unit (s := S1024x128) (k1_off2 L) S32x128.size (k1_off2_inb L)).emb (ix2 k c) 0).val = 32 * (wL L).val + k.val
    rw [Rect.emb_apply, wL_val]
    simp only [Rect.off_unit, Rect.stride_unit, k1_off2_eq]
    show 64 * (L 1).val + 32 * (L 0).val + 1 * k.val = 32 * (2 * (L 1).val + (L 0).val) + k.val
    omega
  | ⟨1, _⟩ =>
    show ((Rect.unit (s := S1024x128) (k1_off2 L) S32x128.size (k1_off2_inb L)).emb (ix2 k c) 1).val = c.val
    rw [Rect.emb_apply]
    simp only [Rect.off_unit, Rect.stride_unit, k1_off2_eq]
    show 0 + 1 * c.val = c.val
    omega

/-! ## What the copies move -/

variable (m : (ℓ : Loc nD τ sig) → Buf (Elt F) ℓ) (d : Dev nD)

omit [FloatOps F] in
/-- The fetched ids: entry `y` is id 32·w + y. -/
theorem ids_read (y : S32.Idx) :
    (ReadAs.same : ReadAs (Elt F) S32 .i32 S32 .i32).apply (View.read (Elt F) (idsK L).view (m (xLoc d))) y
      = m (xLoc d) (ix1 (rowIx (wL L) (y 0))) := by
  rw [ReadAs.apply_same, View.read_apply, idsK_emb]
  exact cast_eq _ _

omit [FloatOps F] in
/-- The table read through the kernel's full-size window of it is the table. -/
theorem tab_read (tab : Buf (Elt F) (tabLoc d)) (i : S50176x128.Idx) : View.read (Elt F) (tabK).view tab i = tab i := by
  rw [View.read_apply]
  have e : (tabK).view.emb i = i := by
    funext a; apply Fin.ext
    show ((Rect.unit (s := S50176x128) ![0, 0] S50176x128.size inb_S50176x128_S50176x128_0_0).emb i a).val = (i a).val
    rw [Rect.emb_apply]
    simp only [Rect.off_unit, Rect.stride_unit]
    match a with
    | ⟨0, _⟩ => show 0 + 1 * (i 0).val = (i 0).val; omega
    | ⟨1, _⟩ => show 0 + 1 * (i 1).val = (i 1).val; omega
  rw [e]; exact cast_eq _ _

omit [FloatOps F] in
/-- The row scratch, written whole, reads back what was written. -/
theorem rows_write_read (fr : (sR).view.ty.Contents (Elt F)) (G : S32x128.Idx → Elt F .f32) (x : S32x128.Idx) :
    (ReadAs.same : ReadAs (Elt F) S32x128 .f32 S32x128 .f32).apply
        ((sR).view.read (Elt F) ((sR).view.writes (Elt F) fr [⟨Rect.whole S32x128, G⟩])) x = G x := by
  rw [ReadAs.apply_same]
  have h := View.read_writes_cons_emb (sR).view fr (Rect.whole S32x128) G [] x
  have e : (Rect.whole S32x128).emb x = x := by
    funext a; apply Fin.ext; show 0 + 1 * (x a : Nat) = x a; omega
  exact (congrArg (fun z => (sR).view.read (Elt F) ((sR).view.writes (Elt F) fr [⟨Rect.whole S32x128, G⟩]) z) e.symm).trans h

omit [FloatOps F] in
/-- The tile's run of the gathered array, written whole with `P`, holds `P`'s entry (k, c) at (32·w + k, c). -/
theorem out_write_at (fo : Buf (Elt F) (outLoc d)) (P : S32x128.Idx → Elt F .f32) (k : Fin 32) (c : Fin 128) :
    ((outK L).view.writes (Elt F) fo [⟨Rect.whole S32x128, P⟩]) (ix2 (rowIx (wL L) k) c) = P (ix2 k c) := by
  have h := View.read_writes_cons_emb (outK L).view fo (Rect.whole S32x128) P [] (ix2 k c)
  have e : (Rect.whole S32x128).emb (ix2 k c) = (ix2 k c : S32x128.Idx) := by
    funext a; apply Fin.ext; show 0 + 1 * ((ix2 k c : S32x128.Idx) a : Nat) = (ix2 k c : S32x128.Idx) a; omega
  have h' : (outK L).view.read (Elt F) ((outK L).view.writes (Elt F) fo [⟨Rect.whole S32x128, P⟩]) (ix2 k c) = P (ix2 k c) :=
    (congrArg (fun z => (outK L).view.read (Elt F) ((outK L).view.writes (Elt F) fo [⟨Rect.whole S32x128, P⟩]) z) e.symm).trans h
  rw [View.read_apply, outK_emb] at h'
  exact (cast_eq _ _).symm.trans h'

/-- A gather of table rows at the offsets `lst` delivers, at row `k` and column `c`, the table's entry at row `lst k`. -/
theorem gather_at (tab : S50176x128.Idx → Elt F .f32) (lst : S32.Idx → Elt F .i32)
    (hn : S32.numel = S32x128.size gathers_S50176x128_S32x128.axis')
    (h : ∀ x, (lst x).toNat < S50176x128.size gathers_S50176x128_S32x128.axis) (k : Fin 32) (c : Fin 128) :
    SparseCore.gatherPayload gathers_S50176x128_S32x128 tab (SparseCore.rows lst hn h) (ix2 k c)
      = tab (ix2 (⟨(lst (ix1 k)).toNat, h (ix1 k)⟩ : Fin 50176) c) := by
  unfold SparseCore.gatherPayload
  congr 1
  funext b; apply Fin.ext
  match b with
  | ⟨0, _⟩ =>
    have e := Shape.Gathers.idx_axis gathers_S50176x128_S32x128 (SparseCore.rows lst hn h) (ix2 k c)
    show (gathers_S50176x128_S32x128.idx (SparseCore.rows lst hn h) (ix2 k c) gathers_S50176x128_S32x128.axis).val = (lst (ix1 k)).toNat
    rw [e]
    show (lst (S32.rowMajor.symm ((k : Fin 32).cast hn.symm))).toNat = (lst (ix1 k)).toNat
    congr 2
    refine (Equiv.symm_apply_eq _).mpr (Fin.ext ?_)
    rw [Shape.rowMajor_val_one]
    rfl
  | ⟨1, _⟩ =>
    exact Shape.Gathers.idx_of_ne gathers_S50176x128_S32x128 (SparseCore.rows lst hn h) (ix2 k c) ⟨1, by decide⟩ (by decide)

omit [FloatOps F] in
/-- Rows that are the table's at the remapped ids are good rows. -/
theorem run_good (hx : ∀ b : Fin 1024, (m (xLoc d) (ix1 b)).toNat < 100000) (tab : Buf (Elt F) (tabLoc d))
    (htab : Cert.Good.TabGood (m (embLoc d)) tab) (fout : Buf (Elt F) (outLoc d))
    (hf : ∀ (k : Fin 32) (c : Fin 128), fout (ix2 (rowIx (wL L) k) c)
      = tab (ix2 (⟨Cert.Good.remap (m (xLoc d) (ix1 (rowIx (wL L) k))).toNat, Cert.Good.remap_lt (hx _)⟩ : Fin 50176) c)) :
    RunGood m d (wL L) fout :=
  fun k => Cert.Good.rowGood_of_tab htab (m (xLoc d)) fout (rowIx (wL L) k) (hx _) (hf k)

end Cert.Kernel.Hand

end
-- ==== Proof.Bits.ScTile.lean ====
/-
  One tile's task, and the obligation the launch asks of every tile.

  The tile with number w fetches its run of 32 token ids into a scratch list and waits; in two halves
  of 16 it loads the list, remaps each id to its row of the halves table and stores it back, so the
  list then holds the remapped ids, each below 50176: every offset of the gather that follows is in
  range. The gather copies, for each k, table row list[k] into row k of a second scratch, and the
  tile waits; a last copy moves that scratch onto the tile's run of the gathered array, and the tile
  waits. Each copy is alone on its semaphore and each wait sits below everything the tile owes the
  launch. What the run of the gathered array then holds at row k is the table's row at the remapped
  id of token 32·w + k: a good row. The ids, the table's read share, both scratches and the three
  semaphores are handed back as they came.
-/
import proofs.«217423_g17910013624755_cont_8to1_1683_16_alg».proof.Proof.Bits.ScData
import Idealize.ShloMosaic.Lib.SparseCore.Ops
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)

-- the kernel's memrefs, spelt as the body table passes them
local notation "tabW" => (Memref.whole Cert.Kernel.main_v1_scv : Memref Cert.Kernel.sig Kind.scVector Space.hbm Cert.Kernel.S50176x128 EltTy.f32)
local notation "idsW" => (Memref.whole Cert.Kernel.main_arg0_scv : Memref Cert.Kernel.sig Kind.scVector Space.hbm Cert.Kernel.S1024 EltTy.i32)
local notation "outW" => (Memref.whole Cert.Kernel.main_v2_scv : Memref Cert.Kernel.sig Kind.scVector Space.hbm Cert.Kernel.S1024x128 EltTy.f32)
local notation "sI" => (Memref.whole Cert.Kernel.cc1_scratch0 : Memref Cert.Kernel.sig Kind.scVector Space.vmem Cert.Kernel.S32 EltTy.i32)
local notation "sR" => (Memref.whole Cert.Kernel.cc1_scratch1 : Memref Cert.Kernel.sig Kind.scVector Space.vmem Cert.Kernel.S32x128 EltTy.f32)

variable [FloatOps F]

/-! ## The task -/

section Tile

variable (d : Dev nD) (L : grid1.Coords)

abbrev cV (L : grid1.Coords) : Fin τ.nSC := (L 0).castLE hcore1
abbrev jV (L : grid1.Coords) : Fin τ.nSub := (L 1).castLE hsub1

/-- The tile's three semaphores: the gather's, the fetch's, the write-out's. -/
abbrev cGcell (d : Dev nD) (c : Fin τ.nSC) (i : Fin τ.nSub) : GSem nD τ sig := (V d c i, .dma cc1_scratch2.sem)
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc1_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc1_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc1_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The run the kernel slices out of the ids is run `w`; -/
theorem idsRect_eq : Rect.unit (s := S1024) (k1_off1 L) S32.size (k1_off1_inb L) = idsRow (wL L) := by
  unfold idsRow Rect.part Rect.block
  congr 1 <;> funext a
  · rw [k1_off1_eq]
    match a with
    | 0 => show 64 * (L 1).val + 32 * (L 0).val = (2 * (L 1).val + (L 0).val) * (1024 / 32); omega
  · match a with
    | 0 => simp [Shape.partSize]
omit [FloatOps F] in
/-- and likewise of the gathered array. -/
theorem outRect_eq : Rect.unit (s := S1024x128) (k1_off2 L) S32x128.size (k1_off2_inb L) = outRow (wL L) := by
  unfold outRow Rect.part Rect.block
  congr 1 <;> funext a
  · rw [k1_off2_eq]
    match a with
    | 0 => show 64 * (L 1).val + 32 * (L 0).val = (2 * (L 1).val + (L 0).val) * (1024 / 32); omega
    | 1 => show (0 : Nat) = 0 * 128; omega
  · match a with
    | 0 => simp [Shape.partSize]
    | 1 => simp [Shape.partSize]

omit [FloatOps F] in
theorem set_idsK : (idsK L).view.set = idsSet (wL L) := by
  show ((idsW).view.slice (Rect.unit (s := S1024) (k1_off1 L) S32.size (k1_off1_inb L))).set = ((idsW).view.slice (idsRow (wL L))).set
  exact idsRect_eq L ▸ rfl
omit [FloatOps F] in
theorem set_outK : (outK L).view.set = outSet (wL L) := by
  show ((outW).view.slice (Rect.unit (s := S1024x128) (k1_off2 L) S32x128.size (k1_off2_inb L))).set = ((outW).view.slice (outRow (wL L))).set
  exact outRect_eq L ▸ rfl

omit [FloatOps F] in
theorem pts_idsK (f : Buf (Elt F) (xLoc d)) :
    ((idsK L).view.loc (V d (cV L) (jV L)) ↦[(idsK L).view.set]{fullShare} f : sProp 𝕄) = xLoc d ↦[idsSet (wL L)]{fullShare} f := by
  rw [set_idsK]
omit [FloatOps F] in
theorem pts_outK (f : Buf (Elt F) (outLoc d)) :
    ((outK L).view.loc (V d (cV L) (jV L)) ↦[(outK L).view.set]{fullShare} f : sProp 𝕄) = outLoc d ↦[outSet (wL L)]{fullShare} f := by
  rw [set_outK]
omit [FloatOps F] in
theorem pts_tab (q : PosShare TreeShare) (f : Buf (Elt F) (tabLoc d)) :
    ((tabW).view.loc (V d (cV L) (jV L)) ↦{q} f : sProp 𝕄) = tabLoc d ↦{q} f := rfl
omit [FloatOps F] in
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
omit [FloatOps F] in
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl

/-- The task on vector subcore `(L 0, L 1)` of device `d`: the fetch and its wait, the two remapping passes over the
    list, the gather and its wait, the write-out and its wait; the gathered run good at the end. -/
theorem tile_body (hF : (K (F := F)).Facts) (hx : ∀ (d : Dev nD) (b : Fin 1024), (m (xLoc d) (ix1 b)).toNat < 100000)
    (O : CellTallies nD τ sig (HIx 1)) (W : Waits sig (HIx 1)) (hO : ∀ g, O g none = 0) :
    iprop(levAts (K (F := F)).L (K (F := F)).lev ∗ emp ∗ goW m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tabW (Memref.isWhole_whole _) idsW (Memref.isWhole_whole _) outW (Memref.isWhole_whole _)
            sI (Memref.isWhole_whole _) sR (Memref.isWhole_whole _) cc1_scratch2 cc1_scoped0 cc1_scoped1)
          fun _ => iprop(tdW m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold goW
  iintro ⟨#Hlv, -, ⟨Hi, ⟨%tab, %htab, Ht⟩, ⟨%fo, Ho⟩⟩, ⟨⟨%fs, Hs⟩, ⟨%fr, Hr⟩, Hbufs⟩, ⟨HsemG, HsemA, HsemB, Hsems⟩, HO⟩
  ihave Hmw := ((K (F := F)).mayWaits_none (thr := V d (cV L) (jV L)) hO) $$ Hlv
  ihave Hi' := (Entails.of_eq (pts_idsK (F := F) d L _).symm) $$ Hi
  ihave Ho' := (Entails.of_eq (pts_outK (F := F) d L _).symm) $$ Ho
  ihave Ht' := (Entails.of_eq (pts_tab (F := F) d L _ _).symm) $$ Ht
  ihave Hs' := (Entails.of_eq (pts_sI (F := F) d L _).symm) $$ Hs
  ihave Hr' := (Entails.of_eq (pts_sR (F := F) d L _).symm) $$ Hr
  -- the fetch, its wait, the two remapping passes
  sl_exec
  -- the list now holds the remapped ids, each in range
  have hids : ∀ y : S32.Idx, ((tile_body.sl.dma0 m d L) y).toNat < 100000 := fun y => by
    show ((ReadAs.same : ReadAs (Elt F) S32 .i32 S32 .i32).apply (View.read (Elt F) (idsK L).view (m (xLoc d))) y).toNat < 100000
    rw [ids_read]; exact hx d _
  have hlist : ∀ y : S32.Idx,
      (sI).view.read (Elt F) ((sI).view.writes (Elt F) (sI).view.junk (tile_body.sl.Hs'_2 m d L fs)) y
        = remapW (tile_body.sl.dma0 m d L y) := fun y =>
    list_read (tile_body.sl.dma0 m d L) (sI).view.junk (tile_body.sl.v22 m d L fs) (tile_body.sl.v12 m d L fs)
      (fun x => by
        show k1_pay2 (tile_body.sl.v13 m d L fs) x = _
        rw [pay2_apply]
        show remapW (View.readAt (Elt F) (sI).view R16.toLoadRect
          (View.write (Elt F) (sI).view fs (tile_body.sl.dma0 m d L) Finset.univ) x) = _
        simp only [View.readAt_apply, Memref.view_whole, View.write_whole_univ, View.read_whole]
        rfl)
      (fun x => by
        show k1_pay1 (View.readAt (Elt F) (sI).view R0.toLoadRect
          (View.write (Elt F) (sI).view fs (tile_body.sl.dma0 m d L) Finset.univ)) x = _
        rw [pay1_apply]
        simp only [View.readAt_apply, Memref.view_whole, View.write_whole_univ, View.read_whole]
        rfl) y
  have hin : ∀ x, (((sI).view.read (Elt F) ((sI).view.writes (Elt F) (sI).view.junk (tile_body.sl.Hs'_2 m d L fs))) x).toNat < 50176 :=
    fun x => by rw [hlist]; exact remapW_lt (hids x)
  -- the gather, its wait, the write-out, its wait
  sl_exec
  -- what the run of the gathered array now holds
  have hf : ∀ (k : Fin 32) (c : Fin 128),
      ((outK L).view.writes (Elt F) fo [⟨Rect.whole S32x128, tile_body.sl.dma0_1 m d L tab fs fr hin⟩]) (ix2 (rowIx (wL L) k) c)
        = tab (ix2 (⟨Cert.Good.remap (m (xLoc d) (ix1 (rowIx (wL L) k))).toNat, Cert.Good.remap_lt (hx d _)⟩ : Fin 50176) c) := fun k c => by
    rw [out_write_at]
    show (ReadAs.same : ReadAs (Elt F) S32x128 .f32 S32x128 .f32).apply
      ((sR).view.read (Elt F) ((sR).view.writes (Elt F) fr [⟨Rect.whole S32x128, tile_body.sl.gather0 m d L tab fs hin⟩])) (ix2 k c) = _
    rw [rows_write_read]
    show SparseCore.gatherPayload gathers_S50176x128_S32x128 (View.read (Elt F) (tabK).view tab)
      (SparseCore.rows ((sI).view.read (Elt F) ((sI).view.writes (Elt F) (sI).view.junk (tile_body.sl.Hs'_2 m d L fs))) _ _) (ix2 k c) = _
    refine (gather_at (View.read (Elt F) (tabK).view tab) _ _ _ k c).trans ?_
    refine (tab_read d tab _).trans ?_
    refine congrArg (fun r : Fin 50176 => tab (ix2 r c)) (Fin.ext ?_)
    show ((sI).view.read (Elt F) ((sI).view.writes (Elt F) (sI).view.junk (tile_body.sl.Hs'_2 m d L fs)) (ix1 k)).toNat = _
    rw [hlist, remapW_toNat (hids _)]
    show Cert.Good.remap ((ReadAs.same : ReadAs (Elt F) S32 .i32 S32 .i32).apply (View.read (Elt F) (idsK L).view (m (xLoc d))) (ix1 k)).toNat = _
    rw [ids_read]
  sl_step
  unfold tdW
  isplitl [Hi' Ht' Ho']
  · isplitl [Hi']; · iapply (Entails.of_eq (pts_idsK (F := F) d L _)); iexact Hi'
    isplitl [Ht']; · iexists tab; iapply (Entails.of_eq (pts_tab (F := F) d L _ _)); iexact Ht'
    iexists _; isplitr
    · ipureintro; exact run_good L m d (hx d) tab htab _ hf
    · iapply (Entails.of_eq (pts_outK (F := F) d L _)); iexact Ho'
  isplitl [Hs' Hr' Hbufs]
  · isplitl [Hs']; · iexists _; iapply (Entails.of_eq (pts_sI (F := F) d L _)); iexact Hs'
    isplitl [Hr']; · iexists _; iapply (Entails.of_eq (pts_sR (F := F) d L _)); iexact Hr'
    iexact Hbufs
  isplitl [HsemG HsemA HsemB Hsems]
  · isplitl [HsemG]; · iexact HsemG
    isplitl [HsemA]; · iexact HsemA
    isplitl [HsemB]; · iexact HsemB
    iexact Hsems
  iexists (insert (SemLoc.dma cc1_scoped1.sem, (default : HIx 1)) (insert (SemLoc.dma cc1_scratch2.sem, (default : HIx 1))
    (insert (SemLoc.dma cc1_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tabW (Memref.isWhole_whole _) idsW (Memref.isWhole_whole _) outW (Memref.isWhole_whole _)
          sI (Memref.isWhole_whole _) sR (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the launch's obligation, under the ids' range. -/
theorem tileObl (hx : ∀ (d : Dev nD) (b : Fin 1024), (m (xLoc d) (ix1 b)).toNat < 100000) :
    (K (F := F)).TileObl (D (F := F)) 𝒱 (P m) v₀ 0 := by
  intro d c i O W hO _ _
  -- the tile owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) facts hx O W hO).trans (wp_mono frame _ _ fun _ => obl_post)

end Cert.Kernel.Hand

end
-- ==== Proof.Bits.Region0Body.lean ====
/-
  The first TensorCore region's kernel body, run once on whole staging buffers.

  The body reads its two input buffers whole (64 x 12544 each), stacks the first over the second
  (128 x 12544), transposes (12544 x 128) and writes the result over the whole output buffer.
  So after it the inputs are as they were and the output buffer holds, at (r, j), the first input's
  (j, r) for j < 64 and the second input's (j - 64, r) from there on: the payload `k0_pay1` of the
  two contents read, whatever they are. Nothing is asked of the output buffer's earlier contents.
-/
import proofs.«217423_g17910013624755_cont_8to1_1683_16_alg».proof.Proof.Bits.Common
import proofs.«217423_g17910013624755_cont_8to1_1683_16_alg».proof.Proof.Good
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

/-- The two zero offsets, however spelt. -/
theorem zero_off2 : (![0, 0] : Fin 2 → Nat) = fun _ => 0 := funext fun a => by fin_cases a <;> rfl

/-- The whole-buffer rectangles of the body's loads and of its store. -/
abbrev rIn0 : Rect S64x12544 := Rect.unit (s := S64x12544) ![0, 0] S64x12544.size inb_S64x12544_S64x12544_0_0
abbrev rOut0 : Rect S12544x128 := Rect.unit (s := S12544x128) ![0, 0] S12544x128.size inb_S12544x128_S12544x128_0_0

/-- What the body leaves in the output buffer, from what the two input buffers hold: its one store, over
    the loads' readings. -/
def out0_2 [∀ e, Nonempty (Elt F e)] (x0 x1 : Vec F S64x12544 .f32) : Vec F S12544x128 .f32 :=
  View.canon [⟨rOut0, k0_pay1 (View.ld x0 rIn0) (View.ld x1 rIn0)⟩]

/-- The loads read the buffers whole and the store covers its buffer: the output is the payload of the inputs. -/
theorem out0_2_eq [∀ e, Nonempty (Elt F e)] (x0 x1 : Vec F S64x12544 .f32) : out0_2 x0 x1 = k0_pay1 x0 x1 := by
  unfold out0_2
  rw [View.canon_unit_zero zero_off2, View.ld_unit_zero (S := S64x12544) zero_off2, View.ld_unit_zero (S := S64x12544) zero_off2]

set_option maxHeartbeats 1000000 in
/-- The body on whole staging memrefs: from the two inputs at any contents and the output at any contents, to the
    inputs unchanged and the output at the payload of the inputs. -/
theorem sound_kernel0 [∀ e, Nonempty (Elt F e)] (c : Dev nD) (E : Set ℕ) (i : grid0.Coords)
    (arg1 : Memref sig .tc .vmem S64x12544 .f32) (harg1 : arg1.IsWhole)
    (arg2 : Memref sig .tc .vmem S64x12544 .f32) (harg2 : arg2.IsWhole)
    (arg3 : Memref sig .tc .vmem S12544x128 .f32) (harg3 : arg3.IsWhole)
    (x0 x1 : Vec F S64x12544 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0_body i arg1 harg1 arg2 harg2 arg3 harg3) K := by
  rw [← out0_2_eq x0 x1]
  simp only [cc0_body_eq_skeleton]; unfold cc0_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero zero_off2 inb_S12544x128_S12544x128_0_0 y⟩)

end Cert.Kernel.Hand

end
-- ==== Proof.Bits.Region0Data.lean ====
/-
  The first TensorCore region's proof data, stated relationally.

  The grid has four points t. Windows 0 and 1 both read the 64 x 100000 array (the transposed embedding
  table) in blocks of 12544 columns: window 0 block t, window 1 block t + 4; window 2 writes block t
  (12544 rows) of the 50176 x 128 table of halves. Window 1's last block overhangs the array by 352
  columns: a fetch of it first leaves the whole staging buffer at words nothing names and then lands the
  block's part inside the array, so a just-fetched input buffer holds the block on the part the fetch
  moves and anything elsewhere.

  Hence the data says of each input buffer that the body leaves it as found, and of the output buffer
  only that it holds the stacked-and-transposed payload of SOME two buffers that are the two blocks on
  the parts their fetches move. The arrays' entry contents are those the region is entered with; the
  invariant is the core's scoped buffers no window stages; the two input windows hold the two halves of
  their common array's share; what the core owes stays constant, at an index no wait of the loop uses.
-/
import proofs.«217423_g17910013624755_cont_8to1_1683_16_alg».proof.Proof.Bits.Common
import proofs.«217423_g17910013624755_cont_8to1_1683_16_alg».proof.Proof.Good

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

section
-- the TensorCore's unscoped buffers when the region is entered, what the core owes throughout, and what its
-- waits have recorded before the region
variable (VV : (c : Dev nD) → (b : Ref sig .tc) → Buf (Elt F) ((c : Thread nD τ).loc b))
variable (O : CellTallies nD τ sig (HIx 1)) (W : Waits sig (HIx 1))

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (VV c (Pipeline.arrRef spec0 w))

/-- What window `w`'s staging buffer holds once the fetch at point `t` has landed, if the overwrite before it
    left `d`: the block on the part the fetch moves, `d` elsewhere. -/
def fetched0 (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk0 VV c w t)

/-- The proof data of the region on device `c`'s TensorCore. -/
def rdat0 (c : Dev nD) : RDat τ (Elt F) (HIx 1) ℕ UU ℕ cfg0 c where
  A w := VV c (Pipeline.arrRef spec0 w)
  after w t := match w with
    | ⟨0, _⟩ => fun Y X => X = Y
    | ⟨1, _⟩ => fun Y X => X = Y
    | ⟨2, _⟩ => fun _ X => ∃ d0 d1, X = k0_pay1 (fetched0 VV c 0 t d0) (fetched0 VV c 1 t d1)
  Φ _ := Pipeline.scopedRest (Ix := HIx 1) (Name := ℕ) (U := UU) (Lvl := ℕ) (Val := Elt F) spec0 c
  q w := match w with
    | ⟨0, _⟩ => fullShare.left
    | ⟨1, _⟩ => fullShare.right
    | ⟨2, _⟩ => fullShare
  owed _ := O
  recorded _ := {p | p ∈ W ∨ p.2 = none}

/-- The data's arrays are the entry contents. -/
theorem A_eq0 (c : Dev nD) (w : Fin cfg0.W) : (rdat0 VV O W c).A w = VV c (Pipeline.arrRef spec0 w) := by
  dsimp only [rdat0]

/-- What the body may leave, window by window. -/
theorem after0_0 (c : Dev nD) (t : Fin cfg0.N) (Y X) : (rdat0 VV O W c).after 0 t Y X = (X = Y) := by dsimp only [rdat0]
theorem after0_1 (c : Dev nD) (t : Fin cfg0.N) (Y X) : (rdat0 VV O W c).after 1 t Y X = (X = Y) := by dsimp only [rdat0]
theorem after0_2 (c : Dev nD) (t : Fin cfg0.N) (Y X) :
    (rdat0 VV O W c).after 2 t Y X = ∃ d0 d1, X = k0_pay1 (fetched0 VV c 0 t d0) (fetched0 VV c 1 t d1) := by dsimp only [rdat0]

/-- A just-fetched buffer, in the data's words, is `fetched0`. -/
theorem fetched_eq0 (c : Dev nD) (w : Fin cfg0.W) (t : Fin cfg0.N) (d) :
    (rdat0 VV O W c).fetched w t d = fetched0 VV c w t d := by
  unfold RDat.fetched RDat.blockOf fetched0 iblk0; rw [A_eq0]

/-- Both inputs are fetched at every point: what the body finds in their buffers is a just-fetched block. -/
theorem finds0_0 (c : Dev nD) (t : Fin cfg0.N) (Y) (h : (rdat0 VV O W c).Finds 0 t Y) : ∃ d, Y = fetched0 VV c 0 t d := by
  obtain ⟨d, hd⟩ := ((rdat0 VV O W c).finds_of_fetch (fetch0_0 t) Y).mp h
  exact ⟨d, hd.trans (fetched_eq0 VV O W c 0 t d)⟩
theorem finds0_1 (c : Dev nD) (t : Fin cfg0.N) (Y) (h : (rdat0 VV O W c).Finds 1 t Y) : ∃ d, Y = fetched0 VV c 1 t d := by
  obtain ⟨d, hd⟩ := ((rdat0 VV O W c).finds_of_fetch (fetch0_1 t) Y).mp h
  exact ⟨d, hd.trans (fetched_eq0 VV O W c 1 t d)⟩

/-- The shares: the two input windows hold the two halves of their array's, the output its whole. -/
theorem share0_0 (c : Dev nD) : (rdat0 VV O W c).share 0 = fullShare.left := by unfold RDat.share; rfl
theorem share0_1 (c : Dev nD) : (rdat0 VV O W c).share 1 = fullShare.right := by unfold RDat.share; rfl
theorem share0_2 (c : Dev nD) : (rdat0 VV O W c).share 2 = fullShare := by unfold RDat.share; rfl

/-! ## The region's pure post -/

/-- A 50176 x 128 table names a 64 x 100000 array's columns in halves: row r holds column r in its columns
    0‥63 and column r + 50176 in its columns 64‥127, the latter while r + 50176 is a column of the array. -/
def TabOf (emb : S64x100000.Idx → Elt F .f32) (tab : S50176x128.Idx → Elt F .f32) : Prop :=
  ∀ (r : Fin 50176) (j : Fin 64),
    tab (ValueIdx.ix2 r (Cert.Good.colL j)) = emb (ValueIdx.ix2 j (⟨r.val, by omega⟩ : Fin 100000))
    ∧ ∀ h : r.val + 50176 < 100000, tab (ValueIdx.ix2 r (Cert.Good.colR j)) = emb (ValueIdx.ix2 j (⟨r.val + 50176, h⟩ : Fin 100000))

/-- The unscoped buffers after the region, against those before it: only the table of halves has changed, and
    it names the transposed embedding table's columns in halves. -/
def Post0 (c : Dev nD) (V V' : (b : Ref sig .tc) → Buf (Elt F) ((c : Thread nD τ).loc b)) : Prop :=
  (∀ b, b ≠ main_v1 → V' b = V b) ∧ TabOf (V main_v0) (V' main_v1)

end

end Cert.Kernel.Hand

end
-- ==== Proof.Bits.Region0Oblig.lean ====
/-
  The first TensorCore region's body obligation.

  At every point both input windows have just been fetched, so each input buffer holds its block on the
  part the fetch moves and some words elsewhere; the output buffer holds anything. The body leaves the
  inputs as found and the output at the stacked-and-transposed payload of the two buffers it read: which
  is what the data's relations ask, with those very buffers as the witnesses. The invariant and what
  the core owes pass through unread.
-/
import proofs.«217423_g17910013624755_cont_8to1_1683_16_alg».proof.Proof.Bits.Region0Body
import proofs.«217423_g17910013624755_cont_8to1_1683_16_alg».proof.Proof.Bits.Region0Data

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

section
variable [∀ e, Nonempty (Elt F e)]
variable (VV : (c : Dev nD) → (b : Ref sig .tc) → Buf (Elt F) ((c : Thread nD τ).loc b))
variable (O : CellTallies nD τ sig (HIx 1)) (W : Waits sig (HIx 1))

/-- The body at any point, on the staging buffers the pipeline calls it with. -/
theorem sound_body0 (c : Dev nD) (t : Fin cfg0.N)
    (Y : (w : Fin cfg0.W) → (cfg0.win w).block.Idx → Elt F (cfg0.win w).elt) (hY : ∀ w, (rdat0 VV O W c).Finds w t (Y w)) :
    iprop((rdat0 VV O W c).Φ t.castSucc ∗ (rdat0 VV O W c).owesAt none t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdat0 VV O W c).Φ t.succ ∗ (rdat0 VV O W c).owesAt none t.succ
            ∗ (∃ X, ⌜(rdat0 VV O W c).after 0 t (Y 0) X⌝ ∗ owns (c : Thread nD τ) (st0_0 t) fullShare X)
            ∗ (∃ X, ⌜(rdat0 VV O W c).after 1 t (Y 1) X⌝ ∗ owns (c : Thread nD τ) (st0_1 t) fullShare X)
            ∗ (∃ X, ⌜(rdat0 VV O W c).after 2 t (Y 2) X⌝ ∗ owns (c : Thread nD τ) (st0_2 t) fullShare X))) := by
  obtain ⟨d0, h0⟩ := finds0_0 VV O W c t (Y 0) (hY 0)
  obtain ⟨d1, h1⟩ := finds0_1 VV O W c t (Y 1) (hY 1)
  unfold bodyAt0
  rw [show (rdat0 VV O W c).Φ t.succ = (rdat0 VV O W c).Φ t.castSucc from rfl,
    show (rdat0 VV O W c).owesAt none t.succ = (rdat0 VV O W c).owesAt none t.castSucc from rfl]
  iintro ⟨HΦ, Ho, H0, H1, H2⟩
  iapply (sound_kernel0 (F := F) c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; rw [after0_0]
    iexact H0
  isplitl [H1]
  · iexists (Y 1); isplitr; · ipureintro; rw [after0_1]
    iexact H1
  iexists _; isplitr
  swap; · iexact H2
  ipureintro
  rw [after0_2]
  exact ⟨d0, d1, by rw [← h0, ← h1]⟩

/-- The library's relational body obligation, at every point and for all contents the buffers may hold. -/
theorem body_obligation0 (c : Dev nD) :
    (rdat0 VV O W c).BodyObligation (defs₀ (F := F)) Variants.none (none : HIx 1) Set.univ := fun t Y hY => by
  rw [bigSep_W0, bigSep_W0]
  exact sound_body0 VV O W c t Y hY

end

end Cert.Kernel.Hand

end
-- ==== Proof.Bits.Region0.lean ====
/-
  The first TensorCore region as one step of the TensorCore's program.

  Entered holding every unscoped buffer at given contents and owing given units (none at the index the
  pipeline's own waits use), the region runs its four points and is left holding every unscoped buffer
  again, the table of halves alone changed, and owing what it owed. Its two input windows read one
  array: the array's points-to is dealt to them in halves at the entry and put together again at the
  exit; an input array ends as it began; the output array ends at contents the four write-backs allow.
-/
import proofs.«217423_g17910013624755_cont_8to1_1683_16_alg».proof.Proof.Bits.Region0Oblig
import Idealize.ShloMosaic.Lib.Pipeline.RegionsLoop

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

/-- No pipeline has a prefetched table. -/
abbrev adm0 : (p : Fin 2) → (pcfgs (F := F) p).Adm := fun p => (cfgs p).toPCfg_adm

section
variable [∀ e, Nonempty (Elt F e)]
variable (VV : (c : Dev nD) → (b : Ref sig .tc) → Buf (Elt F) ((c : Thread nD τ).loc b))
variable (O : CellTallies nD τ sig (HIx 1)) (W : Waits sig (HIx 1))

/-- The buffers behind the region's three windows are two. -/
theorem arrs_image0 : Finset.univ.image (Pipeline.arrRef spec0) = {main_v0, main_v1} := by decide

/-- So the buffers behind the windows, each whole, are these two. -/
theorem arrBufs_eq0 (c : Dev nD) (V : (b : Ref sig .tc) → Buf (Elt F) ((c : Thread nD τ).loc b)) :
    (Pipeline.arrBufs (Ix := HIx 1) (Name := ℕ) (U := UU) (Lvl := ℕ) spec0 c V : sProp 𝕄)
      = iprop((((c : Thread nD τ).loc main_v0) ↦{fullShare} V main_v0) ∗ (((c : Thread nD τ).loc main_v1) ↦{fullShare} V main_v1)) := by
  unfold Pipeline.arrBufs
  rw [arrs_image0, bigSep_insert (by decide), bigSep_singleton]
  rfl

/-- ENTRY: the two buffers whole are the three windows' arrays, the read one dealt in halves. -/
theorem arrays_entry0 (c : Dev nD) :
    (Pipeline.arrBufs (Ix := HIx 1) (Name := ℕ) (U := UU) (Lvl := ℕ) spec0 c (VV c) : sProp 𝕄)
      ⊢ (rdat0 VV O W c).arrays (rdat0 VV O W c).A := by
  unfold RDat.arrays
  rw [arrBufs_eq0, bigSep_W0, share0_0, share0_1, share0_2]
  rw [show (cfg0.win 0).arr.view.set = Finset.univ from (arr_whole0 0).set_eq_univ,
    show (cfg0.win 2).arr.view.set = Finset.univ from (arr_whole0 2).set_eq_univ, A_eq0, A_eq0, A_eq0]
  show iprop((((c : Thread nD τ).loc main_v0) ↦{fullShare} VV c main_v0) ∗ (((c : Thread nD τ).loc main_v1) ↦{fullShare} VV c main_v1))
    ⊢ iprop((((c : Thread nD τ).loc main_v0) ↦{fullShare.left} VV c main_v0) ∗ (((c : Thread nD τ).loc main_v0) ↦{fullShare.right} VV c main_v0)
        ∗ (((c : Thread nD τ).loc main_v1) ↦{fullShare} VV c main_v1))
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- EXIT: the three windows' arrays after the last write-back — the read one as at entry in both its halves, the
    written one at contents the write-backs allow — are the two buffers whole, the table of halves at those contents. -/
theorem arrays_exit0 (c : Dev nD) :
    (rdat0 VV O W c).arraysAt cfg0.N
      ⊢ iprop(∃ G, ⌜(rdat0 VV O W c).ArrAt 2 cfg0.N G⌝
          ∗ (Pipeline.arrBufs (Ix := HIx 1) (Name := ℕ) (U := UU) (Lvl := ℕ) spec0 c (Function.update (VV c) main_v1 G) : sProp 𝕄)) := by
  unfold RDat.arraysAt
  rw [bigSep_W0, share0_0, share0_1, share0_2,
    (rdat0 VV O W c).ArrAt_in 0 rfl, (rdat0 VV O W c).ArrAt_in 1 rfl,
    show (cfg0.win 0).arr.view.set = Finset.univ from (arr_whole0 0).set_eq_univ,
    show (cfg0.win 2).arr.view.set = Finset.univ from (arr_whole0 2).set_eq_univ]
  iintro ⟨⟨%F0, %h0, H0⟩, ⟨%F1, %h1, H1⟩, ⟨%G, %hG, H2⟩⟩
  subst h0; subst h1
  iexists G
  isplitr; · ipureintro; exact hG
  rw [arrBufs_eq0, A_eq0, A_eq0, Function.update_self, Function.update_of_ne (show main_v0 ≠ main_v1 by decide)]
  isplitl [H0 H1]
  · iapply (pointsTo_share (PosShare.mem_left_op_right fullShare)).2
    isplitl [H0] <;> iassumption
  iexact H2

/-- The other pipeline's data, which this region's step never reads: it says nothing. -/
def rdatOther (c : Dev nD) : RDat τ (Elt F) (HIx 1) ℕ UU ℕ cfg2 c where
  A w := VV c (Pipeline.arrRef spec2 w)
  after _ _ _ _ := True
  Φ _ := iprop(emp)
  q _ := fullShare
  owed _ := 0

/-- The family of proof data the library's region rule takes: this region's at its index. -/
def rdats0 : (p : Fin 2) → (c : Dev nD) → RDat τ (Elt F) (HIx 1) ℕ UU ℕ (Pipeline.pin (pcfgs (F := F)) adm0 p) c
  | ⟨0, _⟩ => fun c => rdat0 VV O W c
  | ⟨1, _⟩ => fun c => rdatOther VV c

/-- The unscoped buffers that are no array of the region do not see a change of the table of halves. -/
theorem unscopedRest_update0 (c : Dev nD) (V : (b : Ref sig .tc) → Buf (Elt F) ((c : Thread nD τ).loc b)) (G) :
    (Pipeline.unscopedRest (Ix := HIx 1) (Name := ℕ) (U := UU) (Lvl := ℕ) spec0 c (Function.update V main_v1 G) : sProp 𝕄)
      = Pipeline.unscopedRest spec0 c V := by
  unfold Pipeline.unscopedRest
  refine bigSep_congr fun b hb => ?_
  rw [Function.update_of_ne]
  rintro rfl
  exact (Finset.mem_sdiff.mp hb).2 (by rw [arrs_image0]; decide)

/-- ENTRY, whole: the unscoped buffers are the windows' arrays at the entry contents and the rest. -/
theorem entry_split0 (c : Dev nD) :
    (unscopedBufs c (VV c) : sProp 𝕄)
      ⊢ iprop((rdat0 VV O W c).arrays (rdat0 VV O W c).A
          ∗ Pipeline.unscopedRest (Ix := HIx 1) (Name := ℕ) (U := UU) (Lvl := ℕ) spec0 c (VV c)) := by
  rw [Pipeline.unscopedBufs_split₀ (Ix := HIx 1) (Name := ℕ) (U := UU) (Lvl := ℕ) cfgs (0 : Fin 2) winFacts₀0.arr_unscoped c (VV c)]
  exact sep_mono (arrays_entry0 VV O W c) .rfl

/-- EXIT, whole: the windows' arrays after the last write-back and the rest are the unscoped buffers again, changed
    at the table of halves alone, which holds what the pure fact `hpost` says of the written array. -/
theorem exit_bufs0 (hpost : ∀ c G, (rdat0 VV O W c).ArrAt 2 cfg0.N G → TabOf (VV c main_v0) G) (c : Dev nD) :
    iprop((rdat0 VV O W c).arraysAt cfg0.N ∗ Pipeline.unscopedRest (Ix := HIx 1) (Name := ℕ) (U := UU) (Lvl := ℕ) spec0 c (VV c))
      ⊢ iprop(∃ V', ⌜Post0 c (VV c) V'⌝ ∗ (unscopedBufs c V' : sProp 𝕄)) := by
  iintro ⟨Ha, Hrest⟩
  ihave H := (arrays_exit0 VV O W c) $$ Ha
  icases H with ⟨%G, %hG, Hb⟩
  iexists Function.update (VV c) main_v1 G
  isplitr
  · ipureintro
    refine ⟨fun b hb => Function.update_of_ne hb _ _, ?_⟩
    rw [Function.update_self]
    exact hpost c G hG
  rw [Pipeline.unscopedBufs_split₀ (Ix := HIx 1) (Name := ℕ) (U := UU) (Lvl := ℕ) cfgs (0 : Fin 2) winFacts₀0.arr_unscoped c
    (Function.update (VV c) main_v1 G)]
  isplitl [Hb]; · iexact Hb
  iapply (Entails.of_eq (unscopedRest_update0 c (VV c) G).symm)
  iexact Hrest

/-- The pipeline's own waits are at an index at which the core owes nothing: they sit below everything it owes. -/
theorem hwaits0 (hO : ∀ g, O g none = 0) (c : Dev nD) :
    (levAts (K (F := F)).L (K (F := F)).lev : sProp 𝕄)
      ⊢ Pipeline.RDat.cellsWaits (Pipeline.pin (pcfgs (F := F)) adm0) (rdats0 VV O W) (none : HIx 1) 0 c :=
  Pipeline.RDat.cellsWaits_intro (Pipeline.pin (pcfgs (F := F)) adm0) (rdats0 VV O W) (none : HIx 1) 0 c
    fun w s t => (K (F := F)).mayWait_none _ hO

set_option backward.isDefEq.respectTransparency.types false in
/-- The region as the library's record: entered from every unscoped buffer at `VV` and the core owing `O` with
    recorded waits `W`; left at every unscoped buffer changed at the table of halves alone, owing `O` still. -/
def reg0 (hO : ∀ g, O g none = 0) (hpost : ∀ c G, (rdat0 VV O W c).ArrAt 2 cfg0.N G → TabOf (VV c main_v0) G) :
    Pipeline.RDat.RegionSeg (pcfgs (F := F)) adm0 (rdats0 VV O W) (none : HIx 1) defs₀ 𝒱₀ (K (F := F)).L (K (F := F)).lev 0 where
  win := winFacts₀0
  block_pos := block_pos0
  stage_whole := stage_whole0
  K := PEmpty
  osem k := k.elim
  ho := Pipeline.OwnSemFacts.none _
  hbody c := body_obligation0 VV O W c
  hwaits c := hwaits0 VV O W hO c
  pre c := iprop(unscopedBufs c (VV c) ∗ owes (c : Thread nD τ) O W)
  post c := iprop((∃ V', ⌜Post0 c (VV c) V'⌝ ∗ unscopedBufs c V')
    ∗ (∃ W' : Waits sig (HIx 1), ⌜∀ p ∈ W', p ∈ W ∨ p.2 = none⌝ ∗ owes (c : Thread nD τ) O W'))
  X _ := iprop(emp)
  Y _ := iprop(emp)
  Z c := Pipeline.unscopedRest (Ix := HIx 1) (Name := ℕ) (U := UU) (Lvl := ℕ) spec0 c (VV c)
  hentry c := by
    rw [Pipeline.ownSems0_none]
    iintro ⟨⟨Hub, HO⟩, -, -⟩
    ihave H := (entry_split0 VV O W c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (Or.inl hp)
      iexact HO
    isplitr; · iempintro
    iexact Hrest
  hin c := by
    rw [show (rdats0 VV O W 0 c).Φ 0 = Pipeline.scopedRest spec0 c from rfl]
    iintro ⟨-, -, Hr⟩
    iexact Hr
  hout c := by
    rw [Pipeline.ownSems0_none, show (rdats0 VV O W 0 c).Φ (Fin.last _) = Pipeline.scopedRest spec0 c from rfl]
    iintro Hr
    isplitr; · iempintro
    isplitr; · iempintro
    iexact Hr
  hexit c := by
    iintro ⟨Ha, HO, -, Hrest⟩
    imodintro
    isplitl [Ha Hrest]
    · iapply (exit_bufs0 VV O W hpost c)
      isplitl [Ha]
      · iexact Ha
      · iexact Hrest
    unfold Pipeline.RDat.owesAt Pipeline.owesWithin
    icases HO with ⟨%W', %hW', HO⟩
    iexists W'; isplitr
    · ipureintro
      intro p hp
      rcases hW' (Finset.mem_coe.mpr hp) with h | ⟨w, s, rfl⟩
      · exact h
      · exact Or.inr rfl
    iexact HO

set_option backward.isDefEq.respectTransparency.types false in
/-- The region as one step of the TensorCore's program, under any continuation: from the boundary, every unscoped
    buffer at `VV`, the core owing `O` (nothing at the pipeline's own index) with recorded waits `W`, the level
    facts and the pipeline's cells' ghost state, the region's call runs to the continuation entered with the boundary,
    every unscoped buffer at contents that differ at the table of halves alone, and the core owing `O` still. The
    pure fact about the written array is the hypothesis `hpost`. -/
theorem region0_wp_of (hO : ∀ g, O g none = 0)
    (hpost : ∀ c G, (rdat0 VV O W c).ArrAt 2 cfg0.N G → TabOf (VV c main_v0) G) (c : Dev nD)
    {α : Type} (k : PUnit → Prog (TpuEff nD τ sig (Elt F) (ΛP (F := F)) .tc) α) (Q : α → sProp 𝕄) :
    iprop((iprop(boundary (c : Thread nD τ) ∗ (∃ V', ⌜Post0 c (VV c) V'⌝ ∗ unscopedBufs c V')
              ∗ (∃ W' : Waits sig (HIx 1), ⌜∀ p ∈ W', p ∈ W ∨ p.2 = none⌝ ∗ owes (c : Thread nD τ) O W'))
            -∗ wp frame (wpE (D (F := F)) 𝒱 (c : Thread nD τ) none) Set.univ (k ⟨⟩) Q)
        ∗ boundary (c : Thread nD τ) ∗ unscopedBufs c (VV c) ∗ owes (c : Thread nD τ) O W
        ∗ levAts (K (F := F)).L (K (F := F)).lev
        ∗ Pipeline.cellsGhost (Pipeline.pin (pcfgs (F := F)) adm0) EP 0 c ∗ Pipeline.toksInit (Pipeline.pin (pcfgs (F := F)) adm0) EP 0 c)
      ⊢ wp frame (wpE (D (F := F)) 𝒱 (c : Thread nD τ) none) Set.univ (.op (.customCall (Pipeline.entry 0) ()) k) Q := by
  have h := Pipeline.RDat.RegionSeg.wp (pcfgs (F := F)) adm0 (rdats0 VV O W) (none : HIx 1) cellOf_inj EP defs₀ 𝒱₀
    (K (F := F)).L (K (F := F)).lev (reg0 VV O W hO hpost) c none (fun u hu => absurd hu (Option.not_mem_none u)) k Q
  dsimp only [reg0] at h
  refine BIBase.Entails.trans ?_ h
  iintro ⟨Hk, Hb, Hub, HO, Hl, Hg, Ht⟩
  isplitl [Hk]
  · iintro ⟨Hb, HV, HW⟩
    iapply Hk
    isplitl [Hb]; · iexact Hb
    isplitl [HV]; · iexact HV
    iexact HW
  isplitl [Hb]; · iexact Hb
  isplitl [Hub HO]
  · isplitl [Hub]; · iexact Hub
    iexact HO
  isplitl [Hl]; · iexact Hl
  isplitl [Hg]; · iexact Hg
  iexact Ht

end

end Cert.Kernel.Hand

end
-- ==== Proof.Bits.Region0Post.lean ====
/-
  The first TensorCore region's pure post: what the table of halves holds after the four write-backs.

  Point t writes rows 12544 t ‥ 12544 t + 12543 of the table from the output buffer, which holds the
  stacked-and-transposed payload of two buffers: at (y, j), j < 64, the first buffer's (j, y), which is
  column 12544 t + y of the array read (window 0's block t lies inside the array); at (y, 64 + j) the
  second buffer's (j, y), which is column 12544 (t + 4) + y of the array wherever that is a column of it
  (window 1's last block overhangs by 352 columns, and there the buffer holds words nothing names).
  Later points write other rows. So after point t every row below 12544 (t + 1) names the array's
  columns in halves, and after the last point all 50176 rows do.
-/
import proofs.«217423_g17910013624755_cont_8to1_1683_16_alg».proof.Proof.Bits.Region0Data
import Idealize.ShloMosaic.Lib.Pipeline.Value
import Idealize.ShloMosaic.Lib.ValueLayout

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

open Idealize.ShloMosaic.ValueIdx Cert.Good

/-! ## The payload at an index -/

/-- Columns 0‥63 of the payload's row y are the first buffer's column y. -/
theorem pay0_left (x0 x1 : Vec F S64x12544 .f32) (y : Fin 12544) (j : Fin 64) :
    k0_pay1 x0 x1 (ix2 y (colL j)) = x0 (ix2 j y) := by
  unfold k0_pay1
  dsimp only
  refine (transpose_ix2_apply (a := 128) (b := 12544) _ _ y (colL j)).trans ?_
  refine (concatenate_pair_apply_left (t := S128x12544) (s₁ := S64x12544) (s₂ := S64x12544) (0 : Fin 2) _ _ _ (ix2 (colL j) y) rfl (ix2 j y : S64x12544.Idx)
    (fun b => match b with | ⟨0, _⟩ => rfl | ⟨1, _⟩ => rfl)).trans ?_
  rw [shapeCast_self]

/-- Columns 64‥127 of the payload's row y are the second buffer's column y. -/
theorem pay0_right (x0 x1 : Vec F S64x12544 .f32) (y : Fin 12544) (j : Fin 64) :
    k0_pay1 x0 x1 (ix2 y (colR j)) = x1 (ix2 j y) := by
  unfold k0_pay1
  dsimp only
  refine (transpose_ix2_apply (a := 128) (b := 12544) _ _ y (colR j)).trans ?_
  refine (concatenate_pair_apply_right (t := S128x12544) (s₁ := S64x12544) (s₂ := S64x12544) (0 : Fin 2) _ _ _ (ix2 (colR j) y) rfl rfl (ix2 j y : S64x12544.Idx)
    (fun b => match b with | ⟨0, _⟩ => fun h => absurd rfl h | ⟨1, _⟩ => fun _ => rfl)
    (by show j.val + 64 = 64 + j.val; omega)).trans ?_
  rw [shapeCast_self]

/-! ## The windows' index maps and cuts, decided over the grid -/

theorem idx0_0 : ∀ t : Fin grid0.N, win0_0.index t 0 = 0 ∧ win0_0.index t 1 = t.val := by decide +kernel
theorem idx0_1 : ∀ t : Fin grid0.N, win0_1.index t 0 = 0 ∧ win0_1.index t 1 = t.val + 4 := by decide +kernel
theorem idx0_2 : ∀ t : Fin grid0.N, win0_2.index t 0 = t.val ∧ win0_2.index t 1 = 0 := by decide +kernel
theorem xs0_0 : ∀ t : Fin grid0.N, win0_0.xsize (grid0.coords t) 0 = 64 ∧ win0_0.xsize (grid0.coords t) 1 = 12544 := by decide +kernel
theorem xs0_1 : ∀ t : Fin grid0.N, win0_1.xsize (grid0.coords t) 0 = 64
    ∧ win0_1.xsize (grid0.coords t) 1 = if t.val = 3 then 12192 else 12544 := by decide +kernel
theorem xs0_2 : ∀ t : Fin grid0.N, win0_2.xsize (grid0.coords t) 0 = 12544 ∧ win0_2.xsize (grid0.coords t) 1 = 128 := by decide +kernel

section
variable (VV : (c : Dev nD) → (b : Ref sig .tc) → Buf (Elt F) ((c : Thread nD τ).loc b))
variable (O : CellTallies nD τ sig (HIx 1)) (W : Waits sig (HIx 1))

/-! ## What a just-fetched input buffer holds where its fetch moves -/

/-- At an index the fetch moves, a just-fetched buffer holds the array's element under the block. -/
theorem fetched0_apply (c : Dev nD) (w : Fin cfg0.W) (t : Fin cfg0.N) (d) (j : (cfg0.win w).block.Idx)
    (h : ∀ a, (j a).val < (cfg0.win w).xsize (cfg0.grid.coords t) a) :
    fetched0 VV c w t d j
      = ((cfg0.win w).blk t).view.read (Elt F) (VV c (Pipeline.arrRef spec0 w)) (fun a => ⟨(j a).val, h a⟩) := by
  unfold fetched0 Window.fill iblk0
  rw [dif_pos (((cfg0.win w).moved_iff _ j).mpr h)]

/-- Window 0's buffer at point t holds, at (j, y), the array's (j, 12544 t + y): its blocks lie inside the array. -/
theorem in0_apply (c : Dev nD) (t : Fin cfg0.N) (ht : t.val < 4) (d) (j : Fin 64) (y : Fin 12544) :
    (fetched0 VV c 0 t d : S64x12544.Idx → Elt F .f32) (ix2 j y)
      = (VV c main_v0 : S64x100000.Idx → Elt F .f32) (ix2 j (⟨12544 * t.val + y.val, by omega⟩ : Fin 100000)) := by
  have hx := xs0_0 t
  have hm : ∀ a, ((ix2 j y : S64x12544.Idx) a).val < win0_0.xsize (grid0.coords t) a := fun a => match a with
    | ⟨0, _⟩ => by show j.val < win0_0.xsize (grid0.coords t) 0; rw [hx.1]; exact j.isLt
    | ⟨1, _⟩ => by show y.val < win0_0.xsize (grid0.coords t) 1; rw [hx.2]; exact y.isLt
  refine (fetched0_apply VV c 0 t d (ix2 j y) hm).trans ?_
  rw [View.read_apply]
  show VV c main_v0 ((win0_0.blk t).view.emb _) = _
  refine congrArg (VV c main_v0) (funext fun a => Fin.ext ?_)
  match a with
  | ⟨0, _⟩ => show win0_0.index t 0 * 64 + 1 * j.val = j.val; rw [(idx0_0 t).1]; omega
  | ⟨1, _⟩ => show win0_0.index t 1 * 12544 + 1 * y.val = 12544 * t.val + y.val; rw [(idx0_0 t).2]; omega

/-- Window 1's buffer at point t holds, at (j, y), the array's (j, 12544 (t + 4) + y) wherever that is a column of it. -/
theorem in1_apply (c : Dev nD) (t : Fin cfg0.N) (ht : t.val < 4) (d) (j : Fin 64) (y : Fin 12544)
    (h : 12544 * (t.val + 4) + y.val < 100000) :
    (fetched0 VV c 1 t d : S64x12544.Idx → Elt F .f32) (ix2 j y)
      = (VV c main_v0 : S64x100000.Idx → Elt F .f32) (ix2 j (⟨12544 * (t.val + 4) + y.val, h⟩ : Fin 100000)) := by
  have hx := xs0_1 t
  have hm : ∀ a, ((ix2 j y : S64x12544.Idx) a).val < win0_1.xsize (grid0.coords t) a := fun a => match a with
    | ⟨0, _⟩ => by show j.val < win0_1.xsize (grid0.coords t) 0; rw [hx.1]; exact j.isLt
    | ⟨1, _⟩ => by show y.val < win0_1.xsize (grid0.coords t) 1; rw [hx.2]; have := y.isLt; split <;> omega
  refine (fetched0_apply VV c 1 t d (ix2 j y) hm).trans ?_
  rw [View.read_apply]
  show VV c main_v0 ((win0_1.blk t).view.emb _) = _
  refine congrArg (VV c main_v0) (funext fun a => Fin.ext ?_)
  match a with
  | ⟨0, _⟩ => show win0_1.index t 0 * 64 + 1 * j.val = j.val; rw [(idx0_1 t).1]; omega
  | ⟨1, _⟩ => show win0_1.index t 1 * 12544 + 1 * y.val = 12544 * (t.val + 4) + y.val; rw [(idx0_1 t).2]; omega

/-! ## One write-back of the table -/

/-- Inside the block written at point t, the table takes the written buffer's entry. -/
theorem out_in_blk (c : Dev nD) (t : Fin cfg0.N) (ht : t.val < 4)
    (G₀ : Buf (Elt F) ((cfg0.win 2).arr.view.loc (c : Thread nD τ))) (X : (cfg0.win 2).block.Idx → Elt F (cfg0.win 2).elt)
    (y : Fin 12544) (col : Fin 128) :
    ((win0_2.blk t).view.write (Elt F) G₀ (win0_2.cut (grid0.coords t) X) Finset.univ : S50176x128.Idx → Elt F .f32)
        (ix2 (⟨12544 * t.val + y.val, by omega⟩ : Fin 50176) col)
      = (X : S12544x128.Idx → Elt F .f32) (ix2 y col) := by
  have e : (win0_2.blk t).view.emb (ix2 y col : S12544x128.Idx) = (ix2 (⟨12544 * t.val + y.val, by omega⟩ : Fin 50176) col : S50176x128.Idx) :=
    funext fun a => Fin.ext (match a with
      | ⟨0, _⟩ => by show win0_2.index t 0 * 12544 + 1 * y.val = 12544 * t.val + y.val; rw [(idx0_2 t).1]; omega
      | ⟨1, _⟩ => by show win0_2.index t 1 * 128 + 1 * col.val = col.val; rw [(idx0_2 t).2]; omega)
  rw [← e, View.write_emb_of_mem _ _ (Finset.mem_univ _)]
  rfl

/-- Below the block written at point t the table is unchanged. -/
theorem out_off_blk (c : Dev nD) (t : Fin cfg0.N)
    (G₀ : Buf (Elt F) ((cfg0.win 2).arr.view.loc (c : Thread nD τ))) (w : (win0_2.xblock (grid0.coords t)).Idx → Elt F win0_2.elt)
    (r : Fin 50176) (col : Fin 128) (hr : r.val < 12544 * t.val) :
    ((win0_2.blk t).view.write (Elt F) G₀ w Finset.univ : S50176x128.Idx → Elt F .f32) (ix2 r col)
      = (G₀ : S50176x128.Idx → Elt F .f32) (ix2 r col) := by
  refine View.write_of_not_mem _ _ _ ?_
  rw [View.setOn_univ]
  show (ix2 r col : S50176x128.Idx) ∉ ((View.whole main_v1).slice (win0_2.rect t)).set
  rw [View.set_slice_whole, Rect.mem_set_unit]
  intro h
  have h0 := (h 0).1
  change win0_2.index t 0 * 12544 ≤ r.val at h0
  rw [(idx0_2 t).1] at h0
  omega

/-! ## The rows written so far -/

/-- Every row below 12544 n names the array's columns in halves. -/
def RowsGood (emb : S64x100000.Idx → Elt F .f32) (n : Nat) (tab : S50176x128.Idx → Elt F .f32) : Prop :=
  ∀ r : Fin 50176, r.val < 12544 * n → ∀ j : Fin 64,
    tab (ix2 r (colL j)) = emb (ix2 j (⟨r.val, by omega⟩ : Fin 100000))
    ∧ ∀ h : r.val + 50176 < 100000, tab (ix2 r (colR j)) = emb (ix2 j (⟨r.val + 50176, h⟩ : Fin 100000))

/-- The write-back at point t adds its 12544 rows. -/
theorem rowsGood_step (c : Dev nD) (t : Fin cfg0.N) (ht : t.val < 4)
    (G₀ G : Buf (Elt F) ((cfg0.win 2).arr.view.loc (c : Thread nD τ))) (X : (cfg0.win 2).block.Idx → Elt F (cfg0.win 2).elt)
    (hX : (rdat0 VV O W c).Leaves 2 t X)
    (hG : G = (win0_2.blk t).view.write (Elt F) G₀ (win0_2.cut (grid0.coords t) X) Finset.univ)
    (h0 : RowsGood (VV c main_v0) t.val G₀) : RowsGood (VV c main_v0) (t.val + 1) G := by
  obtain ⟨Y, -, hYX⟩ := hX
  rw [after0_2] at hYX
  obtain ⟨d0, d1, rfl⟩ := hYX
  subst hG
  intro r hr j
  by_cases hlt : r.val < 12544 * t.val
  · rw [out_off_blk c t G₀ _ r (colL j) hlt, out_off_blk c t G₀ _ r (colR j) hlt]
    exact h0 r hlt j
  · obtain ⟨rv, hrv⟩ := r
    have hr' : rv < 12544 * (t.val + 1) := hr
    have hlt' : ¬ rv < 12544 * t.val := hlt
    obtain ⟨y, hy⟩ : ∃ y : Fin 12544, rv = 12544 * t.val + y.val :=
      ⟨⟨rv - 12544 * t.val, by omega⟩, by show rv = 12544 * t.val + (rv - 12544 * t.val); omega⟩
    subst hy
    rw [out_in_blk c t ht G₀ _ y (colL j), out_in_blk c t ht G₀ _ y (colR j)]
    refine ⟨?_, fun h => ?_⟩
    · refine (pay0_left _ _ y j).trans ?_
      exact in0_apply VV c t ht d0 j y
    · refine (pay0_right _ _ y j).trans ?_
      refine (in1_apply VV c t ht d1 j y (by show 12544 * (t.val + 4) + y.val < 100000; have : 12544 * t.val + y.val + 50176 < 100000 := h; omega)).trans ?_
      exact congrArg (VV c main_v0) (congrArg (ix2 j) (Fin.ext (by show 12544 * (t.val + 4) + y.val = 12544 * t.val + y.val + 50176; omega)))

/-- After the four write-backs the table names the array's columns in halves. -/
theorem tab_of_arrAt (c : Dev nD) (G : Buf (Elt F) ((cfg0.win 2).arr.view.loc (c : Thread nD τ)))
    (h : (rdat0 VV O W c).ArrAt 2 cfg0.N G) : TabOf (VV c main_v0) G := by
  rw [show cfg0.N = t0_3.val + 1 from rfl, RDat.ArrAt_succ, if_pos (flush0_2 _)] at h
  obtain ⟨G3, X3, h3, hX3, e3⟩ := h
  rw [show t0_3.val = t0_2.val + 1 from rfl, RDat.ArrAt_succ, if_pos (flush0_2 _)] at h3
  obtain ⟨G2, X2, h2, hX2, e2⟩ := h3
  rw [show t0_2.val = t0_1.val + 1 from rfl, RDat.ArrAt_succ, if_pos (flush0_2 _)] at h2
  obtain ⟨G1, X1, h1, hX1, e1⟩ := h2
  rw [show t0_1.val = t0_0.val + 1 from rfl, RDat.ArrAt_succ, if_pos (flush0_2 _)] at h1
  obtain ⟨G0, X0, -, hX0, e0⟩ := h1
  have g0 : RowsGood (VV c main_v0) t0_0.val G0 := fun r hr => absurd hr (by show ¬ r.val < 12544 * 0; omega)
  have g1 := rowsGood_step VV O W c t0_0 (by decide) G0 G1 X0 hX0 e0 g0
  have g2 := rowsGood_step VV O W c t0_1 (by decide) G1 G2 X1 hX1 e1 g1
  have g3 := rowsGood_step VV O W c t0_2 (by decide) G2 G3 X2 hX2 e2 g2
  have g4 := rowsGood_step VV O W c t0_3 (by decide) G3 G X3 hX3 e3 g3
  intro r j
  exact g4 r (by show r.val < 12544 * (3 + 1); omega) j

end

end Cert.Kernel.Hand

end
-- ==== Proof.Bits.Region2Body.lean ====
/-
  The projection kernel's body, run once per control case on whole staging buffers.

  The grid has 25 points; the body branches on "this is the first point". At the first point it
  forms the new recurrent state H (1024 × 256) from the thirteen operands that are whole arrays —
  the gathered embedding rows (each row holding two candidate halves, one of which the indicator
  column selects), the incoming state, the six weight matrices and four bias rows —, writes the
  transpose of H into a 256 × 1024 scratch and H itself into the state's output buffer. At every
  point it then writes, into the logits block's buffer, the product of the current 4096 × 256
  block of the output weights with the scratch, plus the current block of the output bias as a
  column. So after the first point the scratch carries the transposed state unchanged, and each
  logits block is a function of its two input blocks and that one carried array.

  Both cases are stated over variables for the operands' contents; the arithmetic appears only
  through the named payload terms, and holds at every float instance.
-/
import proofs.«217423_g17910013624755_cont_8to1_1683_16_alg».proof.Proof.Bits.Common
import Idealize.ShloMosaic.Lib.Pipeline.FrameBody
import Idealize.ShloMosaic.Lib.Pipeline.Value
import Idealize.ShloMosaic.Lib.Tactic

set_option maxRecDepth 16384

noncomputable section

namespace Cert.Kernel.Hand.Region2

open Cert.Kernel Cert.Kernel.Gen Cert.Kernel.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The two column halves of a gathered row block: columns 0‥63 and columns 64‥127. -/
abbrev rL : Rect S1024x128 := Rect.unit (s := S1024x128) ![0, 0] S1024x64.size inb_S1024x128_S1024x64_0_0
abbrev rR : Rect S1024x128 := Rect.unit (s := S1024x128) ![0, 64] S1024x64.size inb_S1024x128_S1024x64_0_64

/-- The new state from the thirteen whole operands: the embedding half selected per row, the three
    gate pre-activations, the candidate, the convex combination with the old state. -/
def stateOf (x0 : Vec F S1024x128 .f32) (x1 : Vec F S1024x1 .f32) (x2 : Vec F S1024x256 .f32) (x3 : Vec F S64x256 .f32) (x4 : Vec F S1x256 .f32) (x5 : Vec F S64x256 .f32) (x6 : Vec F S1x256 .f32) (x7 : Vec F S64x256 .f32) (x8 : Vec F S1x256 .f32) (x9 : Vec F S256x256 .f32) (x10 : Vec F S256x256 .f32) (x11 : Vec F S256x256 .f32) (x12 : Vec F S1x256 .f32) : FVec F S1024x256 .f32 :=
  k2_pay1 (k2_pay4 x1 (View.ld x0 rL) (View.ld x0 rR)) x2 (k2_pay5 x2 x10) (k2_pay6 x2 x11)
    (k2_pay7 x1 (View.ld x0 rL) (View.ld x0 rR) x2 x9 x3 x4) (k2_pay8 x1 (View.ld x0 rL) (View.ld x0 rR) x5 x6) x7 x8 x12

/-- The new state transposed: what the scratch carries from the first point on. -/
def stateTOf (x0 : Vec F S1024x128 .f32) (x1 : Vec F S1024x1 .f32) (x2 : Vec F S1024x256 .f32) (x3 : Vec F S64x256 .f32) (x4 : Vec F S1x256 .f32) (x5 : Vec F S64x256 .f32) (x6 : Vec F S1x256 .f32) (x7 : Vec F S64x256 .f32) (x8 : Vec F S1x256 .f32) (x9 : Vec F S256x256 .f32) (x10 : Vec F S256x256 .f32) (x11 : Vec F S256x256 .f32) (x12 : Vec F S1x256 .f32) : FVec F S256x1024 .f32 :=
  k2_pay2 (k2_pay4 x1 (View.ld x0 rL) (View.ld x0 rR)) x2 (k2_pay5 x2 x10) (k2_pay6 x2 x11)
    (k2_pay7 x1 (View.ld x0 rL) (View.ld x0 rR) x2 x9 x3 x4) (k2_pay8 x1 (View.ld x0 rL) (View.ld x0 rR) x5 x6) x7 x8 x12

theorem hz : (![0, 0] : Fin 2 → Nat) = fun _ => 0 := funext fun a => by fin_cases a <;> rfl

/-- One store through the whole-shape rectangle covers the shape. -/
theorem cover_unit_zero {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

/-- The branch condition holds at the first point only. -/
theorem hcond : ∀ t : Fin cfg2.N, k2_cond1 (grid2.coords t) = 1#1 ↔ t.val = 0 :=
  (by decide +kernel : ∀ t : Fin grid2.N, k2_cond1 (grid2.coords t) = 1#1 ↔ t.val = 0)

set_option maxHeartbeats 4000000 in
/-- The body at the first point: the branch is taken; the new state is computed from the thirteen
    whole operands, its transpose goes to the scratch and the state itself to its output buffer;
    then the logits block is computed from the weight block, the scratch just written and the bias block. -/
theorem sound_kernelA (c : Dev nD) (E : Set ℕ) (i : grid2.Coords) (hc : k2_cond1 i = 1#1) (arg1 : Memref sig .tc .vmem S1024x128 .f32) (harg1 : arg1.IsWhole) (arg2 : Memref sig .tc .vmem S1024x1 .f32) (harg2 : arg2.IsWhole) (arg3 : Memref sig .tc .vmem S1024x256 .f32) (harg3 : arg3.IsWhole) (arg4 : Memref sig .tc .vmem S64x256 .f32) (harg4 : arg4.IsWhole) (arg5 : Memref sig .tc .vmem S1x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S4096x256 .f32) (harg14 : arg14.IsWhole) (arg15 : Memref sig .tc .vmem S1x4096 .f32) (harg15 : arg15.IsWhole) (arg16 : Memref sig .tc .vmem S4096x1024 .f32) (harg16 : arg16.IsWhole) (arg17 : Memref sig .tc .vmem S1024x256 .f32) (harg17 : arg17.IsWhole) (arg18 : Memref sig .tc .vmem S256x1024 .f32) (harg18 : arg18.IsWhole)
    (x0 : Vec F S1024x128 .f32) (x1 : Vec F S1024x1 .f32) (x2 : Vec F S1024x256 .f32) (x3 : Vec F S64x256 .f32) (x4 : Vec F S1x256 .f32) (x5 : Vec F S64x256 .f32) (x6 : Vec F S1x256 .f32) (x7 : Vec F S64x256 .f32) (x8 : Vec F S1x256 .f32) (x9 : Vec F S256x256 .f32) (x10 : Vec F S256x256 .f32) (x11 : Vec F S256x256 .f32) (x12 : Vec F S1x256 .f32) (x13 : Vec F S4096x256 .f32) (x14 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (k2_pay3 x13 (stateTOf x0 x1 x2 x3 x4 x5 x6 x7 x8 x9 x10 x11 x12) x14)
            ∗ owns (c : Thread nD τ) arg17 fullShare (stateOf x0 x1 x2 x3 x4 x5 x6 x7 x8 x9 x10 x11 x12)
            ∗ owns (c : Thread nD τ) arg18 fullShare (stateTOf x0 x1 x2 x3 x4 x5 x6 x7 x8 x9 x10 x11 x12)) -∗ K ⟨⟩))
      ⊢ wp frame (wpE (defs₀ (F := F)) Variants.none c none) E (cc2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc2_body_eq_skeleton]; unfold cc2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0; subst hf1; subst hf2; subst hf3; subst hf4; subst hf5; subst hf6; subst hf7; subst hf8; subst hf9; subst hf10; subst hf11; subst hf12; subst hf13; subst hf14
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    rw [View.read_writes_eq_canon _ _ _ (cover_unit_zero (S := S4096x1024) hz _ _), View.canon_unit_zero hz, View.readCov_unit_zero (S := S256x1024) _ hz]
    unfold stateTOf
    simp only [View.readAt_eq_ld, View.ld_unit_zero (S := S1024x1) hz, View.ld_unit_zero (S := S1024x256) hz, View.ld_unit_zero (S := S256x256) hz, View.ld_unit_zero (S := S64x256) hz, View.ld_unit_zero (S := S1x256) hz, View.ld_unit_zero (S := S4096x256) hz, View.ld_unit_zero (S := S1x4096) hz]
  isplitl [H16]
  · iexists _; isplitr
    swap; · iexact H16
    ipureintro
    sl_unfold_run_names
    rw [View.read_writes_eq_canon _ _ _ (cover_unit_zero (S := S1024x256) hz _ _), View.canon_unit_zero hz]
    unfold stateOf
    simp only [View.readAt_eq_ld, View.ld_unit_zero (S := S1024x1) hz, View.ld_unit_zero (S := S1024x256) hz, View.ld_unit_zero (S := S256x256) hz, View.ld_unit_zero (S := S64x256) hz, View.ld_unit_zero (S := S1x256) hz, View.ld_unit_zero (S := S4096x256) hz, View.ld_unit_zero (S := S1x4096) hz]
  iexists _; isplitr
  swap; · iexact H17
  ipureintro
  sl_unfold_run_names
  rw [View.read_writes_eq_canon _ _ _ (cover_unit_zero (S := S256x1024) hz _ _), View.canon_unit_zero hz]
  unfold stateTOf
  simp only [View.readAt_eq_ld, View.ld_unit_zero (S := S1024x1) hz, View.ld_unit_zero (S := S1024x256) hz, View.ld_unit_zero (S := S256x256) hz, View.ld_unit_zero (S := S64x256) hz, View.ld_unit_zero (S := S1x256) hz, View.ld_unit_zero (S := S4096x256) hz, View.ld_unit_zero (S := S1x4096) hz]

set_option maxHeartbeats 4000000 in
/-- The body at a later point: the branch is skipped; the logits block is the matrix product of the
    weight block with whatever the scratch holds, plus the bias column; the state's buffer and the
    scratch are not touched. -/
theorem sound_kernelB (c : Dev nD) (E : Set ℕ) (i : grid2.Coords) (hc : ¬ k2_cond1 i = 1#1) (arg1 : Memref sig .tc .vmem S1024x128 .f32) (harg1 : arg1.IsWhole) (arg2 : Memref sig .tc .vmem S1024x1 .f32) (harg2 : arg2.IsWhole) (arg3 : Memref sig .tc .vmem S1024x256 .f32) (harg3 : arg3.IsWhole) (arg4 : Memref sig .tc .vmem S64x256 .f32) (harg4 : arg4.IsWhole) (arg5 : Memref sig .tc .vmem S1x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S4096x256 .f32) (harg14 : arg14.IsWhole) (arg15 : Memref sig .tc .vmem S1x4096 .f32) (harg15 : arg15.IsWhole) (arg16 : Memref sig .tc .vmem S4096x1024 .f32) (harg16 : arg16.IsWhole) (arg17 : Memref sig .tc .vmem S1024x256 .f32) (harg17 : arg17.IsWhole) (arg18 : Memref sig .tc .vmem S256x1024 .f32) (harg18 : arg18.IsWhole)
    (x0 : Vec F S1024x128 .f32) (x1 : Vec F S1024x1 .f32) (x2 : Vec F S1024x256 .f32) (x3 : Vec F S64x256 .f32) (x4 : Vec F S1x256 .f32) (x5 : Vec F S64x256 .f32) (x6 : Vec F S1x256 .f32) (x7 : Vec F S64x256 .f32) (x8 : Vec F S1x256 .f32) (x9 : Vec F S256x256 .f32) (x10 : Vec F S256x256 .f32) (x11 : Vec F S256x256 .f32) (x12 : Vec F S1x256 .f32) (x13 : Vec F S4096x256 .f32) (x14 : Vec F S1x4096 .f32) (y16 : Vec F S1024x256 .f32) (s : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (∃ d, owns (c : Thread nD τ) arg16 fullShare d) ∗ owns (c : Thread nD τ) arg17 fullShare y16 ∗ owns (c : Thread nD τ) arg18 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (k2_pay3 x13 s x14)
            ∗ owns (c : Thread nD τ) arg17 fullShare y16
            ∗ owns (c : Thread nD τ) arg18 fullShare s) -∗ K ⟨⟩))
      ⊢ wp frame (wpE (defs₀ (F := F)) Variants.none c none) E (cc2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc2_body_eq_skeleton]; unfold cc2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, Hk⟩
  subst hf0; subst hf1; subst hf2; subst hf3; subst hf4; subst hf5; subst hf6; subst hf7; subst hf8; subst hf9; subst hf10; subst hf11; subst hf12; subst hf13; subst hf14; subst hf16; subst hf17
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    rw [View.read_writes_eq_canon _ _ _ (cover_unit_zero (S := S4096x1024) hz _ _), View.canon_unit_zero hz]
    simp only [View.readAt_eq_ld, View.ld_unit_zero (S := S1024x1) hz, View.ld_unit_zero (S := S1024x256) hz, View.ld_unit_zero (S := S256x256) hz, View.ld_unit_zero (S := S64x256) hz, View.ld_unit_zero (S := S1x256) hz, View.ld_unit_zero (S := S4096x256) hz, View.ld_unit_zero (S := S1x4096) hz, View.ld_unit_zero (S := S256x1024) hz]
  isplitl [H16]
  · iexists f16; isplitr; · ipureintro; rfl
    iexact H16
  iexists f17; isplitr; · ipureintro; rfl
  iexact H17

end Cert.Kernel.Hand.Region2

end
-- ==== Proof.Bits.PostSpec.lean ====
/-
  What the two TensorCore regions leave, as pure predicates on the contents of the unscoped buffers
  before (V) and after (V') each region.

  The first region writes the halves table from the transposed embedding table: row r of the table
  holds column r of the transposed table in its left half and column r + 50176 in its right half,
  the latter only where that column exists. The second region writes the new state — the body's
  new-state term of the thirteen whole-array windows — and, block by block of 4096 rows, the
  transposed logits: each block is the body's projection term of SOME staged blocks that agree
  with the weight and bias arrays on the rows inside the arrays (the last block's remaining rows
  are never written back).
-/
import proofs.«217423_g17910013624755_cont_8to1_1683_16_alg».proof.Proof.Bits.Common
import proofs.«217423_g17910013624755_cont_8to1_1683_16_alg».proof.Proof.Good
import proofs.«217423_g17910013624755_cont_8to1_1683_16_alg».proof.Proof.Bits.Region2Body

noncomputable section

namespace Cert.Kernel.Hand

open Cert.Kernel Cert.Kernel.Gen
open Idealize.ShloMosaic Idealize.ShloMosaic.ValueIdx Idealize.SL.Sem

variable {F : FTy → Type} [FloatOps F]

/-- The contents of the TensorCore's unscoped buffers on device d. -/
abbrev TcVal (F : FTy → Type) (d : Dev nD) : Type := (b : Ref sig .tc) → Buf (Elt F) ((d.tc : Thread nD τ).loc b)

/-- What the first region leaves. -/
def Post0Spec (d : Dev nD) (V V' : TcVal F d) : Prop :=
  (∀ b, b ≠ main_v1 → V' b = V b)
  ∧ ∀ (r : Fin 50176) (j : Fin 64),
      (V' main_v1 : S50176x128.Idx → F .f32) (ix2 r (Cert.Good.colL j)) = (V main_v0 : S64x100000.Idx → F .f32) (ix2 j (⟨r.val, by omega⟩ : Fin 100000))
      ∧ ∀ h : r.val + 50176 < 100000,
          (V' main_v1 : S50176x128.Idx → F .f32) (ix2 r (Cert.Good.colR j)) = (V main_v0 : S64x100000.Idx → F .f32) (ix2 j (⟨r.val + 50176, h⟩ : Fin 100000))

/-- The new state as the second region computes it from the buffers it is entered with. -/
def newHOf (d : Dev nD) (V : TcVal F d) : FVec F S1024x256 .f32 :=
  Region2.stateOf (V main_v2) (V main_v6) (V main_arg1) (V main_arg3) (V main_v8) (V main_arg5) (V main_v9) (V main_arg7) (V main_v10)
    (V main_arg9) (V main_arg10) (V main_arg11) (V main_v11)
/-- Its transpose, as the region keeps it in its scratch. -/
def newHTOf (d : Dev nD) (V : TcVal F d) : FVec F S256x1024 .f32 :=
  Region2.stateTOf (V main_v2) (V main_v6) (V main_arg1) (V main_arg3) (V main_v8) (V main_arg5) (V main_v9) (V main_arg7) (V main_v10)
    (V main_arg9) (V main_arg10) (V main_arg11) (V main_v11)

/-- What the second region leaves. -/
def Post2Spec (d : Dev nD) (V V' : TcVal F d) : Prop :=
  (∀ b, b ≠ main_v13_0 → b ≠ main_v13_1 → V' b = V b)
  ∧ (V' main_v13_1 : S1024x256.Idx → F .f32) = newHOf d V
  ∧ ∀ t : Fin 25, ∃ (w13 : Vec F S4096x256 .f32) (w14 : Vec F S1x4096 .f32),
      (∀ (r : Fin 4096) (k : Fin 256) (h : 4096 * t.val + r.val < 100000),
          w13 (ix2 r k) = (V main_v7 : S100000x256.Idx → F .f32) (ix2 (⟨4096 * t.val + r.val, h⟩ : Fin 100000) k))
      ∧ (∀ (r : Fin 4096) (h : 4096 * t.val + r.val < 100000),
          w14 (ix2 (0 : Fin 1) r) = (V main_v12 : S1x100000.Idx → F .f32) (ix2 (0 : Fin 1) (⟨4096 * t.val + r.val, h⟩ : Fin 100000)))
      ∧ ∀ (r : Fin 4096) (b : Fin 1024) (h : 4096 * t.val + r.val < 100000),
          (V' main_v13_0 : S100000x1024.Idx → F .f32) (ix2 (⟨4096 * t.val + r.val, h⟩ : Fin 100000) b) = k2_pay3 w13 (newHTOf d V) w14 (ix2 r b)

end Cert.Kernel.Hand

end
-- ==== Proof.Bits.Region0Wp.lean ====
/-
  The first TensorCore region's step at one device, with its post stated purely.

  At device d, entered with every unscoped buffer at V, the region leaves every unscoped buffer at some V'
  that differs from V at the table of halves alone, and that table names the transposed embedding table's
  columns in halves: row r holds column r in its columns 0‥63 and column r + 50176 in its columns 64‥127
  wherever the array has that column. The core owes afterwards what it owed before, and its waits have
  recorded nothing new but at the pipeline's own index.
-/
import proofs.«217423_g17910013624755_cont_8to1_1683_16_alg».proof.Proof.Bits.Region0
import proofs.«217423_g17910013624755_cont_8to1_1683_16_alg».proof.Proof.Bits.Region0Post
import proofs.«217423_g17910013624755_cont_8to1_1683_16_alg».proof.Proof.Bits.PostSpec

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

section
variable [∀ e, Nonempty (Elt F e)]

/-- Contents given on one device, read on every device: there is one device. -/
def spread0 (d : Dev nD) (V : TcVal F d) : (c : Dev nD) → (b : Ref sig .tc) → Buf (Elt F) ((c : Thread nD τ).loc b) :=
  fun c => (Subsingleton.elim d c : d = c) ▸ V

theorem spread0_self (d : Dev nD) (V : TcVal F d) : spread0 d V d = V := rfl

/-- The post as the data module states it is the post as the specification module states it. -/
theorem post0_iff (d : Dev nD) (V V' : TcVal F d) : Post0 d V V' ↔ Post0Spec d V V' := Iff.rfl

/-- The first TensorCore region under any continuation. -/
theorem region0_wp (d : Dev nD) (V : TcVal F d) (O : CellTallies nD τ sig (HIx 1)) (hO : ∀ g, O g none = 0)
    (W : Waits sig (HIx 1)) {α : Type} (k : PUnit → Prog (TpuEff nD τ sig (Elt F) (ΛP (F := F)) .tc) α) (Q : α → sProp 𝕄) :
    iprop((iprop(boundary (d.tc : Thread nD τ) ∗ (∃ V', ⌜Post0Spec d V V'⌝ ∗ unscopedBufs d V')
              ∗ (∃ W' : Waits sig (HIx 1), ⌜∀ p ∈ W', p ∈ W ∨ p.2 = none⌝ ∗ owes (d.tc : Thread nD τ) O W'))
            -∗ wp frame (wpE (D (F := F)) 𝒱 (d.tc : Thread nD τ) none) Set.univ (k ⟨⟩) Q)
        ∗ boundary (d.tc : Thread nD τ) ∗ unscopedBufs d V ∗ owes (d.tc : Thread nD τ) O W
        ∗ levAts (K (F := F)).L (K (F := F)).lev
        ∗ Pipeline.cellsGhost (Pipeline.pin (pcfgs (F := F)) adm0) EP 0 d ∗ Pipeline.toksInit (Pipeline.pin (pcfgs (F := F)) adm0) EP 0 d)
      ⊢ wp frame (wpE (D (F := F)) 𝒱 (d.tc : Thread nD τ) none) Set.univ (.op (.customCall (Pipeline.entry 0) ()) k) Q :=
  region0_wp_of (spread0 d V) O W hO (fun c G hG => tab_of_arrAt (spread0 d V) O W c G hG) d k Q

end

end Cert.Kernel.Hand

end
-- ==== Proof.Bits.Region2Data.lean ====
/-
  The proof data of the projection pipeline, and what its body finds in each window's buffer.

  Thirteen windows are whole arrays at block index zero, fetched once: from the first point on their
  buffers hold the arrays themselves, the body leaving them as found. Two inputs (a 4096-row block
  of the output weights and the matching block of the output bias) and the logits output move with
  the point; their last block overhangs the arrays, so a buffer is known only on the part inside.
  The state's output is written by the body at the first point and written back at the last. The
  scratch, which no window stages, carries the transposed new state from the first point on.
-/
import proofs.«217423_g17910013624755_cont_8to1_1683_16_alg».proof.Proof.Bits.PostSpec
import Idealize.ShloMosaic.Lib.Pipeline.RegionsLoop

set_option maxRecDepth 16384

noncomputable section

namespace Cert.Kernel.Hand.Region2

open Cert.Kernel Cert.Kernel.Gen Cert.Kernel.Hand
open Idealize.ShloMosaic.Pipeline (RDat Cfg Window cellOf)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Data

variable (V : (c : Dev nD) → (b : Ref sig .tc) → Buf (Elt F) ((c.tc : Thread nD τ).loc b))
variable (O : CellTallies nD τ sig (HIx 1)) (W : Waits sig (HIx 1))

/-- Window `w`'s block at point `t`, its part inside the array, read off the entry contents. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What a staging buffer that held `d` holds once that block has landed in it: the block on the part
    inside the array, `d` on the overhang. -/
def fet (c : Dev nD) (w : Fin cfg2.W) (t : Fin cfg2.N) (d : (cfg2.win w).block.Idx → Elt F (cfg2.win w).elt) :
    (cfg2.win w).block.Idx → Elt F (cfg2.win w).elt :=
  (cfg2.win w).fill (cfg2.grid.coords t) d (iblk V c w t)

/-- The scoped buffers of the other call, which this region never names. -/
def restSix (c : Dev nD) : sProp 𝕄 :=
  iprop((∃ f : Buf (Elt F) ((c.tc : Thread nD τ).loc cc0_stg0_0), ((c.tc : Thread nD τ).loc cc0_stg0_0) ↦{fullShare} f) ∗ (∃ f : Buf (Elt F) ((c.tc : Thread nD τ).loc cc0_stg0_1), ((c.tc : Thread nD τ).loc cc0_stg0_1) ↦{fullShare} f) ∗ (∃ f : Buf (Elt F) ((c.tc : Thread nD τ).loc cc0_stg1_0), ((c.tc : Thread nD τ).loc cc0_stg1_0) ↦{fullShare} f) ∗ (∃ f : Buf (Elt F) ((c.tc : Thread nD τ).loc cc0_stg1_1), ((c.tc : Thread nD τ).loc cc0_stg1_1) ↦{fullShare} f) ∗ (∃ f : Buf (Elt F) ((c.tc : Thread nD τ).loc cc0_stg2_0), ((c.tc : Thread nD τ).loc cc0_stg2_0) ↦{fullShare} f) ∗ (∃ f : Buf (Elt F) ((c.tc : Thread nD τ).loc cc0_stg2_1), ((c.tc : Thread nD τ).loc cc0_stg2_1) ↦{fullShare} f))

/-- The scratch before point `t`: anything before the first point, the transposed new state from then on. -/
def scrOf (c : Dev nD) (t : Fin (cfg2.N + 1)) : sProp 𝕄 :=
  if t.val = 0 then iprop(∃ f : Buf (Elt F) ((c.tc : Thread nD τ).loc cc2_scratch0), ((c.tc : Thread nD τ).loc cc2_scratch0) ↦{fullShare} f)
  else (((c.tc : Thread nD τ).loc cc2_scratch0) ↦{fullShare} (newHTOf c (V c) : Buf (Elt F) ((c.tc : Thread nD τ).loc cc2_scratch0)) : sProp 𝕄)

/-- The proof data of the projection pipeline. An input's buffer is left as found. The logits block's
    buffer is left at the block product of SOME contents the two moving inputs' buffers may hold at
    the point (their blocks inside the arrays, anything on the overhang) with the transposed new
    state. The state's buffer is left at the new state. Between points the scratch is as `scrOf` says.
    The core owes `O` throughout and its recorded pairs stay within `W` and index `none`. -/
def rdat (c : Dev nD) : RDat τ (Elt F) (HIx 1) ℕ UU ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun Y X => X = Y
    | ⟨15, _⟩ => fun _ X => ∃ (w13 : Vec F S4096x256 .f32) (w14 : Vec F S1x4096 .f32),
        (∃ d, w13 = fet V c 13 t d) ∧ (∃ d, w14 = fet V c 14 t d) ∧ X = k2_pay3 w13 (newHTOf c (V c)) w14
    | ⟨16, _⟩ => fun _ X => X = newHOf c (V c)
    | ⟨_ + 17, h⟩ => absurd h (Nat.not_lt.2 (Nat.le_add_left _ _))
  Φ t := iprop(restSix c ∗ scrOf V c t)
  q _ := fullShare
  owed _ := O
  recorded _ := {p | p ∈ W ∨ p.2 = none}

theorem after2_0 (c : Dev nD) (t : Fin cfg2.N) : (rdat V O W c).after 0 t = fun Y X => X = Y := by dsimp only [rdat]
theorem after2_1 (c : Dev nD) (t : Fin cfg2.N) : (rdat V O W c).after 1 t = fun Y X => X = Y := by dsimp only [rdat]
theorem after2_2 (c : Dev nD) (t : Fin cfg2.N) : (rdat V O W c).after 2 t = fun Y X => X = Y := by dsimp only [rdat]
theorem after2_3 (c : Dev nD) (t : Fin cfg2.N) : (rdat V O W c).after 3 t = fun Y X => X = Y := by dsimp only [rdat]
theorem after2_4 (c : Dev nD) (t : Fin cfg2.N) : (rdat V O W c).after 4 t = fun Y X => X = Y := by dsimp only [rdat]
theorem after2_5 (c : Dev nD) (t : Fin cfg2.N) : (rdat V O W c).after 5 t = fun Y X => X = Y := by dsimp only [rdat]
theorem after2_6 (c : Dev nD) (t : Fin cfg2.N) : (rdat V O W c).after 6 t = fun Y X => X = Y := by dsimp only [rdat]
theorem after2_7 (c : Dev nD) (t : Fin cfg2.N) : (rdat V O W c).after 7 t = fun Y X => X = Y := by dsimp only [rdat]
theorem after2_8 (c : Dev nD) (t : Fin cfg2.N) : (rdat V O W c).after 8 t = fun Y X => X = Y := by dsimp only [rdat]
theorem after2_9 (c : Dev nD) (t : Fin cfg2.N) : (rdat V O W c).after 9 t = fun Y X => X = Y := by dsimp only [rdat]
theorem after2_10 (c : Dev nD) (t : Fin cfg2.N) : (rdat V O W c).after 10 t = fun Y X => X = Y := by dsimp only [rdat]
theorem after2_11 (c : Dev nD) (t : Fin cfg2.N) : (rdat V O W c).after 11 t = fun Y X => X = Y := by dsimp only [rdat]
theorem after2_12 (c : Dev nD) (t : Fin cfg2.N) : (rdat V O W c).after 12 t = fun Y X => X = Y := by dsimp only [rdat]
theorem after2_13 (c : Dev nD) (t : Fin cfg2.N) : (rdat V O W c).after 13 t = fun Y X => X = Y := by dsimp only [rdat]
theorem after2_14 (c : Dev nD) (t : Fin cfg2.N) : (rdat V O W c).after 14 t = fun Y X => X = Y := by dsimp only [rdat]
theorem after2_15 (c : Dev nD) (t : Fin cfg2.N) : (rdat V O W c).after 15 t = fun _ X => ∃ (w13 : Vec F S4096x256 .f32) (w14 : Vec F S1x4096 .f32),
    (∃ d, w13 = fet V c 13 t d) ∧ (∃ d, w14 = fet V c 14 t d) ∧ X = k2_pay3 w13 (newHTOf c (V c)) w14 := by dsimp only [rdat]; rfl
theorem after2_16 (c : Dev nD) (t : Fin cfg2.N) : (rdat V O W c).after 16 t = fun _ X => X = newHOf c (V c) := by dsimp only [rdat]; rfl

theorem A_eq2 (c : Dev nD) (w : Fin cfg2.W) : (rdat V O W c).A w = V c (Pipeline.arrRef spec2 w) := by dsimp only [rdat]
theorem fetched_eq2 (c : Dev nD) (w : Fin cfg2.W) (t : Fin cfg2.N) (d) : (rdat V O W c).fetched w t d = fet V c w t d := rfl

variable [∀ e, Nonempty (Elt F e)]

theorem zz2 : ∀ a : Fin 2, (![0, 0] : Fin 2 → Nat) a = 0 := by decide

/-! An input whose block is its whole array sits at block index zero on both axes: a fetch leaves
    the array itself in the buffer, and so does every later point, the body leaving it as found. -/
theorem fet2_0 (c : Dev nD) (t : Fin cfg2.N) (d) : fet V c 0 t d = (V c main_v2 : Vec F S1024x128 .f32) := by
  funext j
  show (V c main_v2 : Vec F S1024x128 .f32) (((cfg2.win 0).blk t).view.emb (fun a => ⟨(j a).val, _⟩)) = (V c main_v2 : Vec F S1024x128 .f32) j
  refine congrArg _ (funext fun a => Fin.ext ?_)
  exact (cfg2.win 0).rect_emb_val_of_index_zero t a (zz2 a) _
theorem finds2_0 (c : Dev nD) (t : Fin cfg2.N) (Y) (h : (rdat V O W c).Finds 0 t Y) : Y = (V c main_v2 : Vec F S1024x128 .f32) := by
  obtain ⟨d, hd⟩ := Pipeline.RDat.finds_in_eq_fetched (rdat V O W c) 0 rfl (fun _ _ _ => rfl)
    (fun t Y X h => by rw [after2_0] at h; exact h) t Y h
  exact hd.trans (fet2_0 V c t d)
theorem fet2_1 (c : Dev nD) (t : Fin cfg2.N) (d) : fet V c 1 t d = (V c main_v6 : Vec F S1024x1 .f32) := by
  funext j
  show (V c main_v6 : Vec F S1024x1 .f32) (((cfg2.win 1).blk t).view.emb (fun a => ⟨(j a).val, _⟩)) = (V c main_v6 : Vec F S1024x1 .f32) j
  refine congrArg _ (funext fun a => Fin.ext ?_)
  exact (cfg2.win 1).rect_emb_val_of_index_zero t a (zz2 a) _
theorem finds2_1 (c : Dev nD) (t : Fin cfg2.N) (Y) (h : (rdat V O W c).Finds 1 t Y) : Y = (V c main_v6 : Vec F S1024x1 .f32) := by
  obtain ⟨d, hd⟩ := Pipeline.RDat.finds_in_eq_fetched (rdat V O W c) 1 rfl (fun _ _ _ => rfl)
    (fun t Y X h => by rw [after2_1] at h; exact h) t Y h
  exact hd.trans (fet2_1 V c t d)
theorem fet2_2 (c : Dev nD) (t : Fin cfg2.N) (d) : fet V c 2 t d = (V c main_arg1 : Vec F S1024x256 .f32) := by
  funext j
  show (V c main_arg1 : Vec F S1024x256 .f32) (((cfg2.win 2).blk t).view.emb (fun a => ⟨(j a).val, _⟩)) = (V c main_arg1 : Vec F S1024x256 .f32) j
  refine congrArg _ (funext fun a => Fin.ext ?_)
  exact (cfg2.win 2).rect_emb_val_of_index_zero t a (zz2 a) _
theorem finds2_2 (c : Dev nD) (t : Fin cfg2.N) (Y) (h : (rdat V O W c).Finds 2 t Y) : Y = (V c main_arg1 : Vec F S1024x256 .f32) := by
  obtain ⟨d, hd⟩ := Pipeline.RDat.finds_in_eq_fetched (rdat V O W c) 2 rfl (fun _ _ _ => rfl)
    (fun t Y X h => by rw [after2_2] at h; exact h) t Y h
  exact hd.trans (fet2_2 V c t d)
theorem fet2_3 (c : Dev nD) (t : Fin cfg2.N) (d) : fet V c 3 t d = (V c main_arg3 : Vec F S64x256 .f32) := by
  funext j
  show (V c main_arg3 : Vec F S64x256 .f32) (((cfg2.win 3).blk t).view.emb (fun a => ⟨(j a).val, _⟩)) = (V c main_arg3 : Vec F S64x256 .f32) j
  refine congrArg _ (funext fun a => Fin.ext ?_)
  exact (cfg2.win 3).rect_emb_val_of_index_zero t a (zz2 a) _
theorem finds2_3 (c : Dev nD) (t : Fin cfg2.N) (Y) (h : (rdat V O W c).Finds 3 t Y) : Y = (V c main_arg3 : Vec F S64x256 .f32) := by
  obtain ⟨d, hd⟩ := Pipeline.RDat.finds_in_eq_fetched (rdat V O W c) 3 rfl (fun _ _ _ => rfl)
    (fun t Y X h => by rw [after2_3] at h; exact h) t Y h
  exact hd.trans (fet2_3 V c t d)
theorem fet2_4 (c : Dev nD) (t : Fin cfg2.N) (d) : fet V c 4 t d = (V c main_v8 : Vec F S1x256 .f32) := by
  funext j
  show (V c main_v8 : Vec F S1x256 .f32) (((cfg2.win 4).blk t).view.emb (fun a => ⟨(j a).val, _⟩)) = (V c main_v8 : Vec F S1x256 .f32) j
  refine congrArg _ (funext fun a => Fin.ext ?_)
  exact (cfg2.win 4).rect_emb_val_of_index_zero t a (zz2 a) _
theorem finds2_4 (c : Dev nD) (t : Fin cfg2.N) (Y) (h : (rdat V O W c).Finds 4 t Y) : Y = (V c main_v8 : Vec F S1x256 .f32) := by
  obtain ⟨d, hd⟩ := Pipeline.RDat.finds_in_eq_fetched (rdat V O W c) 4 rfl (fun _ _ _ => rfl)
    (fun t Y X h => by rw [after2_4] at h; exact h) t Y h
  exact hd.trans (fet2_4 V c t d)
theorem fet2_5 (c : Dev nD) (t : Fin cfg2.N) (d) : fet V c 5 t d = (V c main_arg5 : Vec F S64x256 .f32) := by
  funext j
  show (V c main_arg5 : Vec F S64x256 .f32) (((cfg2.win 5).blk t).view.emb (fun a => ⟨(j a).val, _⟩)) = (V c main_arg5 : Vec F S64x256 .f32) j
  refine congrArg _ (funext fun a => Fin.ext ?_)
  exact (cfg2.win 5).rect_emb_val_of_index_zero t a (zz2 a) _
theorem finds2_5 (c : Dev nD) (t : Fin cfg2.N) (Y) (h : (rdat V O W c).Finds 5 t Y) : Y = (V c main_arg5 : Vec F S64x256 .f32) := by
  obtain ⟨d, hd⟩ := Pipeline.RDat.finds_in_eq_fetched (rdat V O W c) 5 rfl (fun _ _ _ => rfl)
    (fun t Y X h => by rw [after2_5] at h; exact h) t Y h
  exact hd.trans (fet2_5 V c t d)
theorem fet2_6 (c : Dev nD) (t : Fin cfg2.N) (d) : fet V c 6 t d = (V c main_v9 : Vec F S1x256 .f32) := by
  funext j
  show (V c main_v9 : Vec F S1x256 .f32) (((cfg2.win 6).blk t).view.emb (fun a => ⟨(j a).val, _⟩)) = (V c main_v9 : Vec F S1x256 .f32) j
  refine congrArg _ (funext fun a => Fin.ext ?_)
  exact (cfg2.win 6).rect_emb_val_of_index_zero t a (zz2 a) _
theorem finds2_6 (c : Dev nD) (t : Fin cfg2.N) (Y) (h : (rdat V O W c).Finds 6 t Y) : Y = (V c main_v9 : Vec F S1x256 .f32) := by
  obtain ⟨d, hd⟩ := Pipeline.RDat.finds_in_eq_fetched (rdat V O W c) 6 rfl (fun _ _ _ => rfl)
    (fun t Y X h => by rw [after2_6] at h; exact h) t Y h
  exact hd.trans (fet2_6 V c t d)
theorem fet2_7 (c : Dev nD) (t : Fin cfg2.N) (d) : fet V c 7 t d = (V c main_arg7 : Vec F S64x256 .f32) := by
  funext j
  show (V c main_arg7 : Vec F S64x256 .f32) (((cfg2.win 7).blk t).view.emb (fun a => ⟨(j a).val, _⟩)) = (V c main_arg7 : Vec F S64x256 .f32) j
  refine congrArg _ (funext fun a => Fin.ext ?_)
  exact (cfg2.win 7).rect_emb_val_of_index_zero t a (zz2 a) _
theorem finds2_7 (c : Dev nD) (t : Fin cfg2.N) (Y) (h : (rdat V O W c).Finds 7 t Y) : Y = (V c main_arg7 : Vec F S64x256 .f32) := by
  obtain ⟨d, hd⟩ := Pipeline.RDat.finds_in_eq_fetched (rdat V O W c) 7 rfl (fun _ _ _ => rfl)
    (fun t Y X h => by rw [after2_7] at h; exact h) t Y h
  exact hd.trans (fet2_7 V c t d)
theorem fet2_8 (c : Dev nD) (t : Fin cfg2.N) (d) : fet V c 8 t d = (V c main_v10 : Vec F S1x256 .f32) := by
  funext j
  show (V c main_v10 : Vec F S1x256 .f32) (((cfg2.win 8).blk t).view.emb (fun a => ⟨(j a).val, _⟩)) = (V c main_v10 : Vec F S1x256 .f32) j
  refine congrArg _ (funext fun a => Fin.ext ?_)
  exact (cfg2.win 8).rect_emb_val_of_index_zero t a (zz2 a) _
theorem finds2_8 (c : Dev nD) (t : Fin cfg2.N) (Y) (h : (rdat V O W c).Finds 8 t Y) : Y = (V c main_v10 : Vec F S1x256 .f32) := by
  obtain ⟨d, hd⟩ := Pipeline.RDat.finds_in_eq_fetched (rdat V O W c) 8 rfl (fun _ _ _ => rfl)
    (fun t Y X h => by rw [after2_8] at h; exact h) t Y h
  exact hd.trans (fet2_8 V c t d)
theorem fet2_9 (c : Dev nD) (t : Fin cfg2.N) (d) : fet V c 9 t d = (V c main_arg9 : Vec F S256x256 .f32) := by
  funext j
  show (V c main_arg9 : Vec F S256x256 .f32) (((cfg2.win 9).blk t).view.emb (fun a => ⟨(j a).val, _⟩)) = (V c main_arg9 : Vec F S256x256 .f32) j
  refine congrArg _ (funext fun a => Fin.ext ?_)
  exact (cfg2.win 9).rect_emb_val_of_index_zero t a (zz2 a) _
theorem finds2_9 (c : Dev nD) (t : Fin cfg2.N) (Y) (h : (rdat V O W c).Finds 9 t Y) : Y = (V c main_arg9 : Vec F S256x256 .f32) := by
  obtain ⟨d, hd⟩ := Pipeline.RDat.finds_in_eq_fetched (rdat V O W c) 9 rfl (fun _ _ _ => rfl)
    (fun t Y X h => by rw [after2_9] at h; exact h) t Y h
  exact hd.trans (fet2_9 V c t d)
theorem fet2_10 (c : Dev nD) (t : Fin cfg2.N) (d) : fet V c 10 t d = (V c main_arg10 : Vec F S256x256 .f32) := by
  funext j
  show (V c main_arg10 : Vec F S256x256 .f32) (((cfg2.win 10).blk t).view.emb (fun a => ⟨(j a).val, _⟩)) = (V c main_arg10 : Vec F S256x256 .f32) j
  refine congrArg _ (funext fun a => Fin.ext ?_)
  exact (cfg2.win 10).rect_emb_val_of_index_zero t a (zz2 a) _
theorem finds2_10 (c : Dev nD) (t : Fin cfg2.N) (Y) (h : (rdat V O W c).Finds 10 t Y) : Y = (V c main_arg10 : Vec F S256x256 .f32) := by
  obtain ⟨d, hd⟩ := Pipeline.RDat.finds_in_eq_fetched (rdat V O W c) 10 rfl (fun _ _ _ => rfl)
    (fun t Y X h => by rw [after2_10] at h; exact h) t Y h
  exact hd.trans (fet2_10 V c t d)
theorem fet2_11 (c : Dev nD) (t : Fin cfg2.N) (d) : fet V c 11 t d = (V c main_arg11 : Vec F S256x256 .f32) := by
  funext j
  show (V c main_arg11 : Vec F S256x256 .f32) (((cfg2.win 11).blk t).view.emb (fun a => ⟨(j a).val, _⟩)) = (V c main_arg11 : Vec F S256x256 .f32) j
  refine congrArg _ (funext fun a => Fin.ext ?_)
  exact (cfg2.win 11).rect_emb_val_of_index_zero t a (zz2 a) _
theorem finds2_11 (c : Dev nD) (t : Fin cfg2.N) (Y) (h : (rdat V O W c).Finds 11 t Y) : Y = (V c main_arg11 : Vec F S256x256 .f32) := by
  obtain ⟨d, hd⟩ := Pipeline.RDat.finds_in_eq_fetched (rdat V O W c) 11 rfl (fun _ _ _ => rfl)
    (fun t Y X h => by rw [after2_11] at h; exact h) t Y h
  exact hd.trans (fet2_11 V c t d)
theorem fet2_12 (c : Dev nD) (t : Fin cfg2.N) (d) : fet V c 12 t d = (V c main_v11 : Vec F S1x256 .f32) := by
  funext j
  show (V c main_v11 : Vec F S1x256 .f32) (((cfg2.win 12).blk t).view.emb (fun a => ⟨(j a).val, _⟩)) = (V c main_v11 : Vec F S1x256 .f32) j
  refine congrArg _ (funext fun a => Fin.ext ?_)
  exact (cfg2.win 12).rect_emb_val_of_index_zero t a (zz2 a) _
theorem finds2_12 (c : Dev nD) (t : Fin cfg2.N) (Y) (h : (rdat V O W c).Finds 12 t Y) : Y = (V c main_v11 : Vec F S1x256 .f32) := by
  obtain ⟨d, hd⟩ := Pipeline.RDat.finds_in_eq_fetched (rdat V O W c) 12 rfl (fun _ _ _ => rfl)
    (fun t Y X h => by rw [after2_12] at h; exact h) t Y h
  exact hd.trans (fet2_12 V c t d)

/-- The two moving inputs are fetched at every point: the buffer holds the block inside the array and
    anything on the overhang. -/
theorem finds2_13 (c : Dev nD) (t : Fin cfg2.N) (Y) (h : (rdat V O W c).Finds 13 t Y) : ∃ d, Y = fet V c 13 t d :=
  ((rdat V O W c).finds_of_fetch (fetch2_13 t) Y).mp h
theorem finds2_14 (c : Dev nD) (t : Fin cfg2.N) (Y) (h : (rdat V O W c).Finds 14 t Y) : ∃ d, Y = fet V c 14 t d :=
  ((rdat V O W c).finds_of_fetch (fetch2_14 t) Y).mp h

/-- The state's buffer is written at the first point and written back only at the last: at a later
    point the body finds the new state there. -/
theorem finds2_16 (c : Dev nD) (t : Fin cfg2.N) (ht : t.val ≠ 0) (Y) (h : (rdat V O W c).Finds 16 t Y) : Y = newHOf c (V c) := by
  have hf : (cfg2.win 16).fetch t = false := rfl
  rcases ((rdat V O W c).finds_of_pos hf ht Y).mp h with hfl | ⟨Y', -, hR⟩
  · have := (flush2_16 ⟨t.val - 1, Nat.lt_of_le_of_lt (Nat.sub_le _ _) t.isLt⟩).mp hfl
    have hN : t.val < 25 := by have := t.isLt; have e : cfg2.N = 25 := N_2; omega
    simp only at this; omega
  · rw [after2_16] at hR; exact hR

end Data

end Cert.Kernel.Hand.Region2

end
-- ==== Proof.Bits.Region2Oblig.lean ====
/-
  The projection kernel's body obligation against the relational proof data.

  At the first point the thirteen whole-array windows hold their arrays, so the state the body
  computes is the one the entry contents name: it goes to the state's buffer, its transpose to the
  scratch, and the logits block is the block product with that transpose. At a later point the
  branch is skipped: the scratch still holds the transpose and the state's buffer the state, and
  the logits block is again the block product with the scratch. In both cases the two moving
  inputs enter as whatever their buffers hold — their blocks inside the arrays, anything on the
  overhang — which is all the logits block's relation records.
-/
import proofs.«217423_g17910013624755_cont_8to1_1683_16_alg».proof.Proof.Bits.Region2Data

set_option maxRecDepth 16384

noncomputable section

namespace Cert.Kernel.Hand.Region2

open Cert.Kernel Cert.Kernel.Gen Cert.Kernel.Hand
open Idealize.ShloMosaic.Pipeline (RDat Cfg Window cellOf)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Oblig

variable (V : (c : Dev nD) → (b : Ref sig .tc) → Buf (Elt F) ((c.tc : Thread nD τ).loc b))
variable (O : CellTallies nD τ sig (HIx 1)) (W : Waits sig (HIx 1))
variable [∀ e, Nonempty (Elt F e)]

theorem Φ_zero (c : Dev nD) (t : Fin (cfg2.N + 1)) (h : t.val = 0) :
    (rdat V O W c).Φ t = iprop(restSix c ∗ ∃ f : Buf (Elt F) ((c.tc : Thread nD τ).loc cc2_scratch0), ((c.tc : Thread nD τ).loc cc2_scratch0) ↦{fullShare} f) := by
  show iprop(restSix c ∗ scrOf V c t) = _
  unfold scrOf; rw [if_pos h]

theorem Φ_pos (c : Dev nD) (t : Fin (cfg2.N + 1)) (h : t.val ≠ 0) :
    (rdat V O W c).Φ t = iprop(restSix c ∗ (((c.tc : Thread nD τ).loc cc2_scratch0) ↦{fullShare} (newHTOf c (V c) : Buf (Elt F) ((c.tc : Thread nD τ).loc cc2_scratch0)))) := by
  show iprop(restSix c ∗ scrOf V c t) = _
  unfold scrOf; rw [if_neg h]

set_option maxHeartbeats 4000000 in
/-- The body at any point, from whatever the windows' buffers may hold there: the whole-array inputs
    hold their arrays, so the first point's new state is the one the entry contents name; at a later
    point the scratch and the state's buffer already hold it and its transpose. -/
theorem sound_body (c : Dev nD) (t : Fin cfg2.N) (Y : (w : Fin cfg2.W) → (cfg2.win w).block.Idx → Elt F (cfg2.win w).elt)
    (hY : ∀ w, (rdat V O W c).Finds w t (Y w)) :
    iprop((rdat V O W c).Φ t.castSucc ∗ (rdat V O W c).owesAt none t.castSucc
        ∗ owns (c.tc : Thread nD τ) (st2_0 t) fullShare (Y 0)
        ∗ owns (c.tc : Thread nD τ) (st2_1 t) fullShare (Y 1)
        ∗ owns (c.tc : Thread nD τ) (st2_2 t) fullShare (Y 2)
        ∗ owns (c.tc : Thread nD τ) (st2_3 t) fullShare (Y 3)
        ∗ owns (c.tc : Thread nD τ) (st2_4 t) fullShare (Y 4)
        ∗ owns (c.tc : Thread nD τ) (st2_5 t) fullShare (Y 5)
        ∗ owns (c.tc : Thread nD τ) (st2_6 t) fullShare (Y 6)
        ∗ owns (c.tc : Thread nD τ) (st2_7 t) fullShare (Y 7)
        ∗ owns (c.tc : Thread nD τ) (st2_8 t) fullShare (Y 8)
        ∗ owns (c.tc : Thread nD τ) (st2_9 t) fullShare (Y 9)
        ∗ owns (c.tc : Thread nD τ) (st2_10 t) fullShare (Y 10)
        ∗ owns (c.tc : Thread nD τ) (st2_11 t) fullShare (Y 11)
        ∗ owns (c.tc : Thread nD τ) (st2_12 t) fullShare (Y 12)
        ∗ owns (c.tc : Thread nD τ) (st2_13 t) fullShare (Y 13)
        ∗ owns (c.tc : Thread nD τ) (st2_14 t) fullShare (Y 14)
        ∗ owns (c.tc : Thread nD τ) (st2_15 t) fullShare (Y 15)
        ∗ owns (c.tc : Thread nD τ) (st2_16 t) fullShare (Y 16))
      ⊢ wp frame (wpE (defs₀ (F := F)) 𝒱₀ (c.tc : Thread nD τ) none) Set.univ (bodyAt2 t) (fun _ =>
          iprop((rdat V O W c).Φ t.succ ∗ (rdat V O W c).owesAt none t.succ
            ∗ (∃ X, ⌜(rdat V O W c).after 0 t (Y 0) X⌝ ∗ owns (c.tc : Thread nD τ) (st2_0 t) fullShare X)
            ∗ (∃ X, ⌜(rdat V O W c).after 1 t (Y 1) X⌝ ∗ owns (c.tc : Thread nD τ) (st2_1 t) fullShare X)
            ∗ (∃ X, ⌜(rdat V O W c).after 2 t (Y 2) X⌝ ∗ owns (c.tc : Thread nD τ) (st2_2 t) fullShare X)
            ∗ (∃ X, ⌜(rdat V O W c).after 3 t (Y 3) X⌝ ∗ owns (c.tc : Thread nD τ) (st2_3 t) fullShare X)
            ∗ (∃ X, ⌜(rdat V O W c).after 4 t (Y 4) X⌝ ∗ owns (c.tc : Thread nD τ) (st2_4 t) fullShare X)
            ∗ (∃ X, ⌜(rdat V O W c).after 5 t (Y 5) X⌝ ∗ owns (c.tc : Thread nD τ) (st2_5 t) fullShare X)
            ∗ (∃ X, ⌜(rdat V O W c).after 6 t (Y 6) X⌝ ∗ owns (c.tc : Thread nD τ) (st2_6 t) fullShare X)
            ∗ (∃ X, ⌜(rdat V O W c).after 7 t (Y 7) X⌝ ∗ owns (c.tc : Thread nD τ) (st2_7 t) fullShare X)
            ∗ (∃ X, ⌜(rdat V O W c).after 8 t (Y 8) X⌝ ∗ owns (c.tc : Thread nD τ) (st2_8 t) fullShare X)
            ∗ (∃ X, ⌜(rdat V O W c).after 9 t (Y 9) X⌝ ∗ owns (c.tc : Thread nD τ) (st2_9 t) fullShare X)
            ∗ (∃ X, ⌜(rdat V O W c).after 10 t (Y 10) X⌝ ∗ owns (c.tc : Thread nD τ) (st2_10 t) fullShare X)
            ∗ (∃ X, ⌜(rdat V O W c).after 11 t (Y 11) X⌝ ∗ owns (c.tc : Thread nD τ) (st2_11 t) fullShare X)
            ∗ (∃ X, ⌜(rdat V O W c).after 12 t (Y 12) X⌝ ∗ owns (c.tc : Thread nD τ) (st2_12 t) fullShare X)
            ∗ (∃ X, ⌜(rdat V O W c).after 13 t (Y 13) X⌝ ∗ owns (c.tc : Thread nD τ) (st2_13 t) fullShare X)
            ∗ (∃ X, ⌜(rdat V O W c).after 14 t (Y 14) X⌝ ∗ owns (c.tc : Thread nD τ) (st2_14 t) fullShare X)
            ∗ (∃ X, ⌜(rdat V O W c).after 15 t (Y 15) X⌝ ∗ owns (c.tc : Thread nD τ) (st2_15 t) fullShare X)
            ∗ (∃ X, ⌜(rdat V O W c).after 16 t (Y 16) X⌝ ∗ owns (c.tc : Thread nD τ) (st2_16 t) fullShare X))) := by
  have h0 := finds2_0 V O W c t _ (hY 0)
  have h1 := finds2_1 V O W c t _ (hY 1)
  have h2 := finds2_2 V O W c t _ (hY 2)
  have h3 := finds2_3 V O W c t _ (hY 3)
  have h4 := finds2_4 V O W c t _ (hY 4)
  have h5 := finds2_5 V O W c t _ (hY 5)
  have h6 := finds2_6 V O W c t _ (hY 6)
  have h7 := finds2_7 V O W c t _ (hY 7)
  have h8 := finds2_8 V O W c t _ (hY 8)
  have h9 := finds2_9 V O W c t _ (hY 9)
  have h10 := finds2_10 V O W c t _ (hY 10)
  have h11 := finds2_11 V O W c t _ (hY 11)
  have h12 := finds2_12 V O W c t _ (hY 12)
  obtain ⟨d13, h13⟩ := finds2_13 V O W c t _ (hY 13)
  obtain ⟨d14, h14⟩ := finds2_14 V O W c t _ (hY 14)
  have eT : stateTOf (Y 0) (Y 1) (Y 2) (Y 3) (Y 4) (Y 5) (Y 6) (Y 7) (Y 8) (Y 9) (Y 10) (Y 11) (Y 12) = newHTOf c (V c) := by rw [h0, h1, h2, h3, h4, h5, h6, h7, h8, h9, h10, h11, h12]; rfl
  have eH : stateOf (Y 0) (Y 1) (Y 2) (Y 3) (Y 4) (Y 5) (Y 6) (Y 7) (Y 8) (Y 9) (Y 10) (Y 11) (Y 12) = newHOf c (V c) := by rw [h0, h1, h2, h3, h4, h5, h6, h7, h8, h9, h10, h11, h12]; rfl
  rw [show (rdat V O W c).owesAt none t.succ = (rdat V O W c).owesAt none t.castSucc from rfl]
  simp only [after2_0, after2_1, after2_2, after2_3, after2_4, after2_5, after2_6, after2_7, after2_8, after2_9, after2_10, after2_11, after2_12, after2_13, after2_14, after2_15, after2_16]
  by_cases ht : t.val = 0
  · have hc : k2_cond1 (grid2.coords t) = 1#1 := (hcond t).mpr ht
    rw [Φ_zero V O W c t.castSucc ht, Φ_pos V O W c t.succ (by rw [Fin.val_succ]; exact Nat.succ_ne_zero _)]
    iintro ⟨⟨Hr, ⟨%fs, Hs⟩⟩, Ho, H0, H1, H2, H3, H4, H5, H6, H7, H8, H9, H10, H11, H12, H13, H14, H15, H16⟩
    iapply (sound_kernelA (c.tc : Thread nD τ).1 Set.univ (grid2.coords t) hc _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [Hs]
    · iexists fs; rw [owns_whole]; iexact Hs
    rw [eT, eH, owns_whole]
    iintro ⟨H0, H1, H2, H3, H4, H5, H6, H7, H8, H9, H10, H11, H12, H13, H14, H15, H16, Hs⟩
    isplitl [Hr Hs]
    · isplitl [Hr]; · iexact Hr
      iexact Hs
    isplitl [Ho]; · iexact Ho
    isplitl [H0]
    · iexists (Y 0); isplitr; · ipureintro; rfl
      iexact H0
    isplitl [H1]
    · iexists (Y 1); isplitr; · ipureintro; rfl
      iexact H1
    isplitl [H2]
    · iexists (Y 2); isplitr; · ipureintro; rfl
      iexact H2
    isplitl [H3]
    · iexists (Y 3); isplitr; · ipureintro; rfl
      iexact H3
    isplitl [H4]
    · iexists (Y 4); isplitr; · ipureintro; rfl
      iexact H4
    isplitl [H5]
    · iexists (Y 5); isplitr; · ipureintro; rfl
      iexact H5
    isplitl [H6]
    · iexists (Y 6); isplitr; · ipureintro; rfl
      iexact H6
    isplitl [H7]
    · iexists (Y 7); isplitr; · ipureintro; rfl
      iexact H7
    isplitl [H8]
    · iexists (Y 8); isplitr; · ipureintro; rfl
      iexact H8
    isplitl [H9]
    · iexists (Y 9); isplitr; · ipureintro; rfl
      iexact H9
    isplitl [H10]
    · iexists (Y 10); isplitr; · ipureintro; rfl
      iexact H10
    isplitl [H11]
    · iexists (Y 11); isplitr; · ipureintro; rfl
      iexact H11
    isplitl [H12]
    · iexists (Y 12); isplitr; · ipureintro; rfl
      iexact H12
    isplitl [H13]
    · iexists (Y 13); isplitr; · ipureintro; rfl
      iexact H13
    isplitl [H14]
    · iexists (Y 14); isplitr; · ipureintro; rfl
      iexact H14
    isplitl [H15]
    · iexists _; isplitr
      swap; · iexact H15
      ipureintro
      exact ⟨Y 13, Y 14, ⟨d13, h13⟩, ⟨d14, h14⟩, rfl⟩
    iexists _; isplitr
    swap; · iexact H16
    ipureintro; rfl
  · have hc : ¬ k2_cond1 (grid2.coords t) = 1#1 := fun h => ht ((hcond t).mp h)
    have h16 := finds2_16 V O W c t ht _ (hY 16)
    rw [Φ_pos V O W c t.castSucc ht, Φ_pos V O W c t.succ (by rw [Fin.val_succ]; exact Nat.succ_ne_zero _)]
    iintro ⟨⟨Hr, Hs⟩, Ho, H0, H1, H2, H3, H4, H5, H6, H7, H8, H9, H10, H11, H12, H13, H14, H15, H16⟩
    iapply (sound_kernelB (c.tc : Thread nD τ).1 Set.univ (grid2.coords t) hc _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 16) (newHTOf c (V c)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [Hs]
    · rw [owns_whole]; iexact Hs
    rw [owns_whole]
    iintro ⟨H0, H1, H2, H3, H4, H5, H6, H7, H8, H9, H10, H11, H12, H13, H14, H15, H16, Hs⟩
    isplitl [Hr Hs]
    · isplitl [Hr]; · iexact Hr
      iexact Hs
    isplitl [Ho]; · iexact Ho
    isplitl [H0]
    · iexists (Y 0); isplitr; · ipureintro; rfl
      iexact H0
    isplitl [H1]
    · iexists (Y 1); isplitr; · ipureintro; rfl
      iexact H1
    isplitl [H2]
    · iexists (Y 2); isplitr; · ipureintro; rfl
      iexact H2
    isplitl [H3]
    · iexists (Y 3); isplitr; · ipureintro; rfl
      iexact H3
    isplitl [H4]
    · iexists (Y 4); isplitr; · ipureintro; rfl
      iexact H4
    isplitl [H5]
    · iexists (Y 5); isplitr; · ipureintro; rfl
      iexact H5
    isplitl [H6]
    · iexists (Y 6); isplitr; · ipureintro; rfl
      iexact H6
    isplitl [H7]
    · iexists (Y 7); isplitr; · ipureintro; rfl
      iexact H7
    isplitl [H8]
    · iexists (Y 8); isplitr; · ipureintro; rfl
      iexact H8
    isplitl [H9]
    · iexists (Y 9); isplitr; · ipureintro; rfl
      iexact H9
    isplitl [H10]
    · iexists (Y 10); isplitr; · ipureintro; rfl
      iexact H10
    isplitl [H11]
    · iexists (Y 11); isplitr; · ipureintro; rfl
      iexact H11
    isplitl [H12]
    · iexists (Y 12); isplitr; · ipureintro; rfl
      iexact H12
    isplitl [H13]
    · iexists (Y 13); isplitr; · ipureintro; rfl
      iexact H13
    isplitl [H14]
    · iexists (Y 14); isplitr; · ipureintro; rfl
      iexact H14
    isplitl [H15]
    · iexists _; isplitr
      swap; · iexact H15
      ipureintro
      exact ⟨Y 13, Y 14, ⟨d13, h13⟩, ⟨d14, h14⟩, rfl⟩
    iexists (Y 16); isplitr; · ipureintro; exact h16
    iexact H16

/-- The body obligation of the relational proof data, at every point. -/
theorem body_obligation (c : Dev nD) : (rdat V O W c).BodyObligation (defs₀ (F := F)) 𝒱₀ (none : HIx 1) Set.univ := fun t Y hY => by
  rw [bigSep_W2, bigSep_W2]
  exact sound_body V O W c t Y hY

end Oblig

end Cert.Kernel.Hand.Region2

end
-- ==== Proof.Bits.Region2Rec.lean ====
/-
  The second TensorCore region as one step of the TensorCore's program, the pure fact about what
  it writes a hypothesis.

  Entered holding every unscoped buffer at given contents and owing given units (none at the index
  the pipeline's own waits use), the region runs its twenty-five points and is left holding every
  unscoped buffer again, the new state's array and the transposed logits' array alone changed, and
  owing what it owed. Its seventeen windows sit on seventeen different arrays, each whole: the
  unscoped buffers split into those arrays and the rest at the entry, and go back together at the
  exit with the two written arrays at what the write-backs left. An input array ends as it began.
  The scoped buffers no window stages — six staging buffers of the other region and this region's
  scratch — enter the invariant at some contents and come back at some contents. The waits of the
  pipeline's own cells are at an index at which the core owes nothing.
-/
import proofs.«217423_g17910013624755_cont_8to1_1683_16_alg».proof.Proof.Bits.Region2Oblig
import Idealize.ShloMosaic.Lib.Pipeline.RegionsLoop

noncomputable section

namespace Cert.Kernel.Hand

open Cert.Kernel Cert.Kernel.Gen

open Idealize.ShloMosaic Idealize.ShloMosaic.TcCoe Idealize.ShloMosaic.Tactic
open Idealize.ShloMosaic.SparseCore (S T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.ValueIdx (ix1 ix2)

variable {F : FTy → Type} [FloatOps F]

local notation "𝕄" => MT nD τ sig (HIx 1) (Elt F) ℕ UU ℕ

set_option pp.deepTerms false
set_option pp.maxSteps 5000

namespace Region2

/-- No pipeline has a prefetched table. -/
abbrev adm : (p : Fin 2) → (pcfgs (F := F) p).Adm := fun p => (cfgs p).toPCfg_adm

section
variable [∀ e, Nonempty (Elt F e)]
variable (V : (c : Dev nD) → (b : Ref sig .tc) → Buf (Elt F) ((c.tc : Thread nD τ).loc b))
variable (O : CellTallies nD τ sig (HIx 1)) (W : Waits sig (HIx 1))

/-- What the two written arrays hold after the region: the state's array the new state; the logits' array, block by
    block of 4096 rows, the block product of some staged blocks that agree with the weights and the bias inside them. -/
def Out2 (c : Dev nD) (V : TcVal F c) (G15 : S100000x1024.Idx → F .f32) (G16 : S1024x256.Idx → F .f32) : Prop :=
  G16 = newHOf c V
  ∧ ∀ t : Fin 25, ∃ (w13 : Vec F S4096x256 .f32) (w14 : Vec F S1x4096 .f32),
      (∀ (r : Fin 4096) (k : Fin 256) (h : 4096 * t.val + r.val < 100000),
          w13 (ix2 r k) = (V main_v7 : S100000x256.Idx → F .f32) (ix2 (⟨4096 * t.val + r.val, h⟩ : Fin 100000) k))
      ∧ (∀ (r : Fin 4096) (h : 4096 * t.val + r.val < 100000),
          w14 (ix2 (0 : Fin 1) r) = (V main_v12 : S1x100000.Idx → F .f32) (ix2 (0 : Fin 1) (⟨4096 * t.val + r.val, h⟩ : Fin 100000)))
      ∧ ∀ (r : Fin 4096) (b : Fin 1024) (h : 4096 * t.val + r.val < 100000),
          G15 (ix2 (⟨4096 * t.val + r.val, h⟩ : Fin 100000) b) = k2_pay3 w13 (newHTOf c V) w14 (ix2 r b)

/-- The other pipeline's data, which this region's step never reads: it says nothing. -/
def rdatOther (c : Dev nD) : RDat τ (Elt F) (HIx 1) ℕ UU ℕ cfg0 c where
  A w := V c (Pipeline.arrRef spec0 w)
  after _ _ _ _ := True
  Φ _ := iprop(emp)
  q _ := fullShare
  owed _ := O

/-- The family of proof data the library's region rule takes: this region's at its index. -/
def rdats : (p : Fin 2) → (c : Dev nD) → RDat τ (Elt F) (HIx 1) ℕ UU ℕ (Pipeline.pin (pcfgs (F := F)) adm p) c
  | ⟨0, _⟩ => fun c => rdatOther V O c
  | ⟨1, _⟩ => fun c => rdat V O W c

/-- Every array of the region is held at the full share. -/
theorem share2 (c : Dev nD) (w : Fin cfg2.W) : (rdat V O W c).share w = fullShare := by
  unfold RDat.share; split <;> rfl

/-- The pipeline's own waits are at an index at which the core owes nothing: they sit below everything it owes. -/
theorem hwaits2 (hO : ∀ g, O g none = 0) (c : Dev nD) :
    (levAts (K (F := F)).L (K (F := F)).lev : sProp 𝕄)
      ⊢ Pipeline.RDat.cellsWaits (Pipeline.pin (pcfgs (F := F)) adm) (rdats V O W) (none : HIx 1) 1 c :=
  Pipeline.RDat.cellsWaits_intro (Pipeline.pin (pcfgs (F := F)) adm) (rdats V O W) (none : HIx 1) 1 c
    fun w s t => (K (F := F)).mayWait_none _ hO

/-- The buffers the region writes are the two outputs' arrays; every other window's array is neither. -/
theorem in_ne : ∀ w : Fin cfg2.W, (cfg2.win w).isOut = false →
    Pipeline.arrRef spec2 w ≠ main_v13_0 ∧ Pipeline.arrRef spec2 w ≠ main_v13_1 := by decide
theorem out_cases : ∀ w : Fin cfg2.W, (cfg2.win w).isOut = true → w = 15 ∨ w = 16 := by decide

/-- The unscoped buffers after the region: those before it but at the two written arrays. -/
def V2 (c : Dev nD) (G15 : Buf (Elt F) ((c.tc : Thread nD τ).loc main_v13_0)) (G16 : Buf (Elt F) ((c.tc : Thread nD τ).loc main_v13_1)) :
    (b : Ref sig .tc) → Buf (Elt F) ((c.tc : Thread nD τ).loc b) :=
  Function.update (Function.update (V c) main_v13_0 G15) main_v13_1 G16

theorem V2_of_ne (c : Dev nD) (G15) (G16) (b : Ref sig .tc) (h0 : b ≠ main_v13_0) (h1 : b ≠ main_v13_1) : V2 V c G15 G16 b = V c b := by
  unfold V2; rw [Function.update_of_ne h1, Function.update_of_ne h0]
theorem V2_15 (c : Dev nD) (G15) (G16) : V2 V c G15 G16 main_v13_0 = G15 := by
  unfold V2; rw [Function.update_of_ne (show main_v13_0 ≠ main_v13_1 by decide), Function.update_self]
theorem V2_16 (c : Dev nD) (G15) (G16) : V2 V c G15 G16 main_v13_1 = G16 := by
  unfold V2; rw [Function.update_self]

/-- An entailment of the logic, as the proof mode reads one. -/
theorem ent2 {A B : sProp 𝕄} (h : Idealize.SL.BI.Entails A B) : A ⊢ B := h

/-- The unscoped buffers that are no array of the region do not see a change of the two written arrays. -/
theorem unscopedRest_V2 (c : Dev nD) (G15) (G16) :
    (Pipeline.unscopedRest (Ix := HIx 1) (Name := ℕ) (U := UU) (Lvl := ℕ) spec2 c (V2 V c G15 G16) : sProp 𝕄)
      = Pipeline.unscopedRest spec2 c (V c) := by
  unfold Pipeline.unscopedRest
  refine bigSep_congr fun b hb => ?_
  have hb' := (Finset.mem_sdiff.mp hb).2
  rw [V2_of_ne V c G15 G16 b
    (fun e => hb' (Finset.mem_image.mpr ⟨15, Finset.mem_univ _, e.symm⟩))
    (fun e => hb' (Finset.mem_image.mpr ⟨16, Finset.mem_univ _, e.symm⟩))]

/-- ENTRY, whole: the unscoped buffers are the windows' arrays at the entry contents and the rest. -/
theorem entry_split2 (c : Dev nD) :
    (unscopedBufs c (V c) : sProp 𝕄)
      ⊢ iprop((rdat V O W c).arrays (rdat V O W c).A
          ∗ Pipeline.unscopedRest (Ix := HIx 1) (Name := ℕ) (U := UU) (Lvl := ℕ) spec2 c (V c)) :=
  Pipeline.RDat.arrays_of_unscopedBufs (p := (1 : Fin 2)) (pcfgs (F := F)) adm (rdats V O W) winFacts2 arr_whole2 c
    (share2 V O W c) (V c) (A_eq2 V O W c)

/-- EXIT, whole: the windows' arrays after the last write-back and the rest are the unscoped buffers again, changed
    at the two written arrays alone, which hold what the pure fact `hpost` says of them. -/
theorem exit_bufs2
    (hpost : ∀ c G15 G16, (rdat V O W c).ArrAt 15 cfg2.N G15 → (rdat V O W c).ArrAt 16 cfg2.N G16 → Out2 c (V c) G15 G16) (c : Dev nD) :
    iprop((rdat V O W c).arraysAt cfg2.N ∗ Pipeline.unscopedRest (Ix := HIx 1) (Name := ℕ) (U := UU) (Lvl := ℕ) spec2 c (V c))
      ⊢ iprop(∃ V', ⌜Post2Spec c (V c) V'⌝ ∗ (unscopedBufs c V' : sProp 𝕄)) := by
  have hne : ∀ w : Fin cfg2.W, Nonempty (Buf (Elt F) ((cfg2.win w).arr.view.loc (c.tc : Thread nD τ))) := fun w => ⟨(rdat V O W c).A w⟩
  unfold RDat.arraysAt
  iintro ⟨Ha, Hrest⟩
  ihave H := (@bigSep_exists_pi _ _ _ _ (fun w : Fin cfg2.W => Buf (Elt F) ((cfg2.win w).arr.view.loc (c.tc : Thread nD τ))) hne Finset.univ
    (fun (w : Fin cfg2.W) (Fw : Buf (Elt F) ((cfg2.win w).arr.view.loc (c.tc : Thread nD τ))) =>
      iprop(⌜(rdat V O W c).ArrAt w cfg2.N Fw⌝
        ∗ (cfg2.win w).arr.view.loc (c.tc : Thread nD τ) ↦[(cfg2.win w).arr.view.set]{(rdat V O W c).share w} Fw))) $$ Ha
  icases H with ⟨%Fs, H⟩
  ihave H' := (bigSep_pure_sep Finset.univ (fun w : Fin cfg2.W => (rdat V O W c).ArrAt w cfg2.N (Fs w))
    (fun w : Fin cfg2.W => ((cfg2.win w).arr.view.loc (c.tc : Thread nD τ) ↦[(cfg2.win w).arr.view.set]{(rdat V O W c).share w} Fs w : sProp 𝕄))) $$ H
  icases H' with ⟨%hFs, H⟩
  have hF : ∀ w : Fin cfg2.W, Fs w = V2 V c (Fs 15) (Fs 16) (Pipeline.arrRef spec2 w) := fun w => by
    cases hio : (cfg2.win w).isOut
    · have e : Fs w = (rdat V O W c).A w := by
        have h := hFs w (Finset.mem_univ w)
        rw [(rdat V O W c).ArrAt_in w hio] at h
        exact h
      rw [V2_of_ne V c _ _ _ (in_ne w hio).1 (in_ne w hio).2, e, A_eq2]
    · rcases out_cases w hio with rfl | rfl
      · exact (V2_15 V c _ _).symm
      · exact (V2_16 V c _ _).symm
  obtain ⟨h16, h15⟩ := hpost c (Fs 15) (Fs 16) (hFs 15 (Finset.mem_univ _)) (hFs 16 (Finset.mem_univ _))
  iexists V2 V c (Fs 15) (Fs 16)
  isplitr
  · ipureintro
    refine ⟨fun b h0 h1 => V2_of_ne V c _ _ b h0 h1, ?_, ?_⟩
    · rw [V2_16]; exact h16
    · rw [V2_15]; exact h15
  rw [Pipeline.unscopedBufs_split (Ix := HIx 1) (Name := ℕ) (U := UU) (Lvl := ℕ) cfgs (1 : Fin 2) winFacts2.arr_unscoped winFacts2.arr_inj c
    (V2 V c (Fs 15) (Fs 16))]
  have harr : (bigSep Finset.univ fun w : Fin cfg2.W =>
        ((cfg2.win w).arr.view.loc (c.tc : Thread nD τ) ↦[(cfg2.win w).arr.view.set]{(rdat V O W c).share w} Fs w : sProp 𝕄))
      = bigSep Finset.univ fun w : Fin cfg2.W =>
          (((c.tc : Thread nD τ).loc (Pipeline.arrRef spec2 w)) ↦{fullShare} V2 V c (Fs 15) (Fs 16) (Pipeline.arrRef spec2 w) : sProp 𝕄) :=
    (Pipeline.RDat.arrays_eq (pcfgs (F := F)) adm (rdats V O W) (1 : Fin 2) c arr_whole2 (share2 V O W c) Fs).trans
      (bigSep_congr fun w _ => by rw [← hF w]; rfl)
  isplitl [H]
  · iapply (Entails.of_eq harr) $$ H
  · iapply (Entails.of_eq (unscopedRest_V2 V c _ _).symm); iexact Hrest

-- the library's lemmas stated over the pinned configuration unify with the printed one only when unification may
-- unfold plain definitions in a metavariable's type
set_option backward.isDefEq.respectTransparency.types false in
/-- The region as the library's record: entered from every unscoped buffer at `V` and the core owing `O` with
    recorded waits `W`; left at every unscoped buffer changed at the two written arrays alone, owing `O` still. -/
def reg2 (hO : ∀ g, O g none = 0)
    (hpost : ∀ c G15 G16, (rdat V O W c).ArrAt 15 cfg2.N G15 → (rdat V O W c).ArrAt 16 cfg2.N G16 → Out2 c (V c) G15 G16) :
    Pipeline.RDat.RegionSeg (pcfgs (F := F)) adm (rdats V O W) (none : HIx 1) defs₀ 𝒱₀ (K (F := F)).L (K (F := F)).lev 1 where
  win := winFacts2.to₀
  block_pos := block_pos2
  stage_whole := stage_whole2
  K := PEmpty
  osem k := k.elim
  ho := Pipeline.OwnSemFacts.none _
  hbody c := body_obligation V O W c
  hwaits c := hwaits2 V O W hO c
  pre c := iprop(unscopedBufs c (V c) ∗ owes (c.tc : Thread nD τ) O W)
  post c := iprop((∃ V', ⌜Post2Spec c (V c) V'⌝ ∗ unscopedBufs c V')
    ∗ (∃ W' : Waits sig (HIx 1), ⌜∀ p ∈ W', p ∈ W ∨ p.2 = none⌝ ∗ owes (c.tc : Thread nD τ) O W'))
  X _ := iprop(emp)
  Y _ := iprop(emp)
  Z c := Pipeline.unscopedRest (Ix := HIx 1) (Name := ℕ) (U := UU) (Lvl := ℕ) spec2 c (V c)
  hentry c := by
    rw [Pipeline.ownSems0_none]
    iintro ⟨⟨Hub, HO⟩, -, -⟩
    ihave H := (entry_split2 V O W c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (Or.inl hp)
      iexact HO
    isplitr; · iempintro
    iexact Hrest
  hin c := by
    rw [show (rdats V O W 1 c).Φ 0 = (rdat V O W c).Φ 0 from rfl, Φ_zero V O W c 0 rfl,
      show Pipeline.scopedRest (Pipeline.pin (pcfgs (F := F)) adm 1).spec c
        = Pipeline.scopedRest (Ix := HIx 1) (Name := ℕ) (U := UU) (Lvl := ℕ) (Val := Elt F) spec2 c from rfl, scopedRest2_eq]
    unfold restSix
    iintro ⟨-, -, H0, H1, H2, H3, H4, H5, Hs⟩
    isplitr [Hs]
    · isplitl [H0]; · iexact H0
      isplitl [H1]; · iexact H1
      isplitl [H2]; · iexact H2
      isplitl [H3]; · iexact H3
      isplitl [H4]; · iexact H4
      iexact H5
    · iexact Hs
  hout c := by
    rw [Pipeline.ownSems0_none, show (rdats V O W 1 c).Φ (Fin.last _) = (rdat V O W c).Φ (Fin.last cfg2.N) from rfl,
      Φ_pos V O W c (Fin.last cfg2.N) (by rw [Fin.val_last, show cfg2.N = 25 from N_2]; decide),
      show Pipeline.scopedRest (Pipeline.pin (pcfgs (F := F)) adm 1).spec c
        = Pipeline.scopedRest (Ix := HIx 1) (Name := ℕ) (U := UU) (Lvl := ℕ) (Val := Elt F) spec2 c from rfl, scopedRest2_eq]
    unfold restSix
    iintro ⟨⟨H0, H1, H2, H3, H4, H5⟩, Hs⟩
    isplitr; · iempintro
    isplitr; · iempintro
    isplitl [H0]; · iexact H0
    isplitl [H1]; · iexact H1
    isplitl [H2]; · iexact H2
    isplitl [H3]; · iexact H3
    isplitl [H4]; · iexact H4
    isplitl [H5]; · iexact H5
    iexists _; iexact Hs
  hexit c := by
    iintro ⟨Ha, HO, -, Hrest⟩
    imodintro
    isplitl [Ha Hrest]
    · iapply (exit_bufs2 V O W hpost c)
      isplitl [Ha]
      · iexact Ha
      · iexact Hrest
    unfold Pipeline.RDat.owesAt Pipeline.owesWithin
    icases HO with ⟨%W', %hW', HO⟩
    iexists W'; isplitr
    · ipureintro
      intro p hp
      rcases hW' (Finset.mem_coe.mpr hp) with h | ⟨w, s, rfl⟩
      · exact h
      · exact Or.inr rfl
    iexact HO

set_option backward.isDefEq.respectTransparency.types false in
/-- The region as one step of the TensorCore's program, under any continuation, the pure fact about the two
    written arrays a hypothesis. -/
theorem region2_wp_of (hO : ∀ g, O g none = 0)
    (hpost : ∀ c G15 G16, (rdat V O W c).ArrAt 15 cfg2.N G15 → (rdat V O W c).ArrAt 16 cfg2.N G16 → Out2 c (V c) G15 G16) (c : Dev nD)
    {α : Type} (k : PUnit → Prog (TpuEff nD τ sig (Elt F) (ΛP (F := F)) .tc) α) (Q : α → sProp 𝕄) :
    iprop((iprop(boundary (c.tc : Thread nD τ) ∗ (∃ V', ⌜Post2Spec c (V c) V'⌝ ∗ unscopedBufs c V')
              ∗ (∃ W' : Waits sig (HIx 1), ⌜∀ p ∈ W', p ∈ W ∨ p.2 = none⌝ ∗ owes (c.tc : Thread nD τ) O W'))
            -∗ wp frame (wpE (D (F := F)) 𝒱 (c.tc : Thread nD τ) none) Set.univ (k ⟨⟩) Q)
        ∗ boundary (c.tc : Thread nD τ) ∗ unscopedBufs c (V c) ∗ owes (c.tc : Thread nD τ) O W
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q := by
  have h := Pipeline.RDat.RegionSeg.wp (pcfgs (F := F)) adm (rdats V O W) (none : HIx 1) cellOf_inj EP defs₀ 𝒱₀
    (K (F := F)).L (K (F := F)).lev (reg2 V O W hO hpost) c none (fun u hu => absurd hu (Option.not_mem_none u)) k Q
  have e1 : (reg2 V O W hO hpost).post c = iprop((∃ V', ⌜Post2Spec c (V c) V'⌝ ∗ unscopedBufs c V')
      ∗ (∃ W' : Waits sig (HIx 1), ⌜∀ p ∈ W', p ∈ W ∨ p.2 = none⌝ ∗ owes (c.tc : Thread nD τ) O W')) := rfl
  have e2 : (reg2 V O W hO hpost).pre c = iprop(unscopedBufs c (V c) ∗ owes (c.tc : Thread nD τ) O W) := rfl
  rw [e1, e2] at h
  refine BIBase.Entails.trans ?_ h
  iintro ⟨Hk, Hb, Hub, HO, Hl, Hg, Ht⟩
  isplitl [Hk]
  · iintro ⟨Hb, HV, HW⟩
    iapply Hk
    isplitl [Hb]; · iexact Hb
    isplitl [HV]; · iexact HV
    iexact HW
  isplitl [Hb]; · iexact Hb
  isplitl [Hub HO]
  · isplitl [Hub]; · iexact Hub
    iexact HO
  isplitl [Hl]; · iexact Hl
  isplitl [Hg]; · iexact Hg
  iexact Ht

end

end Region2

end Cert.Kernel.Hand

end
-- ==== Proof.Bits.Region2Post.lean ====
/-
  What the projection pipeline's write-backs leave in its two output arrays.

  The state's array is written back once, after the last point, from a buffer holding the new state
  since the first point; the block written is the whole array. The logits array is written back at
  every point: point t writes rows 4096·t … of the array from the buffer's leading rows, the last
  point only the 1696 rows inside the array; blocks of different points share no row, so a later
  write-back leaves an earlier block alone, and after all 25 the rows of block t read what the
  body left at point t: the block product of some contents of the two moving inputs' buffers —
  equal to the weight and bias arrays on the rows inside them — with the transposed new state.
-/
import proofs.«217423_g17910013624755_cont_8to1_1683_16_alg».proof.Proof.Bits.Region2Data
import Idealize.ShloMosaic.Lib.ValueIdx

set_option maxRecDepth 16384

noncomputable section

namespace Cert.Kernel.Hand.Region2

open Cert.Kernel Cert.Kernel.Gen Cert.Kernel.Hand
open Idealize.ShloMosaic.Pipeline (RDat Cfg Window cellOf)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Post

variable (V : (c : Dev nD) → (b : Ref sig .tc) → Buf (Elt F) ((c.tc : Thread nD τ).loc b))
variable (O : CellTallies nD τ sig (HIx 1)) (W : Waits sig (HIx 1))
variable [∀ e, Nonempty (Elt F e)]

/-! ## Generic facts about what an array may hold after some write-backs -/

/-- While no point below `n` writes the window back, its array holds its entry contents. -/
theorem arrAt_of_noflush {cfg : Cfg sig Λ₀} {c : Dev nD} (rd : RDat τ (Elt F) (HIx 1) ℕ UU ℕ cfg c) (w : Fin cfg.W) :
    ∀ n, n ≤ cfg.N → (∀ u : Fin cfg.N, u.val < n → (cfg.win w).flush u = false) → rd.ArrAt w n = fun G => G = rd.A w
  | 0, _, _ => rfl
  | n + 1, hn, h => by
    have e := rd.ArrAt_succ w ⟨n, hn⟩
    rw [show n + 1 = (⟨n, hn⟩ : Fin cfg.N).val + 1 from rfl, e, h ⟨n, hn⟩ (Nat.lt_succ_self n), if_neg Bool.false_ne_true]
    exact arrAt_of_noflush rd w n (Nat.le_of_succ_le hn) (fun u hu => h u (Nat.lt_succ_of_lt hu))

/-- When the blocks of different flushing points share no element, block `t` of the array after the
    write-backs below `n` (`t < n`) is the moved part of SOME contents the body may have left at `t`. -/
theorem read_blk_arrAt {cfg : Cfg sig Λ₀} {c : Dev nD} (rd : RDat τ (Elt F) (HIx 1) ℕ UU ℕ cfg c) (w : Fin cfg.W)
    (hdisj : ∀ t t' : Fin cfg.N, (cfg.win w).flush t = true → (cfg.win w).flush t' = true → t ≠ t' →
      Disjoint ((cfg.win w).blk t).view.set ((cfg.win w).blk t').view.set) :
    ∀ (n : Nat), n ≤ cfg.N → ∀ (t : Fin cfg.N), t.val < n → (cfg.win w).flush t = true → ∀ G, rd.ArrAt w n G →
      ∃ X, rd.Leaves w t X ∧ ((cfg.win w).blk t).view.read (Elt F) G = (cfg.win w).cut (cfg.grid.coords t) X
  | 0, _, _, ht, _, _, _ => absurd ht (Nat.not_lt_zero _)
  | n + 1, hn, t, ht, hf, G, hG => by
    have hn' : n < cfg.N := hn
    rw [show n + 1 = (⟨n, hn'⟩ : Fin cfg.N).val + 1 from rfl, rd.ArrAt_succ w ⟨n, hn'⟩] at hG
    by_cases hfn : (cfg.win w).flush ⟨n, hn'⟩ = true
    · rw [if_pos hfn] at hG
      obtain ⟨G₀, X, hG₀, hX, rfl⟩ := hG
      by_cases htn : t.val = n
      · have e : t = ⟨n, hn'⟩ := Fin.ext htn
        subst e
        exact ⟨X, hX, View.read_write_univ _ _⟩
      · obtain ⟨X', hX', hr⟩ := read_blk_arrAt rd w hdisj n (Nat.le_of_succ_le hn) t (by omega) hf G₀ hG₀
        refine ⟨X', hX', Eq.trans ?_ hr⟩
        exact View.read_congr fun i hi => View.write_of_not_mem _ _ _
          (Finset.disjoint_left.mp (hdisj t ⟨n, hn'⟩ hf hfn (fun e => htn (congrArg Fin.val e))) hi)
    · rw [if_neg hfn] at hG
      have htn : t.val ≠ n := fun e => hfn (by have : t = ⟨n, hn'⟩ := Fin.ext e; exact this ▸ hf)
      exact read_blk_arrAt rd w hdisj n (Nat.le_of_succ_le hn) t (by omega) hf G hG

/-! ## The moving windows' block indices and cuts -/

theorem idx13 : ∀ t : Fin cfg2.N, (cfg2.win 13).index t = ![t.val, 0] :=
  (by decide +kernel : ∀ t : Fin grid2.N, win2_13.index t = ![t.val, 0])
theorem idx14 : ∀ t : Fin cfg2.N, (cfg2.win 14).index t = ![0, t.val] :=
  (by decide +kernel : ∀ t : Fin grid2.N, win2_14.index t = ![0, t.val])
theorem idx15 : ∀ t : Fin cfg2.N, (cfg2.win 15).index t = ![t.val, 0] :=
  (by decide +kernel : ∀ t : Fin grid2.N, win2_15.index t = ![t.val, 0])

/-- A block coordinate is among those a cut transfer moves exactly when it lies inside the array. -/
theorem lt_extent_iff {ix k d j : Nat} (hj : j < k) : j < (Pipeline.Clip.of ix k d).extent k ↔ ix * k + j < d := by
  unfold Pipeline.Clip.of
  split
  · next h =>
    rw [Nat.add_mul, Nat.one_mul] at h
    show j < k ↔ _
    constructor
    · intro _; omega
    · intro _; exact hj
  · next h =>
    rw [Nat.add_mul, Nat.one_mul] at h
    show j < d - ix * k ↔ _
    omega

/-- Inside the weight array, a fetched block of window 13 is the array's rows 4096·t …. -/
theorem fet13_inside (c : Dev nD) (t : Fin cfg2.N) (d) (r : Fin 4096) (k : Fin 256) (h : 4096 * t.val + r.val < 100000) :
    (fet V c 13 t d : Vec F S4096x256 .f32) (ix2 r k)
      = (V c main_v7 : S100000x256.Idx → F .f32) (ix2 (⟨4096 * t.val + r.val, h⟩ : Fin 100000) k) := by
  have hm : (cfg2.win 13).moved (cfg2.grid.coords t) (ix2 r k) = true := by
    rw [Pipeline.Window.moved_iff]
    intro a
    match a with
    | ⟨0, _⟩ =>
      show r.val < (Pipeline.Clip.of ((cfg2.win 13).index t 0) 4096 100000).extent 4096
      rw [idx13 t]; exact (lt_extent_iff r.isLt).mpr (by show t.val * 4096 + r.val < 100000; omega)
    | ⟨1, _⟩ =>
      show k.val < (Pipeline.Clip.of ((cfg2.win 13).index t 1) 256 256).extent 256
      rw [idx13 t]; exact (lt_extent_iff k.isLt).mpr (by show 0 * 256 + k.val < 256; omega)
  unfold fet Pipeline.Window.fill
  rw [dif_pos hm]
  show (V c main_v7 : S100000x256.Idx → F .f32) (((cfg2.win 13).blk t).view.emb _) = _
  refine congrArg _ (funext fun a => Fin.ext ?_)
  refine ((cfg2.win 13).rect_emb_val t _ a).trans ?_
  match a with
  | ⟨0, _⟩ => rw [idx13 t]; show t.val * 4096 + r.val = 4096 * t.val + r.val; omega
  | ⟨1, _⟩ => rw [idx13 t]; show 0 * 256 + k.val = k.val; omega

/-- Inside the bias array, a fetched block of window 14 is the array's columns 4096·t …. -/
theorem fet14_inside (c : Dev nD) (t : Fin cfg2.N) (d) (r : Fin 4096) (h : 4096 * t.val + r.val < 100000) :
    (fet V c 14 t d : Vec F S1x4096 .f32) (ix2 (0 : Fin 1) r)
      = (V c main_v12 : S1x100000.Idx → F .f32) (ix2 (0 : Fin 1) (⟨4096 * t.val + r.val, h⟩ : Fin 100000)) := by
  have hm : (cfg2.win 14).moved (cfg2.grid.coords t) (ix2 (0 : Fin 1) r) = true := by
    rw [Pipeline.Window.moved_iff]
    intro a
    match a with
    | ⟨0, _⟩ =>
      show (0 : Fin 1).val < (Pipeline.Clip.of ((cfg2.win 14).index t 0) 1 1).extent 1
      rw [idx14 t]; exact (lt_extent_iff (by decide)).mpr (by show 0 * 1 + (0 : Fin 1).val < 1; decide)
    | ⟨1, _⟩ =>
      show r.val < (Pipeline.Clip.of ((cfg2.win 14).index t 1) 4096 100000).extent 4096
      rw [idx14 t]; exact (lt_extent_iff r.isLt).mpr (by show t.val * 4096 + r.val < 100000; omega)
  unfold fet Pipeline.Window.fill
  rw [dif_pos hm]
  show (V c main_v12 : S1x100000.Idx → F .f32) (((cfg2.win 14).blk t).view.emb _) = _
  refine congrArg _ (funext fun a => Fin.ext ?_)
  refine ((cfg2.win 14).rect_emb_val t _ a).trans ?_
  match a with
  | ⟨0, _⟩ => rw [idx14 t]; show 0 * 1 + (0 : Fin 1).val = (0 : Fin 1).val; omega
  | ⟨1, _⟩ => rw [idx14 t]; show t.val * 4096 + r.val = 4096 * t.val + r.val; omega

/-! ## The state's array -/

theorem noflush16 (u : Fin cfg2.N) (hu : u.val < 24) : (cfg2.win 16).flush u = false :=
  Bool.eq_false_iff.mpr fun h => by have := (flush2_16 u).mp h; omega

/-- The state's block is its whole array: read through the block, an array reads itself. -/
theorem readblk16 (t : Fin cfg2.N) (G : Vec F S1024x256 .f32) : ((cfg2.win 16).blk t).view.read (Elt F) G = G := by
  funext j
  show G (((cfg2.win 16).blk t).view.emb j) = G j
  refine congrArg _ (funext fun a => Fin.ext ?_)
  exact (cfg2.win 16).rect_emb_val_of_index_zero t a (zz2 a) _

/-- After the run the state's array holds the new state. -/
theorem arrAt16 (c : Dev nD) (G : Buf (Elt F) ((cfg2.win 16).arr.view.loc (c.tc : Thread nD τ)))
    (h : (rdat V O W c).ArrAt 16 cfg2.N G) : (G : S1024x256.Idx → F .f32) = newHOf c (V c) := by
  have h24 : 24 < cfg2.N := by have e : cfg2.N = 25 := N_2; omega
  have h' : (rdat V O W c).ArrAt 16 ((⟨24, h24⟩ : Fin cfg2.N).val + 1) G :=
    (congrArg (fun n => (rdat V O W c).ArrAt 16 n G) (N_2 : cfg2.N = 25)).mp h
  rw [(rdat V O W c).ArrAt_succ 16 ⟨24, h24⟩, if_pos ((flush2_16 ⟨24, h24⟩).mpr (show 24 % 25 = 24 from rfl))] at h'
  obtain ⟨G₀, X, -, ⟨Y, -, hR⟩, rfl⟩ := h'
  rw [after2_16] at hR
  refine ((readblk16 ⟨24, h24⟩ _).symm.trans (View.read_write_univ _ _)).trans ?_
  exact hR

/-! ## The logits array -/

theorem idx15_inj : ∀ t t' : Fin cfg2.N, (cfg2.win 15).index t = (cfg2.win 15).index t' → t = t' :=
  (by decide +kernel : ∀ t t' : Fin grid2.N, win2_15.index t = win2_15.index t' → t = t')

theorem disjoint15 : ∀ t t' : Fin cfg2.N, (cfg2.win 15).flush t = true → (cfg2.win 15).flush t' = true → t ≠ t' →
    Disjoint ((cfg2.win 15).blk t).view.set ((cfg2.win 15).blk t').view.set :=
  fun t t' _ _ hne => (cfg2.win 15).disjoint_blk fun h => hne (idx15_inj t t' h)

/-- Row `r`, column `b` of point `t`'s block, as an index of the part the write-back moves. -/
def y15 (t : Fin cfg2.N) (r : Fin 4096) (b : Fin 1024) (h : 4096 * t.val + r.val < 100000) :
    ((cfg2.win 15).xblock (cfg2.grid.coords t)).Idx :=
  fun a => match a with
    | ⟨0, _⟩ => ⟨r.val, by
        show r.val < (Pipeline.Clip.of ((cfg2.win 15).index t 0) 4096 100000).extent 4096
        rw [idx15 t]; exact (lt_extent_iff r.isLt).mpr (by show t.val * 4096 + r.val < 100000; omega)⟩
    | ⟨1, _⟩ => ⟨b.val, by
        show b.val < (Pipeline.Clip.of ((cfg2.win 15).index t 1) 1024 1024).extent 1024
        rw [idx15 t]; exact (lt_extent_iff b.isLt).mpr (by show 0 * 1024 + b.val < 1024; omega)⟩

theorem emb_y15 (t : Fin cfg2.N) (r : Fin 4096) (b : Fin 1024) (h : 4096 * t.val + r.val < 100000) :
    ((cfg2.win 15).blk t).view.emb (y15 t r b h) = (ix2 (⟨4096 * t.val + r.val, h⟩ : Fin 100000) b : S100000x1024.Idx) :=
  funext fun a => Fin.ext (((cfg2.win 15).rect_emb_val t _ a).trans (by
    match a with
    | ⟨0, _⟩ => rw [idx15 t]; show t.val * 4096 + r.val = 4096 * t.val + r.val; omega
    | ⟨1, _⟩ => rw [idx15 t]; show 0 * 1024 + b.val = b.val; omega))

theorem xinj_y15 (t : Fin cfg2.N) (r : Fin 4096) (b : Fin 1024) (h : 4096 * t.val + r.val < 100000) :
    (cfg2.win 15).xinj (cfg2.grid.coords t) (y15 t r b h) = (ix2 r b : S4096x1024.Idx) :=
  funext fun a => Fin.ext (by match a with | ⟨0, _⟩ => rfl | ⟨1, _⟩ => rfl)

/-- After the run, the rows of block `t` of the logits array read the block product of some
    contents of the two moving inputs' buffers at point `t` — the weight and bias arrays on the rows
    inside them — with the transposed new state. -/
theorem arrAt15 (c : Dev nD) (G : Buf (Elt F) ((cfg2.win 15).arr.view.loc (c.tc : Thread nD τ)))
    (h : (rdat V O W c).ArrAt 15 cfg2.N G) :
    ∀ t : Fin 25, ∃ (w13 : Vec F S4096x256 .f32) (w14 : Vec F S1x4096 .f32),
      (∀ (r : Fin 4096) (k : Fin 256) (h : 4096 * t.val + r.val < 100000),
          w13 (ix2 r k) = (V c main_v7 : S100000x256.Idx → F .f32) (ix2 (⟨4096 * t.val + r.val, h⟩ : Fin 100000) k))
      ∧ (∀ (r : Fin 4096) (h : 4096 * t.val + r.val < 100000),
          w14 (ix2 (0 : Fin 1) r) = (V c main_v12 : S1x100000.Idx → F .f32) (ix2 (0 : Fin 1) (⟨4096 * t.val + r.val, h⟩ : Fin 100000)))
      ∧ ∀ (r : Fin 4096) (b : Fin 1024) (h : 4096 * t.val + r.val < 100000),
          (G : S100000x1024.Idx → F .f32) (ix2 (⟨4096 * t.val + r.val, h⟩ : Fin 100000) b) = k2_pay3 w13 (newHTOf c (V c)) w14 (ix2 r b) := by
  intro t
  have ht : t.val < cfg2.N := by have e : cfg2.N = 25 := N_2; have := t.isLt; omega
  obtain ⟨X, ⟨Y, -, hR⟩, hr⟩ := read_blk_arrAt (rdat V O W c) 15 disjoint15 cfg2.N le_rfl ⟨t.val, ht⟩ ht (flush2_15 _) G h
  rw [after2_15] at hR
  obtain ⟨w13, w14, ⟨d13, e13⟩, ⟨d14, e14⟩, rfl⟩ := hR
  refine ⟨w13, w14, fun r k hh => ?_, fun r hh => ?_, fun r b hh => ?_⟩
  · rw [e13]; exact fet13_inside V c ⟨t.val, ht⟩ d13 r k hh
  · rw [e14]; exact fet14_inside V c ⟨t.val, ht⟩ d14 r hh
  · have e := congrFun hr (y15 ⟨t.val, ht⟩ r b hh)
    rw [← emb_y15 ⟨t.val, ht⟩ r b hh, ← xinj_y15 ⟨t.val, ht⟩ r b hh]
    exact e

end Post

end Cert.Kernel.Hand.Region2

end
-- ==== Proof.Bits.Region2.lean ====
/-
  The second TensorCore region as one step of the TensorCore's program.

  The step is the region's rule at its record, with the pure fact about the two written arrays
  supplied: after the twenty-five write-backs the state's array is the new state and every block of
  the logits' array inside the array is the block product the body computes. There is one device,
  so buffer contents given for it are contents for every device.
-/
import proofs.«217423_g17910013624755_cont_8to1_1683_16_alg».proof.Proof.Bits.Region2Rec
import proofs.«217423_g17910013624755_cont_8to1_1683_16_alg».proof.Proof.Bits.Region2Post

noncomputable section

namespace Cert.Kernel.Hand

open Cert.Kernel Cert.Kernel.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (HIx 1) (Elt F) ℕ UU ℕ

namespace Region2

/-- Contents of the one device's unscoped buffers, as contents for every device. -/
def famOf (d : Dev nD) (V : (b : Ref sig .tc) → Buf (Elt F) ((d.tc : Thread nD τ).loc b)) :
    (c : Dev nD) → (b : Ref sig .tc) → Buf (Elt F) ((c.tc : Thread nD τ).loc b) :=
  fun c => (Subsingleton.elim d c) ▸ V

theorem famOf_self (d : Dev nD) (V : (b : Ref sig .tc) → Buf (Elt F) ((d.tc : Thread nD τ).loc b)) : famOf d V d = V := rfl

end Region2

open Region2 in
/-- From the boundary, every unscoped buffer at `V`, the core owing `O` (nothing at the pipeline's own index) with
    recorded waits `W`, the level facts and the pipeline's cells' ghost state, the region's call runs to the
    continuation entered with the boundary, every unscoped buffer at contents that differ at the two written arrays
    alone and there hold what the region computes, and the core owing `O` still. -/
theorem region2_wp [∀ e, Nonempty (Elt F e)] (d : Dev nD) (V : (b : Ref sig .tc) → Buf (Elt F) ((d.tc : Thread nD τ).loc b))
    (O : CellTallies nD τ sig (HIx 1)) (hO : ∀ g, O g none = 0) (W : Waits sig (HIx 1))
    {α : Type} (k : PUnit → Prog (TpuEff nD τ sig (Elt F) (ΛP (F := F)) .tc) α) (Q : α → sProp 𝕄) :
    iprop((iprop(boundary (d.tc : Thread nD τ) ∗ (∃ V', ⌜Post2Spec d V V'⌝ ∗ unscopedBufs d V')
              ∗ (∃ W', ⌜∀ p ∈ W', p ∈ W ∨ p.2 = none⌝ ∗ owes (d.tc : Thread nD τ) O W'))
            -∗ wp frame (wpE (D (F := F)) 𝒱 (d.tc : Thread nD τ) none) Set.univ (k ⟨⟩) Q)
        ∗ boundary (d.tc : Thread nD τ) ∗ unscopedBufs d V ∗ owes (d.tc : Thread nD τ) O W ∗ levAts (K (F := F)).L (K (F := F)).lev
        ∗ Pipeline.cellsGhost (Pipeline.pin (pcfgs (F := F)) (fun p => (cfgs p).toPCfg_adm)) EP 1 d
        ∗ Pipeline.toksInit (Pipeline.pin (pcfgs (F := F)) (fun p => (cfgs p).toPCfg_adm)) EP 1 d)
      ⊢ wp frame (wpE (D (F := F)) 𝒱 (d.tc : Thread nD τ) none) Set.univ (.op (.customCall (Pipeline.entry 1) ()) k) Q := by
  have h := region2_wp_of (famOf d V) O W hO
    (fun c G15 G16 h15 h16 => ⟨arrAt16 (famOf d V) O W c G16 h16, arrAt15 (famOf d V) O W c G15 h15⟩) d k Q
  rw [famOf_self] at h
  exact h

end Cert.Kernel.Hand

end
-- ==== Proof.Bits.KernelFacts.lean ====
/-
  Two facts about what the first TensorCore region is entered with and leaves, at any float
  instance: the ids are still the launched ones (nothing before the SparseCore call writes them),
  and the halves table holds the embedding rows — the host transposed the embedding table, and the
  region transposes it back half by half, so entry (r, j) of the left half is entry (r, j) of the
  embedding table and entry (r, j) of the right half is its entry (r + 50176, j).
-/
import proofs.«217423_g17910013624755_cont_8to1_1683_16_alg».proof.Proof.Bits.Main
import proofs.«217423_g17910013624755_cont_8to1_1683_16_alg».proof.Proof.Bits.PostSpec
import Idealize.ShloMosaic.Lib.ValueLayout

noncomputable section

namespace Cert.Kernel.Hand

open Cert.Kernel Cert.Kernel.Gen
open Idealize.ShloMosaic Idealize.ShloMosaic.ValueIdx Idealize.SL.Sem

variable {F : FTy → Type} [FloatOps F]
variable (m : (ℓ : Loc nD τ sig) → Buf (Elt F) ℓ)

/-- The first region is entered with the ids as launched, and leaves them. -/
theorem x_kept (d : Dev nD) (V1 : TcVal F d) (h : Post0Spec d (rd d (WA m d)) V1) : V1 main_arg0 = m (xLoc d) := by
  rw [h.1 main_arg0 (by decide)]
  show (opA (F := F)).result (V0 m d) (Proc.devRef .tc main_arg0) = _
  rw [StableHlo.unary_result_ne _ _ _ _ _ _ (by decide)]; rfl

/-- The transposed table the first region reads is the host's transpose of the embedding table. -/
theorem WA_v0 (d : Dev nD) (j : Fin 64) (r : Fin 100000) :
    ((WA m d (Proc.devRef .tc main_v0)) : S64x100000.Idx → F .f32) (ix2 j r) = (m (embLoc d) : S100000x64.Idx → F .f32) (ix2 r j) := by
  show ((opA (F := F)).result (V0 m d) (Proc.devRef .tc main_v0) : S64x100000.Idx → F .f32) (ix2 j r) = _
  rw [StableHlo.unary_result]
  exact transpose_ix2_apply _ _ j r

/-- The halves table the first region leaves holds the embedding rows. -/
theorem tab_good (d : Dev nD) (V1 : TcVal F d) (h : Post0Spec d (rd d (WA m d)) V1) : Cert.Good.TabGood (m (embLoc d)) (V1 main_v1) := by
  intro r j
  obtain ⟨hl, hr⟩ := h.2 r j
  refine ⟨hl.trans (WA_v0 m d j _), fun hh => (hr hh).trans (WA_v0 m d j _)⟩

end Cert.Kernel.Hand

end
-- ==== Proof.lean ====
/-
  The five conjuncts of the claim.

  Both kernel programs — the word-level one and its idealization — are one text read at two float
  instances: @main on the TensorCore runs a host transpose, a first TensorCore region that lays the
  embedding table out as a table of two halves, a SparseCore call whose thirty-two tiles each gather
  thirty-two rows of that table at remapped token ids, eleven host operations, a second TensorCore
  region that computes one GRU step and the transposed logits block by block, and a last transpose.
  Every weakly fair execution of all the device's threads terminates without a fault, and the final
  memory holds the unscoped buffers at a valuation produced by that chain of steps; the argument
  arrays are written by none of them. At the ideal instance the chain's two results are the
  specification (Spec.lean): the row a tile gathers is the embedding row of its token, in the half
  the token's id selects, and the region selects that half; the gates, the candidate and the new
  state are the specification's by definition of the operations on the extended reals; the logits
  are the same finite sum with its factors commuted. The reference's run, written out operation by
  operation, ends at the same specification.
-/
import proofs.«217423_g17910013624755_cont_8to1_1683_16_alg».proof.Defs
import proofs.«217423_g17910013624755_cont_8to1_1683_16_alg».proof.Proof.Gen.Kernel
import proofs.«217423_g17910013624755_cont_8to1_1683_16_alg».proof.Proof.Gen.KernelIdeal
import proofs.«217423_g17910013624755_cont_8to1_1683_16_alg».proof.Proof.Gen.ReferenceIdeal
import proofs.«217423_g17910013624755_cont_8to1_1683_16_alg».proof.Proof.Gen.Pre_input_domain
import proofs.«217423_g17910013624755_cont_8to1_1683_16_alg».proof.Proof.IdxRange
import proofs.«217423_g17910013624755_cont_8to1_1683_16_alg».proof.Proof.RefValue
import proofs.«217423_g17910013624755_cont_8to1_1683_16_alg».proof.Proof.Final
import proofs.«217423_g17910013624755_cont_8to1_1683_16_alg».proof.Proof.ScTile
import proofs.«217423_g17910013624755_cont_8to1_1683_16_alg».proof.Proof.Region0Wp
import proofs.«217423_g17910013624755_cont_8to1_1683_16_alg».proof.Proof.Region2
import proofs.«217423_g17910013624755_cont_8to1_1683_16_alg».proof.Proof.KernelFacts
import proofs.«217423_g17910013624755_cont_8to1_1683_16_alg».proof.Proof.KernelValue
import proofs.«217423_g17910013624755_cont_8to1_1683_16_alg».proof.Proof.Bits.Final
import proofs.«217423_g17910013624755_cont_8to1_1683_16_alg».proof.Proof.Bits.ScTile
import proofs.«217423_g17910013624755_cont_8to1_1683_16_alg».proof.Proof.Bits.Region0Wp
import proofs.«217423_g17910013624755_cont_8to1_1683_16_alg».proof.Proof.Bits.Region2
import proofs.«217423_g17910013624755_cont_8to1_1683_16_alg».proof.Proof.Bits.KernelFacts

noncomputable section

namespace Cert.Proof

open Idealize.ShloMosaic Idealize.SL.Sem

/-- The ids lie in the table's range: the precondition's last conjunct. -/
theorem ids_kernel (m : (ℓ : Loc Cert.Kernel.nD Cert.Kernel.τ Cert.Kernel.sig) → Buf (Elt Bits) ℓ) (h : Cert.Pre_Kernel (hPre_input_domain := Cert.Pre_input_domain.Gen.facts) m) (c : Dev Cert.Kernel.nD) (b : Fin 1024) :
    (m ((c.tc : Thread Cert.Kernel.nD Cert.Kernel.τ).loc Cert.Kernel.main_arg0) (ValueIdx.ix1 b)).toNat < 100000 :=
  Cert.IdxRange.of_pre (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (h c) b

theorem ids_ideal (m : (ℓ : Loc Cert.KernelIdeal.nD Cert.KernelIdeal.τ Cert.KernelIdeal.sig) → Buf (Elt Ideal) ℓ) (h : Cert.Pre_KernelIdeal (hPre_input_domain := Cert.Pre_input_domain.Gen.facts) m) (c : Dev Cert.KernelIdeal.nD) (b : Fin 1024) :
    (m ((c.tc : Thread Cert.KernelIdeal.nD Cert.KernelIdeal.τ).loc Cert.KernelIdeal.main_arg0) (ValueIdx.ix1 b)).toNat < 100000 :=
  Cert.IdxRange.of_pre (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (h c) b

/-- The word-level kernel's run: the chain of @main's steps, at the word-level instance. -/
theorem run_kernel (m : (ℓ : Loc Cert.Kernel.nD Cert.Kernel.τ Cert.Kernel.sig) → Buf (Elt Bits) ℓ) (g : Dev Cert.Kernel.nD → PrngReg) (h : Cert.Pre_Kernel (hPre_input_domain := Cert.Pre_input_domain.Gen.facts) m) :
    θ_run (Cert.Kernel.defs (F := Bits)) (Cert.Kernel.threads (F := Bits)) ⟨m, fun _ => 0, g⟩ (Cert.Kernel.Hand.QC m Cert.Kernel.Hand.Post0Spec Cert.Kernel.Hand.Post2Spec) :=
  Cert.Kernel.Hand.run_main (F := Bits) m g Cert.Kernel.Hand.Post0Spec Cert.Kernel.Hand.Post2Spec Cert.Kernel.Hand.region0_wp Cert.Kernel.Hand.region2_wp
    (Cert.Kernel.Hand.x_kept m) (Cert.Kernel.Hand.tab_good m) (Cert.Kernel.Hand.tileObl m (ids_kernel m h))

/-- The idealized kernel's run. -/
theorem run_ideal (m : (ℓ : Loc Cert.KernelIdeal.nD Cert.KernelIdeal.τ Cert.KernelIdeal.sig) → Buf (Elt Ideal) ℓ) (g : Dev Cert.KernelIdeal.nD → PrngReg) (h : Cert.Pre_KernelIdeal (hPre_input_domain := Cert.Pre_input_domain.Gen.facts) m) :
    θ_run (Cert.KernelIdeal.defs (F := Ideal)) (Cert.KernelIdeal.threads (F := Ideal)) ⟨m, fun _ => 0, g⟩ (Cert.KernelIdeal.Hand.QC m Cert.KernelIdeal.Hand.Post0Spec Cert.KernelIdeal.Hand.Post2Spec) :=
  Cert.KernelIdeal.Hand.run_main (F := Ideal) m g Cert.KernelIdeal.Hand.Post0Spec Cert.KernelIdeal.Hand.Post2Spec Cert.KernelIdeal.Hand.region0_wp Cert.KernelIdeal.Hand.region2_wp
    (Cert.KernelIdeal.Hand.x_kept m) (Cert.KernelIdeal.Hand.tab_good m) (Cert.KernelIdeal.Hand.tileObl m (ids_ideal m h))

theorem frame_k : Cert.frame_Kernel (hKernel := Cert.Kernel.Gen.facts) (hPre_input_domain := Cert.Pre_input_domain.Gen.facts) := fun m g hpre =>
  (θ_run (Cert.Kernel.defs (F := Bits)) _ _).mono (fun r h c => by
    open Cert.Kernel.Hand in
    exact ⟨arg_kept m Cert.Kernel.Hand.Post0Spec Cert.Kernel.Hand.Post2Spec (fun _ _ _ h => h.1) (fun _ _ _ h => h.1) r h c Cert.Kernel.main_arg0 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg1 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg2 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg3 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg4 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg5 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg6 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg7 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg8 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg9 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg10 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg11 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg12 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg13 (by decide) (by decide) (by decide) (by decide) (by decide) (by decide) (by decide) (by decide),
      arg_kept m Cert.Kernel.Hand.Post0Spec Cert.Kernel.Hand.Post2Spec (fun _ _ _ h => h.1) (fun _ _ _ h => h.1) r h c Cert.Kernel.main_arg14 (by decide) (by decide) (by decide) (by decide) (by decide) (by decide) (by decide) (by decide)⟩) (run_kernel m g hpre)

theorem frame_ki : Cert.frame_KernelIdeal (hKernelIdeal := Cert.KernelIdeal.Gen.facts) (hPre_input_domain := Cert.Pre_input_domain.Gen.facts) := fun m g hpre =>
  (θ_run (Cert.KernelIdeal.defs (F := Ideal)) _ _).mono (fun r h c => by
    open Cert.KernelIdeal.Hand in
    exact ⟨arg_kept m Cert.KernelIdeal.Hand.Post0Spec Cert.KernelIdeal.Hand.Post2Spec (fun _ _ _ h => h.1) (fun _ _ _ h => h.1) r h c Cert.KernelIdeal.main_arg0 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg1 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg2 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg3 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg4 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg5 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg6 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg7 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg8 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg9 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg10 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg11 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg12 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg13 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg14 (by decide) (by decide) (by decide) (by decide) (by decide) (by decide) (by decide) (by decide)⟩) (run_ideal m g hpre)

theorem ids_ref (m : (ℓ : Loc Cert.ReferenceIdeal.nD Cert.ReferenceIdeal.τ Cert.ReferenceIdeal.sig) → Buf (Elt Ideal) ℓ) (h : Cert.Pre_ReferenceIdeal (hPre_input_domain := Cert.Pre_input_domain.Gen.facts) m) (c : Dev Cert.ReferenceIdeal.nD) (b : Fin 1024) :
    (m ((c.tc : Thread Cert.ReferenceIdeal.nD Cert.ReferenceIdeal.τ).loc Cert.ReferenceIdeal.main_arg0) (ValueIdx.ix1 b)).toNat < 100000 :=
  Cert.IdxRange.of_pre (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (h c) b

theorem frame_ri : Cert.frame_ReferenceIdeal (hReferenceIdeal := Cert.ReferenceIdeal.Gen.facts) (hPre_input_domain := Cert.Pre_input_domain.Gen.facts) := fun m g hpre =>
  (θ_run (Cert.ReferenceIdeal.defs (F := Ideal)) _ _).mono (fun _ h c => (h c).2.2) (Cert.ReferenceIdeal.RefValue.run_spec m g (ids_ref m hpre))

/-- At the ideal instance both programs end at the specification. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := fun m g m' g' hpre hagree => by
  refine ⟨fun c => Cert.Spec.logitsArr (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Spec.newHArr (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run (Cert.KernelIdeal.defs (F := Ideal)) _ _).mono (fun r h c => ?_) (run_ideal m g hpre)
    obtain ⟨Wf, hc, hmem⟩ := h c
    have hv := Cert.KernelIdeal.IdealValue.chain_values m c (ids_ideal m hpre c) Wf hc
    open Cert.KernelIdeal.Hand in
    exact ⟨(hmem _ (mem_uc Cert.KernelIdeal.main_v14 (by decide))).trans hv.1, (hmem _ (mem_uc Cert.KernelIdeal.main_v13_1 (by decide))).trans hv.2,
      arg_kept m Cert.KernelIdeal.Hand.Post0Spec Cert.KernelIdeal.Hand.Post2Spec (fun _ _ _ h => h.1) (fun _ _ _ h => h.1) r h c Cert.KernelIdeal.main_arg0 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg1 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg2 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg3 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg4 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg5 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg6 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg7 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg8 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg9 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg10 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg11 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg12 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg13 (by decide) (by decide) (by decide) (by decide) (by decide) (by decide) (by decide) (by decide),
      arg_kept m Cert.KernelIdeal.Hand.Post0Spec Cert.KernelIdeal.Hand.Post2Spec (fun _ _ _ h => h.1) (fun _ _ _ h => h.1) r h c Cert.KernelIdeal.main_arg14 (by decide) (by decide) (by decide) (by decide) (by decide) (by decide) (by decide) (by decide)⟩
  · have hx' : ∀ (c : Dev Cert.ReferenceIdeal.nD) (b : Fin 1024), (m' ((c.tc : Thread Cert.ReferenceIdeal.nD Cert.ReferenceIdeal.τ).loc Cert.ReferenceIdeal.main_arg0) (ValueIdx.ix1 b)).toNat < 100000 := fun c b => by
      rw [(hagree c).1]; exact ids_ideal m hpre c b
    refine (θ_run (Cert.ReferenceIdeal.defs (F := Ideal)) _ _).mono (fun r h c => ?_) (Cert.ReferenceIdeal.RefValue.run_spec m' g' hx')
    obtain ⟨h1, h2, hargs⟩ := h c
    obtain ⟨e0, e1, e2, e3, e4, e5, e6, e7, e8, e9, e10, e11, e12, e13, e14⟩ := hagree c
    refine ⟨?_, ?_, hargs⟩
    · rw [h1, e0, e1, e2, e3, e4, e5, e6, e7, e8, e9, e10, e11, e12, e13, e14]
    · rw [h2, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
